-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S512x256 .f32) (main_arg1 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Pre_finite_inputs_ReferenceIdeal.lean ====
abbrev S512x4096 : Shape := ⟨2, ![512, 4096]⟩
abbrev S4096x512 : Shape := ⟨2, ![4096, 512]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S512x4096 .f32) (main_arg1 : FVec F S4096x512 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S512x256 : Shape := ⟨2, ![512, 256]⟩
abbrev S256x512 : Shape := ⟨2, ![256, 512]⟩
abbrev S512x512 : Shape := ⟨2, ![512, 512]⟩
abbrev S2x16x16x512 : Shape := ⟨4, ![2, 16, 16, 512]⟩
abbrev S2x16x512 : Shape := ⟨3, ![2, 16, 512]⟩
abbrev S2x16 : Shape := ⟨2, ![2, 16]⟩
abbrev S_ : Shape := ⟨0, ![]⟩
abbrev S1x1 : Shape := ⟨2, ![1, 1]⟩
abbrev S1x1x16x512 : Shape := ⟨4, ![1, 1, 16, 512]⟩
abbrev S16x512 : Shape := ⟨2, ![16, 512]⟩
abbrev S1x16x512 : Shape := ⟨3, ![1, 16, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .bf16⟩
  | .local _ .vmem, ⟨0, _⟩ => ⟨S512x256, .f32⟩
  | .local _ .vmem, ⟨1, _⟩ => ⟨S256x512, .f32⟩
  | .local _ .vmem, ⟨2, _⟩ => ⟨S512x512, .bf16⟩
  | .local _ .vmem, ⟨3, _⟩ => ⟨S512x512, .bf16⟩
  | .local _ .vmem, ⟨4, _⟩ => ⟨S2x16x16x512, .bf16⟩
  | .local _ .vmem, ⟨5, _⟩ => ⟨S2x16x512, .bf16⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  { ofTc nBuf bufTy 1 131 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_66 : BitVec 32) (c0_i32_68 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v75 : BitVec 32 := Scalar.addi v2 c1_i32_66
  let c16_i32_67 : BitVec 32 := 16#32
  let v76 : BitVec 32 := Scalar.remsi v75 c16_i32_67
  let c32_i32 : BitVec 32 := 32#32
  let v77 : BitVec 32 := Scalar.muli v76 c32_i32
  let v78 : BitVec 32 := Scalar.addi v77 c0_i32_68
  let c0_i32_79 : BitVec 32 := 0#32
  ![v78.toNat, 0]
def k0_dev16 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v75 : BitVec 32 := Scalar.addi v2 c1_i32_66
  let c16_i32_67 : BitVec 32 := 16#32
  let v76 : BitVec 32 := Scalar.remsi v75 c16_i32_67
  let c1_i32_75 : BitVec 32 := 1#32
  let v79 : BitVec 32 := Scalar.muli v76 c1_i32_75
  let v80 : BitVec 32 := Scalar.addi c0_i32_76 v79
  v80.toNat
def k0_dev17 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v88 : BitVec 32 := Scalar.addi v2 c2_i32_80
  let c16_i32_81 : BitVec 32 := 16#32
  let v89 : BitVec 32 := Scalar.remsi v88 c16_i32_81
  let c1_i32_90 : BitVec 32 := 1#32
  let v92 : BitVec 32 := Scalar.muli v89 c1_i32_90
  let v93 : BitVec 32 := Scalar.addi c0_i32_91 v92
  v93.toNat
def k0_dev18 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_95 : BitVec 32 := 3#32
  let v101 : BitVec 32 := Scalar.addi v2 c3_i32_95
  let c16_i32_96 : BitVec 32 := 16#32
  let v102 : BitVec 32 := Scalar.remsi v101 c16_i32_96
  let c1_i32_105 : BitVec 32 := 1#32
  let v105 : BitVec 32 := Scalar.muli v102 c1_i32_105
  let v106 : BitVec 32 := Scalar.addi c0_i32_106 v105
  v106.toNat
def k0_dev19 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_110 : BitVec 32 := 4#32
  let v114 : BitVec 32 := Scalar.addi v2 c4_i32_110
  let c16_i32_111 : BitVec 32 := 16#32
  let v115 : BitVec 32 := Scalar.remsi v114 c16_i32_111
  let c1_i32_120 : BitVec 32 := 1#32
  let v118 : BitVec 32 := Scalar.muli v115 c1_i32_120
  let v119 : BitVec 32 := Scalar.addi c0_i32_121 v118
  v119.toNat
def k0_dev20 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_125 : BitVec 32 := 5#32
  let v127 : BitVec 32 := Scalar.addi v2 c5_i32_125
  let c16_i32_126 : BitVec 32 := 16#32
  let v128 : BitVec 32 := Scalar.remsi v127 c16_i32_126
  let c1_i32_135 : BitVec 32 := 1#32
  let v131 : BitVec 32 := Scalar.muli v128 c1_i32_135
  let v132 : BitVec 32 := Scalar.addi c0_i32_136 v131
  v132.toNat
def k0_dev21 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_140 : BitVec 32 := 6#32
  let v140 : BitVec 32 := Scalar.addi v2 c6_i32_140
  let c16_i32_141 : BitVec 32 := 16#32
  let v141 : BitVec 32 := Scalar.remsi v140 c16_i32_141
  let c1_i32_150 : BitVec 32 := 1#32
  let v144 : BitVec 32 := Scalar.muli v141 c1_i32_150
  let v145 : BitVec 32 := Scalar.addi c0_i32_151 v144
  v145.toNat
def k0_dev22 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_155 : BitVec 32 := 7#32
  let v153 : BitVec 32 := Scalar.addi v2 c7_i32_155
  let c16_i32_156 : BitVec 32 := 16#32
  let v154 : BitVec 32 := Scalar.remsi v153 c16_i32_156
  let c1_i32_165 : BitVec 32 := 1#32
  let v157 : BitVec 32 := Scalar.muli v154 c1_i32_165
  let v158 : BitVec 32 := Scalar.addi c0_i32_166 v157
  v158.toNat
def k0_dev23 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_170 : BitVec 32 := 8#32
  let v166 : BitVec 32 := Scalar.addi v2 c8_i32_170
  let c16_i32_171 : BitVec 32 := 16#32
  let v167 : BitVec 32 := Scalar.remsi v166 c16_i32_171
  let c1_i32_180 : BitVec 32 := 1#32
  let v170 : BitVec 32 := Scalar.muli v167 c1_i32_180
  let v171 : BitVec 32 := Scalar.addi c0_i32_181 v170
  v171.toNat
def k0_dev24 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_185 : BitVec 32 := 9#32
  let v179 : BitVec 32 := Scalar.addi v2 c9_i32_185
  let c16_i32_186 : BitVec 32 := 16#32
  let v180 : BitVec 32 := Scalar.remsi v179 c16_i32_186
  let c1_i32_195 : BitVec 32 := 1#32
  let v183 : BitVec 32 := Scalar.muli v180 c1_i32_195
  let v184 : BitVec 32 := Scalar.addi c0_i32_196 v183
  v184.toNat
def k0_dev25 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_200 : BitVec 32 := 10#32
  let v192 : BitVec 32 := Scalar.addi v2 c10_i32_200
  let c16_i32_201 : BitVec 32 := 16#32
  let v193 : BitVec 32 := Scalar.remsi v192 c16_i32_201
  let c1_i32_210 : BitVec 32 := 1#32
  let v196 : BitVec 32 := Scalar.muli v193 c1_i32_210
  let v197 : BitVec 32 := Scalar.addi c0_i32_211 v196
  v197.toNat
def k0_dev26 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_215 : BitVec 32 := 11#32
  let v205 : BitVec 32 := Scalar.addi v2 c11_i32_215
  let c16_i32_216 : BitVec 32 := 16#32
  let v206 : BitVec 32 := Scalar.remsi v205 c16_i32_216
  let c1_i32_225 : BitVec 32 := 1#32
  let v209 : BitVec 32 := Scalar.muli v206 c1_i32_225
  let v210 : BitVec 32 := Scalar.addi c0_i32_226 v209
  v210.toNat
def k0_dev27 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_230 : BitVec 32 := 12#32
  let v218 : BitVec 32 := Scalar.addi v2 c12_i32_230
  let c16_i32_231 : BitVec 32 := 16#32
  let v219 : BitVec 32 := Scalar.remsi v218 c16_i32_231
  let c1_i32_240 : BitVec 32 := 1#32
  let v222 : BitVec 32 := Scalar.muli v219 c1_i32_240
  let v223 : BitVec 32 := Scalar.addi c0_i32_241 v222
  v223.toNat
def k0_dev28 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_245 : BitVec 32 := 13#32
  let v231 : BitVec 32 := Scalar.addi v2 c13_i32_245
  let c16_i32_246 : BitVec 32 := 16#32
  let v232 : BitVec 32 := Scalar.remsi v231 c16_i32_246
  let c1_i32_255 : BitVec 32 := 1#32
  let v235 : BitVec 32 := Scalar.muli v232 c1_i32_255
  let v236 : BitVec 32 := Scalar.addi c0_i32_256 v235
  v236.toNat
def k0_dev29 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_260 : BitVec 32 := 14#32
  let v244 : BitVec 32 := Scalar.addi v2 c14_i32_260
  let c16_i32_261 : BitVec 32 := 16#32
  let v245 : BitVec 32 := Scalar.remsi v244 c16_i32_261
  let c1_i32_270 : BitVec 32 := 1#32
  let v248 : BitVec 32 := Scalar.muli v245 c1_i32_270
  let v249 : BitVec 32 := Scalar.addi c0_i32_271 v248
  v249.toNat
def k0_dev30 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_275 : BitVec 32 := 15#32
  let v257 : BitVec 32 := Scalar.addi v2 c15_i32_275
  let c16_i32_276 : BitVec 32 := 16#32
  let v258 : BitVec 32 := Scalar.remsi v257 c16_i32_276
  let c1_i32_285 : BitVec 32 := 1#32
  let v261 : BitVec 32 := Scalar.muli v258 c1_i32_285
  let v262 : BitVec 32 := Scalar.addi c0_i32_286 v261
  v262.toNat
def k0_dev31 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_290 : BitVec 32 := 1#32
  let v270 : BitVec 32 := Scalar.addi v2 c1_i32_290
  let c16_i32_291 : BitVec 32 := 16#32
  let v271 : BitVec 32 := Scalar.remsi v270 c16_i32_291
  let c1_i32_300 : BitVec 32 := 1#32
  let v274 : BitVec 32 := Scalar.muli v271 c1_i32_300
  let v275 : BitVec 32 := Scalar.addi c0_i32_301 v274
  v275.toNat
def k0_dev32 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_305 : BitVec 32 := 2#32
  let v283 : BitVec 32 := Scalar.addi v2 c2_i32_305
  let c16_i32_306 : BitVec 32 := 16#32
  let v284 : BitVec 32 := Scalar.remsi v283 c16_i32_306
  let c1_i32_315 : BitVec 32 := 1#32
  let v287 : BitVec 32 := Scalar.muli v284 c1_i32_315
  let v288 : BitVec 32 := Scalar.addi c0_i32_316 v287
  v288.toNat
def k0_dev33 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_320 : BitVec 32 := 3#32
  let v296 : BitVec 32 := Scalar.addi v2 c3_i32_320
  let c16_i32_321 : BitVec 32 := 16#32
  let v297 : BitVec 32 := Scalar.remsi v296 c16_i32_321
  let c1_i32_330 : BitVec 32 := 1#32
  let v300 : BitVec 32 := Scalar.muli v297 c1_i32_330
  let v301 : BitVec 32 := Scalar.addi c0_i32_331 v300
  v301.toNat
def k0_dev34 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_335 : BitVec 32 := 4#32
  let v309 : BitVec 32 := Scalar.addi v2 c4_i32_335
  let c16_i32_336 : BitVec 32 := 16#32
  let v310 : BitVec 32 := Scalar.remsi v309 c16_i32_336
  let c1_i32_345 : BitVec 32 := 1#32
  let v313 : BitVec 32 := Scalar.muli v310 c1_i32_345
  let v314 : BitVec 32 := Scalar.addi c0_i32_346 v313
  v314.toNat
def k0_dev35 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_350 : BitVec 32 := 5#32
  let v322 : BitVec 32 := Scalar.addi v2 c5_i32_350
  let c16_i32_351 : BitVec 32 := 16#32
  let v323 : BitVec 32 := Scalar.remsi v322 c16_i32_351
  let c1_i32_360 : BitVec 32 := 1#32
  let v326 : BitVec 32 := Scalar.muli v323 c1_i32_360
  let v327 : BitVec 32 := Scalar.addi c0_i32_361 v326
  v327.toNat
def k0_dev36 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_365 : BitVec 32 := 6#32
  let v335 : BitVec 32 := Scalar.addi v2 c6_i32_365
  let c16_i32_366 : BitVec 32 := 16#32
  let v336 : BitVec 32 := Scalar.remsi v335 c16_i32_366
  let c1_i32_375 : BitVec 32 := 1#32
  let v339 : BitVec 32 := Scalar.muli v336 c1_i32_375
  let v340 : BitVec 32 := Scalar.addi c0_i32_376 v339
  v340.toNat
def k0_dev37 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_380 : BitVec 32 := 7#32
  let v348 : BitVec 32 := Scalar.addi v2 c7_i32_380
  let c16_i32_381 : BitVec 32 := 16#32
  let v349 : BitVec 32 := Scalar.remsi v348 c16_i32_381
  let c1_i32_390 : BitVec 32 := 1#32
  let v352 : BitVec 32 := Scalar.muli v349 c1_i32_390
  let v353 : BitVec 32 := Scalar.addi c0_i32_391 v352
  v353.toNat
def k0_dev38 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_395 : BitVec 32 := 8#32
  let v361 : BitVec 32 := Scalar.addi v2 c8_i32_395
  let c16_i32_396 : BitVec 32 := 16#32
  let v362 : BitVec 32 := Scalar.remsi v361 c16_i32_396
  let c1_i32_405 : BitVec 32 := 1#32
  let v365 : BitVec 32 := Scalar.muli v362 c1_i32_405
  let v366 : BitVec 32 := Scalar.addi c0_i32_406 v365
  v366.toNat
def k0_dev39 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_410 : BitVec 32 := 9#32
  let v374 : BitVec 32 := Scalar.addi v2 c9_i32_410
  let c16_i32_411 : BitVec 32 := 16#32
  let v375 : BitVec 32 := Scalar.remsi v374 c16_i32_411
  let c1_i32_420 : BitVec 32 := 1#32
  let v378 : BitVec 32 := Scalar.muli v375 c1_i32_420
  let v379 : BitVec 32 := Scalar.addi c0_i32_421 v378
  v379.toNat
def k0_dev40 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_425 : BitVec 32 := 10#32
  let v387 : BitVec 32 := Scalar.addi v2 c10_i32_425
  let c16_i32_426 : BitVec 32 := 16#32
  let v388 : BitVec 32 := Scalar.remsi v387 c16_i32_426
  let c1_i32_435 : BitVec 32 := 1#32
  let v391 : BitVec 32 := Scalar.muli v388 c1_i32_435
  let v392 : BitVec 32 := Scalar.addi c0_i32_436 v391
  v392.toNat
def k0_dev41 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_440 : BitVec 32 := 11#32
  let v400 : BitVec 32 := Scalar.addi v2 c11_i32_440
  let c16_i32_441 : BitVec 32 := 16#32
  let v401 : BitVec 32 := Scalar.remsi v400 c16_i32_441
  let c1_i32_450 : BitVec 32 := 1#32
  let v404 : BitVec 32 := Scalar.muli v401 c1_i32_450
  let v405 : BitVec 32 := Scalar.addi c0_i32_451 v404
  v405.toNat
def k0_dev42 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_455 : BitVec 32 := 12#32
  let v413 : BitVec 32 := Scalar.addi v2 c12_i32_455
  let c16_i32_456 : BitVec 32 := 16#32
  let v414 : BitVec 32 := Scalar.remsi v413 c16_i32_456
  let c1_i32_465 : BitVec 32 := 1#32
  let v417 : BitVec 32 := Scalar.muli v414 c1_i32_465
  let v418 : BitVec 32 := Scalar.addi c0_i32_466 v417
  v418.toNat
def k0_dev43 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_470 : BitVec 32 := 13#32
  let v426 : BitVec 32 := Scalar.addi v2 c13_i32_470
  let c16_i32_471 : BitVec 32 := 16#32
  let v427 : BitVec 32 := Scalar.remsi v426 c16_i32_471
  let c1_i32_480 : BitVec 32 := 1#32
  let v430 : BitVec 32 := Scalar.muli v427 c1_i32_480
  let v431 : BitVec 32 := Scalar.addi c0_i32_481 v430
  v431.toNat
def k0_dev44 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_485 : BitVec 32 := 14#32
  let v439 : BitVec 32 := Scalar.addi v2 c14_i32_485
  let c16_i32_486 : BitVec 32 := 16#32
  let v440 : BitVec 32 := Scalar.remsi v439 c16_i32_486
  let c1_i32_495 : BitVec 32 := 1#32
  let v443 : BitVec 32 := Scalar.muli v440 c1_i32_495
  let v444 : BitVec 32 := Scalar.addi c0_i32_496 v443
  v444.toNat
def k0_dev45 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_500 : BitVec 32 := 15#32
  let v452 : BitVec 32 := Scalar.addi v2 c15_i32_500
  let c16_i32_501 : BitVec 32 := 16#32
  let v453 : BitVec 32 := Scalar.remsi v452 c16_i32_501
  let c1_i32_510 : BitVec 32 := 1#32
  let v456 : BitVec 32 := Scalar.muli v453 c1_i32_510
  let v457 : BitVec 32 := Scalar.addi c0_i32_511 v456
  v457.toNat
def k0_off2 (d0 : Dev nD) (c0_i32_516 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_515 : BitVec 32 := 32#32
  let v465 : BitVec 32 := Scalar.muli v2 c32_i32_515
  let v466 : BitVec 32 := Scalar.addi v465 c0_i32_516
  let v467 : Index := Scalar.indexCast v466
  let c0_517 : Index := 0#32
  ![v467.toNat, 0]
def k0_off3 (d0 : Dev nD) (c0_i32_738 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_737 : BitVec 32 := 32#32
  let v647 : BitVec 32 := Scalar.muli v2 c32_i32_737
  let v648 : BitVec 32 := Scalar.addi v647 c0_i32_738
  let c0_i32_746 : BitVec 32 := 0#32
  ![v648.toNat, 0]
def k0_dev46 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_735 : BitVec 32 := 1#32
  let v645 : BitVec 32 := Scalar.addi v2 c1_i32_735
  let c16_i32_736 : BitVec 32 := 16#32
  let v646 : BitVec 32 := Scalar.remsi v645 c16_i32_736
  let c1_i32_744 : BitVec 32 := 1#32
  let v649 : BitVec 32 := Scalar.muli v646 c1_i32_744
  let v650 : BitVec 32 := Scalar.addi c0_i32_745 v649
  v650.toNat
def k0_dev47 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_749 : BitVec 32 := 2#32
  let v658 : BitVec 32 := Scalar.addi v2 c2_i32_749
  let c16_i32_750 : BitVec 32 := 16#32
  let v659 : BitVec 32 := Scalar.remsi v658 c16_i32_750
  let c1_i32_758 : BitVec 32 := 1#32
  let v662 : BitVec 32 := Scalar.muli v659 c1_i32_758
  let v663 : BitVec 32 := Scalar.addi c0_i32_759 v662
  v663.toNat
def k0_dev48 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_763 : BitVec 32 := 3#32
  let v671 : BitVec 32 := Scalar.addi v2 c3_i32_763
  let c16_i32_764 : BitVec 32 := 16#32
  let v672 : BitVec 32 := Scalar.remsi v671 c16_i32_764
  let c1_i32_772 : BitVec 32 := 1#32
  let v675 : BitVec 32 := Scalar.muli v672 c1_i32_772
  let v676 : BitVec 32 := Scalar.addi c0_i32_773 v675
  v676.toNat
def k0_dev49 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_777 : BitVec 32 := 4#32
  let v684 : BitVec 32 := Scalar.addi v2 c4_i32_777
  let c16_i32_778 : BitVec 32 := 16#32
  let v685 : BitVec 32 := Scalar.remsi v684 c16_i32_778
  let c1_i32_786 : BitVec 32 := 1#32
  let v688 : BitVec 32 := Scalar.muli v685 c1_i32_786
  let v689 : BitVec 32 := Scalar.addi c0_i32_787 v688
  v689.toNat
def k0_dev50 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_791 : BitVec 32 := 5#32
  let v697 : BitVec 32 := Scalar.addi v2 c5_i32_791
  let c16_i32_792 : BitVec 32 := 16#32
  let v698 : BitVec 32 := Scalar.remsi v697 c16_i32_792
  let c1_i32_800 : BitVec 32 := 1#32
  let v701 : BitVec 32 := Scalar.muli v698 c1_i32_800
  let v702 : BitVec 32 := Scalar.addi c0_i32_801 v701
  v702.toNat
def k0_dev51 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_805 : BitVec 32 := 6#32
  let v710 : BitVec 32 := Scalar.addi v2 c6_i32_805
  let c16_i32_806 : BitVec 32 := 16#32
  let v711 : BitVec 32 := Scalar.remsi v710 c16_i32_806
  let c1_i32_814 : BitVec 32 := 1#32
  let v714 : BitVec 32 := Scalar.muli v711 c1_i32_814
  let v715 : BitVec 32 := Scalar.addi c0_i32_815 v714
  v715.toNat
def k0_dev52 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_819 : BitVec 32 := 7#32
  let v723 : BitVec 32 := Scalar.addi v2 c7_i32_819
  let c16_i32_820 : BitVec 32 := 16#32
  let v724 : BitVec 32 := Scalar.remsi v723 c16_i32_820
  let c1_i32_828 : BitVec 32 := 1#32
  let v727 : BitVec 32 := Scalar.muli v724 c1_i32_828
  let v728 : BitVec 32 := Scalar.addi c0_i32_829 v727
  v728.toNat
def k0_dev53 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_833 : BitVec 32 := 8#32
  let v736 : BitVec 32 := Scalar.addi v2 c8_i32_833
  let c16_i32_834 : BitVec 32 := 16#32
  let v737 : BitVec 32 := Scalar.remsi v736 c16_i32_834
  let c1_i32_842 : BitVec 32 := 1#32
  let v740 : BitVec 32 := Scalar.muli v737 c1_i32_842
  let v741 : BitVec 32 := Scalar.addi c0_i32_843 v740
  v741.toNat
def k0_dev54 (d0 : Dev nD) : Nat :=
  let c0_i32_857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_847 : BitVec 32 := 9#32
  let v749 : BitVec 32 := Scalar.addi v2 c9_i32_847
  let c16_i32_848 : BitVec 32 := 16#32
  let v750 : BitVec 32 := Scalar.remsi v749 c16_i32_848
  let c1_i32_856 : BitVec 32 := 1#32
  let v753 : BitVec 32 := Scalar.muli v750 c1_i32_856
  let v754 : BitVec 32 := Scalar.addi c0_i32_857 v753
  v754.toNat
def k0_dev55 (d0 : Dev nD) : Nat :=
  let c0_i32_871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_861 : BitVec 32 := 10#32
  let v762 : BitVec 32 := Scalar.addi v2 c10_i32_861
  let c16_i32_862 : BitVec 32 := 16#32
  let v763 : BitVec 32 := Scalar.remsi v762 c16_i32_862
  let c1_i32_870 : BitVec 32 := 1#32
  let v766 : BitVec 32 := Scalar.muli v763 c1_i32_870
  let v767 : BitVec 32 := Scalar.addi c0_i32_871 v766
  v767.toNat
def k0_dev56 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_875 : BitVec 32 := 11#32
  let v775 : BitVec 32 := Scalar.addi v2 c11_i32_875
  let c16_i32_876 : BitVec 32 := 16#32
  let v776 : BitVec 32 := Scalar.remsi v775 c16_i32_876
  let c1_i32_884 : BitVec 32 := 1#32
  let v779 : BitVec 32 := Scalar.muli v776 c1_i32_884
  let v780 : BitVec 32 := Scalar.addi c0_i32_885 v779
  v780.toNat
def k0_dev57 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_889 : BitVec 32 := 12#32
  let v788 : BitVec 32 := Scalar.addi v2 c12_i32_889
  let c16_i32_890 : BitVec 32 := 16#32
  let v789 : BitVec 32 := Scalar.remsi v788 c16_i32_890
  let c1_i32_898 : BitVec 32 := 1#32
  let v792 : BitVec 32 := Scalar.muli v789 c1_i32_898
  let v793 : BitVec 32 := Scalar.addi c0_i32_899 v792
  v793.toNat
def k0_dev58 (d0 : Dev nD) : Nat :=
  let c0_i32_913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_903 : BitVec 32 := 13#32
  let v801 : BitVec 32 := Scalar.addi v2 c13_i32_903
  let c16_i32_904 : BitVec 32 := 16#32
  let v802 : BitVec 32 := Scalar.remsi v801 c16_i32_904
  let c1_i32_912 : BitVec 32 := 1#32
  let v805 : BitVec 32 := Scalar.muli v802 c1_i32_912
  let v806 : BitVec 32 := Scalar.addi c0_i32_913 v805
  v806.toNat
def k0_dev59 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_917 : BitVec 32 := 14#32
  let v814 : BitVec 32 := Scalar.addi v2 c14_i32_917
  let c16_i32_918 : BitVec 32 := 16#32
  let v815 : BitVec 32 := Scalar.remsi v814 c16_i32_918
  let c1_i32_926 : BitVec 32 := 1#32
  let v818 : BitVec 32 := Scalar.muli v815 c1_i32_926
  let v819 : BitVec 32 := Scalar.addi c0_i32_927 v818
  v819.toNat
def k0_dev60 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_931 : BitVec 32 := 15#32
  let v827 : BitVec 32 := Scalar.addi v2 c15_i32_931
  let c16_i32_932 : BitVec 32 := 16#32
  let v828 : BitVec 32 := Scalar.remsi v827 c16_i32_932
  let c1_i32_940 : BitVec 32 := 1#32
  let v831 : BitVec 32 := Scalar.muli v828 c1_i32_940
  let v832 : BitVec 32 := Scalar.addi c0_i32_941 v831
  v832.toNat
def k0_dev61 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1180 : BitVec 32 := 1#32
  let v1020 : BitVec 32 := Scalar.addi v2 c1_i32_1180
  let c16_i32_1181 : BitVec 32 := 16#32
  let v1021 : BitVec 32 := Scalar.remsi v1020 c16_i32_1181
  let c1_i32_1189 : BitVec 32 := 1#32
  let v1024 : BitVec 32 := Scalar.muli v1021 c1_i32_1189
  let v1025 : BitVec 32 := Scalar.addi c0_i32_1190 v1024
  v1025.toNat
def k0_dev62 (d0 : Dev nD) : Nat :=
  let c0_i32_1204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1194 : BitVec 32 := 2#32
  let v1033 : BitVec 32 := Scalar.addi v2 c2_i32_1194
  let c16_i32_1195 : BitVec 32 := 16#32
  let v1034 : BitVec 32 := Scalar.remsi v1033 c16_i32_1195
  let c1_i32_1203 : BitVec 32 := 1#32
  let v1037 : BitVec 32 := Scalar.muli v1034 c1_i32_1203
  let v1038 : BitVec 32 := Scalar.addi c0_i32_1204 v1037
  v1038.toNat
def k0_dev63 (d0 : Dev nD) : Nat :=
  let c0_i32_1218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1208 : BitVec 32 := 3#32
  let v1046 : BitVec 32 := Scalar.addi v2 c3_i32_1208
  let c16_i32_1209 : BitVec 32 := 16#32
  let v1047 : BitVec 32 := Scalar.remsi v1046 c16_i32_1209
  let c1_i32_1217 : BitVec 32 := 1#32
  let v1050 : BitVec 32 := Scalar.muli v1047 c1_i32_1217
  let v1051 : BitVec 32 := Scalar.addi c0_i32_1218 v1050
  v1051.toNat
def k0_dev64 (d0 : Dev nD) : Nat :=
  let c0_i32_1232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1222 : BitVec 32 := 4#32
  let v1059 : BitVec 32 := Scalar.addi v2 c4_i32_1222
  let c16_i32_1223 : BitVec 32 := 16#32
  let v1060 : BitVec 32 := Scalar.remsi v1059 c16_i32_1223
  let c1_i32_1231 : BitVec 32 := 1#32
  let v1063 : BitVec 32 := Scalar.muli v1060 c1_i32_1231
  let v1064 : BitVec 32 := Scalar.addi c0_i32_1232 v1063
  v1064.toNat
def k0_dev65 (d0 : Dev nD) : Nat :=
  let c0_i32_1246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1236 : BitVec 32 := 5#32
  let v1072 : BitVec 32 := Scalar.addi v2 c5_i32_1236
  let c16_i32_1237 : BitVec 32 := 16#32
  let v1073 : BitVec 32 := Scalar.remsi v1072 c16_i32_1237
  let c1_i32_1245 : BitVec 32 := 1#32
  let v1076 : BitVec 32 := Scalar.muli v1073 c1_i32_1245
  let v1077 : BitVec 32 := Scalar.addi c0_i32_1246 v1076
  v1077.toNat
def k0_dev66 (d0 : Dev nD) : Nat :=
  let c0_i32_1260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1250 : BitVec 32 := 6#32
  let v1085 : BitVec 32 := Scalar.addi v2 c6_i32_1250
  let c16_i32_1251 : BitVec 32 := 16#32
  let v1086 : BitVec 32 := Scalar.remsi v1085 c16_i32_1251
  let c1_i32_1259 : BitVec 32 := 1#32
  let v1089 : BitVec 32 := Scalar.muli v1086 c1_i32_1259
  let v1090 : BitVec 32 := Scalar.addi c0_i32_1260 v1089
  v1090.toNat
def k0_dev67 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1264 : BitVec 32 := 7#32
  let v1098 : BitVec 32 := Scalar.addi v2 c7_i32_1264
  let c16_i32_1265 : BitVec 32 := 16#32
  let v1099 : BitVec 32 := Scalar.remsi v1098 c16_i32_1265
  let c1_i32_1273 : BitVec 32 := 1#32
  let v1102 : BitVec 32 := Scalar.muli v1099 c1_i32_1273
  let v1103 : BitVec 32 := Scalar.addi c0_i32_1274 v1102
  v1103.toNat
def k0_dev68 (d0 : Dev nD) : Nat :=
  let c0_i32_1288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1278 : BitVec 32 := 8#32
  let v1111 : BitVec 32 := Scalar.addi v2 c8_i32_1278
  let c16_i32_1279 : BitVec 32 := 16#32
  let v1112 : BitVec 32 := Scalar.remsi v1111 c16_i32_1279
  let c1_i32_1287 : BitVec 32 := 1#32
  let v1115 : BitVec 32 := Scalar.muli v1112 c1_i32_1287
  let v1116 : BitVec 32 := Scalar.addi c0_i32_1288 v1115
  v1116.toNat
def k0_dev69 (d0 : Dev nD) : Nat :=
  let c0_i32_1302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1292 : BitVec 32 := 9#32
  let v1124 : BitVec 32 := Scalar.addi v2 c9_i32_1292
  let c16_i32_1293 : BitVec 32 := 16#32
  let v1125 : BitVec 32 := Scalar.remsi v1124 c16_i32_1293
  let c1_i32_1301 : BitVec 32 := 1#32
  let v1128 : BitVec 32 := Scalar.muli v1125 c1_i32_1301
  let v1129 : BitVec 32 := Scalar.addi c0_i32_1302 v1128
  v1129.toNat
def k0_dev70 (d0 : Dev nD) : Nat :=
  let c0_i32_1316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1306 : BitVec 32 := 10#32
  let v1137 : BitVec 32 := Scalar.addi v2 c10_i32_1306
  let c16_i32_1307 : BitVec 32 := 16#32
  let v1138 : BitVec 32 := Scalar.remsi v1137 c16_i32_1307
  let c1_i32_1315 : BitVec 32 := 1#32
  let v1141 : BitVec 32 := Scalar.muli v1138 c1_i32_1315
  let v1142 : BitVec 32 := Scalar.addi c0_i32_1316 v1141
  v1142.toNat
def k0_dev71 (d0 : Dev nD) : Nat :=
  let c0_i32_1330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1320 : BitVec 32 := 11#32
  let v1150 : BitVec 32 := Scalar.addi v2 c11_i32_1320
  let c16_i32_1321 : BitVec 32 := 16#32
  let v1151 : BitVec 32 := Scalar.remsi v1150 c16_i32_1321
  let c1_i32_1329 : BitVec 32 := 1#32
  let v1154 : BitVec 32 := Scalar.muli v1151 c1_i32_1329
  let v1155 : BitVec 32 := Scalar.addi c0_i32_1330 v1154
  v1155.toNat
def k0_dev72 (d0 : Dev nD) : Nat :=
  let c0_i32_1344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1334 : BitVec 32 := 12#32
  let v1163 : BitVec 32 := Scalar.addi v2 c12_i32_1334
  let c16_i32_1335 : BitVec 32 := 16#32
  let v1164 : BitVec 32 := Scalar.remsi v1163 c16_i32_1335
  let c1_i32_1343 : BitVec 32 := 1#32
  let v1167 : BitVec 32 := Scalar.muli v1164 c1_i32_1343
  let v1168 : BitVec 32 := Scalar.addi c0_i32_1344 v1167
  v1168.toNat
def k0_dev73 (d0 : Dev nD) : Nat :=
  let c0_i32_1358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1348 : BitVec 32 := 13#32
  let v1176 : BitVec 32 := Scalar.addi v2 c13_i32_1348
  let c16_i32_1349 : BitVec 32 := 16#32
  let v1177 : BitVec 32 := Scalar.remsi v1176 c16_i32_1349
  let c1_i32_1357 : BitVec 32 := 1#32
  let v1180 : BitVec 32 := Scalar.muli v1177 c1_i32_1357
  let v1181 : BitVec 32 := Scalar.addi c0_i32_1358 v1180
  v1181.toNat
def k0_dev74 (d0 : Dev nD) : Nat :=
  let c0_i32_1372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1362 : BitVec 32 := 14#32
  let v1189 : BitVec 32 := Scalar.addi v2 c14_i32_1362
  let c16_i32_1363 : BitVec 32 := 16#32
  let v1190 : BitVec 32 := Scalar.remsi v1189 c16_i32_1363
  let c1_i32_1371 : BitVec 32 := 1#32
  let v1193 : BitVec 32 := Scalar.muli v1190 c1_i32_1371
  let v1194 : BitVec 32 := Scalar.addi c0_i32_1372 v1193
  v1194.toNat
def k0_dev75 (d0 : Dev nD) : Nat :=
  let c0_i32_1386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1376 : BitVec 32 := 15#32
  let v1202 : BitVec 32 := Scalar.addi v2 c15_i32_1376
  let c16_i32_1377 : BitVec 32 := 16#32
  let v1203 : BitVec 32 := Scalar.remsi v1202 c16_i32_1377
  let c1_i32_1385 : BitVec 32 := 1#32
  let v1206 : BitVec 32 := Scalar.muli v1203 c1_i32_1385
  let v1207 : BitVec 32 := Scalar.addi c0_i32_1386 v1206
  v1207.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  hamt_15 : (15#32 : BitVec 32).msb = false
  inb_S2x16_S1x1_0_1 : ∀ a, (![0, 1] : Fin 2 → Nat) a + S1x1.size a ≤ S2x16.size a
  squeezes_S1x1_S_ : S1x1.Squeezes S_
  inb_S2x16x16x512_S1x1x16x512_0_1_0_0 : ∀ a, (![0, 1, 0, 0] : Fin 4 → Nat) a + S1x1x16x512.size a ≤ S2x16x16x512.size a
  squeezes_S1x1x16x512_S16x512 : S1x1x16x512.Squeezes S16x512
  wordsbf16_S2x16x16x512_S1x1x16x512_0_1_0_0 : (Rect.unit (s := S2x16x16x512) ![0, 1, 0, 0] S1x1x16x512.size inb_S2x16x16x512_S1x1x16x512_0_1_0_0).WholeWords (EltTy.packing .bf16)
  inb_S2x16_S1x1_0_2 : ∀ a, (![0, 2] : Fin 2 → Nat) a + S1x1.size a ≤ S2x16.size a
  inb_S2x16x16x512_S1x1x16x512_0_2_0_0 : ∀ a, (![0, 2, 0, 0] : Fin 4 → Nat) a + S1x1x16x512.size a ≤ S2x16x16x512.size a
  wordsbf16_S2x16x16x512_S1x1x16x512_0_2_0_0 : (Rect.unit (s := S2x16x16x512) ![0, 2, 0, 0] S1x1x16x512.size inb_S2x16x16x512_S1x1x16x512_0_2_0_0).WholeWords (EltTy.packing .bf16)
  inb_S2x16_S1x1_0_3 : ∀ a, (![0, 3] : Fin 2 → Nat) a + S1x1.size a ≤ S2x16.size a
  inb_S2x16x16x512_S1x1x16x512_0_3_0_0 : ∀ a, (![0, 3, 0, 0] : Fin 4 → Nat) a + S1x1x16x512.size a ≤ S2x16x16x512.size a
  wordsbf16_S2x16x16x512_S1x1x16x512_0_3_0_0 : (Rect.unit (s := S2x16x16x512) ![0, 3, 0, 0] S1x1x16x512.size inb_S2x16x16x512_S1x1x16x512_0_3_0_0).WholeWords (EltTy.packing .bf16)
  inb_S2x16_S1x1_0_4 : ∀ a, (![0, 4] : Fin 2 → Nat) a + S1x1.size a ≤ S2x16.size a
  inb_S2x16x16x512_S1x1x16x512_0_4_0_0 : ∀ a, (![0, 4, 0, 0] : Fin 4 → Nat) a + S1x1x16x512.size a ≤ S2x16x16x512.size a
  wordsbf16_S2x16x16x512_S1x1x16x512_0_4_0_0 : (Rect.unit (s := S2x16x16x512) ![0, 4, 0, 0] S1x1x16x512.size inb_S2x16x16x512_S1x1x16x512_0_4_0_0).WholeWords (EltTy.packing .bf16)
  inb_S2x16_S1x1_0_5 : ∀ a, (![0, 5] : Fin 2 → Nat) a + S1x1.size a ≤ S2x16.size a
  inb_S2x16x16x512_S1x1x16x512_0_5_0_0 : ∀ a, (![0, 5, 0, 0] : Fin 4 → Nat) a + S1x1x16x512.size a ≤ S2x16x16x512.size a
  wordsbf16_S2x16x16x512_S1x1x16x512_0_5_0_0 : (Rect.unit (s := S2x16x16x512) ![0, 5, 0, 0] S1x1x16x512.size inb_S2x16x16x512_S1x1x16x512_0_5_0_0).WholeWords (EltTy.packing .bf16)
  inb_S2x16_S1x1_0_6 : ∀ a, (![0, 6] : Fin 2 → Nat) a + S1x1.size a ≤ S2x16.size a
  inb_S2x16x16x512_S1x1x16x512_0_6_0_0 : ∀ a, (![0, 6, 0, 0] : Fin 4 → Nat) a + S1x1x16x512.size a ≤ S2x16x16x512.size a
  wordsbf16_S2x16x16x512_S1x1x16x512_0_6_0_0 : (Rect.unit (s := S2x16x16x512) ![0, 6, 0, 0] S1x1x16x512.size inb_S2x16x16x512_S1x1x16x512_0_6_0_0).WholeWords (EltTy.packing .bf16)
  inb_S2x16_S1x1_0_7 : ∀ a, (![0, 7] : Fin 2 → Nat) a + S1x1.size a ≤ S2x16.size a
  inb_S2x16x16x512_S1x1x16x512_0_7_0_0 : ∀ a, (![0, 7, 0, 0] : Fin 4 → Nat) a + S1x1x16x512.size a ≤ S2x16x16x512.size a
  wordsbf16_S2x16x16x512_S1x1x16x512_0_7_0_0 : (Rect.unit (s := S2x16x16x512) ![0, 7, 0, 0] S1x1x16x512.size inb_S2x16x16x512_S1x1x16x512_0_7_0_0).WholeWords (EltTy.packing .bf16)
  inb_S2x16_S1x1_0_8 : ∀ a, (![0, 8] : Fin 2 → Nat) a + S1x1.size a ≤ S2x16.size a
  inb_S2x16x16x512_S1x1x16x512_0_8_0_0 : ∀ a, (![0, 8, 0, 0] : Fin 4 → Nat) a + S1x1x16x512.size a ≤ S2x16x16x512.size a
  wordsbf16_S2x16x16x512_S1x1x16x512_0_8_0_0 : (Rect.unit (s := S2x16x16x512) ![0, 8, 0, 0] S1x1x16x512.size inb_S2x16x16x512_S1x1x16x512_0_8_0_0).WholeWords (EltTy.packing .bf16)
  inb_S2x16_S1x1_0_9 : ∀ a, (![0, 9] : Fin 2 → Nat) a + S1x1.size a ≤ S2x16.size a
  inb_S2x16x16x512_S1x1x16x512_0_9_0_0 : ∀ a, (![0, 9, 0, 0] : Fin 4 → Nat) a + S1x1x16x512.size a ≤ S2x16x16x512.size a
  wordsbf16_S2x16x16x512_S1x1x16x512_0_9_0_0 : (Rect.unit (s := S2x16x16x512) ![0, 9, 0, 0] S1x1x16x512.size inb_S2x16x16x512_S1x1x16x512_0_9_0_0).WholeWords (EltTy.packing .bf16)
  inb_S2x16_S1x1_0_10 : ∀ a, (![0, 10] : Fin 2 → Nat) a + S1x1.size a ≤ S2x16.size a
  inb_S2x16x16x512_S1x1x16x512_0_10_0_0 : ∀ a, (![0, 10, 0, 0] : Fin 4 → Nat) a + S1x1x16x512.size a ≤ S2x16x16x512.size a
  wordsbf16_S2x16x16x512_S1x1x16x512_0_10_0_0 : (Rect.unit (s := S2x16x16x512) ![0, 10, 0, 0] S1x1x16x512.size inb_S2x16x16x512_S1x1x16x512_0_10_0_0).WholeWords (EltTy.packing .bf16)
  inb_S2x16_S1x1_0_11 : ∀ a, (![0, 11] : Fin 2 → Nat) a + S1x1.size a ≤ S2x16.size a
  inb_S2x16x16x512_S1x1x16x512_0_11_0_0 : ∀ a, (![0, 11, 0, 0] : Fin 4 → Nat) a + S1x1x16x512.size a ≤ S2x16x16x512.size a
  wordsbf16_S2x16x16x512_S1x1x16x512_0_11_0_0 : (Rect.unit (s := S2x16x16x512) ![0, 11, 0, 0] S1x1x16x512.size inb_S2x16x16x512_S1x1x16x512_0_11_0_0).WholeWords (EltTy.packing .bf16)
  inb_S2x16_S1x1_0_12 : ∀ a, (![0, 12] : Fin 2 → Nat) a + S1x1.size a ≤ S2x16.size a
  inb_S2x16x16x512_S1x1x16x512_0_12_0_0 : ∀ a, (![0, 12, 0, 0] : Fin 4 → Nat) a + S1x1x16x512.size a ≤ S2x16x16x512.size a
  wordsbf16_S2x16x16x512_S1x1x16x512_0_12_0_0 : (Rect.unit (s := S2x16x16x512) ![0, 12, 0, 0] S1x1x16x512.size inb_S2x16x16x512_S1x1x16x512_0_12_0_0).WholeWords (EltTy.packing .bf16)
  inb_S2x16_S1x1_0_13 : ∀ a, (![0, 13] : Fin 2 → Nat) a + S1x1.size a ≤ S2x16.size a
  inb_S2x16x16x512_S1x1x16x512_0_13_0_0 : ∀ a, (![0, 13, 0, 0] : Fin 4 → Nat) a + S1x1x16x512.size a ≤ S2x16x16x512.size a
  wordsbf16_S2x16x16x512_S1x1x16x512_0_13_0_0 : (Rect.unit (s := S2x16x16x512) ![0, 13, 0, 0] S1x1x16x512.size inb_S2x16x16x512_S1x1x16x512_0_13_0_0).WholeWords (EltTy.packing .bf16)
  inb_S2x16_S1x1_0_14 : ∀ a, (![0, 14] : Fin 2 → Nat) a + S1x1.size a ≤ S2x16.size a
  inb_S2x16x16x512_S1x1x16x512_0_14_0_0 : ∀ a, (![0, 14, 0, 0] : Fin 4 → Nat) a + S1x1x16x512.size a ≤ S2x16x16x512.size a
  wordsbf16_S2x16x16x512_S1x1x16x512_0_14_0_0 : (Rect.unit (s := S2x16x16x512) ![0, 14, 0, 0] S1x1x16x512.size inb_S2x16x16x512_S1x1x16x512_0_14_0_0).WholeWords (EltTy.packing .bf16)
  inb_S2x16_S1x1_0_15 : ∀ a, (![0, 15] : Fin 2 → Nat) a + S1x1.size a ≤ S2x16.size a
  inb_S2x16x16x512_S1x1x16x512_0_15_0_0 : ∀ a, (![0, 15, 0, 0] : Fin 4 → Nat) a + S1x1x16x512.size a ≤ S2x16x16x512.size a
  wordsbf16_S2x16x16x512_S1x1x16x512_0_15_0_0 : (Rect.unit (s := S2x16x16x512) ![0, 15, 0, 0] S1x1x16x512.size inb_S2x16x16x512_S1x1x16x512_0_15_0_0).WholeWords (EltTy.packing .bf16)
  inb_S2x16_S1x1_1_1 : ∀ a, (![1, 1] : Fin 2 → Nat) a + S1x1.size a ≤ S2x16.size a
  inb_S2x16x16x512_S1x1x16x512_1_1_0_0 : ∀ a, (![1, 1, 0, 0] : Fin 4 → Nat) a + S1x1x16x512.size a ≤ S2x16x16x512.size a
  wordsbf16_S2x16x16x512_S1x1x16x512_1_1_0_0 : (Rect.unit (s := S2x16x16x512) ![1, 1, 0, 0] S1x1x16x512.size inb_S2x16x16x512_S1x1x16x512_1_1_0_0).WholeWords (EltTy.packing .bf16)
  inb_S2x16_S1x1_1_2 : ∀ a, (![1, 2] : Fin 2 → Nat) a + S1x1.size a ≤ S2x16.size a
  inb_S2x16x16x512_S1x1x16x512_1_2_0_0 : ∀ a, (![1, 2, 0, 0] : Fin 4 → Nat) a + S1x1x16x512.size a ≤ S2x16x16x512.size a
  wordsbf16_S2x16x16x512_S1x1x16x512_1_2_0_0 : (Rect.unit (s := S2x16x16x512) ![1, 2, 0, 0] S1x1x16x512.size inb_S2x16x16x512_S1x1x16x512_1_2_0_0).WholeWords (EltTy.packing .bf16)
  inb_S2x16_S1x1_1_3 : ∀ a, (![1, 3] : Fin 2 → Nat) a + S1x1.size a ≤ S2x16.size a
  inb_S2x16x16x512_S1x1x16x512_1_3_0_0 : ∀ a, (![1, 3, 0, 0] : Fin 4 → Nat) a + S1x1x16x512.size a ≤ S2x16x16x512.size a
  wordsbf16_S2x16x16x512_S1x1x16x512_1_3_0_0 : (Rect.unit (s := S2x16x16x512) ![1, 3, 0, 0] S1x1x16x512.size inb_S2x16x16x512_S1x1x16x512_1_3_0_0).WholeWords (EltTy.packing .bf16)
  inb_S2x16_S1x1_1_4 : ∀ a, (![1, 4] : Fin 2 → Nat) a + S1x1.size a ≤ S2x16.size a
  inb_S2x16x16x512_S1x1x16x512_1_4_0_0 : ∀ a, (![1, 4, 0, 0] : Fin 4 → Nat) a + S1x1x16x512.size a ≤ S2x16x16x512.size a
  wordsbf16_S2x16x16x512_S1x1x16x512_1_4_0_0 : (Rect.unit (s := S2x16x16x512) ![1, 4, 0, 0] S1x1x16x512.size inb_S2x16x16x512_S1x1x16x512_1_4_0_0).WholeWords (EltTy.packing .bf16)
  inb_S2x16_S1x1_1_5 : ∀ a, (![1, 5] : Fin 2 → Nat) a + S1x1.size a ≤ S2x16.size a
  inb_S2x16x16x512_S1x1x16x512_1_5_0_0 : ∀ a, (![1, 5, 0, 0] : Fin 4 → Nat) a + S1x1x16x512.size a ≤ S2x16x16x512.size a
  wordsbf16_S2x16x16x512_S1x1x16x512_1_5_0_0 : (Rect.unit (s := S2x16x16x512) ![1, 5, 0, 0] S1x1x16x512.size inb_S2x16x16x512_S1x1x16x512_1_5_0_0).WholeWords (EltTy.packing .bf16)
  inb_S2x16_S1x1_1_6 : ∀ a, (![1, 6] : Fin 2 → Nat) a + S1x1.size a ≤ S2x16.size a
  inb_S2x16x16x512_S1x1x16x512_1_6_0_0 : ∀ a, (![1, 6, 0, 0] : Fin 4 → Nat) a + S1x1x16x512.size a ≤ S2x16x16x512.size a
  wordsbf16_S2x16x16x512_S1x1x16x512_1_6_0_0 : (Rect.unit (s := S2x16x16x512) ![1, 6, 0, 0] S1x1x16x512.size inb_S2x16x16x512_S1x1x16x512_1_6_0_0).WholeWords (EltTy.packing .bf16)
  inb_S2x16_S1x1_1_7 : ∀ a, (![1, 7] : Fin 2 → Nat) a + S1x1.size a ≤ S2x16.size a
  inb_S2x16x16x512_S1x1x16x512_1_7_0_0 : ∀ a, (![1, 7, 0, 0] : Fin 4 → Nat) a + S1x1x16x512.size a ≤ S2x16x16x512.size a
  wordsbf16_S2x16x16x512_S1x1x16x512_1_7_0_0 : (Rect.unit (s := S2x16x16x512) ![1, 7, 0, 0] S1x1x16x512.size inb_S2x16x16x512_S1x1x16x512_1_7_0_0).WholeWords (EltTy.packing .bf16)
  inb_S2x16_S1x1_1_8 : ∀ a, (![1, 8] : Fin 2 → Nat) a + S1x1.size a ≤ S2x16.size a
  inb_S2x16x16x512_S1x1x16x512_1_8_0_0 : ∀ a, (![1, 8, 0, 0] : Fin 4 → Nat) a + S1x1x16x512.size a ≤ S2x16x16x512.size a
  wordsbf16_S2x16x16x512_S1x1x16x512_1_8_0_0 : (Rect.unit (s := S2x16x16x512) ![1, 8, 0, 0] S1x1x16x512.size inb_S2x16x16x512_S1x1x16x512_1_8_0_0).WholeWords (EltTy.packing .bf16)
  inb_S2x16_S1x1_1_9 : ∀ a, (![1, 9] : Fin 2 → Nat) a + S1x1.size a ≤ S2x16.size a
  inb_S2x16x16x512_S1x1x16x512_1_9_0_0 : ∀ a, (![1, 9, 0, 0] : Fin 4 → Nat) a + S1x1x16x512.size a ≤ S2x16x16x512.size a
  wordsbf16_S2x16x16x512_S1x1x16x512_1_9_0_0 : (Rect.unit (s := S2x16x16x512) ![1, 9, 0, 0] S1x1x16x512.size inb_S2x16x16x512_S1x1x16x512_1_9_0_0).WholeWords (EltTy.packing .bf16)
  inb_S2x16_S1x1_1_10 : ∀ a, (![1, 10] : Fin 2 → Nat) a + S1x1.size a ≤ S2x16.size a
  inb_S2x16x16x512_S1x1x16x512_1_10_0_0 : ∀ a, (![1, 10, 0, 0] : Fin 4 → Nat) a + S1x1x16x512.size a ≤ S2x16x16x512.size a
  wordsbf16_S2x16x16x512_S1x1x16x512_1_10_0_0 : (Rect.unit (s := S2x16x16x512) ![1, 10, 0, 0] S1x1x16x512.size inb_S2x16x16x512_S1x1x16x512_1_10_0_0).WholeWords (EltTy.packing .bf16)
  inb_S2x16_S1x1_1_11 : ∀ a, (![1, 11] : Fin 2 → Nat) a + S1x1.size a ≤ S2x16.size a
  inb_S2x16x16x512_S1x1x16x512_1_11_0_0 : ∀ a, (![1, 11, 0, 0] : Fin 4 → Nat) a + S1x1x16x512.size a ≤ S2x16x16x512.size a
  wordsbf16_S2x16x16x512_S1x1x16x512_1_11_0_0 : (Rect.unit (s := S2x16x16x512) ![1, 11, 0, 0] S1x1x16x512.size inb_S2x16x16x512_S1x1x16x512_1_11_0_0).WholeWords (EltTy.packing .bf16)
  inb_S2x16_S1x1_1_12 : ∀ a, (![1, 12] : Fin 2 → Nat) a + S1x1.size a ≤ S2x16.size a
  inb_S2x16x16x512_S1x1x16x512_1_12_0_0 : ∀ a, (![1, 12, 0, 0] : Fin 4 → Nat) a + S1x1x16x512.size a ≤ S2x16x16x512.size a
  wordsbf16_S2x16x16x512_S1x1x16x512_1_12_0_0 : (Rect.unit (s := S2x16x16x512) ![1, 12, 0, 0] S1x1x16x512.size inb_S2x16x16x512_S1x1x16x512_1_12_0_0).WholeWords (EltTy.packing .bf16)
  inb_S2x16_S1x1_1_13 : ∀ a, (![1, 13] : Fin 2 → Nat) a + S1x1.size a ≤ S2x16.size a
  inb_S2x16x16x512_S1x1x16x512_1_13_0_0 : ∀ a, (![1, 13, 0, 0] : Fin 4 → Nat) a + S1x1x16x512.size a ≤ S2x16x16x512.size a
  wordsbf16_S2x16x16x512_S1x1x16x512_1_13_0_0 : (Rect.unit (s := S2x16x16x512) ![1, 13, 0, 0] S1x1x16x512.size inb_S2x16x16x512_S1x1x16x512_1_13_0_0).WholeWords (EltTy.packing .bf16)
  inb_S2x16_S1x1_1_14 : ∀ a, (![1, 14] : Fin 2 → Nat) a + S1x1.size a ≤ S2x16.size a
  inb_S2x16x16x512_S1x1x16x512_1_14_0_0 : ∀ a, (![1, 14, 0, 0] : Fin 4 → Nat) a + S1x1x16x512.size a ≤ S2x16x16x512.size a
  wordsbf16_S2x16x16x512_S1x1x16x512_1_14_0_0 : (Rect.unit (s := S2x16x16x512) ![1, 14, 0, 0] S1x1x16x512.size inb_S2x16x16x512_S1x1x16x512_1_14_0_0).WholeWords (EltTy.packing .bf16)
  inb_S2x16_S1x1_1_15 : ∀ a, (![1, 15] : Fin 2 → Nat) a + S1x1.size a ≤ S2x16.size a
  inb_S2x16x16x512_S1x1x16x512_1_15_0_0 : ∀ a, (![1, 15, 0, 0] : Fin 4 → Nat) a + S1x1x16x512.size a ≤ S2x16x16x512.size a
  wordsbf16_S2x16x16x512_S1x1x16x512_1_15_0_0 : (Rect.unit (s := S2x16x16x512) ![1, 15, 0, 0] S1x1x16x512.size inb_S2x16x16x512_S1x1x16x512_1_15_0_0).WholeWords (EltTy.packing .bf16)
  h_S16x512 : 0 < S16x512.numel
  h_S1x1x16x512 : 0 < S1x1x16x512.numel
  shapeCasts_S1x1x16x512_S16x512 : S1x1x16x512.ShapeCasts S16x512
  inb_S2x16x512_S1x16x512_0_0_0 : ∀ a, (![0, 0, 0] : Fin 3 → Nat) a + S1x16x512.size a ≤ S2x16x512.size a
  h_S1x16x512 : 0 < S1x16x512.numel
  shapeCasts_S1x16x512_S16x512 : S1x16x512.ShapeCasts S16x512
  shapeCasts_S16x512_S1x16x512 : S16x512.ShapeCasts S1x16x512
  packedbf16_S2x16x512_S1x16x512_0_0_0 : (Rect.unit (s := S2x16x512) ![0, 0, 0] S1x16x512.size inb_S2x16x512_S1x16x512_0_0_0).PackedRows (EltTy.packing .bf16)
  squeezes_S1x16x512_S16x512 : S1x16x512.Squeezes S16x512
  wordsbf16_S2x16x512_S1x16x512_0_0_0 : (Rect.unit (s := S2x16x512) ![0, 0, 0] S1x16x512.size inb_S2x16x512_S1x16x512_0_0_0).WholeWords (EltTy.packing .bf16)
  inb_S2x16x512_S1x16x512_1_0_0 : ∀ a, (![1, 0, 0] : Fin 3 → Nat) a + S1x16x512.size a ≤ S2x16x512.size a
  packedbf16_S2x16x512_S1x16x512_1_0_0 : (Rect.unit (s := S2x16x512) ![1, 0, 0] S1x16x512.size inb_S2x16x512_S1x16x512_1_0_0).PackedRows (EltTy.packing .bf16)
  wordsbf16_S2x16x512_S1x16x512_1_0_0 : (Rect.unit (s := S2x16x512) ![1, 0, 0] S1x16x512.size inb_S2x16x512_S1x16x512_1_0_0).WholeWords (EltTy.packing .bf16)
  dot_S512x256_S256x512_S512x512_1_0_0_1_n_n_wf : DotDims.WF S512x256 S256x512 S512x512 [1] [0] [0] [1] [] []
  hcc0_scratch3 : 3 + S2x16.numel ≤ 131
  hcc0_scratch4 : 35 + S2x16.numel ≤ 131
  hcc0_scratch5 : 67 + S2x16.numel ≤ 131
  hcc0_scratch6 : 99 + S2x16.numel ≤ 131
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ (r₁ : Fin 15) (r₂ : Fin 2), ∀ a, (k0_off1 d0 (BitVec.ofNat 32 (1 + r₁.val)) (BitVec.ofNat 32 (16 * r₂.val))) a + S16x512.size a ≤ S512x512.size a
  k0_off1_wordsbf16 : ∀ d0 : Dev nD, ∀ (r₁ : Fin 15) (r₂ : Fin 2), (Rect.unit (s := S512x512) (k0_off1 d0 (BitVec.ofNat 32 (1 + r₁.val)) (BitVec.ofNat 32 (16 * r₂.val))) S16x512.size (k0_off1_inb d0 r₁ r₂)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_off2_inb : ∀ d0 : Dev nD, ∀ (r : Fin 2), ∀ a, (k0_off2 d0 (BitVec.ofNat 32 (16 * r.val))) a + S16x512.size a ≤ S512x512.size a
  k0_off2_packedbf16 : ∀ d0 : Dev nD, ∀ (r : Fin 2), (Rect.unit (s := S512x512) (k0_off2 d0 (BitVec.ofNat 32 (16 * r.val))) S16x512.size (k0_off2_inb d0 r)).PackedRows (EltTy.packing .bf16)
  k0_off3_inb : ∀ d0 : Dev nD, ∀ (r : Fin 2), ∀ a, (k0_off3 d0 (BitVec.ofNat 32 (16 * r.val))) a + S16x512.size a ≤ S512x512.size a
  k0_off3_wordsbf16 : ∀ d0 : Dev nD, ∀ (r : Fin 2), (Rect.unit (s := S512x512) (k0_off3 d0 (BitVec.ofNat 32 (16 * r.val))) S16x512.size (k0_off3_inb d0 r)).WholeWords (EltTy.packing .bf16)
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  hstage0_0 : ∀ j, (stage0_0 j).IsWhole
  hstage0_1 : ∀ j, (stage0_1 j).IsWhole
  hstage0_2 : ∀ j, (stage0_2 j).IsWhole

variable [Facts₀]

abbrev cc0_scratch3 : DmaSems sig S2x16 := SemArray.consecutive 3 S2x16 hcc0_scratch3
abbrev cc0_scratch4 : DmaSems sig S2x16 := SemArray.consecutive 35 S2x16 hcc0_scratch4
abbrev cc0_scratch5 : DmaSems sig S2x16 := SemArray.consecutive 67 S2x16 hcc0_scratch5
abbrev cc0_scratch6 : DmaSems sig S2x16 := SemArray.consecutive 99 S2x16 hcc0_scratch6
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x4096 : Shape := ⟨2, ![512, 4096]⟩
abbrev S4096x512 : Shape := ⟨2, ![4096, 512]⟩
abbrev S512x512 : Shape := ⟨2, ![512, 512]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .hbm, ⟨2, _⟩ => ⟨S512x512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bitsLt_bf16_f32 : FTy.bits .bf16 < FTy.bits .f32
  dot_S512x4096_S4096x512_S512x512_1_0_0_1_n_n_wf : DotDims.WF S512x4096 S4096x512 S512x512 [1] [0] [0] [1] [] []

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

class Facts : Prop extends Facts₀ where

variable [Facts]
-- ==== Proof.RefSide.lean ====
/-
  The reference side. The one-device reference computes, over the whole arrays, the product of the
  512 x 4096 and the 4096 x 512 arguments followed by a maximum with zero; over the extended reals the
  final change of format is the identity. `G` is that function, index by index, and the reference's run
  ends with its result at `G` of its arguments.
-/
import proofs.«900453_g7700000000000454_dist_matmul_relu_kshard_i_m512_n512_k256_v7x_i16_bf16_1_alg».proof.Defs
import proofs.«900453_g7700000000000454_dist_matmul_relu_kshard_i_m512_n512_k256_v7x_i16_bf16_1_alg».proof.Proof.Gen.ReferenceIdeal.Read
import proofs.«900453_g7700000000000454_dist_matmul_relu_kshard_i_m512_n512_k256_v7x_i16_bf16_1_alg».proof.Proof.Gen.Pre_finite_inputs_ReferenceIdeal

noncomputable section

open scoped BigOperators

namespace Cert.RefSide

open Idealize.ShloMosaic Idealize.ShloMosaic.TcCoe Idealize.SL.Sem Idealize.ShloMosaic.ValueIdx
open Cert.ReferenceIdeal Cert.ReferenceIdeal.Gen

/-- The whole result at row `i 0`, column `i 1`: the inner product of row `i 0` of `A` with column `i 1`
    of `B` over all 4096 contraction indices, clamped below at zero. -/
def G (A : (⟨2, ![512, 4096]⟩ : Shape).Idx → EReal) (B : (⟨2, ![4096, 512]⟩ : Shape).Idx → EReal) :
    (⟨2, ![512, 512]⟩ : Shape).Idx → EReal :=
  fun i => max (∑ k : Fin 4096, A (ix2 (i 0) k) * B (ix2 k (i 1))) 0

theorem lidx_eq (i : S512x512.Idx) (k : Fin 4096) : Read.lidx_main_v0 i k = ix2 (i 0) k :=
  funext fun a => Fin.ext (by match a with | ⟨0, _⟩ => rfl | ⟨1, _⟩ => rfl)
theorem ridx_eq (i : S512x512.Idx) (k : Fin 4096) : Read.ridx_main_v0 i k = ix2 k (i 1) :=
  funext fun a => Fin.ext (by match a with | ⟨0, _⟩ => rfl | ⟨1, _⟩ => rfl)

/-- The reference's composed term is `G`. -/
theorem ref_eq (A : (⟨S512x4096, .f32⟩ : BufTy).Contents (Elt Ideal)) (B : (⟨S4096x512, .f32⟩ : BufTy).Contents (Elt Ideal)) :
    Read.val_main_v3 (F := Ideal) A B = G A B := by
  funext i
  rw [Read.val_main_v3_apply, Read.val_main_v2_apply, Read.val_main_v0_apply, Read.val_main_v1_apply, Read.val_main_cst_apply]
  simp only [lidx_eq, ridx_eq]
  show max _ (Ideal.ofBits .f32 0x00000000#32) = _
  rw [Ideal.ofBits_zero_f32]
  rfl

/-- The reference's frame: its generated run with the result dropped. -/
theorem frame_ri : Cert.frame_ReferenceIdeal (hReferenceIdeal := Cert.ReferenceIdeal.Gen.facts)
    (hPre_finite_inputs_ReferenceIdeal := Cert.Pre_finite_inputs_ReferenceIdeal.Gen.facts) := fun m ρ _ =>
  (θ_run Cert.ReferenceIdeal.defs _ _).mono (fun _ h c => (h c).2) (Cert.ReferenceIdeal.Value.run (F := Ideal) m ρ)

end Cert.RefSide

end
-- ==== Proof.SpecI.lean ====
/-
  What the kernel computes, as pure functions of the launch memory, for any float instance.
  Device `d`'s partial product is the product of its 512 x 256 block of the left argument with its
  256 x 512 block of the right one. Rows 32 p + 16 h .. 32 p + 16 h + 15 of the result are owned by
  device `p`: it adds to its own partial product's rows those rows of every other device's, taken in
  the order of the slots they land in (slot `s` holds the rows sent by device `p - s`), clamps the sum
  below at zero, and broadcasts the sixteen rows to everybody. `OutV` is the resulting 512 x 512 array,
  the same on every device.
-/
import proofs.«900453_g7700000000000454_dist_matmul_relu_kshard_i_m512_n512_k256_v7x_i16_bf16_1_alg».proof.Proof.Gen.KernelIdeal.Skeleton
import Idealize.ShloMosaic.Lib.ValueIdx
import Idealize.ShloMosaic.Lib.Pipeline.Value

noncomputable section

namespace Cert.KernelIdeal.Spec

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- Device `c`'s block of the left argument, as its staging buffer holds it. -/
def xA (c : Dev nD) : (cc0_stg0_0 : Ref sig .tc).ty.Contents (Elt F) :=
  (win0_0.blk (0 : Fin 1)).view.read (Elt F) (m ((c : Thread nD τ).loc main_arg0))
/-- Device `c`'s block of the right argument. -/
def xB (c : Dev nD) : (cc0_stg1_0 : Ref sig .tc).ty.Contents (Elt F) :=
  (win0_1.blk (0 : Fin 1)).view.read (Elt F) (m ((c : Thread nD τ).loc main_arg1))

/-- Device `d`'s partial product. -/
def partV (d : Dev nD) : FVec F S512x512 .bf16 := k0_pay1 (xA m d) (xB m d)

theorem row_lt (p : Dev nD) (h : Fin 2) (r : Fin 16) : 32 * p.val + 16 * h.val + r.val < 512 := by
  have h1 : p.val < 16 := p.isLt; have := h.isLt; have := r.isLt; omega

/-- Rows `32 p + 16 h ..` of device `d`'s partial product, as a 16 x 512 vector. -/
def rowsV (d p : Dev nD) (h : Fin 2) : Vec F S16x512 .bf16 :=
  fun j => partV m d (ix2 ⟨32 * p.val + 16 * h.val + (j 0).val, row_lt p h (j 0)⟩ (j 1))
theorem casts_rows_slot : S16x512.ShapeCasts S1x1x16x512 := by decide

/-- The same rows as a receive slot holds them: re-cast to 1 x 1 x 16 x 512. -/
def slotV (d p : Dev nD) (h : Fin 2) : Vec F S1x1x16x512 .bf16 :=
  shapeCast S1x1x16x512 (rowsV m d p h) casts_rows_slot

/-- A slot re-cast to 16 x 512 is the rows. -/
theorem cast_slotV (d p : Dev nD) (h : Fin 2) :
    shapeCast S16x512 (slotV m d p h) shapeCasts_S1x1x16x512_S16x512 = rowsV m d p h :=
  shapeCast_shapeCast _ _ _

/-- The slot `s` of device `p` is filled by device `p - s`. -/
abbrev L (p : Dev nD) (h : Fin 2) (s : Fin 16) : Vec F S1x1x16x512 .bf16 := slotV m (p - s) p h

/-- The sixteen rows `32 p ..` of the result, as device `p` computes them. -/
def final0 (p : Dev nD) : FVec F S16x512 .bf16 :=
  k0_pay10 (k0_pay9 (k0_pay7 (k0_pay6 (k0_pay5 (k0_pay4 (k0_pay3 (k0_pay2 (rowsV m p p 0))
    (L m p 0 1) (L m p 0 2) (L m p 0 3)) (L m p 0 4) (L m p 0 5)) (L m p 0 6) (L m p 0 7)) (L m p 0 8) (L m p 0 9))
    (L m p 0 10) (L m p 0 11)) (k0_pay8 (L m p 0 12)) (L m p 0 13) (L m p 0 14)) (L m p 0 15)
/-- The sixteen rows `32 p + 16 ..`. -/
def final1 (p : Dev nD) : FVec F S16x512 .bf16 :=
  k0_pay19 (k0_pay18 (k0_pay17 (k0_pay16 (k0_pay15 (k0_pay14 (k0_pay13 (k0_pay12 (rowsV m p p 1))
    (L m p 1 1) (L m p 1 2)) (L m p 1 3) (L m p 1 4)) (L m p 1 5) (L m p 1 6) (L m p 1 7)) (L m p 1 8) (L m p 1 9))
    (L m p 1 10) (L m p 1 11)) (L m p 1 12) (L m p 1 13)) (L m p 1 14) (L m p 1 15)

def finalV (p : Dev nD) (h : Fin 2) : FVec F S16x512 .bf16 := if h = 0 then final0 m p else final1 m p

/-- The whole result: row `i 0 = 32 p + 16 h + r` comes from `finalV p h` at row `r`. -/
def OutV : S512x512.Idx → F .bf16 := fun i =>
  finalV m ⟨(i 0).val / 32, by have h1 : (i 0).val < 512 := (i 0).isLt; show (i 0).val / 32 < 16; omega⟩
    ⟨(i 0).val % 32 / 16, by omega⟩
    (ix2 ⟨(i 0).val % 16, Nat.mod_lt _ (by decide)⟩ (i 1))

end Cert.KernelIdeal.Spec

end
-- ==== Proof.LibSumIdx.lean ====
/-
  Sums over the index sets of rank-3 and rank-4 shapes as iterated sums over the coordinates, and a sum over
  `Fin (n * k)` cut into `n` consecutive blocks of `k`. (Rank 2 is the library's `ValueIdx.sum_idx2`.)
-/
import Idealize.ShloMosaic.Lib.ValueIdx

noncomputable section

open scoped BigOperators

namespace Cert.LibSumIdx

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `n * k` consecutive indices is the sum over `n` blocks of the sums over the `k` indices of each:
    index `k * t + a` is the `a`-th of block `t`. -/
theorem sum_blocks {M : Type*} [AddCommMonoid M] (n k : Nat) (f : Fin (n * k) → M) :
    ∑ r, f r = ∑ t : Fin n, ∑ a : Fin k, f ⟨k * t.val + a.val, by
      have := t.isLt; have := a.isLt
      calc k * t.val + a.val < k * t.val + k := by omega
        _ = k * (t.val + 1) := by ring
        _ ≤ k * n := Nat.mul_le_mul_left k (by omega)
        _ = n * k := Nat.mul_comm k n⟩ := by
  rw [← Equiv.sum_comp (finProdFinEquiv (m := n) (n := k)) f, Fintype.sum_prod_type]
  refine Finset.sum_congr rfl fun t _ => Finset.sum_congr rfl fun a _ => congrArg f (Fin.ext ?_)
  show a.val + k * t.val = k * t.val + a.val
  omega

end Cert.LibSumIdx

end
-- ==== Proof.ValueI.lean ====
/-
  The value of the kernel's result over the extended reals. Every device ends with the same 512 x 512
  array `OutV`. Its row 32 p + 16 h + r is the sum, over the sixteen devices d, of the inner products of
  row 32 p + 16 h + r of device d's block of the left argument with the columns of its block of the right
  one, clamped below at zero. The sixteen blocks cut the 4096 contraction indices into consecutive runs
  of 256, so the sum over the devices of the sums over their runs is the sum over all 4096 indices:
  addition of extended reals is commutative and associative, and nothing else is used.
-/
import proofs.«900453_g7700000000000454_dist_matmul_relu_kshard_i_m512_n512_k256_v7x_i16_bf16_1_alg».proof.Proof.SpecI
import proofs.«900453_g7700000000000454_dist_matmul_relu_kshard_i_m512_n512_k256_v7x_i16_bf16_1_alg».proof.Proof.RefSide
import proofs.«900453_g7700000000000454_dist_matmul_relu_kshard_i_m512_n512_k256_v7x_i16_bf16_1_alg».proof.Proof.LibSumIdx
import Idealize.ShloMosaic.Lib.Pipeline.Value
import Idealize.ShloMosaic.Lib.ValueLayout
import Idealize.ShloMosaic.PureOps.Ideal.Laws
import Idealize.ShloMosaic.Lib.Layout

noncomputable section

open scoped BigOperators

namespace Cert.KernelIdeal.ValueI

open Cert.KernelIdeal Cert.KernelIdeal.Gen Cert.KernelIdeal.Spec
open Idealize.ShloMosaic Idealize.ShloMosaic.TcCoe Idealize.ShloMosaic.ValueIdx

variable (m : (ℓ : Loc nD τ sig) → Buf (Elt Ideal) ℓ)

/-! ## The blocks, read at an index -/

theorem xA_apply (c : Dev nD) (j : S512x256.Idx) : xA m c j = m ((c : Thread nD τ).loc main_arg0) j := by
  unfold xA
  show m ((c : Thread nD τ).loc main_arg0) ((win0_0.blk (0 : Fin 1)).view.emb j) = _
  refine congrArg _ (funext fun a => Fin.ext ?_)
  match a with
  | ⟨0, _⟩ => show 0 * 512 + 1 * (j 0).val = (j 0).val; omega
  | ⟨1, _⟩ => show 0 * 256 + 1 * (j 1).val = (j 1).val; omega

theorem xB_apply (c : Dev nD) (j : S256x512.Idx) : xB m c j = m ((c : Thread nD τ).loc main_arg1) j := by
  unfold xB
  show m ((c : Thread nD τ).loc main_arg1) ((win0_1.blk (0 : Fin 1)).view.emb j) = _
  refine congrArg _ (funext fun a => Fin.ext ?_)
  match a with
  | ⟨0, _⟩ => show 0 * 256 + 1 * (j 0).val = (j 0).val; omega
  | ⟨1, _⟩ => show 0 * 512 + 1 * (j 1).val = (j 1).val; omega

/-- The blocks' entries as extended reals. -/
def aE (d : Dev nD) (i : S512x256.Idx) : EReal := xA m d i
def bE (d : Dev nD) (i : S256x512.Idx) : EReal := xB m d i

/-! ## A device's partial product at an index -/

local notation "DD" => dot_S512x256_S256x512_S512x512_1_0_0_1_n_n

theorem lhs_0 (i : S512x512.Idx) (q : DotDims.contr DD |>.Idx) : (DotDims.lhsIdx DD i q 0).val = (i 0).val := by
  unfold DotDims.lhsIdx
  rw [dif_neg (show ¬(0 : Fin S512x256.rank) ∈ DotDims.lhsBatch DD by decide), dif_pos (show (0 : Fin S512x256.rank) ∈ DotDims.lhsNonContracting DD by decide)]
  rfl
theorem lhs_1 (i : S512x512.Idx) (q : DotDims.contr DD |>.Idx) : (DotDims.lhsIdx DD i q 1).val = (q ⟨0, by decide⟩).val :=
  DotDims.lhsIdx_val_of_single DD rfl i q
theorem rhs_0 (i : S512x512.Idx) (q : DotDims.contr DD |>.Idx) : (DotDims.rhsIdx DD i q 0).val = (q ⟨0, by decide⟩).val :=
  DotDims.rhsIdx_val_of_single DD rfl i q
theorem rhs_1 (i : S512x512.Idx) (q : DotDims.contr DD |>.Idx) : (DotDims.rhsIdx DD i q 1).val = (i 1).val := by
  unfold DotDims.rhsIdx
  rw [dif_neg (show ¬(1 : Fin S256x512.rank) ∈ DotDims.rhsBatch DD by decide), dif_pos (show (1 : Fin S256x512.rank) ∈ DotDims.rhsNonContracting DD by decide)]
  rfl

/-- Device `d`'s partial product at row `a`, column `b`: the inner product over its 256 contraction indices. -/
def pEnt (d : Dev nD) (a b : Fin 512) : EReal := partV m d (ix2 a b)

theorem part_apply (d : Dev nD) (a : Fin 512) (b : Fin 512) :
    pEnt m d a b = ∑ k : Fin 256, aE m d (ix2 a k) * bE m d (ix2 k b) := by
  unfold pEnt partV k0_pay1
  rw [shapeCast_self, shapeCast_self, shapeCast_self]
  show FloatOps.matmul (F := Ideal) DD none _ _ (constant (F := Ideal) S512x512 .f32 0x00000000#32) (ix2 a b) = _
  rw [Ideal.matmul_constant_zero_apply, ← Equiv.sum_comp (ValueIdx.contrEquiv1 DD 256 rfl rfl).symm]
  refine Finset.sum_congr rfl fun k _ => ?_
  have hk := ValueIdx.contrEquiv1_symm_val DD 256 rfl rfl k
  have el : DotDims.lhsIdx DD (ix2 a b) ((ValueIdx.contrEquiv1 DD 256 rfl rfl).symm k) = ix2 a k := funext fun x => Fin.ext (by
    match x with
    | ⟨0, _⟩ => exact lhs_0 _ _
    | ⟨1, _⟩ => exact (lhs_1 _ _).trans hk)
  have er : DotDims.rhsIdx DD (ix2 a b) ((ValueIdx.contrEquiv1 DD 256 rfl rfl).symm k) = ix2 k b := funext fun x => Fin.ext (by
    match x with
    | ⟨0, _⟩ => exact (rhs_0 _ _).trans hk
    | ⟨1, _⟩ => exact rhs_1 _ _)
  rw [el, er]
  rfl

/-! ## Sums -/

/-- Sixteen terms added one after the other are their sum. -/
theorem add16 {M : Type*} [AddCommMonoid M] (x : Fin 16 → M) :
    x 0 + x 1 + x 2 + x 3 + x 4 + x 5 + x 6 + x 7 + x 8 + x 9 + x 10 + x 11 + x 12 + x 13 + x 14 + x 15 = ∑ s, x s := by
  simp only [Fin.sum_univ_castSucc, Fin.sum_univ_zero, zero_add]
  rfl

/-- Summing over the slots is summing over the senders: `s ↦ p - s` is a bijection of the devices. -/
theorem sum_senders {M : Type*} [AddCommMonoid M] (p : Fin 16) (g : Fin 16 → M) : ∑ s, g (p - s) = ∑ d, g d :=
  Equiv.sum_comp (Equiv.subLeft p) g

/-! ## The rows device `p` owns -/

/-- A receive slot's 1 x 1 x 16 x 512 vector re-cast to 16 x 512, read at a row and a column. -/
theorem cast_slot {α : Type} (v : S1x1x16x512.Idx → α) (r : Fin 16) (col : Fin 512) :
    shapeCast S16x512 v shapeCasts_S1x1x16x512_S16x512 (ix2 r col) = v (ix4 (0 : Fin 1) (0 : Fin 1) r col) :=
  shapeCast_apply v _ _ _ (by
    rw [Shape.rowMajor_val_four, Shape.rowMajor_val_two]
    show ((0 * 1 + 0) * 16 + r.val) * 512 + col.val = r.val * 512 + col.val
    omega)

/-- Entry (row 32 p + 16 h + r, column col) of device `d`'s partial product, as an extended real. -/
def pE (d p : Dev nD) (h : Fin 2) (r : Fin 16) (col : Fin 512) : EReal :=
  pEnt m d ⟨32 * p.val + 16 * h.val + r.val, row_lt p h r⟩ col

theorem rowsV_apply (d p : Dev nD) (h : Fin 2) (r : Fin 16) (col : Fin 512) :
    rowsV m d p h (ix2 r col) = pE m d p h r col := rfl

theorem final0_apply (p : Dev nD) (r : Fin 16) (col : Fin 512) :
    (show EReal from final0 m p (ix2 r col)) = max (∑ d : Dev nD, pE m d p 0 r col) 0 := by
  have key := add16 (fun s : Fin 16 => pE m (p - s) p 0 r col)
  rw [sum_senders p (fun d => pE m d p 0 r col)] at key
  rw [← key]
  have e : ∀ d : Dev nD, (shapeCast S16x512 (slotV m d p 0) shapeCasts_S1x1x16x512_S16x512) = rowsV m d p 0 := fun d => cast_slotV m d p 0
  unfold final0 k0_pay10 k0_pay9 k0_pay8 k0_pay7 k0_pay6 k0_pay5 k0_pay4 k0_pay3 k0_pay2
  simp only [Spec.L, e, truncf_apply, maximumf_apply, addf_apply, extf_apply, broadcast_apply, rowsV_apply, sub_zero]
  show max _ (Ideal.ofBits .f32 0x00000000#32) = _
  rw [Ideal.ofBits_zero_f32]

theorem final1_apply (p : Dev nD) (r : Fin 16) (col : Fin 512) :
    (show EReal from final1 m p (ix2 r col)) = max (∑ d : Dev nD, pE m d p 1 r col) 0 := by
  have key := add16 (fun s : Fin 16 => pE m (p - s) p 1 r col)
  rw [sum_senders p (fun d => pE m d p 1 r col)] at key
  rw [← key]
  have e : ∀ d : Dev nD, (shapeCast S16x512 (slotV m d p 1) shapeCasts_S1x1x16x512_S16x512) = rowsV m d p 1 := fun d => cast_slotV m d p 1
  unfold final1 k0_pay19 k0_pay18 k0_pay17 k0_pay16 k0_pay15 k0_pay14 k0_pay13 k0_pay12
  simp only [Spec.L, e, truncf_apply, maximumf_apply, addf_apply, extf_apply, broadcast_apply, rowsV_apply, sub_zero]
  show max _ (Ideal.ofBits .f32 0x00000000#32) = _
  rw [Ideal.ofBits_zero_f32]

/-! ## Against the whole arrays -/

section Whole

variable (A' : (⟨2, ![512, 4096]⟩ : Shape).Idx → EReal) (B' : (⟨2, ![4096, 512]⟩ : Shape).Idx → EReal)
variable (hA : ∀ c : Dev nD, (m ((c : Thread nD τ).loc main_arg0) : S512x256.Idx → EReal) = Layout.block ⟨2, ![512, 256]⟩ ⟨2, ![512, 4096]⟩ 1 16 c A')
variable (hB : ∀ c : Dev nD, (m ((c : Thread nD τ).loc main_arg1) : S256x512.Idx → EReal) = Layout.block ⟨2, ![256, 512]⟩ ⟨2, ![4096, 512]⟩ 0 16 c B')

theorem k_lt (d : Dev nD) (k : Fin 256) : 256 * d.val + k.val < 4096 := by
  have h1 : d.val < 16 := d.isLt; have := k.isLt; omega

include hA in
theorem aE_eq (d : Dev nD) (a : Fin 512) (k : Fin 256) : aE m d (ix2 a k) = A' (ix2 a ⟨256 * d.val + k.val, k_lt d k⟩) := by
  unfold aE
  rw [xA_apply]
  show (m ((d : Thread nD τ).loc main_arg0) : S512x256.Idx → EReal) (ix2 a k) = _
  rw [hA d, Layout.block_apply]
  refine congrArg A' (funext fun x => Fin.ext ?_)
  match x with
  | ⟨0, _⟩ => rfl
  | ⟨1, _⟩ => show d.val * 256 + k.val = 256 * d.val + k.val; omega

include hB in
theorem bE_eq (d : Dev nD) (k : Fin 256) (b : Fin 512) : bE m d (ix2 k b) = B' (ix2 ⟨256 * d.val + k.val, k_lt d k⟩ b) := by
  unfold bE
  rw [xB_apply]
  show (m ((d : Thread nD τ).loc main_arg1) : S256x512.Idx → EReal) (ix2 k b) = _
  rw [hB d, Layout.block_apply]
  refine congrArg B' (funext fun x => Fin.ext ?_)
  match x with
  | ⟨0, _⟩ => show d.val * 256 + k.val = 256 * d.val + k.val; omega
  | ⟨1, _⟩ => rfl

include hA hB in
/-- The devices' partial products at one entry add up to the whole inner product. -/
theorem sum_parts (a : Fin 512) (b : Fin 512) :
    ∑ d : Dev nD, pEnt m d a b = ∑ k : Fin 4096, A' (ix2 a k) * B' (ix2 k b) := by
  rw [show (∑ k : Fin 4096, A' (ix2 a k) * B' (ix2 k b)) = ∑ k : Fin (16 * 256), A' (ix2 a k) * B' (ix2 k b) from rfl,
    Cert.LibSumIdx.sum_blocks 16 256]
  refine Finset.sum_congr rfl fun d _ => ?_
  rw [part_apply]
  exact Finset.sum_congr rfl fun k _ => by rw [aE_eq m A' hA, bE_eq m B' hB]

include hA hB in
/-- Every device's result is the reference's. -/
theorem OutV_eq : (OutV m : S512x512.Idx → EReal) = Cert.RefSide.G A' B' := by
  funext i
  have hrow : (i 0).val < 512 := (i 0).isLt
  unfold OutV finalV Cert.RefSide.G
  by_cases hh : (⟨(i 0).val % 32 / 16, by omega⟩ : Fin 2) = 0
  · rw [if_pos hh]
    have h0 : (i 0).val % 32 / 16 = 0 := congrArg Fin.val hh
    refine (final0_apply m _ _ _).trans ?_
    unfold pE
    refine (congrArg (fun z => max z 0) (sum_parts m A' B' hA hB _ _)).trans ?_
    refine congrArg (fun z => max z 0) (Finset.sum_congr rfl fun k _ => ?_)
    congr 2
    refine congrArg (fun z => ix2 z k) (Fin.ext ?_)
    show 32 * ((i 0).val / 32) + 16 * 0 + (i 0).val % 16 = (i 0).val
    omega
  · rw [if_neg hh]
    have h1 : (i 0).val % 32 / 16 = 1 := by
      have : (i 0).val % 32 / 16 ≠ 0 := fun h => hh (Fin.ext h)
      omega
    refine (final1_apply m _ _ _).trans ?_
    unfold pE
    refine (congrArg (fun z => max z 0) (sum_parts m A' B' hA hB _ _)).trans ?_
    refine congrArg (fun z => max z 0) (Finset.sum_congr rfl fun k _ => ?_)
    congr 2
    refine congrArg (fun z => ix2 z k) (Fin.ext ?_)
    show 32 * ((i 0).val / 32) + 16 * 1 + (i 0).val % 16 = (i 0).val
    omega

end Whole

end Cert.KernelIdeal.ValueI

end
-- ==== Proof.LibOwesQueue.lean ====
/-
  What a thread owes, as the list of the payments it has still to make, in program order.

  A thread of a collective kernel pays its dues one after the other: each signal or addressed transfer
  pays one tally (a cell, an index, an amount). If what it owes at launch is the sum of the tallies of
  the list of its payments, built so that the FIRST payment is the last summand, then each payment peels
  one summand by definition (`owed_cons`), whatever the length of the list. Where the levels of the
  cells rise along the list, every wait on a cell below the rest of the list is allowed
  (`mayWait_owed`). The launch credit of such lists, device by device, is the launch credit of the
  sites one by one (`launchCred_owed_map`), and a site at which device `d` pays a cell of device
  `d + s` gives device `c` the matching credit token (`launchCred_shift`).
-/
import Idealize.ShloMosaic.Lib.Pipeline.Launch
import Idealize.ShloMosaic.Lib.Pipeline.Kit

noncomputable section

namespace Cert.LibOwesQueue

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- One payment: the cell, the index and the amount. -/
abbrev Pay (nD : Nat) (τ : Topo) (sig : RefSig) (Ix : Type) : Type := GSem nD τ sig × Ix × ℕ

/-- What is owed when the payments still to make are `l`, the next one first. -/
def owed : List (Pay nD τ sig Ix) → CellTallies nD τ sig Ix
  | [] => 0
  | x :: xs => owed xs + tallyAt x.1 x.2.1 x.2.2

theorem owed_nil : owed ([] : List (Pay nD τ sig Ix)) = 0 := rfl

/-- The next payment is the last summand: paying it leaves the rest of the list. -/
theorem owed_cons (x : Pay nD τ sig Ix) (xs : List (Pay nD τ sig Ix)) :
    owed (x :: xs) = owed xs + tallyAt x.1 x.2.1 x.2.2 := rfl

/-- Something is owed only to the cells and indices of the list. -/
theorem owed_pos {l : List (Pay nD τ sig Ix)} {g : GSem nD τ sig} {i : Ix} (h : 0 < owed l g i) :
    ∃ x ∈ l, x.1 = g ∧ x.2.1 = i := by
  induction l with
  | nil => exact absurd h (by simp [owed])
  | cons x xs ih =>
    rcases Pipeline.add_pos_cases (D₁ := owed xs) (D₂ := tallyAt x.1 x.2.1 x.2.2) h with h1 | h2
    · obtain ⟨y, hy, e⟩ := ih h1
      exact ⟨y, List.mem_cons_of_mem _ hy, e⟩
    · obtain ⟨e1, e2⟩ := Pipeline.tallyAt_pos h2
      exact ⟨x, List.mem_cons_self, e1.symm, e2.symm⟩

/-- A wait on cell `s` at index `ι` while the list `l` is still owed: allowed when every cell of the list
    has a level, above the waited cell's. -/
theorem mayWait_owed [Preorder Lvl] {c : Thread nD τ} {s : SemLoc sig} {ι : Ix} {l : List (Pay nD τ sig Ix)}
    {L : GSem nD τ sig → Finset Ix} {lev : GSem nD τ sig → Ix → Lvl} (hι : ι ∈ L (c, s))
    (h : ∀ x ∈ l, x.2.1 ∈ L x.1 ∧ lev (c, s) ι < lev x.1 x.2.1) :
    (levAts L lev : sProp 𝕄) ⊢ MayWait c s ι (owed l) :=
  Pipeline.mayWait_of_levAts hι fun g i hp => by
    obtain ⟨x, hx, rfl, rfl⟩ := owed_pos hp
    exact h x hx

/-- The launch credit of lists of payments made site by site (`f d a` is what device `d` pays at site `a`)
    is the launch credits of the sites. -/
theorem launchCred_owed_map {α : Type} (sites : List α) (f : Dev nD → α → Pay nD τ sig Ix) (c : Dev nD) :
    (Pipeline.launchCred (fun d => owed (sites.map (f d))) c : sProp 𝕄)
      = bigSepL sites fun a => Pipeline.launchCred (fun d => tallyAt (f d a).1 (f d a).2.1 (f d a).2.2) c := by
  induction sites with
  | nil => exact Pipeline.launchCred_zero c
  | cons a rest ih =>
    show (Pipeline.launchCred (fun d => owed (rest.map (f d)) + tallyAt (f d a).1 (f d a).2.1 (f d a).2.2) c : sProp 𝕄) = _
    rw [Pipeline.launchCred_add, ih, bigSepL_cons]
    exact BI.Entails.antisymm (sep_comm (PROP := sProp 𝕄)).1 (sep_comm (PROP := sProp 𝕄)).1

end Cert.LibOwesQueue

end
-- ==== Proof.LibShares.lean ====
/-
  One buffer read by several transfers at once: a share of it for each.

  A positive tree share `q` is cut into `n` pieces and a rest by taking left halves of successive right
  halves: `piece q 0` is the left half of `q`, `piece q 1` the left half of its right half, and so on;
  `rest q n` is what remains after `n` pieces. A points-to at share `q` is the points-tos at the first `n`
  pieces and at the rest (`pointsTo_pieces`), in both directions: the pieces go out with `n` concurrent
  reads of the same elements and come back one by one.
-/
import Idealize.ShloMosaic.Rules.PointsTo

noncomputable section

namespace Cert.LibShares

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- What remains of `q` after `n` pieces: the right half, `n` times. -/
def rest (q : PosShare TreeShare) : ℕ → PosShare TreeShare
  | 0 => q
  | n + 1 => (rest q n).right

/-- Piece `n` of `q`: the left half of what remained after `n` pieces. -/
def piece (q : PosShare TreeShare) (n : ℕ) : PosShare TreeShare := (rest q n).left

variable {ℓ : Loc nD τ sig} {I : Finset (Idx ℓ)} {f : Buf Val ℓ}

/-- One more piece off the rest. -/
theorem pointsTo_rest_succ (q : PosShare TreeShare) (n : ℕ) :
    (ℓ ↦[I]{rest q n} f : sProp 𝕄) ⊣⊢ iprop((ℓ ↦[I]{piece q n} f) ∗ ℓ ↦[I]{rest q (n + 1)} f) :=
  pointsTo_share (PosShare.mem_left_op_right (rest q n))

/-- A points-to at share `q` as its first `n` pieces and the rest. -/
theorem pointsTo_pieces (q : PosShare TreeShare) (n : ℕ) :
    (ℓ ↦[I]{q} f : sProp 𝕄) ⊣⊢ iprop((bigSep (Finset.range n) fun i => ℓ ↦[I]{piece q i} f) ∗ ℓ ↦[I]{rest q n} f) := by
  induction n with
  | zero =>
    rw [Finset.range_zero, bigSep_empty]
    constructor
    · iintro H; isplitr; · iempintro
      iexact H
    · iintro ⟨-, H⟩; iexact H
  | succ n ih =>
    rw [Finset.range_add_one, bigSep_insert Finset.notMem_range_self]
    show (ℓ ↦[I]{q} f : sProp 𝕄) ⊣⊢ iprop(((ℓ ↦[I]{piece q n} f) ∗ bigSep (Finset.range n) fun i => ℓ ↦[I]{piece q i} f) ∗ ℓ ↦[I]{rest q (n + 1)} f)
    constructor
    · refine ih.1.trans ?_
      iintro ⟨Hs, Hr⟩
      ihave H := (pointsTo_rest_succ (ℓ := ℓ) (I := I) (f := f) q n).1 $$ Hr
      icases H with ⟨Hp, Hr⟩
      isplitl [Hs Hp]
      · isplitl [Hp]; · iexact Hp
        iexact Hs
      · iexact Hr
    · refine BIBase.Entails.trans ?_ ih.2
      iintro ⟨⟨Hp, Hs⟩, Hr⟩
      isplitl [Hs]; · iexact Hs
      iapply (pointsTo_rest_succ (ℓ := ℓ) (I := I) (f := f) q n).2
      isplitl [Hp]; · iexact Hp
      iexact Hr

end Cert.LibShares

end
-- ==== Proof.ProtoI.lean ====
/-
  The cross-device protocol of the kernel: its cells, what each landing hands over, who pays what.
-/
import proofs.«900453_g7700000000000454_dist_matmul_relu_kshard_i_m512_n512_k256_v7x_i16_bf16_1_alg».proof.Proof.SpecI
import proofs.«900453_g7700000000000454_dist_matmul_relu_kshard_i_m512_n512_k256_v7x_i16_bf16_1_alg».proof.Proof.Gen.KernelIdeal.Frame
import proofs.«900453_g7700000000000454_dist_matmul_relu_kshard_i_m512_n512_k256_v7x_i16_bf16_1_alg».proof.Proof.LibOwesQueue
import proofs.«900453_g7700000000000454_dist_matmul_relu_kshard_i_m512_n512_k256_v7x_i16_bf16_1_alg».proof.Proof.LibShares
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Spec
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the collective's (duties `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices: the one `r + 1` places after `c`, and the one `r + 1` places before -/

def sh (r : Fin 15) : Dev nD := ⟨r.val + 1, by have := r.isLt; show r.val + 1 < 16; omega⟩
def tgt (c : Dev nD) (r : Fin 15) : Dev nD := c + sh r
def fr (c : Dev nD) (r : Fin 15) : Dev nD := c - sh r

theorem fr_tgt (c : Dev nD) (r : Fin 15) : fr (tgt c r) r = c := add_sub_cancel_right c (sh r)
theorem tgt_fr (c : Dev nD) (r : Fin 15) : tgt (fr c r) r = c := sub_add_cancel c (sh r)
theorem tgt_val (c : Dev nD) (r : Fin 15) : (tgt c r).val = (c.val + r.val + 1) % 16 := by
  show (c + sh r).val = _
  rw [Fin.val_add]; show (c.val + (r.val + 1)) % 16 = _; rw [Nat.add_assoc]

/-! ## The memrefs and the semaphores -/

abbrev aM : Memref sig .tc .vmem S512x256 .f32 := Memref.whole cc0_stg0_0
abbrev bM : Memref sig .tc .vmem S256x512 .f32 := Memref.whole cc0_stg1_0
abbrev oM : Memref sig .tc .vmem S512x512 .bf16 := Memref.whole cc0_stg2_0
abbrev pM : Memref sig .tc .vmem S512x512 .bf16 := Memref.whole cc0_scratch0
abbrev rM : Memref sig .tc .vmem S2x16x16x512 .bf16 := Memref.whole cc0_scratch1
abbrev kM : Memref sig .tc .vmem S2x16x512 .bf16 := Memref.whole cc0_scratch2

/-- The runtime's barrier semaphore of collective id 0. -/
abbrev barS : Sem sig := (SemArray.scalar (sig.barrier 0 rfl) : Sems sig S_).sem

theorem inb_sem (h : Fin 2) (r : Fin 15) : ∀ a, (![h.val, r.val + 1] : Fin 2 → Nat) a + S1x1.size a ≤ S2x16.size a := by
  intro a
  match a with
  | ⟨0, _⟩ => show h.val + 1 ≤ 2; omega
  | ⟨1, _⟩ => show r.val + 1 + 1 ≤ 16; omega

/-- Semaphore `(h, r + 1)` of one of the four 2 x 16 arrays of DMA semaphores. -/
def semAt (A : DmaSems sig S2x16) (h : Fin 2) (r : Fin 15) : DmaSem sig :=
  ((A.slice (Rect.unit (s := S2x16) ![h.val, r.val + 1] S1x1.size (inb_sem h r))).squeeze S_ squeezes_S1x1_S_).sem

/-- The four arrays: reduce-scatter send and receive, all-gather send and receive. -/
abbrev arr : Fin 4 → DmaSems sig S2x16 := fun | 0 => cc0_scratch3 | 1 => cc0_scratch4 | 2 => cc0_scratch5 | 3 => cc0_scratch6

theorem semAt_val : ∀ (k : Fin 4) (h : Fin 2) (r : Fin 15), (semAt (arr k) h r).val = 3 + 32 * k.val + 16 * h.val + r.val + 1 := by decide

abbrev barCell (c : Dev nD) : GSem nD τ sig := ((c : Thread nD τ), .reg barS)
abbrev xCell (c : Dev nD) (k : Fin 4) (h : Fin 2) (r : Fin 15) : GSem nD τ sig := ((c : Thread nD τ), .dma (semAt (arr k) h r))

/-! ## Which cell a semaphore is -/

inductive CK where
  | bar
  | x (k : Fin 4) (h : Fin 2) (r : Fin 15)
  | other
deriving DecidableEq

theorem q_lt (q : DmaSem sig) : q.val < 131 := q.isLt

/-- The barrier semaphore; DMA semaphore `3 + 32 k + 16 h + r + 1` is `(h, r + 1)` of array `k`; the others
    (the staging semaphores, and column 0 of each array, which the kernel never uses) take no part. -/
def decode : SemLoc sig → CK
  | .reg s => if s = barS then .bar else .other
  | .dma q =>
    if hq : 3 ≤ q.val ∧ 1 ≤ (q.val - 3) % 16 then
      .x ⟨(q.val - 3) / 32, by have := q_lt q; omega⟩ ⟨(q.val - 3) % 32 / 16, by omega⟩ ⟨(q.val - 3) % 16 - 1, by omega⟩
    else .other

theorem decode_bar : decode (.reg barS) = .bar := by decide
theorem decode_x : ∀ (k : Fin 4) (h : Fin 2) (r : Fin 15), decode (.dma (semAt (arr k) h r)) = .x k h r := by decide

/-! ## The views the transfers move -/

theorem inb_rs (h : Fin 2) (r : Fin 15) : ∀ a, (![h.val, r.val + 1, 0, 0] : Fin 4 → Nat) a + S1x1x16x512.size a ≤ S2x16x16x512.size a := by
  intro a
  match a with
  | ⟨0, _⟩ => show h.val + 1 ≤ 2; omega
  | ⟨1, _⟩ => show r.val + 1 + 1 ≤ 16; omega
  | ⟨2, _⟩ => show 0 + 16 ≤ 16; omega
  | ⟨3, _⟩ => show 0 + 512 ≤ 512; omega

theorem inb_bc (h : Fin 2) : ∀ a, (![h.val, 0, 0] : Fin 3 → Nat) a + S1x16x512.size a ≤ S2x16x512.size a := by
  intro a
  match a with
  | ⟨0, _⟩ => show h.val + 1 ≤ 2; omega
  | ⟨1, _⟩ => show 0 + 16 ≤ 16; omega
  | ⟨2, _⟩ => show 0 + 512 ≤ 512; omega

/-- The rows of device `d`'s partial product that belong to device `tgt d r`, half `h`: the source of its
    reduce-scatter copy `(h, r)`. -/
abbrev rsSrc (d : Dev nD) (h : Fin 2) (r : Fin 15) : Memref sig .tc .vmem S16x512 .bf16 :=
  pM.slice (Rect.unit (s := S512x512) (k0_off1 d (BitVec.ofNat 32 (1 + r.val)) (BitVec.ofNat 32 (16 * h.val))) S16x512.size (k0_off1_inb d r h)) (fun _ => rfl)
/-- Receive slot `(h, r + 1)`: the destination of the copy `(h, r)` addressed to the device. -/
abbrev rsDst (h : Fin 2) (r : Fin 15) : Memref sig .tc .vmem S16x512 .bf16 :=
  (rM.slice (Rect.unit (s := S2x16x16x512) ![h.val, r.val + 1, 0, 0] S1x1x16x512.size (inb_rs h r)) (fun _ => rfl)).squeeze S16x512 squeezes_S1x1x16x512_S16x512
/-- The finished half `h`: the source of the all-gather copies `(h, ·)`. -/
abbrev agSrc (h : Fin 2) : Memref sig .tc .vmem S16x512 .bf16 :=
  (kM.slice (Rect.unit (s := S2x16x512) ![h.val, 0, 0] S1x16x512.size (inb_bc h)) (fun _ => rfl)).squeeze S16x512 squeezes_S1x16x512_S16x512
/-- Rows `32 d + 16 h ..` of the result buffer: where device `d`'s finished half `h` lands, on every device. -/
abbrev agDst (d : Dev nD) (h : Fin 2) : Memref sig .tc .vmem S16x512 .bf16 :=
  oM.slice (Rect.unit (s := S512x512) (k0_off3 d (BitVec.ofNat 32 (16 * h.val))) S16x512.size (k0_off3_inb d h)) (fun _ => rfl)

/-- The credit of one 16 x 512 transfer, into a receive slot and into the result buffer. -/
abbrev Nrs : ℕ := (rsDst 0 0).view.dmaCredit
abbrev Nag : ℕ := (agDst 0 0).view.dmaCredit
theorem Nrs_pos : 0 < Nrs := by decide
theorem Nag_pos : 0 < Nag := by decide
theorem rsDst_credit (h : Fin 2) (r : Fin 15) : (rsDst h r).view.dmaCredit = Nrs := rfl
theorem agDst_credit (d : Dev nD) (h : Fin 2) : (agDst d h).view.dmaCredit = Nag := rfl
theorem rsSrc_credit (d : Dev nD) (h : Fin 2) (r : Fin 15) : (rsSrc d h r).view.dmaCredit = Nrs := by
  show sig.dmaCredit .tc (Kind.tc.table .vmem) (pM : Memref sig .tc .vmem S512x512 .bf16).view.buf S16x512 .bf16 = sig.dmaCredit .tc (Kind.tc.table .vmem) (rM : Memref sig .tc .vmem S2x16x16x512 .bf16).view.buf S16x512 .bf16
  decide
theorem agSrc_credit (h : Fin 2) : (agSrc h).view.dmaCredit = Nag := by
  show sig.dmaCredit .tc (Kind.tc.table .vmem) (kM : Memref sig .tc .vmem S2x16x512 .bf16).view.buf S16x512 .bf16 = sig.dmaCredit .tc (Kind.tc.table .vmem) (oM : Memref sig .tc .vmem S512x512 .bf16).view.buf S16x512 .bf16
  decide

/-! ## Contents -/

/-- Device `d`'s partial product, as its scratch buffer holds it. -/
def partBuf (d : Dev nD) : Buf (Elt F) ((d : Thread nD τ).loc cc0_scratch0) := partV m d
/-- Device `d`'s finished half `h`, as its broadcast buffer holds it: written through the half's view. -/
def bcBuf (d : Dev nD) (h : Fin 2) : Buf (Elt F) ((d : Thread nD τ).loc cc0_scratch2) :=
  (agSrc h).view.write (Elt F) (fun _ => FloatOps.ofBits .bf16 0) (finalV m d h) Finset.univ

/-- The share of the broadcast buffer's half that the all-gather copy `(·, r)` reads. -/
def shareOf (r : Fin 15) : PosShare TreeShare := Cert.LibShares.piece fullShare r.val

/-! ## What the duties hand over -/

/-- The source rows of the reduce-scatter copy `(h, r)` of device `c`, back with its send semaphore. -/
def rsSrcPts (c : Dev nD) (h : Fin 2) (r : Fin 15) : sProp 𝕄 :=
  (rsSrc c h r).view.loc (c : Thread nD τ) ↦[(rsSrc c h r).view.set]{fullShare} partBuf m c
/-- Receive slot `(h, r + 1)` of device `p`, at some contents. -/
def rsSlotAny (p : Dev nD) (h : Fin 2) (r : Fin 15) : sProp 𝕄 :=
  iprop(∃ f, (rsDst h r).view.loc (p : Thread nD τ) ↦[(rsDst h r).view.set]{fullShare} f)
/-- The same slot after the copy from device `fr p r` has landed: its rows of that device's partial product. -/
def rsLanded (p : Dev nD) (h : Fin 2) (r : Fin 15) : sProp 𝕄 :=
  iprop(∃ fd, (rsDst h r).view.loc (p : Thread nD τ) ↦[(rsDst h r).view.set]{fullShare}
    ((rsDst h r).view.write (Elt F) fd ((rsSrc (fr p r) h r).view.read (Elt F) (partBuf m (fr p r))) Finset.univ))
/-- The finished half `h` of device `c`, at the share the all-gather copy `(h, r)` reads. -/
def agSrcPts (c : Dev nD) (h : Fin 2) (r : Fin 15) : sProp 𝕄 :=
  (agSrc h).view.loc (c : Thread nD τ) ↦[(agSrc h).view.set]{shareOf r} bcBuf m c h
/-- Rows `32 d + 16 h ..` of device `p`'s result buffer, at some contents. -/
def outRowsAny (p d : Dev nD) (h : Fin 2) : sProp 𝕄 :=
  iprop(∃ f, (agDst d h).view.loc (p : Thread nD τ) ↦[(agDst d h).view.set]{fullShare} f)
/-- Rows `32 (fr p r) + 16 h ..` of device `p`'s result buffer after device `fr p r`'s finished half has landed. -/
def agLanded (p : Dev nD) (h : Fin 2) (r : Fin 15) : sProp 𝕄 :=
  iprop(∃ fd, (agDst (fr p r) h).view.loc (p : Thread nD τ) ↦[(agDst (fr p r) h).view.set]{fullShare}
    ((agDst (fr p r) h).view.write (Elt F) fd ((agSrc h).view.read (Elt F) (bcBuf m (fr p r) h)) Finset.univ))

/-- What device `tgt c r` hands device `c` with its barrier signal: the two receive slots and the two groups of
    result rows that `c`'s copies to it will write. -/
def barPayR (c : Dev nD) (r : Fin 15) : sProp 𝕄 :=
  iprop(rsSlotAny (tgt c r) 0 r ∗ rsSlotAny (tgt c r) 1 r ∗ outRowsAny (tgt c r) c 0 ∗ outRowsAny (tgt c r) c 1)

def barPay (c : Dev nD) (d : Fin 16) : sProp 𝕄 :=
  if hd : d.val ≠ 0 then barPayR c ⟨d.val - 1, by have := d.isLt; omega⟩ else iprop(emp)

def xPay (c : Dev nD) (k : Fin 4) (h : Fin 2) (r : Fin 15) : sProp 𝕄 :=
  match k with
  | 0 => rsSrcPts m c h r
  | 1 => rsLanded m c h r
  | 2 => agSrcPts m c h r
  | 3 => agLanded m c h r

set_option synthInstance.maxHeartbeats 400000 in
instance rsSrcPts_storable (c : Dev nD) (h : Fin 2) (r : Fin 15) : BI.Storable (upEmb : UEmb _ 𝕄) (rsSrcPts (F := F) m c h r) := by unfold rsSrcPts; infer_instance
set_option synthInstance.maxHeartbeats 400000 in
instance rsSlotAny_storable (p : Dev nD) (h : Fin 2) (r : Fin 15) : BI.Storable (upEmb : UEmb _ 𝕄) (rsSlotAny (F := F) p h r) := by unfold rsSlotAny; infer_instance
set_option synthInstance.maxHeartbeats 400000 in
instance rsLanded_storable (p : Dev nD) (h : Fin 2) (r : Fin 15) : BI.Storable (upEmb : UEmb _ 𝕄) (rsLanded (F := F) m p h r) := by unfold rsLanded; infer_instance
set_option synthInstance.maxHeartbeats 400000 in
instance agSrcPts_storable (c : Dev nD) (h : Fin 2) (r : Fin 15) : BI.Storable (upEmb : UEmb _ 𝕄) (agSrcPts (F := F) m c h r) := by unfold agSrcPts; infer_instance
set_option synthInstance.maxHeartbeats 400000 in
instance outRowsAny_storable (p d : Dev nD) (h : Fin 2) : BI.Storable (upEmb : UEmb _ 𝕄) (outRowsAny (F := F) p d h) := by unfold outRowsAny; infer_instance
set_option synthInstance.maxHeartbeats 400000 in
instance agLanded_storable (p : Dev nD) (h : Fin 2) (r : Fin 15) : BI.Storable (upEmb : UEmb _ 𝕄) (agLanded (F := F) m p h r) := by unfold agLanded; infer_instance
instance barPayR_storable (c : Dev nD) (r : Fin 15) : BI.Storable (upEmb : UEmb _ 𝕄) (barPayR (F := F) c r) := by unfold barPayR; infer_instance
instance barPay_storable (c : Dev nD) (d : Fin 16) : BI.Storable (upEmb : UEmb _ 𝕄) (barPay (F := F) c d) := by unfold barPay; split <;> infer_instance
instance xPay_storable (c : Dev nD) (k : Fin 4) (h : Fin 2) (r : Fin 15) : BI.Storable (upEmb : UEmb _ 𝕄) (xPay (F := F) m c k h r) := by
  unfold xPay
  match k with
  | 0 => show BI.Storable upEmb (rsSrcPts m c h r); infer_instance
  | 1 => show BI.Storable upEmb (rsLanded m c h r); infer_instance
  | 2 => show BI.Storable upEmb (agSrcPts m c h r); infer_instance
  | 3 => show BI.Storable upEmb (agLanded m c h r); infer_instance

/-! ## The schedule: one round -/

def amt (k : Fin 4) : ℕ := if k.val < 2 then Nrs else Nag
theorem amt_pos (k : Fin 4) : 0 < amt k := by unfold amt; split; exact Nrs_pos; exact Nag_pos

/-- Round 0 only. A barrier cell has fifteen duties of one unit, duty `r + 1` paid by device `tgt c r`; each
    of the 120 transfer cells one duty of one block's credit. -/
def Rd : Rounds.Schedule (GSem nD τ sig) (Fin 16) 𝕄 where
  duties g r :=
    if r = 0 ∧ g.1.2 = .tc then
      (match decode g.2 with | .bar => Finset.univ.erase 0 | .x _ _ _ => {0} | .other => ∅)
    else ∅
  unitless _ := False
  amount g _ _ := match decode g.2 with | .x k _ _ => amt k | _ => 1
  payload g _ d := match decode g.2 with
    | .bar => barPay g.1.1 d
    | .x k h r => xPay m g.1.1 k h r
    | .other => iprop(emp)
  amount_pos g _ _ _ := by
    split
    · exact amt_pos _
    · exact Nat.one_pos

instance Rd_payload_storable (g : GSem nD τ sig) (r : ℕ) (d : Fin 16) :
    BI.Storable (upEmb : UEmb _ 𝕄) ((Rd (F := F) m).payload g r d) := by
  show BI.Storable upEmb (match decode g.2 with
    | .bar => barPay g.1.1 d
    | .x k h r => xPay m g.1.1 k h r
    | .other => iprop(emp))
  split <;> infer_instance

/-! ## The schedule's tables -/

section Tables

variable (c : Dev nD) (k : Fin 4) (h : Fin 2) (r : Fin 15)

theorem duties_bar : (Rd (F := F) m).duties (barCell c) 0 = Finset.univ.erase 0 := by
  dsimp only [Rd]; rw [if_pos ⟨rfl, rfl⟩, decode_bar]
theorem duties_x : (Rd (F := F) m).duties (xCell c k h r) 0 = {0} := by
  dsimp only [Rd]; rw [if_pos ⟨rfl, rfl⟩, decode_x]
theorem duties_later (g : GSem nD τ sig) : ∀ r, 1 ≤ r → (Rd (F := F) m).duties g r = ∅ :=
  fun r hr => by dsimp only [Rd]; rw [if_neg fun h => by omega]

theorem amount_bar (d : Fin 16) : (Rd (F := F) m).amount (barCell c) 0 d = 1 := by dsimp only [Rd]; rw [decode_bar]
theorem amount_x (d : Fin 16) : (Rd (F := F) m).amount (xCell c k h r) 0 d = amt k := by dsimp only [Rd]; rw [decode_x]

theorem payload_bar (d : Fin 16) : (Rd (F := F) m).payload (barCell c) 0 d = barPay c d := by dsimp only [Rd]; rw [decode_bar]
theorem payload_x (d : Fin 16) : (Rd (F := F) m).payload (xCell c k h r) 0 d = xPay m c k h r := by dsimp only [Rd]; rw [decode_x]

theorem expect_bar : (Rd (F := F) m).expect (barCell c) 0 = 15 := by
  unfold Schedule.expect Schedule.amountOf
  rw [duties_bar, Finset.sum_congr rfl fun d _ => amount_bar m c d, Finset.sum_const, smul_eq_mul, Nat.mul_one]
  decide
theorem expect_x : (Rd (F := F) m).expect (xCell c k h r) 0 = amt k := by
  unfold Schedule.expect Schedule.amountOf; rw [duties_x, Finset.sum_singleton, amount_x]

end Tables

/-! ## What each device owes at launch, in program order; the levels -/

inductive Site where
  | sig (r : Fin 15)
  | rs (h : Fin 2) (r : Fin 15)
  | ag (h : Fin 2) (r : Fin 15)
deriving DecidableEq

abbrev PayT : Type := Cert.LibOwesQueue.Pay nD τ sig Unit

/-- What device `d` pays at a site: one unit to the barrier cell of device `tgt d r`; a block's credit to its
    receive cell `(h, r)` of the reduce-scatter; of the all-gather. -/
def sitePay (d : Dev nD) : Site → PayT
  | .sig r => (barCell (tgt d r), (), 1)
  | .rs h r => (xCell (tgt d r) 1 h r, (), Nrs)
  | .ag h r => (xCell (tgt d r) 3 h r, (), Nag)

/-- The sites in program order: the fifteen signals; the thirty reduce-scatter copies, half 0 then half 1; the
    fifteen all-gather copies of half 0; of half 1. -/
def sites : List Site :=
  (List.finRange 15).map .sig ++ (List.finRange 15).map (.rs 0) ++ (List.finRange 15).map (.rs 1)
    ++ (List.finRange 15).map (.ag 0) ++ (List.finRange 15).map (.ag 1)

def O₀ (c : Dev nD) : CellTallies nD τ sig Unit := Cert.LibOwesQueue.owed ((sites.map (sitePay c)))

def L (g : GSem nD τ sig) : Finset Unit := if g.1.2 = .tc then {()} else ∅
/-- Barrier cells at 1, reduce-scatter receive cells at 2, all-gather receive cells at 3, everything else
    (the staging cells, the send cells) at 0. -/
def lv (g : GSem nD τ sig) (_ : Unit) : ℕ :=
  match decode g.2 with
  | .bar => 1
  | .x k _ _ => if k = 1 then 2 else if k = 3 then 3 else 0
  | .other => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [decode_bar]
theorem lv_x (c : Dev nD) (k : Fin 4) (h : Fin 2) (r : Fin 15) :
    lv (xCell c k h r) () = if k = 1 then 2 else if k = 3 then 3 else 0 := by unfold lv; rw [decode_x]

/-- Every site pays a TensorCore's cell, at level 1 or above. -/
theorem sitePay_lv (d : Dev nD) (s : Site) : () ∈ L (sitePay d s).1 ∧ 1 ≤ lv (sitePay d s).1 () := by
  cases s with
  | sig r => exact ⟨by rw [show (sitePay d (.sig r)).1 = barCell (tgt d r) from rfl, L_tc]; exact Finset.mem_singleton_self _, by rw [show (sitePay d (.sig r)).1 = barCell (tgt d r) from rfl, lv_bar]⟩
  | rs h r => exact ⟨by rw [show (sitePay d (.rs h r)).1 = xCell (tgt d r) 1 h r from rfl, L_tc]; exact Finset.mem_singleton_self _, by rw [show (sitePay d (.rs h r)).1 = xCell (tgt d r) 1 h r from rfl, lv_x]; decide⟩
  | ag h r => exact ⟨by rw [show (sitePay d (.ag h r)).1 = xCell (tgt d r) 3 h r from rfl, L_tc]; exact Finset.mem_singleton_self _, by rw [show (sitePay d (.ag h r)).1 = xCell (tgt d r) 3 h r from rfl, lv_x]; decide⟩

/-- A wait on a cell of level 0 (a staging cell, a send cell) is allowed whatever part of the list is still owed. -/
theorem mayWait_low (c : Dev nD) (sm : SemLoc sig) (hsm : lv ((c : Thread nD τ), sm) () = 0) (l : List Site) :
    (levAts L lv : sProp 𝕄) ⊢ MayWait (c : Thread nD τ) sm () (Cert.LibOwesQueue.owed (l.map (sitePay c))) :=
  Cert.LibOwesQueue.mayWait_owed (by rw [L_tc]; exact Finset.mem_singleton_self _) fun x hx => by
    obtain ⟨s, _, rfl⟩ := List.mem_map.mp hx
    exact ⟨(sitePay_lv c s).1, by rw [hsm]; exact (sitePay_lv c s).2⟩

end Cert.KernelIdeal.Proto

end
-- ==== Proof.LibDeal.lean ====
/-
  Dealing tokens round a mesh: big separating conjunctions over two finite index types.

  At launch each device's cells mint their own duty tokens; the protocol needs each token with the device that
  PAYS the duty. When the payer of duty `b` of device `a`'s cell is `e b a`, for a bijection `e b` of the devices
  for every `b`, the tokens of all devices' cells, taken together, are the tokens every device pays
  (`bigSep_redeal`).
-/
import Idealize.SL.BI.BigOp
import Idealize.ShloMosaic.Lib.Pipeline.Kit

noncomputable section

namespace Cert.LibDeal

open Idealize.SL Idealize.SL.RA Idealize.SL.BI
open scoped Idealize.SL.BI
open Idealize.SL.BI.BIBase Idealize.SL.BI.Laws Idealize.SL.ProofMode

variable {M : Type _} [URA M]

/-- Conjunctions over two finite types commute. -/
theorem bigSep_univ_comm {A B : Type} [Fintype A] [Fintype B] (Φ : A → B → sProp M) :
    bigSep Finset.univ (fun a => bigSep Finset.univ fun b => Φ a b)
      = bigSep Finset.univ (fun b => bigSep Finset.univ fun a => Φ a b) := by
  rw [← bigSep_univ_prod (fun ab : A × B => Φ ab.1 ab.2), ← bigSep_univ_prod (fun ba : B × A => Φ ba.2 ba.1),
    bigSep_univ_equiv (Equiv.prodComm A B) (fun ba : B × A => Φ ba.2 ba.1)]
  rfl

/-- The tokens `Φ a b` of all `a`, each held where `e b` sends it: the same conjunction. -/
theorem bigSep_redeal {A B : Type} [Fintype A] [Fintype B] (e : B → A ≃ A) (Φ : A → B → sProp M) :
    bigSep Finset.univ (fun a => bigSep Finset.univ fun b => Φ a b)
      = bigSep Finset.univ (fun a => bigSep Finset.univ fun b => Φ (e b a) b) := by
  rw [bigSep_univ_comm Φ, bigSep_univ_comm (fun a b => Φ (e b a) b)]
  exact bigSep_congr fun b _ => bigSep_univ_equiv (e b) (fun a => Φ a b)

/-- A conjunction over `Option A`: the term at `none` and the conjunction over `A`. -/
theorem bigSep_univ_option {A : Type} [Fintype A] [DecidableEq A] (Φ : Option A → sProp M) :
    bigSep Finset.univ Φ = iprop(Φ none ∗ bigSep Finset.univ fun a => Φ (some a)) := by
  rw [show (Finset.univ : Finset (Option A)) = insert none (Finset.univ.map Function.Embedding.some) from by
    ext x; cases x <;> simp]
  rw [bigSep_insert (by simp), bigSep_map]
  rfl

/-- A conjunction over a sum type: the conjunctions over the two summands. -/
theorem bigSep_univ_sum {A B : Type} [Fintype A] [Fintype B] [DecidableEq A] [DecidableEq B] (Φ : A ⊕ B → sProp M) :
    bigSep Finset.univ Φ = iprop((bigSep Finset.univ fun a => Φ (.inl a)) ∗ bigSep Finset.univ fun b => Φ (.inr b)) := by
  rw [show (Finset.univ : Finset (A ⊕ B)) = Finset.univ.map Function.Embedding.inl ∪ Finset.univ.map Function.Embedding.inr from by
    ext x; cases x <;> simp]
  rw [bigSep_union (by
    rw [Finset.disjoint_left]; intro x hx hy
    obtain ⟨a, _, rfl⟩ := Finset.mem_map.mp hx
    obtain ⟨b, _, hb⟩ := Finset.mem_map.mp hy
    cases hb), bigSep_map, bigSep_map]
  rfl

/-- A list's chain is monotone, term by term. -/
theorem bigSepL_mono {I : Type} (l : List I) {Φ Ψ : I → sProp M} (h : ∀ i ∈ l, Φ i ⊢ Ψ i) : bigSepL l Φ ⊢ bigSepL l Ψ := by
  induction l with
  | nil => exact BIBase.Entails.rfl
  | cons i l ih =>
    rw [bigSepL_cons, bigSepL_cons]
    exact BI.sep_mono (h i List.mem_cons_self) (ih fun j hj => h j (List.mem_cons_of_mem _ hj))

end Cert.LibDeal

end
-- ==== Proof.GhostI.lean ====
/-
  The ghost state of the kernel's run: the cells and tokens as the launch indexes them, what a device's body starts
  from and ends with, and the pipeline's proof data.
-/
import proofs.«900453_g7700000000000454_dist_matmul_relu_kshard_i_m512_n512_k256_v7x_i16_bf16_1_alg».proof.Proof.ProtoI
import proofs.«900453_g7700000000000454_dist_matmul_relu_kshard_i_m512_n512_k256_v7x_i16_bf16_1_alg».proof.Proof.LibDeal
import Idealize.ShloMosaic.Lib.Pipeline.Value

set_option maxRecDepth 16384

noncomputable section

namespace Cert.KernelIdeal.Ghost

open Cert.KernelIdeal Cert.KernelIdeal.Gen Cert.KernelIdeal.Spec Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells and the tokens, as the launch indexes them -/

/-- A device's cells: its barrier cell, or one of its 120 transfer cells. -/
abbrev CI : Type := Option (Fin 4 × Fin 2 × Fin 15)
abbrev ccell (c : Dev nD) : CI → GSem nD τ sig
  | none => barCell c
  | some x => xCell c x.1 x.2.1 x.2.2
abbrev kcell (ck : Dev nD × CI) : GSem nD τ sig := ccell ck.1 ck.2

/-- The kernel's OWN (scoped) semaphores: the 120 transfer semaphores. -/
abbrev XI : Type := Fin 4 × Fin 2 × Fin 15
abbrev osem : XI → SemLoc sig := fun x => .dma (semAt (arr x.1) x.2.1 x.2.2)

theorem osem_injective : Function.Injective (osem : XI → SemLoc sig) := by
  rintro ⟨k, h, r⟩ ⟨k', h', r'⟩ e
  have e1 : decode (osem (k, h, r)) = decode (osem (k', h', r')) := congrArg decode e
  rw [show osem (k, h, r) = .dma (semAt (arr k) h r) from rfl, show osem (k', h', r') = .dma (semAt (arr k') h' r') from rfl,
    decode_x, decode_x] at e1
  injection e1 with a b c
  rw [a, b, c]

theorem kcell_injective : Function.Injective (kcell : Dev nD × CI → GSem nD τ sig) := by
  rintro ⟨c, i⟩ ⟨c', i'⟩ e
  have h1 : c = c' := by
    have := congrArg (fun g : GSem nD τ sig => g.1.1) e
    cases i <;> cases i' <;> exact this
  subst h1
  have h2 : decode (kcell (c, i)).2 = decode (kcell (c, i')).2 := congrArg (fun g : GSem nD τ sig => decode g.2) e
  cases i with
  | none =>
    cases i' with
    | none => rfl
    | some x' => rw [show (kcell (c, none)).2 = .reg barS from rfl, show (kcell (c, some x')).2 = .dma (semAt (arr x'.1) x'.2.1 x'.2.2) from rfl, decode_bar, decode_x] at h2; cases h2
  | some x =>
    cases i' with
    | none => rw [show (kcell (c, none)).2 = .reg barS from rfl, show (kcell (c, some x)).2 = .dma (semAt (arr x.1) x.2.1 x.2.2) from rfl, decode_bar, decode_x] at h2; cases h2
    | some x' =>
      rw [show (kcell (c, some x)).2 = .dma (semAt (arr x.1) x.2.1 x.2.2) from rfl, show (kcell (c, some x')).2 = .dma (semAt (arr x'.1) x'.2.1 x'.2.2) from rfl, decode_x, decode_x] at h2
      injection h2 with a b d
      obtain ⟨k, h, r⟩ := x; obtain ⟨k', h', r'⟩ := x'
      simp only at a b d
      rw [a, b, d]

def ringCells : Finset (GSem nD τ sig) := Finset.univ.map ⟨kcell, kcell_injective⟩

/-- Duty `r + 1` of a barrier cell. -/
def dty (r : Fin 15) : Fin 16 := ⟨r.val + 1, by have := r.isLt; omega⟩

/-- A device's own cells' duty tokens as minted: the fifteen of its barrier cell, one for each transfer cell. -/
abbrev TI : Type := Fin 15 ⊕ XI
abbrev tokOf (cj : Dev nD × TI) : GSem nD τ sig × ℕ × Fin 16 :=
  match cj.2 with
  | .inl r => (barCell cj.1, 0, dty r)
  | .inr x => (xCell cj.1 x.1 x.2.1 x.2.2, 0, 0)

theorem tokOf_injective : Function.Injective (tokOf : Dev nD × TI → GSem nD τ sig × ℕ × Fin 16) := by
  rintro ⟨c, j⟩ ⟨c', j'⟩ e
  have h1 : c = c' := by
    have := congrArg (fun x : GSem nD τ sig × ℕ × Fin 16 => x.1.1.1) e
    cases j <;> cases j' <;> exact this
  subst h1
  have hg : (tokOf (c, j)).1 = (tokOf (c, j')).1 := congrArg (fun x : GSem nD τ sig × ℕ × Fin 16 => x.1) e
  have hd : (tokOf (c, j)).2.2 = (tokOf (c, j')).2.2 := congrArg (fun x : GSem nD τ sig × ℕ × Fin 16 => x.2.2) e
  cases j with
  | inl r =>
    cases j' with
    | inl r' =>
      have : r = r' := Fin.ext (by have := congrArg Fin.val hd; simp only [dty] at this; omega)
      rw [this]
    | inr x' => exact absurd (kcell_injective (a₁ := (c, none)) (a₂ := (c, some x')) hg) (by simp)
  | inr x =>
    cases j' with
    | inl r' => exact absurd (kcell_injective (a₁ := (c, some x)) (a₂ := (c, none)) hg) (by simp)
    | inr x' =>
      have := kcell_injective (a₁ := (c, some x)) (a₂ := (c, some x')) hg
      simp only [Prod.mk.injEq, Option.some.injEq, true_and] at this
      rw [this]

def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

theorem ownSemFacts : Pipeline.OwnSemFacts cfg0.spec osem :=
  ⟨by decide, osem_injective, by decide⟩

/-! ## The ghost state a device's body starts from -/

abbrev YI : Type := Fin 2 × Fin 15

/-- Every cell's invariant, under the names `K` the launch allocated them at, and that every cell has reached
    round 0: persistent, every device holds them all. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records (F := F) m K) := by unfold records; infer_instance

/-- A device's positions at round 0 of its own cells. -/
def ownPos (c : Dev nD) : sProp 𝕄 := bigSep Finset.univ fun i : CI => atPos ER (ccell c i) 0 ∅ 0

/-- The tokens of the duties device `c` PAYS: duty `r + 1` of the barrier cell of `fr c r`; the receive duties of the
    cells its copies credit on `tgt c r`; its own send duties. -/
def payToks (c : Dev nD) : sProp 𝕄 :=
  iprop((bigSep Finset.univ fun r : Fin 15 => dutyTok ER (barCell (fr c r)) 0 (dty r))
    ∗ (bigSep Finset.univ fun y : YI => dutyTok ER (xCell (tgt c y.2) 1 y.1 y.2) 0 0)
    ∗ (bigSep Finset.univ fun y : YI => dutyTok ER (xCell (tgt c y.2) 3 y.1 y.2) 0 0)
    ∗ (bigSep Finset.univ fun y : YI => dutyTok ER (xCell c 0 y.1 y.2) 0 0)
    ∗ (bigSep Finset.univ fun y : YI => dutyTok ER (xCell c 2 y.1 y.2) 0 0))

def ghost (K : Dev nD × CI → ℕ) (c : Dev nD) : sProp 𝕄 := iprop(records m K ∗ ownPos c ∗ payToks c)

/-- The credit tokens the launch deals device `c`, site by site: what the others owe its cells. -/
def ownCellOf (c : Dev nD) : Site → GSem nD τ sig
  | .sig _ => barCell c
  | .rs h r => xCell c 1 h r
  | .ag h r => xCell c 3 h r
def creds (c : Dev nD) : sProp 𝕄 := bigSepL sites fun a => cred (tallyAt (ownCellOf c a) () (sitePay c a).2.2)

def start (c : Dev nD) : sProp 𝕄 := iprop((∃ K, ghost m K c) ∗ creds c ∗ levAts L lv)

/-- Before the point: the ghost state, the credit, the levels, and the three scratch buffers at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- After it: the scratch buffers again, and the 120 own cells closed, their counters at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ Pipeline.ownSems0 (Ix := Unit) (Name := ℕ) (U := UU) (Lvl := ℕ) (Val := Elt F) (τ := τ) osem c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => xB m c
    | ⟨2, _⟩ => OutV m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem share_eq (c : Dev nD) (w : Fin cfg0.W) : (dats m ρ 0 c).share w = fullShare := by unfold Dat.share; split <;> rfl

end Cert.KernelIdeal.Ghost

end
-- ==== Proof.BodyI.lean ====
/-
  The kernel body as a program of phases: the fifteen signals, the local product, the barrier wait, the thirty
  reduce-scatter copies, and per half the receives, the sum, the two stores and the fifteen all-gather copies; then
  the waits. The printed body is this program, by unfolding.
-/
import proofs.«900453_g7700000000000454_dist_matmul_relu_kshard_i_m512_n512_k256_v7x_i16_bf16_1_alg».proof.Proof.ProtoI

set_option maxRecDepth 65536

noncomputable section

namespace Cert.KernelIdeal.BodyProg

open Cert.KernelIdeal Cert.KernelIdeal.Gen Cert.KernelIdeal.Spec Cert.KernelIdeal.Proto
open Idealize.ShloMosaic Idealize.ShloMosaic.TcCoe
open Idealize.SL Idealize.SL.Sem

variable {F : FTy → Type} [FloatOps F]

abbrev EEf (F : FTy → Type) : Type → Type := TpuEff nD τ sig (Elt F) Λ₀ Proc.tc

/-- The device each of the 75 addressed statements names, as printed, in program order. -/
def devN (j : Fin 75) (d0 : Dev nD) : Dev nD :=
  match j with
  | ⟨0, _⟩ => ⟨k0_dev1 d0, k0_dev1_lt d0⟩
  | ⟨1, _⟩ => ⟨k0_dev2 d0, k0_dev2_lt d0⟩
  | ⟨2, _⟩ => ⟨k0_dev3 d0, k0_dev3_lt d0⟩
  | ⟨3, _⟩ => ⟨k0_dev4 d0, k0_dev4_lt d0⟩
  | ⟨4, _⟩ => ⟨k0_dev5 d0, k0_dev5_lt d0⟩
  | ⟨5, _⟩ => ⟨k0_dev6 d0, k0_dev6_lt d0⟩
  | ⟨6, _⟩ => ⟨k0_dev7 d0, k0_dev7_lt d0⟩
  | ⟨7, _⟩ => ⟨k0_dev8 d0, k0_dev8_lt d0⟩
  | ⟨8, _⟩ => ⟨k0_dev9 d0, k0_dev9_lt d0⟩
  | ⟨9, _⟩ => ⟨k0_dev10 d0, k0_dev10_lt d0⟩
  | ⟨10, _⟩ => ⟨k0_dev11 d0, k0_dev11_lt d0⟩
  | ⟨11, _⟩ => ⟨k0_dev12 d0, k0_dev12_lt d0⟩
  | ⟨12, _⟩ => ⟨k0_dev13 d0, k0_dev13_lt d0⟩
  | ⟨13, _⟩ => ⟨k0_dev14 d0, k0_dev14_lt d0⟩
  | ⟨14, _⟩ => ⟨k0_dev15 d0, k0_dev15_lt d0⟩
  | ⟨15, _⟩ => ⟨k0_dev16 d0, k0_dev16_lt d0⟩
  | ⟨16, _⟩ => ⟨k0_dev17 d0, k0_dev17_lt d0⟩
  | ⟨17, _⟩ => ⟨k0_dev18 d0, k0_dev18_lt d0⟩
  | ⟨18, _⟩ => ⟨k0_dev19 d0, k0_dev19_lt d0⟩
  | ⟨19, _⟩ => ⟨k0_dev20 d0, k0_dev20_lt d0⟩
  | ⟨20, _⟩ => ⟨k0_dev21 d0, k0_dev21_lt d0⟩
  | ⟨21, _⟩ => ⟨k0_dev22 d0, k0_dev22_lt d0⟩
  | ⟨22, _⟩ => ⟨k0_dev23 d0, k0_dev23_lt d0⟩
  | ⟨23, _⟩ => ⟨k0_dev24 d0, k0_dev24_lt d0⟩
  | ⟨24, _⟩ => ⟨k0_dev25 d0, k0_dev25_lt d0⟩
  | ⟨25, _⟩ => ⟨k0_dev26 d0, k0_dev26_lt d0⟩
  | ⟨26, _⟩ => ⟨k0_dev27 d0, k0_dev27_lt d0⟩
  | ⟨27, _⟩ => ⟨k0_dev28 d0, k0_dev28_lt d0⟩
  | ⟨28, _⟩ => ⟨k0_dev29 d0, k0_dev29_lt d0⟩
  | ⟨29, _⟩ => ⟨k0_dev30 d0, k0_dev30_lt d0⟩
  | ⟨30, _⟩ => ⟨k0_dev31 d0, k0_dev31_lt d0⟩
  | ⟨31, _⟩ => ⟨k0_dev32 d0, k0_dev32_lt d0⟩
  | ⟨32, _⟩ => ⟨k0_dev33 d0, k0_dev33_lt d0⟩
  | ⟨33, _⟩ => ⟨k0_dev34 d0, k0_dev34_lt d0⟩
  | ⟨34, _⟩ => ⟨k0_dev35 d0, k0_dev35_lt d0⟩
  | ⟨35, _⟩ => ⟨k0_dev36 d0, k0_dev36_lt d0⟩
  | ⟨36, _⟩ => ⟨k0_dev37 d0, k0_dev37_lt d0⟩
  | ⟨37, _⟩ => ⟨k0_dev38 d0, k0_dev38_lt d0⟩
  | ⟨38, _⟩ => ⟨k0_dev39 d0, k0_dev39_lt d0⟩
  | ⟨39, _⟩ => ⟨k0_dev40 d0, k0_dev40_lt d0⟩
  | ⟨40, _⟩ => ⟨k0_dev41 d0, k0_dev41_lt d0⟩
  | ⟨41, _⟩ => ⟨k0_dev42 d0, k0_dev42_lt d0⟩
  | ⟨42, _⟩ => ⟨k0_dev43 d0, k0_dev43_lt d0⟩
  | ⟨43, _⟩ => ⟨k0_dev44 d0, k0_dev44_lt d0⟩
  | ⟨44, _⟩ => ⟨k0_dev45 d0, k0_dev45_lt d0⟩
  | ⟨45, _⟩ => ⟨k0_dev46 d0, k0_dev46_lt d0⟩
  | ⟨46, _⟩ => ⟨k0_dev47 d0, k0_dev47_lt d0⟩
  | ⟨47, _⟩ => ⟨k0_dev48 d0, k0_dev48_lt d0⟩
  | ⟨48, _⟩ => ⟨k0_dev49 d0, k0_dev49_lt d0⟩
  | ⟨49, _⟩ => ⟨k0_dev50 d0, k0_dev50_lt d0⟩
  | ⟨50, _⟩ => ⟨k0_dev51 d0, k0_dev51_lt d0⟩
  | ⟨51, _⟩ => ⟨k0_dev52 d0, k0_dev52_lt d0⟩
  | ⟨52, _⟩ => ⟨k0_dev53 d0, k0_dev53_lt d0⟩
  | ⟨53, _⟩ => ⟨k0_dev54 d0, k0_dev54_lt d0⟩
  | ⟨54, _⟩ => ⟨k0_dev55 d0, k0_dev55_lt d0⟩
  | ⟨55, _⟩ => ⟨k0_dev56 d0, k0_dev56_lt d0⟩
  | ⟨56, _⟩ => ⟨k0_dev57 d0, k0_dev57_lt d0⟩
  | ⟨57, _⟩ => ⟨k0_dev58 d0, k0_dev58_lt d0⟩
  | ⟨58, _⟩ => ⟨k0_dev59 d0, k0_dev59_lt d0⟩
  | ⟨59, _⟩ => ⟨k0_dev60 d0, k0_dev60_lt d0⟩
  | ⟨60, _⟩ => ⟨k0_dev61 d0, k0_dev61_lt d0⟩
  | ⟨61, _⟩ => ⟨k0_dev62 d0, k0_dev62_lt d0⟩
  | ⟨62, _⟩ => ⟨k0_dev63 d0, k0_dev63_lt d0⟩
  | ⟨63, _⟩ => ⟨k0_dev64 d0, k0_dev64_lt d0⟩
  | ⟨64, _⟩ => ⟨k0_dev65 d0, k0_dev65_lt d0⟩
  | ⟨65, _⟩ => ⟨k0_dev66 d0, k0_dev66_lt d0⟩
  | ⟨66, _⟩ => ⟨k0_dev67 d0, k0_dev67_lt d0⟩
  | ⟨67, _⟩ => ⟨k0_dev68 d0, k0_dev68_lt d0⟩
  | ⟨68, _⟩ => ⟨k0_dev69 d0, k0_dev69_lt d0⟩
  | ⟨69, _⟩ => ⟨k0_dev70 d0, k0_dev70_lt d0⟩
  | ⟨70, _⟩ => ⟨k0_dev71 d0, k0_dev71_lt d0⟩
  | ⟨71, _⟩ => ⟨k0_dev72 d0, k0_dev72_lt d0⟩
  | ⟨72, _⟩ => ⟨k0_dev73 d0, k0_dev73_lt d0⟩
  | ⟨73, _⟩ => ⟨k0_dev74 d0, k0_dev74_lt d0⟩
  | ⟨74, _⟩ => ⟨k0_dev75 d0, k0_dev75_lt d0⟩
  | ⟨_ + 75, h⟩ => absurd h (Nat.not_lt.2 (Nat.le_add_left _ _))

theorem hP : (pM : Memref sig .tc .vmem S512x512 .bf16).IsWhole := Memref.isWhole_whole _
theorem hR : (rM : Memref sig .tc .vmem S2x16x16x512 .bf16).IsWhole := Memref.isWhole_whole _
theorem hK : (kM : Memref sig .tc .vmem S2x16x512 .bf16).IsWhole := Memref.isWhole_whole _
theorem hO : (oM : Memref sig .tc .vmem S512x512 .bf16).IsWhole := Memref.isWhole_whole _

theorem words_rs : ∀ (h : Fin 2) (r : Fin 15), (Rect.unit (s := S2x16x16x512) ![h.val, r.val + 1, 0, 0] S1x1x16x512.size (inb_rs h r)).WholeWords (EltTy.packing .bf16) := by decide
theorem words_bc : ∀ (h : Fin 2), (Rect.unit (s := S2x16x512) ![h.val, 0, 0] S1x16x512.size (inb_bc h)).WholeWords (EltTy.packing .bf16) := by decide
theorem packed_bc : ∀ (h : Fin 2), (Rect.unit (s := S2x16x512) ![h.val, 0, 0] S1x16x512.size (inb_bc h)).PackedRows (EltTy.packing .bf16) := by decide

theorem wx_rsSrc (d0 : Dev nD) (h : Fin 2) (r : Fin 15) : (rsSrc d0 h r).view.WordExact := hP.wordExact_slice rfl _ (k0_off1_wordsbf16 d0 r h)
theorem wx_rsDst (h : Fin 2) (r : Fin 15) : (rsDst h r).view.WordExact := (hR.wordExact_slice rfl _ (words_rs h r)).reshape _ _
theorem wx_agSrc (h : Fin 2) : (agSrc h).view.WordExact := (hK.wordExact_slice rfl _ (words_bc h)).reshape _ _
theorem wx_agDst (d0 : Dev nD) (h : Fin 2) : (agDst d0 h).view.WordExact := hO.wordExact_slice rfl _ (k0_off3_wordsbf16 d0 h)

def jS (r : Fin 15) : Fin 75 := ⟨r.val, by omega⟩
def jRS (h : Fin 2) (r : Fin 15) : Fin 75 := ⟨15 + 15 * h.val + r.val, by omega⟩
def jAG (h : Fin 2) (r : Fin 15) : Fin 75 := ⟨45 + 15 * h.val + r.val, by omega⟩

/-- The fifteen barrier signals. -/
def sigs (d0 : Dev nD) : List (Fin 15) → Prog (EEf F) PUnit → Prog (EEf F) PUnit
  | [], k => k
  | r :: rs, k => .op (.semSignal (devN (jS r) d0, Proc.tc) barS 1) fun _ => sigs d0 rs k

/-- The reduce-scatter copies of half `h`. -/
def rsSends (d0 : Dev nD) (h : Fin 2) : List (Fin 15) → Prog (EEf F) PUnit → Prog (EEf F) PUnit
  | [], k => k
  | r :: rs, k => .op (.enqueueDma (rsSrc d0 h r) (.remote (Dev.tc (devN (jRS h r) d0)) (rsDst h r) (.dma (semAt (arr 0) h r)) rfl) (.dma (semAt (arr 1) h r))
      (wx_rsSrc d0 h r) (wx_rsDst h r) ⟨⟨rfl, Or.inl rfl⟩, trivial⟩) fun _ => rsSends d0 h rs k

abbrev SlotV (F : FTy → Type) : Type := Vec F S1x1x16x512 .bf16

/-- The receive waits of half `h`, each followed by the load of its slot; the loaded values are handed on. -/
def recvs (d0 : Dev nD) (h : Fin 2) : List (Fin 15) → (Fin 15 → SlotV F) → ((Fin 15 → SlotV F) → Prog (EEf F) PUnit) → Prog (EEf F) PUnit
  | [], acc, k => k acc
  | r :: rs, acc, k =>
    .op (.waitDma2 (semAt (arr 1) h r) (rsSrc d0 h r) (rsDst h r) (wx_rsSrc d0 h r) (wx_rsDst h r)) fun _ =>
    .op (.load rM (Rect.unit (s := S2x16x16x512) ![h.val, r.val + 1, 0, 0] S1x1x16x512.size (inb_rs h r)).toLoadRect (View.loadsAt_vmem h_S1x1x16x512)) fun v =>
    recvs d0 h rs (Function.update acc r v) k

/-- The all-gather copies of half `h`. -/
def agSends (d0 : Dev nD) (h : Fin 2) : List (Fin 15) → Prog (EEf F) PUnit → Prog (EEf F) PUnit
  | [], k => k
  | r :: rs, k => .op (.enqueueDma (agSrc h) (.remote (Dev.tc (devN (jAG h r) d0)) (agDst d0 h) (.dma (semAt (arr 2) h r)) rfl) (.dma (semAt (arr 3) h r))
      (wx_agSrc h) (wx_agDst d0 h) ⟨⟨rfl, Or.inl rfl⟩, trivial⟩) fun _ => agSends d0 h rs k

/-- The waits for the all-gather copies addressed to the device. -/
def agWaits (d0 : Dev nD) (h : Fin 2) : List (Fin 15) → Prog (EEf F) PUnit → Prog (EEf F) PUnit
  | [], k => k
  | r :: rs, k => .op (.waitDma2 (semAt (arr 3) h r) (agSrc h) (agDst d0 h) (wx_agSrc h) (wx_agDst d0 h)) fun _ => agWaits d0 h rs k

/-- The waits for the device's own reduce-scatter copies to have left. -/
def rsSendWaits (d0 : Dev nD) (h : Fin 2) : List (Fin 15) → Prog (EEf F) PUnit → Prog (EEf F) PUnit
  | [], k => k
  | r :: rs, k => .op (.waitDma2 (semAt (arr 0) h r) (rsDst h r) (rsSrc d0 h r) (wx_rsDst h r) (wx_rsSrc d0 h r)) fun _ => rsSendWaits d0 h rs k

/-- The waits for its all-gather copies to have left. -/
def agSendWaits (d0 : Dev nD) (h : Fin 2) : List (Fin 15) → Prog (EEf F) PUnit → Prog (EEf F) PUnit
  | [], k => k
  | r :: rs, k => .op (.waitDma2 (semAt (arr 2) h r) (agDst d0 h) (agSrc h) (wx_agDst d0 h) (wx_agSrc h)) fun _ => agSendWaits d0 h rs k

def rs15 : List (Fin 15) := List.finRange 15

/-- The sum of half 0 from the device's own rows and the fifteen slots, as the kernel nests it. -/
def acc0 (P : Vec F S16x512 .bf16) (L : Fin 15 → SlotV F) : FVec F S16x512 .f32 :=
  k0_pay9 (k0_pay7 (k0_pay6 (k0_pay5 (k0_pay4 (k0_pay3 (k0_pay2 P) (L 0) (L 1) (L 2)) (L 3) (L 4)) (L 5) (L 6)) (L 7) (L 8)) (L 9) (L 10))
    (k0_pay8 (L 11)) (L 12) (L 13)
/-- The sum of half 1. -/
def acc1 (P : Vec F S16x512 .bf16) (L : Fin 15 → SlotV F) : FVec F S16x512 .f32 :=
  k0_pay18 (k0_pay17 (k0_pay16 (k0_pay15 (k0_pay14 (k0_pay13 (k0_pay12 P) (L 0) (L 1)) (L 2) (L 3)) (L 4) (L 5) (L 6)) (L 7) (L 8)) (L 9) (L 10)) (L 11) (L 12)

def zeroSlots : Fin 15 → SlotV F := fun _ _ => FloatOps.ofBits .bf16 0

/-- What is stored into the broadcast buffer's half `h`, and into the device's own rows of the result: the clamped sum. -/
def bcPay (h : Fin 2) (P : Vec F S16x512 .bf16) (L : Fin 15 → SlotV F) : FVec F S1x16x512 .bf16 :=
  match h with
  | 0 => k0_pay11 (acc0 P L) (L 14)
  | 1 => k0_pay20 (acc1 P L) (L 13) (L 14)
def outPay (h : Fin 2) (P : Vec F S16x512 .bf16) (L : Fin 15 → SlotV F) : FVec F S16x512 .bf16 :=
  match h with
  | 0 => k0_pay10 (acc0 P L) (L 14)
  | 1 => k0_pay19 (acc1 P L) (L 13) (L 14)

/-- The device's own rows of half `h` of a 512 x 512 buffer; half `h` of the broadcast buffer. -/
abbrev ownRect (d0 : Dev nD) (h : Fin 2) : Rect S512x512 :=
  Rect.unit (s := S512x512) (k0_off2 d0 (BitVec.ofNat 32 (16 * h.val))) S16x512.size (k0_off2_inb d0 h)
abbrev bcRect (h : Fin 2) : Rect S2x16x512 := Rect.unit (s := S2x16x512) ![h.val, 0, 0] S1x16x512.size (inb_bc h)

/-- One half: the device's own rows, the fifteen receives, the sum stored twice, the fifteen all-gather copies. -/
def halfP (d0 : Dev nD) (h : Fin 2) (k : Prog (EEf F) PUnit) : Prog (EEf F) PUnit :=
  .op (.load pM (ownRect d0 h).toLoadRect (View.loadsAt_vmem h_S16x512)) fun P =>
  recvs d0 h rs15 zeroSlots fun L =>
  .op (.load kM (bcRect h).toLoadRect (View.loadsAt_vmem h_S1x16x512)) fun _ =>
  .op (.store kM (bcRect h) (bcPay h P L) Finset.univ
      (View.stores_vmem h_S1x16x512 (hK.storeExact_slice rfl _ (packed_bc h)) (fun _ => rfl)) (.inl rfl)) fun _ =>
  .op (.load oM (ownRect d0 h).toLoadRect (View.loadsAt_vmem h_S16x512)) fun _ =>
  .op (.store oM (ownRect d0 h) (outPay h P L) Finset.univ
      (View.stores_vmem h_S16x512 (hO.storeExact_slice rfl _ (k0_off2_packedbf16 d0 h)) (fun _ => rfl)) (.inl rfl)) fun _ =>
  agSends d0 h rs15 k

/-- The kernel body, phase by phase. -/
def bodyP : Prog (EEf F) PUnit :=
  .op .deviceId fun d0 =>
  sigs d0 rs15 <|
  .op (.load aM (Rect.unit (s := S512x256) ![0, 0] S512x256.size inb_S512x256_S512x256_0_0).toLoadRect (View.loadsAt_vmem h_S512x256)) fun v64 =>
  .op (.load bM (Rect.unit (s := S256x512) ![0, 0] S256x512.size inb_S256x512_S256x512_0_0).toLoadRect (View.loadsAt_vmem h_S256x512)) fun v67 =>
  .op (.load pM (Rect.unit (s := S512x512) ![0, 0] S512x512.size inb_S512x512_S512x512_0_0).toLoadRect (View.loadsAt_vmem h_S512x512)) fun _ =>
  .op (.store pM (Rect.unit (s := S512x512) ![0, 0] S512x512.size inb_S512x512_S512x512_0_0) (k0_pay1 v64 v67) Finset.univ
      (View.stores_vmem h_S512x512 (hP.storeExact_slice rfl _ packedbf16_S512x512_S512x512_0_0) (fun _ => rfl)) (.inl rfl)) fun _ =>
  .op (.semWait barS 15) fun _ =>
  rsSends d0 0 rs15 <| rsSends d0 1 rs15 <|
  halfP d0 0 <| halfP d0 1 <|
  agWaits d0 0 rs15 <| agWaits d0 1 rs15 <|
  rsSendWaits d0 0 rs15 <| rsSendWaits d0 1 rs15 <|
  agSendWaits d0 0 rs15 <| agSendWaits d0 1 rs15 <|
  .ret ⟨⟩

set_option maxHeartbeats 4000000 in
/-- The printed body is the phases. -/
theorem body_eq : cc0_body (F := F) aM (Memref.isWhole_whole _) bM (Memref.isWhole_whole _) oM (Memref.isWhole_whole _) pM (Memref.isWhole_whole _)
    rM (Memref.isWhole_whole _) kM (Memref.isWhole_whole _) cc0_scratch3 cc0_scratch4 cc0_scratch5 cc0_scratch6 = bodyP := by
  rfl

/-- The printed device of each addressed statement is the device `r + 1` places after the firing one. -/
theorem devN_S : ∀ (r : Fin 15) (c : Dev nD), devN (jS r) c = tgt c r := by decide +kernel
theorem devN_RS : ∀ (h : Fin 2) (r : Fin 15) (c : Dev nD), devN (jRS h r) c = tgt c r := by decide +kernel
theorem devN_AG : ∀ (h : Fin 2) (r : Fin 15) (c : Dev nD), devN (jAG h r) c = tgt c r := by decide +kernel

end Cert.KernelIdeal.BodyProg

end
-- ==== Proof.PhaseI.lean ====
/-
  The kernel body, phase by phase: what each phase needs and what it leaves.
-/
import proofs.«900453_g7700000000000454_dist_matmul_relu_kshard_i_m512_n512_k256_v7x_i16_bf16_1_alg».proof.Proof.GhostI
import proofs.«900453_g7700000000000454_dist_matmul_relu_kshard_i_m512_n512_k256_v7x_i16_bf16_1_alg».proof.Proof.BodyI

set_option maxRecDepth 16384

noncomputable section

namespace Cert.KernelIdeal.Phase

open Cert.KernelIdeal Cert.KernelIdeal.Gen Cert.KernelIdeal.Spec Cert.KernelIdeal.Proto Cert.KernelIdeal.Ghost Cert.KernelIdeal.BodyProg
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibOwesQueue (owed)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-- Device `c` is the device `rv r + 1` places after `tgt c r`: the duty of that device's barrier cell it pays. -/
def rv (r : Fin 15) : Fin 15 := ⟨14 - r.val, by omega⟩
theorem tgt_tgt_rv (r : Fin 15) : tgt (tgt c r) (rv r) = c := by
  apply Fin.ext
  rw [tgt_val, tgt_val]
  have h1 : c.val < 16 := c.isLt
  have := r.isLt
  show ((c.val + r.val + 1) % 16 + (14 - r.val) + 1) % 16 = c.val
  omega

theorem inv_of (ck : Dev nD × CI) : (records (F := F) m K) ⊢ cellInv ER (Rd m) (K ck) (kcell ck) := by
  unfold records; iintro ⟨HI, -⟩
  iapply (show (bigSep Finset.univ fun ck : Dev nD × CI => (cellInv ER (Rd m) (K ck) (kcell ck) : sProp 𝕄)) ⊢ cellInv ER (Rd m) (K ck) (kcell ck) from bigSep_elim (Finset.mem_univ ck)); iexact HI
theorem reached_of (ck : Dev nD × CI) : (records (F := F) m K) ⊢ reached ER (kcell ck) 0 := by
  unfold records; iintro ⟨-, HR⟩
  iapply (show (bigSep Finset.univ fun ck : Dev nD × CI => (reached ER (kcell ck) 0 : sProp 𝕄)) ⊢ reached ER (kcell ck) 0 from bigSep_elim (Finset.mem_univ ck)); iexact HR

/-- A list's chain, head first, in the logic's own notation. -/
theorem chain_cons {I : Type} (i : I) (l : List I) (Φ : I → sProp 𝕄) : bigSepL (i :: l) Φ = iprop(Φ i ∗ bigSepL l Φ) :=
  bigSepL_cons i l Φ

theorem dty_mem (r : Fin 15) (x : Dev nD) : dty r ∈ (Rd (F := F) m).duties (barCell x) 0 := by
  rw [duties_bar]; exact Finset.mem_erase.mpr ⟨fun h => by have := congrArg Fin.val h; simp [dty] at this, Finset.mem_univ _⟩

theorem barPay_dty (x : Dev nD) (r : Fin 15) : (barPay (F := F) x (dty r)) = barPayR x r := by
  unfold barPay; rw [dif_pos (by simp [dty])]; rfl

/-- The fifteen signals: each pays its duty of the target's barrier cell with the slots and rows it hands over. -/
theorem sigs_wp (l : List (Fin 15)) (rest : List Site) (W : Waits sig Unit) (k : Prog (EEf F) PUnit) (Q : PUnit → sProp 𝕄) :
    iprop(records m K ∗ owes (c : Thread nD τ) (owed ((l.map Site.sig ++ rest).map (sitePay c))) W
        ∗ bigSepL l (fun r => iprop(dutyTok ER (barCell (tgt c r)) 0 (dty (rv r)) ∗ barPayR (tgt c r) (rv r)))
        ∗ (owes (c : Thread nD τ) (owed (rest.map (sitePay c))) W -∗ wp frame (wpE (defs₀ (F := F)) 𝒱₀ c none) Set.univ k Q))
      ⊢ wp frame (wpE (defs₀ (F := F)) 𝒱₀ c none) Set.univ (sigs c l k) Q := by
  induction l with
  | nil =>
    iintro ⟨-, HO, -, Hk⟩
    iapply Hk; iexact HO
  | cons r l ih =>
    show _ ⊢ wp frame (wpE (defs₀ (F := F)) 𝒱₀ c none) Set.univ (.op (.semSignal (devN (jS r) c, Proc.tc) barS 1) fun _ => sigs c l k) Q
    rw [devN_S, chain_cons]
    iintro ⟨#HR, HO, ⟨⟨Htok, Hpay⟩, Hrest⟩, Hk⟩
    iapply (Rounds.wp_signal 𝒱₀ ER (Rd m) (c : Thread nD τ) none (dst := (tgt c r : Thread nD τ)) (κ := K (tgt c r, none))
        (d := dty (rv r)) (dty_mem m (rv r) (tgt c r)) (amount_bar m (tgt c r) (dty (rv r))) () (owed ((l.map Site.sig ++ rest).map (sitePay c))) rfl)
      $$ [HO Htok Hpay]
    · isplitr; · iapply (inv_of m K (tgt c r, none)); iexact HR
      isplitl [HO]; · iexact HO
      isplitl [Htok]; · iexact Htok
      isplitl [Hpay]; · rw [payload_bar, barPay_dty]; iexact Hpay
      iapply (reached_of m K (tgt c r, none)); iexact HR
    iintro HO
    iapply (ih)
    isplitr; · iexact HR
    isplitl [HO]; · iexact HO
    isplitl [Hrest]; · iexact Hrest
    iexact Hk

/-! ## The addressed copies -/

/-- One reduce-scatter copy: the source rows go out at the send duty, the target's slot comes back filled at the
    receive duty; the copy pays the block's credit off what is owed. -/
theorem rs_send_step (h : Fin 2) (r : Fin 15) (n : Dev nD) (hn : n = tgt c r)
    {hsc : (rsDst h r : Memref sig (Dev.tc n : Thread nD τ).2.kind .vmem S16x512 .bf16).view.ref.isScScratch = false}
    {hsrc : (rsSrc c h r).view.WordExact} {hdst : (rsDst h r).view.WordExact}
    {hsem : DmaTarget.Typed .vmem (.dma (semAt (arr 1) h r)) (.remote (Dev.tc n : Thread nD τ) (rsDst h r) (.dma (semAt (arr 0) h r)) hsc)}
    {α : Type} {Q : α → sProp 𝕄} {k : PUnit → Prog (TpuEff nD τ sig (Elt F) Λ₀ .tc) α}
    (fn : Buf (Elt F) ((rsDst h r).view.loc (tgt c r : Thread nD τ))) (O : CellTallies nD τ sig Unit) (W : Waits sig Unit) :
    iprop(cellInv ER (Rd m) (K (c, some (0, h, r))) (xCell c 0 h r) ∗ cellInv ER (Rd m) (K (tgt c r, some (1, h, r))) (xCell (tgt c r) 1 h r)
        ∗ rsSrcPts m c h r ∗ ((rsDst h r).view.loc (tgt c r : Thread nD τ) ↦[(rsDst h r).view.set]{fullShare} fn)
        ∗ owes (c : Thread nD τ) (O + tallyAt (xCell (tgt c r) 1 h r) () Nrs) W
        ∗ dutyTok ER (xCell c 0 h r) 0 0 ∗ reached ER (xCell c 0 h r) 0
        ∗ dutyTok ER (xCell (tgt c r) 1 h r) 0 0 ∗ reached ER (xCell (tgt c r) 1 h r) 0)
      ⊢ iprop(((cred (tallyAt (xCell c 0 h r) () Nrs) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsSrc c h r) (.remote (Dev.tc n : Thread nD τ) (rsDst h r) (.dma (semAt (arr 0) h r)) hsc) (.dma (semAt (arr 1) h r)) hsrc hdst hsem) k) Q) := by
  subst hn
  unfold rsSrcPts
  exact Rounds.wp_send_pointsTo 𝒱₀ ER (Rd m) (c : Thread nD τ) none (κ₁ := K (c, some (0, h, r))) (κ₂ := K (tgt c r, some (1, h, r)))
    (r₁ := 0) (r₂ := 0) (d₁ := 0) (d₂ := 0) (fd := fn)
    (by rw [duties_x]; exact Finset.mem_singleton_self _) (by rw [duties_x]; exact Finset.mem_singleton_self _)
    () () Nrs rfl (amount_x m c 0 h r 0) (amount_x m (tgt c r) 1 h r 0) O rfl (W := W)
    (by rw [payload_x]; exact BI.Entails.refl _)
    (by rw [payload_x]; show _ ⊢ rsLanded m (tgt c r) h r; unfold rsLanded; rw [fr_tgt]; iintro H; iexists fn; iexact H)

/-- One all-gather copy: a share of the finished half goes out at the send duty, the target's rows come back filled
    at the receive duty. -/
theorem ag_send_step (h : Fin 2) (r : Fin 15) (n : Dev nD) (hn : n = tgt c r)
    {hsc : (agDst c h : Memref sig (Dev.tc n : Thread nD τ).2.kind .vmem S16x512 .bf16).view.ref.isScScratch = false}
    {hsrc : (agSrc h).view.WordExact} {hdst : (agDst c h).view.WordExact}
    {hsem : DmaTarget.Typed .vmem (.dma (semAt (arr 3) h r)) (.remote (Dev.tc n : Thread nD τ) (agDst c h) (.dma (semAt (arr 2) h r)) hsc)}
    {α : Type} {Q : α → sProp 𝕄} {k : PUnit → Prog (TpuEff nD τ sig (Elt F) Λ₀ .tc) α}
    (fn : Buf (Elt F) ((agDst c h).view.loc (tgt c r : Thread nD τ))) (O : CellTallies nD τ sig Unit) (W : Waits sig Unit) :
    iprop(cellInv ER (Rd m) (K (c, some (2, h, r))) (xCell c 2 h r) ∗ cellInv ER (Rd m) (K (tgt c r, some (3, h, r))) (xCell (tgt c r) 3 h r)
        ∗ agSrcPts m c h r ∗ ((agDst c h).view.loc (tgt c r : Thread nD τ) ↦[(agDst c h).view.set]{fullShare} fn)
        ∗ owes (c : Thread nD τ) (O + tallyAt (xCell (tgt c r) 3 h r) () Nag) W
        ∗ dutyTok ER (xCell c 2 h r) 0 0 ∗ reached ER (xCell c 2 h r) 0
        ∗ dutyTok ER (xCell (tgt c r) 3 h r) 0 0 ∗ reached ER (xCell (tgt c r) 3 h r) 0)
      ⊢ iprop(((cred (tallyAt (xCell c 2 h r) () Nag) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (agSrc h) (.remote (Dev.tc n : Thread nD τ) (agDst c h) (.dma (semAt (arr 2) h r)) hsc) (.dma (semAt (arr 3) h r)) hsrc hdst hsem) k) Q) := by
  subst hn
  unfold agSrcPts
  exact Rounds.wp_send_pointsTo 𝒱₀ ER (Rd m) (c : Thread nD τ) none (κ₁ := K (c, some (2, h, r))) (κ₂ := K (tgt c r, some (3, h, r)))
    (r₁ := 0) (r₂ := 0) (d₁ := 0) (d₂ := 0) (fd := fn)
    (by rw [duties_x]; exact Finset.mem_singleton_self _) (by rw [duties_x]; exact Finset.mem_singleton_self _)
    () () Nag rfl (amount_x m c 2 h r 0) (amount_x m (tgt c r) 3 h r 0) O rfl (W := W)
    (by rw [payload_x]; exact BI.Entails.refl _)
    (by rw [payload_x]; show _ ⊢ agLanded m (tgt c r) h r; unfold agLanded; rw [fr_tgt]; iintro H; iexists fn; iexact H)

/-! ## The waits -/

theorem rest_x (k4 : Fin 4) (h : Fin 2) (r : Fin 15) :
    bigSep ((Rd (F := F) m).duties (xCell c k4 h r) 0 \ ∅) (fun d => (Rd (F := F) m).payload (xCell c k4 h r) 0 d) = xPay m c k4 h r := by
  rw [Finset.sdiff_empty, duties_x, bigSep_singleton, payload_x]

/-- One wait for the one duty of a transfer cell: the credit and the position go in, the position at the next
    round and what the duty hands over come out. -/
theorem wait_step (k4 : Fin 4) (h : Fin 2) (r : Fin 15) {sp sp' : Space} {s s' : Shape} {e e' : EltTy}
    {src : Memref sig (c : Thread nD τ).2.kind sp' s' e'} {κ' : Kind} {dst : Memref sig κ' sp s e} {hsrc : src.view.WordExact} {hdst : dst.view.WordExact}
    (hcred : dst.view.dmaCredit = amt k4) (O : CellTallies nD τ sig Unit) (W : Waits sig Unit)
    {α : Type} {Q : α → sProp 𝕄} {k : PUnit → Prog (TpuEff nD τ sig (Elt F) Λ₀ .tc) α} :
    iprop(cellInv ER (Rd m) (K (c, some (k4, h, r))) (xCell c k4 h r) ∗ cred (tallyAt (xCell c k4 h r) () (amt k4))
        ∗ owes (c : Thread nD τ) O W ∗ MayWait (c : Thread nD τ) (.dma (semAt (arr k4) h r)) () O ∗ atPos ER (xCell c k4 h r) 0 ∅ 0)
      ⊢ iprop(((owes (c : Thread nD τ) O (insert (SemLoc.dma (semAt (arr k4) h r), ()) W) ∗ atPos ER (xCell c k4 h r) 1 ∅ 0 ∗ xPay m c k4 h r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semAt (arr k4) h r) src dst hsrc hdst) k) Q) := by
  iintro ⟨#HI, Hc, HO, Hmw, Hat⟩ Hk
  iapply (Rounds.wp_wait_rest_token 𝒱₀ ER (Rd m) (c : Thread nD τ) none (κ := K (c, some (k4, h, r)))
      (wpE_waitDma2_eq 𝒱₀ (c : Thread nD τ) none Set.univ) (Set.mem_univ _) () (O := O) (W := W) (R := 0) (m := 0) (T := ∅)
      (by rw [Nat.zero_add, expect_x, hcred])) $$ [Hc HO Hmw Hat]
  · isplitr; · iexact HI
    isplitl [Hc]; · rw [hcred]; iexact Hc
    isplitl [HO]; · iexact HO
    isplitl [Hmw]; · iexact Hmw
    iexact Hat
  iintro ⟨HO, Hat, -, Hpay⟩
  ihave Hp := (Entails.of_eq (rest_x m c k4 h r)) $$ Hpay
  iapply Hk
  isplitl [HO]; · iexact HO
  isplitl [Hat]; · iexact Hat
  iexact Hp

/-! ## The phases, over the list of the fifteen partners -/

theorem rsSends_wp (h : Fin 2) (l : List (Fin 15)) (rest : List Site) (W : Waits sig Unit) (k : Prog (EEf F) PUnit) (Q : PUnit → sProp 𝕄) :
    iprop(records m K ∗ owes (c : Thread nD τ) (owed ((l.map (Site.rs h) ++ rest).map (sitePay c))) W
        ∗ bigSepL l (fun r => iprop(rsSrcPts m c h r ∗ rsSlotAny (tgt c r) h r ∗ dutyTok ER (xCell c 0 h r) 0 0 ∗ dutyTok ER (xCell (tgt c r) 1 h r) 0 0))
        ∗ ((bigSepL l (fun r => cred (tallyAt (xCell c 0 h r) () Nrs)) ∗ owes (c : Thread nD τ) (owed (rest.map (sitePay c))) W)
            -∗ wp frame (wpE (defs₀ (F := F)) 𝒱₀ c none) Set.univ k Q))
      ⊢ wp frame (wpE (defs₀ (F := F)) 𝒱₀ c none) Set.univ (rsSends c h l k) Q := by
  induction l with
  | nil =>
    iintro ⟨-, HO, -, Hk⟩
    iapply Hk
    isplitr
    · iapply (show (emp : sProp 𝕄) ⊢ bigSepL ([] : List (Fin 15)) (fun r => cred (tallyAt (xCell c 0 h r) () Nrs)) from BIBase.Entails.rfl); iempintro
    iexact HO
  | cons r l ih =>
    show _ ⊢ wp frame (wpE (defs₀ (F := F)) 𝒱₀ c none) Set.univ (.op (.enqueueDma (rsSrc c h r) (.remote (Dev.tc (devN (jRS h r) c)) (rsDst h r) (.dma (semAt (arr 0) h r)) rfl) (.dma (semAt (arr 1) h r)) (wx_rsSrc c h r) (wx_rsDst h r) ⟨⟨rfl, Or.inl rfl⟩, trivial⟩) fun _ => rsSends c h l k) Q
    rw [chain_cons]
    unfold rsSlotAny
    iintro ⟨#HR, HO, ⟨⟨Hsrc, ⟨%fn, Hdst⟩, Hts, Htr⟩, Hrest⟩, Hk⟩
    iapply (rs_send_step m K c h r _ (devN_RS h r c) fn (owed ((l.map (Site.rs h) ++ rest).map (sitePay c))) W) $$ [HO Hsrc Hdst Hts Htr]
    · isplitr; · iapply (inv_of m K (c, some (0, h, r))); iexact HR
      isplitr; · iapply (inv_of m K (tgt c r, some (1, h, r))); iexact HR
      isplitl [Hsrc]; · iexact Hsrc
      isplitl [Hdst]; · iexact Hdst
      isplitl [HO]; · iexact HO
      isplitl [Hts]; · iexact Hts
      isplitr; · iapply (reached_of m K (c, some (0, h, r))); iexact HR
      isplitl [Htr]; · iexact Htr
      iapply (reached_of m K (tgt c r, some (1, h, r))); iexact HR
    iintro ⟨Hc, HO⟩
    iapply ih
    isplitr; · iexact HR
    isplitl [HO]; · iexact HO
    isplitl [Hrest]; · (unfold rsSlotAny at *; iexact Hrest)
    iintro ⟨Hcs, HO⟩
    iapply Hk
    isplitl [Hc Hcs]
    · iapply (Entails.of_eq (chain_cons r l (fun r => (cred (tallyAt (xCell c 0 h r) () Nrs) : sProp 𝕄))).symm)
      isplitl [Hc]; · iexact Hc
      iexact Hcs
    iexact HO

theorem agSends_wp (h : Fin 2) (l : List (Fin 15)) (rest : List Site) (W : Waits sig Unit) (k : Prog (EEf F) PUnit) (Q : PUnit → sProp 𝕄) :
    iprop(records m K ∗ owes (c : Thread nD τ) (owed ((l.map (Site.ag h) ++ rest).map (sitePay c))) W
        ∗ bigSepL l (fun r => iprop(agSrcPts m c h r ∗ outRowsAny (tgt c r) c h ∗ dutyTok ER (xCell c 2 h r) 0 0 ∗ dutyTok ER (xCell (tgt c r) 3 h r) 0 0))
        ∗ ((bigSepL l (fun r => cred (tallyAt (xCell c 2 h r) () Nag)) ∗ owes (c : Thread nD τ) (owed (rest.map (sitePay c))) W)
            -∗ wp frame (wpE (defs₀ (F := F)) 𝒱₀ c none) Set.univ k Q))
      ⊢ wp frame (wpE (defs₀ (F := F)) 𝒱₀ c none) Set.univ (agSends c h l k) Q := by
  induction l with
  | nil =>
    iintro ⟨-, HO, -, Hk⟩
    iapply Hk
    isplitr
    · iapply (show (emp : sProp 𝕄) ⊢ bigSepL ([] : List (Fin 15)) (fun r => cred (tallyAt (xCell c 2 h r) () Nag)) from BIBase.Entails.rfl); iempintro
    iexact HO
  | cons r l ih =>
    show _ ⊢ wp frame (wpE (defs₀ (F := F)) 𝒱₀ c none) Set.univ (.op (.enqueueDma (agSrc h) (.remote (Dev.tc (devN (jAG h r) c)) (agDst c h) (.dma (semAt (arr 2) h r)) rfl) (.dma (semAt (arr 3) h r)) (wx_agSrc h) (wx_agDst c h) ⟨⟨rfl, Or.inl rfl⟩, trivial⟩) fun _ => agSends c h l k) Q
    rw [chain_cons]
    unfold outRowsAny
    iintro ⟨#HR, HO, ⟨⟨Hsrc, ⟨%fn, Hdst⟩, Hts, Htr⟩, Hrest⟩, Hk⟩
    iapply (ag_send_step m K c h r _ (devN_AG h r c) fn (owed ((l.map (Site.ag h) ++ rest).map (sitePay c))) W) $$ [HO Hsrc Hdst Hts Htr]
    · isplitr; · iapply (inv_of m K (c, some (2, h, r))); iexact HR
      isplitr; · iapply (inv_of m K (tgt c r, some (3, h, r))); iexact HR
      isplitl [Hsrc]; · iexact Hsrc
      isplitl [Hdst]; · iexact Hdst
      isplitl [HO]; · iexact HO
      isplitl [Hts]; · iexact Hts
      isplitr; · iapply (reached_of m K (c, some (2, h, r))); iexact HR
      isplitl [Htr]; · iexact Htr
      iapply (reached_of m K (tgt c r, some (3, h, r))); iexact HR
    iintro ⟨Hc, HO⟩
    iapply ih
    isplitr; · iexact HR
    isplitl [HO]; · iexact HO
    isplitl [Hrest]; · (unfold outRowsAny at *; iexact Hrest)
    iintro ⟨Hcs, HO⟩
    iapply Hk
    isplitl [Hc Hcs]
    · iapply (Entails.of_eq (chain_cons r l (fun r => (cred (tallyAt (xCell c 2 h r) () Nag) : sProp 𝕄))).symm)
      isplitl [Hc]; · iexact Hc
      iexact Hcs
    iexact HO

theorem agWaits_wp (h : Fin 2) (l : List (Fin 15)) (O : CellTallies nD τ sig Unit)
    (hmw : ∀ r : Fin 15, (levAts L lv : sProp 𝕄) ⊢ MayWait (c : Thread nD τ) (.dma (semAt (arr 3) h r)) () O)
    (k : Prog (EEf F) PUnit) (Q : PUnit → sProp 𝕄) :
    iprop(records m K ∗ levAts L lv ∗ (∃ W, owes (c : Thread nD τ) O W)
        ∗ bigSepL l (fun r => iprop(cred (tallyAt (xCell c 3 h r) () (amt 3)) ∗ atPos ER (xCell c 3 h r) 0 ∅ 0))
        ∗ (((∃ W, owes (c : Thread nD τ) O W) ∗ bigSepL l (fun r => iprop(atPos ER (xCell c 3 h r) 1 ∅ 0 ∗ xPay m c 3 h r)))
            -∗ wp frame (wpE (defs₀ (F := F)) 𝒱₀ c none) Set.univ k Q))
      ⊢ wp frame (wpE (defs₀ (F := F)) 𝒱₀ c none) Set.univ (agWaits c h l k) Q := by
  induction l with
  | nil =>
    iintro ⟨-, -, HO, -, Hk⟩
    iapply Hk
    isplitl [HO]; · iexact HO
    iapply (show (emp : sProp 𝕄) ⊢ bigSepL ([] : List (Fin 15)) (fun r => iprop(atPos ER (xCell c 3 h r) 1 ∅ 0 ∗ xPay m c 3 h r)) from BIBase.Entails.rfl); iempintro
  | cons r l ih =>
    show _ ⊢ wp frame (wpE (defs₀ (F := F)) 𝒱₀ c none) Set.univ (.op (.waitDma2 (semAt (arr 3) h r) (agSrc h) (agDst c h) (wx_agSrc h) (wx_agDst c h)) fun _ => agWaits c h l k) Q
    rw [chain_cons]
    iintro ⟨#HR, #Hlev, ⟨%W, HO⟩, ⟨⟨Hc, Hat⟩, Hrest⟩, Hk⟩
    iapply (wait_step m K c 3 h r (agDst_credit c h) O W) $$ [Hc HO Hat]
    · isplitr; · iapply (inv_of m K (c, some (3, h, r))); iexact HR
      isplitl [Hc]; · iexact Hc
      isplitl [HO]; · iexact HO
      isplitr; · iapply (hmw r); iexact Hlev
      iexact Hat
    iintro ⟨HO, Hat, Hp⟩
    iapply ih
    isplitr; · iexact HR
    isplitr; · iexact Hlev
    isplitl [HO]; · iexists _; iexact HO
    isplitl [Hrest]; · iexact Hrest
    iintro ⟨HO, Hps⟩
    iapply Hk
    isplitl [HO]; · iexact HO
    iapply (Entails.of_eq (chain_cons r l (fun r => (iprop(atPos ER (xCell c 3 h r) 1 ∅ 0 ∗ xPay m c 3 h r) : sProp 𝕄))).symm)
    isplitl [Hat Hp]
    · isplitl [Hat]; · iexact Hat
      iexact Hp
    iexact Hps

theorem rsSendWaits_wp (h : Fin 2) (l : List (Fin 15)) (O : CellTallies nD τ sig Unit)
    (hmw : ∀ r : Fin 15, (levAts L lv : sProp 𝕄) ⊢ MayWait (c : Thread nD τ) (.dma (semAt (arr 0) h r)) () O)
    (k : Prog (EEf F) PUnit) (Q : PUnit → sProp 𝕄) :
    iprop(records m K ∗ levAts L lv ∗ (∃ W, owes (c : Thread nD τ) O W)
        ∗ bigSepL l (fun r => iprop(cred (tallyAt (xCell c 0 h r) () (amt 0)) ∗ atPos ER (xCell c 0 h r) 0 ∅ 0))
        ∗ (((∃ W, owes (c : Thread nD τ) O W) ∗ bigSepL l (fun r => iprop(atPos ER (xCell c 0 h r) 1 ∅ 0 ∗ xPay m c 0 h r)))
            -∗ wp frame (wpE (defs₀ (F := F)) 𝒱₀ c none) Set.univ k Q))
      ⊢ wp frame (wpE (defs₀ (F := F)) 𝒱₀ c none) Set.univ (rsSendWaits c h l k) Q := by
  induction l with
  | nil =>
    iintro ⟨-, -, HO, -, Hk⟩
    iapply Hk
    isplitl [HO]; · iexact HO
    iapply (show (emp : sProp 𝕄) ⊢ bigSepL ([] : List (Fin 15)) (fun r => iprop(atPos ER (xCell c 0 h r) 1 ∅ 0 ∗ xPay m c 0 h r)) from BIBase.Entails.rfl); iempintro
  | cons r l ih =>
    show _ ⊢ wp frame (wpE (defs₀ (F := F)) 𝒱₀ c none) Set.univ (.op (.waitDma2 (semAt (arr 0) h r) (rsDst h r) (rsSrc c h r) (wx_rsDst h r) (wx_rsSrc c h r)) fun _ => rsSendWaits c h l k) Q
    rw [chain_cons]
    iintro ⟨#HR, #Hlev, ⟨%W, HO⟩, ⟨⟨Hc, Hat⟩, Hrest⟩, Hk⟩
    iapply (wait_step m K c 0 h r (rsSrc_credit c h r) O W) $$ [Hc HO Hat]
    · isplitr; · iapply (inv_of m K (c, some (0, h, r))); iexact HR
      isplitl [Hc]; · iexact Hc
      isplitl [HO]; · iexact HO
      isplitr; · iapply (hmw r); iexact Hlev
      iexact Hat
    iintro ⟨HO, Hat, Hp⟩
    iapply ih
    isplitr; · iexact HR
    isplitr; · iexact Hlev
    isplitl [HO]; · iexists _; iexact HO
    isplitl [Hrest]; · iexact Hrest
    iintro ⟨HO, Hps⟩
    iapply Hk
    isplitl [HO]; · iexact HO
    iapply (Entails.of_eq (chain_cons r l (fun r => (iprop(atPos ER (xCell c 0 h r) 1 ∅ 0 ∗ xPay m c 0 h r) : sProp 𝕄))).symm)
    isplitl [Hat Hp]
    · isplitl [Hat]; · iexact Hat
      iexact Hp
    iexact Hps

theorem agSendWaits_wp (h : Fin 2) (l : List (Fin 15)) (O : CellTallies nD τ sig Unit)
    (hmw : ∀ r : Fin 15, (levAts L lv : sProp 𝕄) ⊢ MayWait (c : Thread nD τ) (.dma (semAt (arr 2) h r)) () O)
    (k : Prog (EEf F) PUnit) (Q : PUnit → sProp 𝕄) :
    iprop(records m K ∗ levAts L lv ∗ (∃ W, owes (c : Thread nD τ) O W)
        ∗ bigSepL l (fun r => iprop(cred (tallyAt (xCell c 2 h r) () (amt 2)) ∗ atPos ER (xCell c 2 h r) 0 ∅ 0))
        ∗ (((∃ W, owes (c : Thread nD τ) O W) ∗ bigSepL l (fun r => iprop(atPos ER (xCell c 2 h r) 1 ∅ 0 ∗ xPay m c 2 h r)))
            -∗ wp frame (wpE (defs₀ (F := F)) 𝒱₀ c none) Set.univ k Q))
      ⊢ wp frame (wpE (defs₀ (F := F)) 𝒱₀ c none) Set.univ (agSendWaits c h l k) Q := by
  induction l with
  | nil =>
    iintro ⟨-, -, HO, -, Hk⟩
    iapply Hk
    isplitl [HO]; · iexact HO
    iapply (show (emp : sProp 𝕄) ⊢ bigSepL ([] : List (Fin 15)) (fun r => iprop(atPos ER (xCell c 2 h r) 1 ∅ 0 ∗ xPay m c 2 h r)) from BIBase.Entails.rfl); iempintro
  | cons r l ih =>
    show _ ⊢ wp frame (wpE (defs₀ (F := F)) 𝒱₀ c none) Set.univ (.op (.waitDma2 (semAt (arr 2) h r) (agDst c h) (agSrc h) (wx_agDst c h) (wx_agSrc h)) fun _ => agSendWaits c h l k) Q
    rw [chain_cons]
    iintro ⟨#HR, #Hlev, ⟨%W, HO⟩, ⟨⟨Hc, Hat⟩, Hrest⟩, Hk⟩
    iapply (wait_step m K c 2 h r (agSrc_credit h) O W) $$ [Hc HO Hat]
    · isplitr; · iapply (inv_of m K (c, some (2, h, r))); iexact HR
      isplitl [Hc]; · iexact Hc
      isplitl [HO]; · iexact HO
      isplitr; · iapply (hmw r); iexact Hlev
      iexact Hat
    iintro ⟨HO, Hat, Hp⟩
    iapply ih
    isplitr; · iexact HR
    isplitr; · iexact Hlev
    isplitl [HO]; · iexists _; iexact HO
    isplitl [Hrest]; · iexact Hrest
    iintro ⟨HO, Hps⟩
    iapply Hk
    isplitl [HO]; · iexact HO
    iapply (Entails.of_eq (chain_cons r l (fun r => (iprop(atPos ER (xCell c 2 h r) 1 ∅ 0 ∗ xPay m c 2 h r) : sProp 𝕄))).symm)
    isplitl [Hat Hp]
    · isplitl [Hat]; · iexact Hat
      iexact Hp
    iexact Hps

/-! ## Values: what the loads read -/

abbrev slotRect (h : Fin 2) (r : Fin 15) : Rect S2x16x16x512 := Rect.unit (s := S2x16x16x512) ![h.val, r.val + 1, 0, 0] S1x1x16x512.size (inb_rs h r)

/-- The receive slot's elements are exactly what the load of the slot reads. -/
theorem slot_set (h : Fin 2) (r : Fin 15) : ((rM : Memref sig .tc .vmem S2x16x16x512 .bf16).access (slotRect h r)).set = (rsDst h r).view.set := by
  show ((rM : Memref sig .tc .vmem S2x16x16x512 .bf16).view.slice (slotRect h r)).set = _
  exact (View.set_reshape (v := (rM : Memref sig .tc .vmem S2x16x16x512 .bf16).view.slice (slotRect h r)) _).symm

theorem slot_sub (c : Dev nD) (h : Fin 2) (r : Fin 15) :
    (rM : Memref sig .tc .vmem S2x16x16x512 .bf16).view.setOn (slotRect h r).toLoadRect.set ⊆ (rsDst h r).view.set := by
  have h0 : ((rM : Memref sig .tc .vmem S2x16x16x512 .bf16).access (slotRect h r)).set ⊆ (rsDst h r).view.set := le_of_eq (slot_set h r)
  rwa [View.set_slice] at h0

/-- A slot just filled with the rows `Wv`, loaded and re-cast to 16 x 512, is `Wv`. -/
theorem slot_loaded (h : Fin 2) (r : Fin 15) (fd : Buf (Elt F) ((rsDst h r).view.loc (c : Thread nD τ))) (Wv : S16x512.Idx → Elt F .bf16) :
    shapeCast S16x512 ((rM : Memref sig .tc .vmem S2x16x16x512 .bf16).view.readAt (Elt F) (slotRect h r).toLoadRect
      ((rsDst h r).view.write (Elt F) fd Wv Finset.univ)) shapeCasts_S1x1x16x512_S16x512 = Wv := by
  funext j
  have hw := View.write_emb_of_mem (v := (rsDst h r).view) (Val := Elt F) fd Wv (M := Finset.univ) (x := j) (Finset.mem_univ _)
  show ((rM : Memref sig .tc .vmem S2x16x16x512 .bf16).view.slice (slotRect h r)).read (Elt F) ((rsDst h r).view.write (Elt F) fd Wv Finset.univ) (Shape.reshapeEquiv _ j) = Wv j
  rw [View.read_apply, show ((rM : Memref sig .tc .vmem S2x16x16x512 .bf16).view.slice (slotRect h r)).emb (Shape.reshapeEquiv _ j) = (rsDst h r).view.emb j from rfl,
    hw, cast_cast, cast_eq]

/-- What the receive loop of half `h` knows of the value loaded from slot `r`: re-cast to 16 x 512 it is the rows the
    sender's copy read. -/
def Good (h : Fin 2) (r : Fin 15) (v : SlotV F) : Prop :=
  shapeCast S16x512 v shapeCasts_S1x1x16x512_S16x512 = (rsSrc (fr c r) h r).view.read (Elt F) (partBuf m (fr c r))

theorem recvs_wp (h : Fin 2) (l : List (Fin 15)) (acc : Fin 15 → SlotV F) (P : Fin 15 → Prop) (hacc : ∀ x, P x → Good m c h x (acc x))
    (O : CellTallies nD τ sig Unit)
    (hmw : ∀ r : Fin 15, (levAts L lv : sProp 𝕄) ⊢ MayWait (c : Thread nD τ) (.dma (semAt (arr 1) h r)) () O)
    (k : (Fin 15 → SlotV F) → Prog (EEf F) PUnit) (Q : PUnit → sProp 𝕄) :
    iprop(records m K ∗ levAts L lv ∗ (∃ W, owes (c : Thread nD τ) O W)
        ∗ bigSepL l (fun r => iprop(cred (tallyAt (xCell c 1 h r) () (amt 1)) ∗ atPos ER (xCell c 1 h r) 0 ∅ 0))
        ∗ (∀ acc' : Fin 15 → SlotV F,
            (⌜∀ x, (P x ∨ x ∈ l) → Good m c h x (acc' x)⌝ ∗ (∃ W, owes (c : Thread nD τ) O W)
                ∗ bigSepL l (fun r => iprop(atPos ER (xCell c 1 h r) 1 ∅ 0 ∗ rsLanded m c h r)))
              -∗ wp frame (wpE (defs₀ (F := F)) 𝒱₀ c none) Set.univ (k acc') Q))
      ⊢ wp frame (wpE (defs₀ (F := F)) 𝒱₀ c none) Set.univ (recvs c h l acc k) Q := by
  induction l generalizing acc P with
  | nil =>
    iintro ⟨-, -, HO, -, Hk⟩
    iapply Hk $$ %acc
    isplitr; · ipureintro; exact fun x hx => hx.elim (hacc x) (fun h => absurd h (List.not_mem_nil))
    isplitl [HO]; · iexact HO
    iapply (show (emp : sProp 𝕄) ⊢ bigSepL ([] : List (Fin 15)) (fun r => iprop(atPos ER (xCell c 1 h r) 1 ∅ 0 ∗ rsLanded m c h r)) from BIBase.Entails.rfl); iempintro
  | cons r l ih =>
    show _ ⊢ wp frame (wpE (defs₀ (F := F)) 𝒱₀ c none) Set.univ
      (.op (.waitDma2 (semAt (arr 1) h r) (rsSrc c h r) (rsDst h r) (wx_rsSrc c h r) (wx_rsDst h r)) fun _ =>
        .op (.load rM (slotRect h r).toLoadRect (View.loadsAt_vmem h_S1x1x16x512)) fun v => recvs c h l (Function.update acc r v) k) Q
    rw [chain_cons]
    iintro ⟨#HR, #Hlev, ⟨%W, HO⟩, ⟨⟨Hc, Hat⟩, Hrest⟩, Hk⟩
    iapply (wait_step m K c 1 h r (rsDst_credit h r) O W) $$ [Hc HO Hat]
    · isplitr; · iapply (inv_of m K (c, some (1, h, r))); iexact HR
      isplitl [Hc]; · iexact Hc
      isplitl [HO]; · iexact HO
      isplitr; · iapply (hmw r); iexact Hlev
      iexact Hat
    iintro ⟨HO, Hat, Hp⟩
    ihave Hp' := (show xPay m c 1 h r ⊢ rsLanded m c h r from BIBase.Entails.rfl) $$ Hp
    unfold rsLanded
    icases Hp' with ⟨%fd, Hslot⟩
    iapply (wp_load 𝒱₀ (c : Thread nD τ) none Set.univ (m := rM) (r := (slotRect h r).toLoadRect) (slot_sub c h r)) $$ Hslot
    iintro Hslot
    iapply (ih (Function.update acc r _) (fun x => x = r ∨ P x) (fun x hx => by
      by_cases hxr : x = r
      · subst hxr; rw [Function.update_self]; exact slot_loaded c h x fd _
      · rw [Function.update_of_ne hxr]; exact hacc x (hx.resolve_left hxr)))
    isplitr; · iexact HR
    isplitr; · iexact Hlev
    isplitl [HO]; · iexists _; iexact HO
    isplitl [Hrest]; · iexact Hrest
    iintro %acc' ⟨%hg, HO, Hps⟩
    iapply Hk $$ %acc'
    isplitr
    · ipureintro
      intro x hx
      refine hg x ?_
      rcases hx with hp | hm
      · exact Or.inl (Or.inr hp)
      · rcases List.mem_cons.mp hm with rfl | hm'
        · exact Or.inl (Or.inl rfl)
        · exact Or.inr hm'
    isplitl [HO]; · iexact HO
    iapply (Entails.of_eq (chain_cons r l (fun r => (iprop(atPos ER (xCell c 1 h r) 1 ∅ 0 ∗ rsLanded m c h r) : sProp 𝕄))).symm)
    isplitl [Hat Hslot]
    · isplitl [Hat]; · iexact Hat
      unfold rsLanded; iexists fd; iexact Hslot
    iexact Hps

/-! ## The barrier wait -/

/-- A list's chain over a mapped list. -/
theorem chain_map {I J : Type} (f : I → J) (l : List I) (Φ : J → sProp 𝕄) : bigSepL (l.map f) Φ = bigSepL l (fun i => Φ (f i)) := by
  induction l with
  | nil => rfl
  | cons i l ih => rw [List.map_cons, chain_cons, chain_cons, ih]

/-- Fifteen units of credit on one cell, one by one, are fifteen units. -/
theorem cred_units (g : GSem nD τ sig) (l : List (Fin 15)) :
    bigSepL l (fun _ => (cred (tallyAt g () 1) : sProp 𝕄)) ⊢ cred (tallyAt g () l.length) := by
  induction l with
  | nil => rw [List.length_nil, tallyAt_zero, cred_zero]; exact BIBase.Entails.rfl
  | cons i l ih =>
    rw [chain_cons, List.length_cons, ← tallyAt_add]
    iintro ⟨H1, Hl⟩
    iapply (cred_add _ _).2
    isplitl [Hl]; · iapply ih; iexact Hl
    iexact H1

theorem bar_duties_list : (Finset.univ.erase (0 : Fin 16)) \ ∅ = (rs15.map dty).toFinset := by decide
theorem bar_duties_nodup : (rs15.map dty).Nodup := by decide

/-- What the barrier wait hands over: from each of the fifteen others, the slots and rows this device's copies to it write. -/
theorem rest_bar : bigSep ((Rd (F := F) m).duties (barCell c) 0 \ ∅) (fun d => (Rd (F := F) m).payload (barCell c) 0 d)
    = bigSepL rs15 (fun r => barPayR (F := F) c r) := by
  rw [duties_bar, bigSep_eq_bigSepL_of_eq (rs15.map dty) bar_duties_list bar_duties_nodup, chain_map]
  exact congrArg (bigSepL rs15) (funext fun r => by rw [payload_bar, barPay_dty])

theorem bar_wait_step (O : CellTallies nD τ sig Unit) (W : Waits sig Unit)
    {α : Type} {Q : α → sProp 𝕄} {k : PUnit → Prog (TpuEff nD τ sig (Elt F) Λ₀ .tc) α} :
    iprop(records m K ∗ cred (tallyAt (barCell c) () 15) ∗ owes (c : Thread nD τ) O W ∗ MayWait (c : Thread nD τ) (.reg barS) () O ∗ atPos ER (barCell c) 0 ∅ 0)
      ⊢ iprop(((owes (c : Thread nD τ) O (insert (SemLoc.reg barS, ()) W) ∗ bigSepL rs15 (fun r => barPayR (F := F) c r))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro ⟨#HR, Hc, HO, Hmw, Hat⟩ Hk
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hmw Hat]
  · isplitr; · iapply (inv_of m K (c, none)); iexact HR
    isplitl [Hc]; · iexact Hc
    isplitl [HO]; · iexact HO
    isplitl [Hmw]; · iexact Hmw
    iexact Hat
  iintro ⟨HO, -, -, Hpay⟩
  ihave Hp := (Entails.of_eq (rest_bar m c)) $$ Hpay
  iapply Hk
  isplitl [HO]; · iexact HO
  iexact Hp

/-! ## Regions: the receive slots and the result's row blocks -/

/-- Rows `32 d + 16 h .. + 15` of a 512 x 512 buffer. -/
def blk (d : Dev nD) (h : Fin 2) : Finset S512x512.Idx :=
  Finset.univ.filter fun i => 32 * d.val + 16 * h.val ≤ (i 0).val ∧ (i 0).val < 32 * d.val + 16 * h.val + 16

theorem agDst_set (d : Dev nD) (h : Fin 2) : (agDst d h).view.set = blk d h := by
  show ((View.whole cc0_stg2_0).slice _).set = _
  rw [View.set_slice_whole]
  ext i
  rw [Rect.mem_set_unit, k0_off3_eq]
  unfold blk
  rw [Finset.mem_filter]
  constructor
  · intro hi
    have h0 := hi 0
    exact ⟨Finset.mem_univ _, h0.1, h0.2⟩
  · rintro ⟨-, h1, h2⟩ a
    match a with
    | ⟨0, _⟩ => exact ⟨h1, h2⟩
    | ⟨1, _⟩ => exact ⟨Nat.zero_le _, by have h5 : (i 1).val < 512 := (i 1).isLt; show (i 1).val < 0 + 512; omega⟩

theorem blk_disjoint (x y : Dev nD × Fin 2) (hne : x ≠ y) : Disjoint (blk x.1 x.2) (blk y.1 y.2) := by
  rw [Finset.disjoint_left]
  intro i hx hy
  unfold blk at hx hy
  rw [Finset.mem_filter] at hx hy
  apply hne
  have h1 : x.1.val < 16 := x.1.isLt
  have h2 : y.1.val < 16 := y.1.isLt
  have := x.2.isLt; have := y.2.isLt
  exact Prod.ext (Fin.ext (by omega)) (Fin.ext (by omega))

theorem blk_cover : (Finset.univ : Finset (Dev nD × Fin 2)).biUnion (fun x => blk x.1 x.2) = Finset.univ := by
  ext i
  simp only [Finset.mem_biUnion, Finset.mem_univ, true_and, iff_true]
  have hi : (i 0).val < 512 := (i 0).isLt
  refine ⟨(⟨(i 0).val / 32, by show (i 0).val / 32 < 16; omega⟩, ⟨(i 0).val % 32 / 16, by omega⟩), ?_⟩
  unfold blk
  rw [Finset.mem_filter]
  refine ⟨Finset.mem_univ _, ?_, ?_⟩ <;> (show _; simp only []; omega)

/-! ## Values: rows of the partial products -/

/-- The rows a reduce-scatter copy reads are the target's rows of the sender's partial product. -/
theorem rsSrc_read (d : Dev nD) (h : Fin 2) (r : Fin 15) : (rsSrc d h r).view.read (Elt F) (partBuf m d) = rowsV m d (tgt d r) h := by
  funext j
  show partV m d ((rsSrc d h r).view.emb j) = partV m d (ValueIdx.ix2 ⟨32 * (tgt d r).val + 16 * h.val + (j 0).val, row_lt (tgt d r) h (j 0)⟩ (j 1))
  refine congrArg _ (funext fun a => Fin.ext ?_)
  have e := k0_off1_eq d r h
  match a with
  | ⟨0, _⟩ =>
    show k0_off1 d (BitVec.ofNat 32 (1 + r.val)) (BitVec.ofNat 32 (16 * h.val)) 0 + 1 * (j 0).val = 32 * (tgt d r).val + 16 * h.val + (j 0).val
    rw [e, tgt_val]; show 32 * ((d.val + r.val + 1) % 16) + 16 * h.val + 1 * (j 0).val = _; omega
  | ⟨1, _⟩ =>
    show k0_off1 d (BitVec.ofNat 32 (1 + r.val)) (BitVec.ofNat 32 (16 * h.val)) 1 + 1 * (j 1).val = (j 1).val
    rw [e]; show 0 + 1 * (j 1).val = _; omega

/-- The device's own rows, loaded from its partial product. -/
theorem own_rows_read (h : Fin 2) :
    (pM : Memref sig .tc .vmem S512x512 .bf16).view.readAt (Elt F) (Rect.unit (s := S512x512) (k0_off2 c (BitVec.ofNat 32 (16 * h.val))) S16x512.size (k0_off2_inb c h)).toLoadRect (partBuf m c)
      = rowsV m c c h := by
  funext j
  show partV m c (((pM : Memref sig .tc .vmem S512x512 .bf16).view.slice (Rect.unit (s := S512x512) (k0_off2 c (BitVec.ofNat 32 (16 * h.val))) S16x512.size (k0_off2_inb c h))).emb j)
    = partV m c (ValueIdx.ix2 ⟨32 * c.val + 16 * h.val + (j 0).val, row_lt c h (j 0)⟩ (j 1))
  refine congrArg _ (funext fun a => Fin.ext ?_)
  have e := k0_off2_eq c h
  match a with
  | ⟨0, _⟩ =>
    show k0_off2 c (BitVec.ofNat 32 (16 * h.val)) 0 + 1 * (j 0).val = 32 * c.val + 16 * h.val + (j 0).val
    have e0 : k0_off2 c (BitVec.ofNat 32 (16 * h.val)) 0 = 32 * c.val + 16 * h.val := by rw [e]; rfl
    omega
  | ⟨1, _⟩ =>
    show k0_off2 c (BitVec.ofNat 32 (16 * h.val)) 1 + 1 * (j 1).val = (j 1).val
    have e1 : k0_off2 c (BitVec.ofNat 32 (16 * h.val)) 1 = 0 := by rw [e]; rfl
    omega

/-- A good slot, re-cast, is the sender's rows. -/
theorem good_rows (h : Fin 2) (r : Fin 15) (v : SlotV F) (hg : Good m c h r v) :
    shapeCast S16x512 v shapeCasts_S1x1x16x512_S16x512 = rowsV m (fr c r) c h := by
  unfold Good at hg; rw [hg, rsSrc_read, tgt_fr]

/-- With every loaded slot good, the rows stored for half 0 are the specification's. -/
theorem final0_of_good (L0 : Fin 15 → SlotV F) (hg : ∀ r, Good m c 0 r (L0 r)) :
    k0_pay10 (acc0 (rowsV m c c 0) L0) (L0 14) = final0 m c := by
  have hs : ∀ r : Fin 15, shapeCast S16x512 (L0 r) shapeCasts_S1x1x16x512_S16x512 = rowsV m (fr c r) c 0 := fun r => good_rows m c 0 r _ (hg r)
  have e : ∀ d : Dev nD, shapeCast S16x512 (slotV m d c 0) shapeCasts_S1x1x16x512_S16x512 = rowsV m d c 0 := fun d => cast_slotV m d c 0
  unfold acc0 final0 k0_pay10 k0_pay9 k0_pay8 k0_pay7 k0_pay6 k0_pay5 k0_pay4 k0_pay3 k0_pay2
  simp only [Spec.L, hs, e]
  rfl

/-- And for half 1. -/
theorem final1_of_good (L1 : Fin 15 → SlotV F) (hg : ∀ r, Good m c 1 r (L1 r)) :
    k0_pay19 (acc1 (rowsV m c c 1) L1) (L1 13) (L1 14) = final1 m c := by
  have hs : ∀ r : Fin 15, shapeCast S16x512 (L1 r) shapeCasts_S1x1x16x512_S16x512 = rowsV m (fr c r) c 1 := fun r => good_rows m c 1 r _ (hg r)
  have e : ∀ d : Dev nD, shapeCast S16x512 (slotV m d c 1) shapeCasts_S1x1x16x512_S16x512 = rowsV m d c 1 := fun d => cast_slotV m d c 1
  unfold acc1 final1 k0_pay19 k0_pay18 k0_pay17 k0_pay16 k0_pay15 k0_pay14 k0_pay13 k0_pay12
  simp only [Spec.L, hs, e]
  rfl

/-! ## Chains: small algebra -/

theorem chain_nil {I : Type} (Φ : I → sProp 𝕄) : bigSepL ([] : List I) Φ = iprop(emp) := rfl

theorem chain_append {I : Type} (l₁ l₂ : List I) (Φ : I → sProp 𝕄) :
    bigSepL (l₁ ++ l₂) Φ = iprop(bigSepL l₁ Φ ∗ bigSepL l₂ Φ) := by
  induction l₁ with
  | nil => rw [List.nil_append, chain_nil]; exact (BI.equiv_iff.mp emp_sep).symm
  | cons i l ih =>
    rw [List.cons_append, chain_cons, chain_cons, ih]
    refine BI.Entails.antisymm (show (iprop(Φ i ∗ bigSepL l Φ ∗ bigSepL l₂ Φ) : sProp 𝕄) ⊢ iprop((Φ i ∗ bigSepL l Φ) ∗ bigSepL l₂ Φ) from ?_)
      (show (iprop((Φ i ∗ bigSepL l Φ) ∗ bigSepL l₂ Φ) : sProp 𝕄) ⊢ iprop(Φ i ∗ bigSepL l Φ ∗ bigSepL l₂ Φ) from ?_)
    · iintro ⟨H1, H2, H3⟩
      isplitl [H1 H2]
      · isplitl [H1]; · iexact H1
        iexact H2
      · iexact H3
    · iintro ⟨⟨H1, H2⟩, H3⟩
      isplitl [H1]; · iexact H1
      isplitl [H2]; · iexact H2
      iexact H3

theorem chain_sep {I : Type} (l : List I) (Φ Ψ : I → sProp 𝕄) :
    bigSepL l (fun i => iprop(Φ i ∗ Ψ i)) = iprop(bigSepL l Φ ∗ bigSepL l Ψ) := by
  induction l with
  | nil => rw [chain_nil, chain_nil, chain_nil]; exact (BI.equiv_iff.mp emp_sep).symm
  | cons i l ih =>
    rw [chain_cons, chain_cons, chain_cons, ih]
    refine BI.Entails.antisymm (show (iprop((Φ i ∗ Ψ i) ∗ bigSepL l Φ ∗ bigSepL l Ψ) : sProp 𝕄) ⊢ iprop((Φ i ∗ bigSepL l Φ) ∗ Ψ i ∗ bigSepL l Ψ) from ?_)
      (show (iprop((Φ i ∗ bigSepL l Φ) ∗ Ψ i ∗ bigSepL l Ψ) : sProp 𝕄) ⊢ iprop((Φ i ∗ Ψ i) ∗ bigSepL l Φ ∗ bigSepL l Ψ) from ?_)
    · iintro ⟨⟨H1, H2⟩, H3, H4⟩
      isplitl [H1 H3]
      · isplitl [H1]; · iexact H1
        iexact H3
      · isplitl [H2]; · iexact H2
        iexact H4
    · iintro ⟨⟨H1, H3⟩, H2, H4⟩
      isplitl [H1 H2]
      · isplitl [H1]; · iexact H1
        iexact H2
      · isplitl [H3]; · iexact H3
        iexact H4

theorem chain_congr {I : Type} (l : List I) {Φ Ψ : I → sProp 𝕄} (h : ∀ i ∈ l, Φ i = Ψ i) : bigSepL l Φ = bigSepL l Ψ := by
  induction l with
  | nil => rfl
  | cons i l ih => rw [chain_cons, chain_cons, h i List.mem_cons_self, ih fun j hj => h j (List.mem_cons_of_mem _ hj)]

theorem univ15 (Φ : Fin 15 → sProp 𝕄) : bigSep Finset.univ Φ = bigSepL rs15 Φ :=
  bigSep_univ_eq_bigSepL rs15 (by decide) (by decide) Φ

theorem univY (Φ : YI → sProp 𝕄) : bigSep Finset.univ Φ = iprop(bigSepL rs15 (fun r => Φ (0, r)) ∗ bigSepL rs15 (fun r => Φ (1, r))) := by
  rw [bigSep_univ_prod, bigSep_univ_eq_bigSepL [(0 : Fin 2), 1] (by decide) (by decide)]
  show iprop((bigSep Finset.univ fun b : Fin 15 => Φ (0, b)) ∗ bigSep Finset.univ fun b : Fin 15 => Φ (1, b)) = _
  rw [univ15, univ15]

/-- The finished half, read back through its view. -/
theorem agSrc_read (d : Dev nD) (h : Fin 2) : (agSrc h).view.read (Elt F) (bcBuf m d h) = finalV m d h :=
  View.read_write_univ _ _

/-- The result at row `32 d + 16 h + y 0`, column `y 1`, is device `d`'s finished half `h` at `y`. -/
theorem OutV_at (d : Dev nD) (h : Fin 2) (y : S16x512.Idx) (i : S512x512.Idx)
    (h0 : (i 0).val = 32 * d.val + 16 * h.val + (y 0).val) (h1 : (i 1).val = (y 1).val) : OutV m i = finalV m d h y := by
  have hd : d.val < 16 := d.isLt
  have hh := h.isLt
  have hy : (y 0).val < 16 := (y 0).isLt
  unfold OutV
  have e1 : (⟨(i 0).val / 32, by have h9 : (i 0).val < 512 := (i 0).isLt; show (i 0).val / 32 < 16; omega⟩ : Dev nD) = d := Fin.ext (by show (i 0).val / 32 = d.val; omega)
  have e2 : (⟨(i 0).val % 32 / 16, by omega⟩ : Fin 2) = h := Fin.ext (by show (i 0).val % 32 / 16 = h.val; omega)
  have e3 : ValueIdx.ix2 (⟨(i 0).val % 16, Nat.mod_lt _ (by decide)⟩ : Fin 16) (i 1) = y := by
    funext a
    match a with
    | ⟨0, _⟩ => exact Fin.ext (by show (i 0).val % 16 = (y 0).val; omega)
    | ⟨1, _⟩ => exact Fin.ext h1
  rw [e1, e2]
  exact congrArg (finalV m d h) e3

/-- A landed block of the result holds the result's values. -/
theorem out_landed_eq (d : Dev nD) (h : Fin 2) (fd : Buf (Elt F) ((agDst d h).view.loc (c : Thread nD τ))) :
    ∀ i ∈ (agDst d h).view.set, ((agDst d h).view.write (Elt F) fd ((agSrc h).view.read (Elt F) (bcBuf m d h)) Finset.univ) i = OutV m i := by
  intro i hi
  obtain ⟨y, rfl⟩ := View.exists_emb_of_mem_set _ hi
  rw [View.write_emb_of_mem _ _ (Finset.mem_univ y), agSrc_read]
  have e := k0_off3_eq d h
  have e0 : k0_off3 d (BitVec.ofNat 32 (16 * h.val)) 0 = 32 * d.val + 16 * h.val := by rw [e]; rfl
  have e1 : k0_off3 d (BitVec.ofNat 32 (16 * h.val)) 1 = 0 := by rw [e]; rfl
  refine (cast_eq _ _).trans (OutV_at m d h y _ ?_ ?_).symm
  · show k0_off3 d (BitVec.ofNat 32 (16 * h.val)) 0 + 1 * (y 0).val = _; omega
  · show k0_off3 d (BitVec.ofNat 32 (16 * h.val)) 1 + 1 * (y 1).val = _; omega

/-- The rows the device stores itself are its own block of the result buffer. -/
theorem own_set (h : Fin 2) : ((oM : Memref sig .tc .vmem S512x512 .bf16).access (ownRect c h)).set = blk c h := by
  show ((View.whole cc0_stg2_0).slice _).set = _
  rw [View.set_slice_whole]
  ext i
  rw [Rect.mem_set_unit, k0_off2_eq]
  unfold blk
  rw [Finset.mem_filter]
  constructor
  · intro hi
    have h0 := hi 0
    exact ⟨Finset.mem_univ _, h0.1, h0.2⟩
  · rintro ⟨-, h1, h2⟩ a
    match a with
    | ⟨0, _⟩ => exact ⟨h1, h2⟩
    | ⟨1, _⟩ => exact ⟨Nat.zero_le _, by have h5 : (i 1).val < 512 := (i 1).isLt; show (i 1).val < 0 + 512; omega⟩

/-- What the device stores for its own half is the result's values there. -/
theorem own_stored_eq (h : Fin 2) (f : Buf (Elt F) ((c : Thread nD τ).loc cc0_stg2_0)) :
    ∀ i ∈ blk c h, (((oM : Memref sig .tc .vmem S512x512 .bf16).access (ownRect c h)).write (Elt F) f (finalV m c h) Finset.univ) i = OutV m i := by
  intro i hi
  rw [← own_set] at hi
  obtain ⟨y, rfl⟩ := View.exists_emb_of_mem_set _ hi
  rw [View.write_emb_of_mem _ _ (Finset.mem_univ y)]
  have e := k0_off2_eq c h
  have e0 : k0_off2 c (BitVec.ofNat 32 (16 * h.val)) 0 = 32 * c.val + 16 * h.val := by rw [e]; rfl
  have e1 : k0_off2 c (BitVec.ofNat 32 (16 * h.val)) 1 = 0 := by rw [e]; rfl
  refine (cast_eq _ _).trans (OutV_at m c h y _ ?_ ?_).symm
  · show k0_off2 c (BitVec.ofNat 32 (16 * h.val)) 0 + 1 * (y 0).val = _; omega
  · show k0_off2 c (BitVec.ofNat 32 (16 * h.val)) 1 + 1 * (y 1).val = _; omega

/-! ## The launch's conjunctions as lists -/

theorem bigSep_x' (Φ : XI → sProp 𝕄) :
    bigSep Finset.univ Φ = iprop((bigSep Finset.univ fun y : YI => Φ (0, y)) ∗ (bigSep Finset.univ fun y : YI => Φ (1, y))
      ∗ (bigSep Finset.univ fun y : YI => Φ (2, y)) ∗ (bigSep Finset.univ fun y : YI => Φ (3, y))) := by
  rw [bigSep_univ_prod, bigSep_univ_eq_bigSepL [(0 : Fin 4), 1, 2, 3] (by decide) (by decide)]
  rfl

/-- The device's positions on its transfer cells of kind `k`, half `h`, at round `R`. -/
abbrev posL (k : Fin 4) (h : Fin 2) (R : ℕ) : sProp 𝕄 := bigSepL rs15 (fun r => atPos ER (xCell c k h r) R ∅ 0)

theorem ownPos_eq : (ownPos c : sProp 𝕄) = iprop(atPos ER (barCell c) 0 ∅ 0
    ∗ (posL c 0 0 0 ∗ posL c 0 1 0) ∗ (posL c 1 0 0 ∗ posL c 1 1 0) ∗ (posL c 2 0 0 ∗ posL c 2 1 0) ∗ (posL c 3 0 0 ∗ posL c 3 1 0)) := by
  unfold ownPos
  rw [Cert.LibDeal.bigSep_univ_option, bigSep_x', univY, univY, univY, univY]

theorem rv_rv (r : Fin 15) : rv (rv r) = r := Fin.ext (by show 14 - (14 - r.val) = r.val; have := r.isLt; omega)
def rvE : Fin 15 ≃ Fin 15 := ⟨rv, rv, rv_rv, rv_rv⟩
theorem fr_rv (r : Fin 15) : fr c (rv r) = tgt c r := by
  have h := fr_tgt (tgt c r) (rv r); rw [tgt_tgt_rv] at h; exact h

/-- The tokens the device pays, as lists in program order. -/
abbrev tokL (k : Fin 4) (h : Fin 2) (x : Fin 15 → Dev nD) : sProp 𝕄 := bigSepL rs15 (fun r => dutyTok ER (xCell (x r) k h r) 0 0)

theorem payToks_eq : (payToks c : sProp 𝕄) = iprop((bigSepL rs15 fun r => dutyTok ER (barCell (tgt c r)) 0 (dty (rv r)))
    ∗ (tokL 1 0 (tgt c) ∗ tokL 1 1 (tgt c)) ∗ (tokL 3 0 (tgt c) ∗ tokL 3 1 (tgt c))
    ∗ (tokL 0 0 (fun _ => c) ∗ tokL 0 1 (fun _ => c)) ∗ (tokL 2 0 (fun _ => c) ∗ tokL 2 1 (fun _ => c))) := by
  unfold payToks
  rw [bigSep_univ_equiv rvE (fun r : Fin 15 => (dutyTok ER (barCell (fr c r)) 0 (dty r) : sProp 𝕄)), univ15, univY, univY, univY, univY]
  rw [chain_congr rs15 (fun r _ => show (dutyTok ER (barCell (fr c (rvE r))) 0 (dty (rvE r)) : sProp 𝕄) = dutyTok ER (barCell (tgt c r)) 0 (dty (rv r)) from by
    show dutyTok ER (barCell (fr c (rv r))) 0 (dty (rv r)) = _; rw [fr_rv])]

/-- The credit the launch deals the device, as lists: fifteen units on its barrier cell, a block's credit on each receive cell. -/
abbrev credL (k : Fin 4) (h : Fin 2) : sProp 𝕄 := bigSepL rs15 (fun r => cred (tallyAt (xCell c k h r) () (amt k)))

theorem creds_eq : (creds c : sProp 𝕄) = iprop((((bigSepL rs15 (fun _ => cred (tallyAt (barCell c) () 1)) ∗ credL c 1 0) ∗ credL c 1 1) ∗ credL c 3 0) ∗ credL c 3 1) := by
  unfold creds sites
  rw [chain_append, chain_append, chain_append, chain_append, chain_map, chain_map, chain_map, chain_map, chain_map]
  rfl

/-! ## Cutting the buffers -/

theorem others_list : ∀ c : Dev nD, Finset.univ.erase c = (rs15.map (tgt c)).toFinset ∧ (rs15.map (tgt c)).Nodup := by decide

/-- A conjunction over the devices: the device's own term and the fifteen others', in the order of its copies. -/
theorem dev_split (Ψ : Dev nD → sProp 𝕄) : bigSep Finset.univ Ψ = iprop(Ψ c ∗ bigSepL rs15 (fun r => Ψ (tgt c r))) := by
  rw [bigSep_univ_at _ c, bigSep_eq_bigSepL_of_eq (rs15.map (tgt c)) (others_list c).1 (others_list c).2, chain_map]

theorem out_blocks (f : Buf (Elt F) ((c : Thread nD τ).loc cc0_stg2_0)) :
    ((((c : Thread nD τ).loc cc0_stg2_0) ↦{fullShare} f) : sProp 𝕄)
      = bigSep Finset.univ (fun x : Dev nD × Fin 2 => (((c : Thread nD τ).loc cc0_stg2_0) ↦[blk x.1 x.2]{fullShare} f)) := by
  have h := pointsTo_biUnion (Ix := Unit) (Name := ℕ) (U := UU) (Lvl := ℕ) (ℓ := ((c : Thread nD τ).loc cc0_stg2_0)) (q := fullShare) (f := f) Finset.univ
    (fun x : Dev nD × Fin 2 => blk x.1 x.2) (fun x _ y _ hne => blk_disjoint x y hne)
  rw [blk_cover] at h
  exact h

theorem part_blocks (f : Buf (Elt F) ((c : Thread nD τ).loc cc0_scratch0)) :
    ((((c : Thread nD τ).loc cc0_scratch0) ↦{fullShare} f) : sProp 𝕄)
      = bigSep Finset.univ (fun x : Dev nD × Fin 2 => (((c : Thread nD τ).loc cc0_scratch0) ↦[blk x.1 x.2]{fullShare} f)) := by
  have h := pointsTo_biUnion (Ix := Unit) (Name := ℕ) (U := UU) (Lvl := ℕ) (ℓ := ((c : Thread nD τ).loc cc0_scratch0)) (q := fullShare) (f := f) Finset.univ
    (fun x : Dev nD × Fin 2 => blk x.1 x.2) (fun x _ y _ hne => blk_disjoint x y hne)
  rw [blk_cover] at h
  exact h

/-- The blocks as the device's own two and, per partner, that partner's two. -/
theorem blocks_split (Ψ : Dev nD → Fin 2 → sProp 𝕄) :
    bigSep Finset.univ (fun x : Dev nD × Fin 2 => Ψ x.1 x.2)
      = iprop((Ψ c 0 ∗ Ψ c 1) ∗ bigSepL rs15 (fun r => iprop(Ψ (tgt c r) 0 ∗ Ψ (tgt c r) 1))) := by
  rw [bigSep_univ_prod, dev_split c]
  have e (d : Dev nD) : bigSep Finset.univ (fun b : Fin 2 => Ψ d b) = iprop(Ψ d 0 ∗ Ψ d 1) :=
    bigSep_univ_eq_bigSepL [(0 : Fin 2), 1] (by decide) (by decide) _
  rw [e c, chain_congr rs15 (fun r _ => e (tgt c r))]

/-- The rows a reduce-scatter copy reads are the partner's block of the partial product. -/
theorem rsSrc_set (h : Fin 2) (r : Fin 15) : (rsSrc c h r).view.set = blk (tgt c r) h := by
  show ((View.whole cc0_scratch0).slice _).set = _
  rw [View.set_slice_whole]
  ext i
  rw [Rect.mem_set_unit, k0_off1_eq]
  unfold blk
  rw [Finset.mem_filter, tgt_val]
  constructor
  · intro hi
    have h0 := hi 0
    exact ⟨Finset.mem_univ _, h0.1, h0.2⟩
  · rintro ⟨-, h1, h2⟩ a
    match a with
    | ⟨0, _⟩ => exact ⟨h1, h2⟩
    | ⟨1, _⟩ => exact ⟨Nat.zero_le _, by have h5 : (i 1).val < 512 := (i 1).isLt; show (i 1).val < 0 + 512; omega⟩

/-- The device's own rows of its partial product, as the load of them sees them. -/
theorem ownP_set (h : Fin 2) : ((pM : Memref sig .tc .vmem S512x512 .bf16).access (ownRect c h)).set = blk c h := by
  show ((View.whole cc0_scratch0).slice _).set = _
  rw [View.set_slice_whole]
  ext i
  rw [Rect.mem_set_unit, k0_off2_eq]
  unfold blk
  rw [Finset.mem_filter]
  constructor
  · intro hi
    have h0 := hi 0
    exact ⟨Finset.mem_univ _, h0.1, h0.2⟩
  · rintro ⟨-, h1, h2⟩ a
    match a with
    | ⟨0, _⟩ => exact ⟨h1, h2⟩
    | ⟨1, _⟩ => exact ⟨Nat.zero_le _, by have h5 : (i 1).val < 512 := (i 1).isLt; show (i 1).val < 0 + 512; omega⟩

/-- The elements of receive slot `(h, r + 1)`. -/
def slotS (y : YI) : Finset S2x16x16x512.Idx := (slotRect y.1 y.2).set

theorem rsDst_set (h : Fin 2) (r : Fin 15) : (rsDst h r).view.set = slotS (h, r) := by
  rw [← slot_set]
  show ((View.whole cc0_scratch1).slice _).set = _
  rw [View.set_slice_whole]
  rfl

theorem slot_mem (y : YI) (i : S2x16x16x512.Idx) : i ∈ slotS y ↔ (i 0).val = y.1.val ∧ (i 1).val = y.2.val + 1 := by
  unfold slotS
  rw [Rect.mem_set_unit]
  constructor
  · intro hi
    have h0 : y.1.val ≤ (i 0).val ∧ (i 0).val < y.1.val + 1 := hi 0
    have h1 : y.2.val + 1 ≤ (i 1).val ∧ (i 1).val < y.2.val + 1 + 1 := hi 1
    omega
  · rintro ⟨h0, h1⟩ a
    match a with
    | ⟨0, _⟩ => show y.1.val ≤ (i 0).val ∧ (i 0).val < y.1.val + 1; omega
    | ⟨1, _⟩ => show y.2.val + 1 ≤ (i 1).val ∧ (i 1).val < y.2.val + 1 + 1; omega
    | ⟨2, _⟩ => exact ⟨Nat.zero_le _, by have h5 : (i 2).val < 16 := (i 2).isLt; show (i 2).val < 0 + 16; omega⟩
    | ⟨3, _⟩ => exact ⟨Nat.zero_le _, by have h5 : (i 3).val < 512 := (i 3).isLt; show (i 3).val < 0 + 512; omega⟩

theorem slot_disjoint (y y' : YI) (hne : y ≠ y') : Disjoint (slotS y) (slotS y') := by
  rw [Finset.disjoint_left]
  intro i h1 h2
  rw [slot_mem] at h1 h2
  exact hne (Prod.ext (Fin.ext (by omega)) (Fin.ext (by omega)))

/-- The receive buffer as its thirty slots and the rest. -/
theorem slots_split (f : Buf (Elt F) ((c : Thread nD τ).loc cc0_scratch1)) :
    ((((c : Thread nD τ).loc cc0_scratch1) ↦{fullShare} f) : sProp 𝕄)
      = iprop(((bigSepL rs15 fun r => (((c : Thread nD τ).loc cc0_scratch1) ↦[slotS (0, r)]{fullShare} f))
          ∗ (bigSepL rs15 fun r => (((c : Thread nD τ).loc cc0_scratch1) ↦[slotS (1, r)]{fullShare} f)))
        ∗ (((c : Thread nD τ).loc cc0_scratch1) ↦[Finset.univ \ Finset.univ.biUnion slotS]{fullShare} f)) := by
  have h := pointsTo_biUnion (Ix := Unit) (Name := ℕ) (U := UU) (Lvl := ℕ) (ℓ := ((c : Thread nD τ).loc cc0_scratch1)) (q := fullShare) (f := f) Finset.univ
    slotS (fun x _ y _ hne => slot_disjoint x y hne)
  rw [← univY (fun y : YI => (((c : Thread nD τ).loc cc0_scratch1) ↦[slotS y]{fullShare} f)), ← h]
  exact BI.Entails.antisymm (pointsTo_split_subset (Finset.subset_univ _)).1 (pointsTo_split_subset (Finset.subset_univ _)).2

/-! ## Glue: what the phases are handed, from the cut buffers -/

/-- A list's chain read backwards is the same chain. -/
theorem chain_rev (Ψ : Fin 15 → sProp 𝕄) : bigSepL rs15 (fun r => Ψ (rv r)) = bigSepL rs15 Ψ :=
  ((univ15 _).symm.trans (bigSep_univ_equiv rvE Ψ).symm).trans (univ15 Ψ)

theorem barPayR_eq (x : Dev nD) (r : Fin 15) :
    (barPayR (F := F) x r) = iprop(rsSlotAny (tgt x r) 0 r ∗ rsSlotAny (tgt x r) 1 r ∗ outRowsAny (tgt x r) x 0 ∗ outRowsAny (tgt x r) x 1) := rfl

/-- What the barrier wait brings, sorted: the slots of half 0, of half 1, the result rows of half 0, of half 1. -/
theorem barPay_sorted :
    bigSepL rs15 (fun r => barPayR (F := F) c r)
      = iprop(bigSepL rs15 (fun r => rsSlotAny (F := F) (tgt c r) 0 r) ∗ bigSepL rs15 (fun r => rsSlotAny (F := F) (tgt c r) 1 r)
          ∗ bigSepL rs15 (fun r => outRowsAny (F := F) (tgt c r) c 0) ∗ bigSepL rs15 (fun r => outRowsAny (F := F) (tgt c r) c 1)) := by
  rw [chain_congr rs15 (fun r _ => barPayR_eq c r), chain_sep, chain_sep, chain_sep]

/-- What the signals hand over: the device's own thirty slots and the thirty blocks of the result that are not its own. -/
theorem sig_pay_intro (fr0 : Buf (Elt F) ((c : Thread nD τ).loc cc0_scratch1)) (g2 : Buf (Elt F) ((c : Thread nD τ).loc cc0_stg2_0)) :
    iprop((bigSepL rs15 fun r => (((c : Thread nD τ).loc cc0_scratch1) ↦[slotS (0, r)]{fullShare} fr0))
        ∗ (bigSepL rs15 fun r => (((c : Thread nD τ).loc cc0_scratch1) ↦[slotS (1, r)]{fullShare} fr0))
        ∗ bigSepL rs15 (fun r => iprop((((c : Thread nD τ).loc cc0_stg2_0) ↦[blk (tgt c r) 0]{fullShare} g2) ∗ (((c : Thread nD τ).loc cc0_stg2_0) ↦[blk (tgt c r) 1]{fullShare} g2))))
      ⊢ (bigSepL rs15 (fun r => barPayR (F := F) (tgt c r) (rv r)) : sProp 𝕄) := by
  rw [← chain_rev (fun r => (((c : Thread nD τ).loc cc0_scratch1) ↦[slotS (0, r)]{fullShare} fr0)),
    ← chain_rev (fun r => (((c : Thread nD τ).loc cc0_scratch1) ↦[slotS (1, r)]{fullShare} fr0)), ← chain_sep, ← chain_sep]
  refine Cert.LibDeal.bigSepL_mono rs15 fun r _ => ?_
  rw [barPayR_eq, tgt_tgt_rv]
  unfold rsSlotAny outRowsAny
  rw [rsDst_set, rsDst_set, agDst_set, agDst_set]
  iintro ⟨H0, H1, H2, H3⟩
  isplitl [H0]; · iexists fr0; iexact H0
  isplitl [H1]; · iexists fr0; iexact H1
  isplitl [H2]; · iexists g2; iexact H2
  iexists g2; iexact H3

/-! ## Waits while something is still owed -/

def siteLv : Site → ℕ
  | .sig _ => 1
  | .rs _ _ => 2
  | .ag _ _ => 3

theorem lv_site (s : Site) : lv (sitePay c s).1 () = siteLv s := by
  cases s with
  | sig r => exact lv_bar (tgt c r)
  | rs h r => exact (lv_x (tgt c r) 1 h r).trans rfl
  | ag h r => exact (lv_x (tgt c r) 3 h r).trans rfl

/-- A wait on a cell of level `n` is allowed while only sites above `n` are still owed. -/
theorem mayWait_sites (sm : SemLoc sig) (n : ℕ) (hsm : lv ((c : Thread nD τ), sm) () = n) (l : List Site) (hl : ∀ s ∈ l, n < siteLv s) :
    (levAts L lv : sProp 𝕄) ⊢ MayWait (c : Thread nD τ) sm () (owed (l.map (sitePay c))) :=
  Cert.LibOwesQueue.mayWait_owed (by rw [L_tc]; exact Finset.mem_singleton_self _) fun x hx => by
    obtain ⟨s, hs, rfl⟩ := List.mem_map.mp hx
    exact ⟨(sitePay_lv c s).1, by rw [hsm, lv_site]; exact hl s hs⟩

/-- The sites after the signals; after the reduce-scatter copies; after the all-gather copies of half 0. -/
def sitesRS : List Site := rs15.map (.rs 0) ++ rs15.map (.rs 1) ++ rs15.map (.ag 0) ++ rs15.map (.ag 1)
def sitesAG : List Site := rs15.map (.ag 0) ++ rs15.map (.ag 1)
def sitesAG1 : List Site := rs15.map (.ag 1)

theorem sites_eq : sites = rs15.map Site.sig ++ sitesRS := by
  unfold sites sitesRS rs15; simp only [List.append_assoc]
theorem sitesRS_eq0 : sitesRS = rs15.map (Site.rs 0) ++ (rs15.map (.rs 1) ++ sitesAG) := by
  unfold sitesRS sitesAG; simp only [List.append_assoc]
theorem sitesAG_eq : sitesAG = rs15.map (Site.ag 0) ++ sitesAG1 := rfl
theorem sitesAG1_eq : sitesAG1 = rs15.map (Site.ag 1) ++ [] := (List.append_nil _).symm

/-- Four lists over the fifteen partners as one list of the four together. -/
theorem join4 (A B C D : Fin 15 → sProp 𝕄) :
    iprop(bigSepL rs15 A ∗ bigSepL rs15 B ∗ bigSepL rs15 C ∗ bigSepL rs15 D) = bigSepL rs15 (fun r => iprop(A r ∗ B r ∗ C r ∗ D r)) := by
  rw [chain_sep, chain_sep, chain_sep]
theorem join2 (A B : Fin 15 → sProp 𝕄) :
    iprop(bigSepL rs15 A ∗ bigSepL rs15 B) = bigSepL rs15 (fun r => iprop(A r ∗ B r)) := by
  rw [chain_sep]

/-- The sources of the reduce-scatter copies of half `h` are the partners' blocks of the partial product. -/
theorem srcL_eq (h : Fin 2) :
    bigSepL rs15 (fun r => rsSrcPts m c h r)
      = bigSepL rs15 (fun r => (((c : Thread nD τ).loc cc0_scratch0) ↦[blk (tgt c r) h]{fullShare} (k0_pay1 (xA m c) (xB m c)) : sProp 𝕄)) :=
  chain_congr rs15 fun r _ => by unfold rsSrcPts; rw [rsSrc_set]; rfl

/-! ## The broadcast buffer's halves, and their shares -/

/-- The two halves of the broadcast buffer. -/
def bcS (h : Fin 2) : Finset S2x16x512.Idx := (bcRect h).set

theorem agSrc_set (h : Fin 2) : (agSrc h).view.set = bcS h := by
  have e : ((kM : Memref sig .tc .vmem S2x16x512 .bf16).view.slice (bcRect h)).set = (agSrc h).view.set :=
    (View.set_reshape (v := (kM : Memref sig .tc .vmem S2x16x512 .bf16).view.slice (bcRect h)) _).symm
  rw [← e]
  show ((View.whole cc0_scratch2).slice _).set = _
  rw [View.set_slice_whole]
  rfl

theorem bc_access_set (h : Fin 2) : ((kM : Memref sig .tc .vmem S2x16x512 .bf16).access (bcRect h)).set = bcS h := by
  show ((View.whole cc0_scratch2).slice _).set = _
  rw [View.set_slice_whole]
  rfl

theorem bc_disjoint : Disjoint (bcS 0) (bcS 1) :=
  Rect.unit_disjoint (0 : Fin 3) (Or.inl (by decide))

/-- Storing the finished half, re-cast to 1 x 16 x 512, through the half's rectangle leaves the half as the all-gather reads it. -/
theorem bc_stored_eq (h : Fin 2) (f : Buf (Elt F) ((c : Thread nD τ).loc cc0_scratch2)) (Wv : S16x512.Idx → Elt F .bf16) (hW : finalV m c h = Wv) :
    ∀ i ∈ bcS h, (((kM : Memref sig .tc .vmem S2x16x512 .bf16).access (bcRect h)).write (Elt F) f (shapeCast S1x16x512 Wv shapeCasts_S16x512_S1x16x512) Finset.univ) i = bcBuf m c h i := by
  intro i hi
  rw [← agSrc_set] at hi
  obtain ⟨y, rfl⟩ := View.exists_emb_of_mem_set _ hi
  have hw := View.write_emb_of_mem (v := ((kM : Memref sig .tc .vmem S2x16x512 .bf16).access (bcRect h))) (Val := Elt F) f
    (shapeCast S1x16x512 Wv shapeCasts_S16x512_S1x16x512) (M := Finset.univ) (x := Shape.reshapeEquiv (Shape.Squeezes.numel_eq squeezes_S1x16x512_S16x512) y) (Finset.mem_univ _)
  have hb := View.write_emb_of_mem (v := (agSrc h).view) (Val := Elt F) (fun _ => FloatOps.ofBits .bf16 0) (finalV m c h) (M := Finset.univ) (x := y) (Finset.mem_univ _)
  unfold bcBuf
  rw [hb]
  refine (show _ = _ from hw).trans ?_
  subst hW
  rw [cast_eq, cast_eq]
  show finalV m c h (Shape.reshapeEquiv _ (Shape.reshapeEquiv _ y)) = finalV m c h y
  rw [Shape.reshapeEquiv_reshapeEquiv, Shape.reshapeEquiv_self]

theorem mw0 (sm : SemLoc sig) : (levAts L lv : sProp 𝕄) ⊢ MayWait (c : Thread nD τ) sm () 0 := by
  rw [MayWait_zero]; iintro -; iempintro

theorem range15 : Finset.range 15 = (rs15.map Fin.val).toFinset := by decide
theorem range15_nodup : (rs15.map Fin.val).Nodup := by decide

/-- A full points-to as the fifteen shares the all-gather copies read, and the rest. -/
theorem pieces15 {ℓ : Loc nD τ sig} {I : Finset (Idx ℓ)} {f : Buf (Elt F) ℓ} :
    (ℓ ↦[I]{fullShare} f : sProp 𝕄) ⊣⊢ iprop(bigSepL rs15 (fun r => (ℓ ↦[I]{shareOf r} f : sProp 𝕄)) ∗ ℓ ↦[I]{Cert.LibShares.rest fullShare 15} f) := by
  have h := Cert.LibShares.pointsTo_pieces (Ix := Unit) (Name := ℕ) (U := UU) (Lvl := ℕ) (ℓ := ℓ) (I := I) (f := f) fullShare 15
  rw [bigSep_eq_bigSepL_of_eq (rs15.map Fin.val) range15 range15_nodup, chain_map] at h
  exact h

theorem finalV_zero : finalV m c 0 = final0 m c := if_pos rfl
theorem finalV_one : finalV m c 1 = final1 m c := if_neg (by decide)

theorem outPay_eq : ∀ (h : Fin 2) (L0 : Fin 15 → SlotV F), (∀ r, Good m c h r (L0 r)) → outPay h (rowsV m c c h) L0 = finalV m c h :=
  Fin.forall_fin_two.2 ⟨fun L0 hg => (show outPay 0 (rowsV m c c 0) L0 = final0 m c from final0_of_good m c L0 hg).trans (finalV_zero m c).symm,
    fun L0 hg => (show outPay 1 (rowsV m c c 1) L0 = final1 m c from final1_of_good m c L0 hg).trans (finalV_one m c).symm⟩

theorem bcPay_eq : ∀ (h : Fin 2) (P : Vec F S16x512 .bf16) (L0 : Fin 15 → SlotV F),
    bcPay h P L0 = shapeCast S1x16x512 (outPay h P L0) shapeCasts_S16x512_S1x16x512 :=
  Fin.forall_fin_two.2 ⟨fun _ _ => rfl, fun _ _ => rfl⟩

theorem ownP_sub (h : Fin 2) : (pM : Memref sig .tc .vmem S512x512 .bf16).view.setOn (ownRect c h).toLoadRect.set ⊆ blk c h := by
  have h0 : ((pM : Memref sig .tc .vmem S512x512 .bf16).access (ownRect c h)).set ⊆ blk c h := le_of_eq (ownP_set c h)
  rwa [View.set_slice] at h0
theorem ownO_sub (h : Fin 2) : (oM : Memref sig .tc .vmem S512x512 .bf16).view.setOn (ownRect c h).toLoadRect.set ⊆ blk c h := by
  have h0 : ((oM : Memref sig .tc .vmem S512x512 .bf16).access (ownRect c h)).set ⊆ blk c h := le_of_eq (own_set c h)
  rwa [View.set_slice] at h0
theorem bc_sub (h : Fin 2) : (kM : Memref sig .tc .vmem S2x16x512 .bf16).view.setOn (bcRect h).toLoadRect.set ⊆ bcS h := by
  have h0 : ((kM : Memref sig .tc .vmem S2x16x512 .bf16).access (bcRect h)).set ⊆ bcS h := le_of_eq (bc_access_set h)
  rwa [View.set_slice] at h0

set_option maxHeartbeats 1600000 in
/-- One half of the body. -/
theorem half_wp (h : Fin 2) (rest : List Site) (hrest : ∀ s ∈ rs15.map (Site.ag h) ++ rest, 2 < siteLv s) (W : Waits sig Unit)
    (fk : Buf (Elt F) ((c : Thread nD τ).loc cc0_scratch2)) (g2 : Buf (Elt F) ((c : Thread nD τ).loc cc0_stg2_0))
    (k : Prog (EEf F) PUnit) (Q : PUnit → sProp 𝕄) :
    iprop(records m K ∗ levAts L lv ∗ owes (c : Thread nD τ) (owed ((rs15.map (Site.ag h) ++ rest).map (sitePay c))) W
        ∗ (((c : Thread nD τ).loc cc0_scratch0) ↦[blk c h]{fullShare} (k0_pay1 (xA m c) (xB m c)))
        ∗ credL c 1 h ∗ posL c 1 h 0
        ∗ (((c : Thread nD τ).loc cc0_scratch2) ↦[bcS h]{fullShare} fk)
        ∗ (((c : Thread nD τ).loc cc0_stg2_0) ↦[blk c h]{fullShare} g2)
        ∗ bigSepL rs15 (fun r => outRowsAny (F := F) (tgt c r) c h)
        ∗ tokL 2 h (fun _ => c) ∗ tokL 3 h (tgt c)
        ∗ (((∃ W', owes (c : Thread nD τ) (owed (rest.map (sitePay c))) W')
              ∗ (((c : Thread nD τ).loc cc0_scratch0) ↦[blk c h]{fullShare} (k0_pay1 (xA m c) (xB m c)))
              ∗ posL c 1 h 1 ∗ bigSepL rs15 (fun r => rsLanded m c h r)
              ∗ (((c : Thread nD τ).loc cc0_scratch2) ↦[bcS h]{Cert.LibShares.rest fullShare 15} bcBuf m c h)
              ∗ (((c : Thread nD τ).loc cc0_stg2_0) ↦[blk c h]{fullShare} OutV m)
              ∗ credL c 2 h)
            -∗ wp frame (wpE (defs₀ (F := F)) 𝒱₀ c none) Set.univ k Q))
      ⊢ wp frame (wpE (defs₀ (F := F)) 𝒱₀ c none) Set.univ (halfP c h k) Q := by
  unfold halfP
  iintro ⟨#HR, #Hlev, HO, Hpo, Hcr, Hpos, Hks, Hos, Hor, Ht2, Ht3, Hk⟩
  -- the device's own rows
  iapply (wp_load 𝒱₀ (c : Thread nD τ) none Set.univ (m := pM) (r := (ownRect c h).toLoadRect) (ownP_sub c h)) $$ Hpo; iintro Hpo
  rw [show (pM : Memref sig .tc .vmem S512x512 .bf16).view.readAt (Elt F) (ownRect c h).toLoadRect (k0_pay1 (xA m c) (xB m c)) = rowsV m c c h from own_rows_read m c h]
  -- the fifteen receives
  iapply (recvs_wp m K c h rs15 zeroSlots (fun _ => False) (fun x hx => hx.elim) (owed ((rs15.map (Site.ag h) ++ rest).map (sitePay c)))
    (fun r => mayWait_sites c (.dma (semAt (arr 1) h r)) 2 ((lv_x c 1 h r).trans rfl) _ hrest) _ Q)
  isplitr; · iexact HR
  isplitr; · iexact Hlev
  isplitl [HO]; · iexists W; iexact HO
  isplitl [Hcr Hpos]
  · iapply (Entails.of_eq (join2 _ _))
    isplitl [Hcr]; · iexact Hcr
    iexact Hpos
  iintro %L0 ⟨%hg, ⟨%W1, HO⟩, Hps⟩
  have hgood : ∀ r, Good m c h r (L0 r) := fun r => hg r (Or.inr (List.mem_finRange r))
  ihave Hps' := (Entails.of_eq (join2 _ _).symm) $$ Hps
  icases Hps' with ⟨Hpos1, Hland⟩
  rw [bcPay_eq, outPay_eq m c h L0 hgood]
  -- the sum into the broadcast buffer's half
  iapply (wp_load 𝒱₀ (c : Thread nD τ) none Set.univ (m := kM) (r := (bcRect h).toLoadRect) (bc_sub h)) $$ Hks; iintro Hks
  iapply (wp_store 𝒱₀ (c : Thread nD τ) none Set.univ (m := kM) (r := bcRect h) (Mk := Finset.univ) (le_of_eq (bc_access_set h))) $$ Hks; iintro Hks
  -- and into the device's own rows of the result
  iapply (wp_load 𝒱₀ (c : Thread nD τ) none Set.univ (m := oM) (r := (ownRect c h).toLoadRect) (ownO_sub c h)) $$ Hos; iintro Hos
  iapply (wp_store 𝒱₀ (c : Thread nD τ) none Set.univ (m := oM) (r := ownRect c h) (Mk := Finset.univ) (le_of_eq (own_set c h))) $$ Hos; iintro Hos
  -- what was stored: the half as the all-gather reads it, and the result's values on the device's own rows
  ihave Hks := (Entails.of_eq (pointsTo_congr (Ix := Unit) (Name := ℕ) (U := UU) (Lvl := ℕ) (q := fullShare) (bc_stored_eq m c h fk (finalV m c h) rfl))) $$ Hks
  ihave Hos := (Entails.of_eq (pointsTo_congr (Ix := Unit) (Name := ℕ) (U := UU) (Lvl := ℕ) (q := fullShare) (own_stored_eq m c h g2))) $$ Hos
  ihave Hsh := (pieces15 (F := F) (ℓ := ((c : Thread nD τ).loc cc0_scratch2)) (I := bcS h) (f := bcBuf m c h)).1 $$ Hks
  icases Hsh with ⟨Hpieces, Hkrest⟩
  ihave Hpieces := (Entails.of_eq (chain_congr rs15 (fun r _ => show ((((c : Thread nD τ).loc cc0_scratch2) ↦[bcS h]{shareOf r} bcBuf m c h) : sProp 𝕄) = agSrcPts m c h r from by
    unfold agSrcPts; rw [agSrc_set]))) $$ Hpieces
  -- the fifteen all-gather copies
  iapply (agSends_wp m K c h rs15 rest W1 _ Q)
  isplitr; · iexact HR
  isplitl [HO]; · iexact HO
  isplitl [Hpieces Hor Ht2 Ht3]
  · iapply (Entails.of_eq (join4 _ _ _ _))
    isplitl [Hpieces]; · iexact Hpieces
    isplitl [Hor]; · iexact Hor
    isplitl [Ht2]; · iexact Ht2
    iexact Ht3
  iintro ⟨Hcs, HO⟩
  iapply Hk
  isplitl [HO]; · iexists W1; iexact HO
  isplitl [Hpo]; · iexact Hpo
  isplitl [Hpos1]; · iexact Hpos1
  isplitl [Hland]; · iexact Hland
  isplitl [Hkrest]; · iexact Hkrest
  isplitl [Hos]; · iexact Hos
  iexact Hcs

/-! ## The body's pre and post -/

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

abbrev scr (b : Ref sig .tc) : sProp 𝕄 := iprop(∃ f : Buf (Elt F) ((c : Thread nD τ).loc b), ((c : Thread nD τ).loc b) ↦{fullShare} f)

theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The end: closing the cells, joining the buffers -/

theorem pos1_eq : (bigSep Finset.univ fun x : XI => (atPos ER (xCell c x.1 x.2.1 x.2.2) 1 ∅ 0 : sProp 𝕄))
    = iprop((posL c 0 0 1 ∗ posL c 0 1 1) ∗ (posL c 1 0 1 ∗ posL c 1 1 1) ∗ (posL c 2 0 1 ∗ posL c 2 1 1) ∗ (posL c 3 0 1 ∗ posL c 3 1 1)) := by
  rw [bigSep_x', univY, univY, univY, univY]

/-- The device's 120 transfer cells close: their counters at zero are its own again. -/
theorem close_all : iprop(records m K ∗ bigSep Finset.univ fun x : XI => (atPos ER (xCell c x.1 x.2.1 x.2.2) 1 ∅ 0 : sProp 𝕄))
    ⊢ |={Set.univ}=> (Pipeline.ownSems0 (Ix := Unit) (Name := ℕ) (U := UU) (Lvl := ℕ) (Val := Elt F) (τ := τ) osem c : sProp 𝕄) := by
  unfold Pipeline.ownSems0
  refine BIBase.Entails.trans ?_ (bigSep_fupd _ _)
  refine (bigSep_with_persistent' (R := records m K) fun x _ => ?_)
  iintro ⟨#HR, Hat⟩
  iapply (Rounds.cell_close ER (Rd m) (Set.mem_univ (K (c, some x))) (fun h => h) (R := 0 + 1) (duties_later m (xCell c x.1 x.2.1 x.2.2)))
  isplitr; · iapply (inv_of m K (c, some x)); iexact HR
  iexact Hat

/-- The partial product's blocks back together. -/
theorem part_rejoin :
    iprop((((c : Thread nD τ).loc cc0_scratch0) ↦[blk c 0]{fullShare} (k0_pay1 (xA m c) (xB m c)))
        ∗ (((c : Thread nD τ).loc cc0_scratch0) ↦[blk c 1]{fullShare} (k0_pay1 (xA m c) (xB m c)))
        ∗ bigSepL rs15 (fun r => rsSrcPts m c 0 r) ∗ bigSepL rs15 (fun r => rsSrcPts m c 1 r))
      ⊢ (scr c cc0_scratch0 : sProp 𝕄) := by
  rw [srcL_eq, srcL_eq]
  iintro ⟨H0, H1, Hs0, Hs1⟩
  iexists (k0_pay1 (xA m c) (xB m c))
  iapply (Entails.of_eq ((part_blocks c (k0_pay1 (xA m c) (xB m c))).trans
    (blocks_split c (fun d h => (((c : Thread nD τ).loc cc0_scratch0) ↦[blk d h]{fullShare} (k0_pay1 (xA m c) (xB m c)))))).symm)
  isplitl [H0 H1]
  · isplitl [H0]; · iexact H0
    iexact H1
  iapply (Entails.of_eq (join2 _ _))
  isplitl [Hs0]; · iexact Hs0
  iexact Hs1

/-- A landed block of the result holds the result's values: the landed blocks of half `h`, in the order of the partners. -/
theorem landed_out (h : Fin 2) :
    bigSepL rs15 (fun r => agLanded m c h r) ⊢ (bigSepL rs15 (fun r => (((c : Thread nD τ).loc cc0_stg2_0) ↦[blk (tgt c r) h]{fullShare} OutV m)) : sProp 𝕄) := by
  have e : bigSepL rs15 (fun r => ((((c : Thread nD τ).loc cc0_stg2_0) ↦[blk (fr c r) h]{fullShare} OutV m) : sProp 𝕄))
      = bigSepL rs15 (fun r => (((c : Thread nD τ).loc cc0_stg2_0) ↦[blk (tgt c r) h]{fullShare} OutV m)) := by
    rw [← chain_rev (fun r => ((((c : Thread nD τ).loc cc0_stg2_0) ↦[blk (fr c r) h]{fullShare} OutV m) : sProp 𝕄))]
    exact chain_congr rs15 fun r _ => by rw [fr_rv]
  rw [← e]
  refine Cert.LibDeal.bigSepL_mono rs15 fun r _ => ?_
  unfold agLanded
  iintro ⟨%fd, H⟩
  rw [agDst_set]
  iapply (Entails.of_eq (pointsTo_congr (Ix := Unit) (Name := ℕ) (U := UU) (Lvl := ℕ) (q := fullShare)
    (fun i hi => out_landed_eq m c (fr c r) h fd i (by rw [agDst_set]; exact hi))))
  iexact H

/-- The result's staging buffer, whole, at the result. -/
theorem out_rejoin :
    iprop((((c : Thread nD τ).loc cc0_stg2_0) ↦[blk c 0]{fullShare} OutV m) ∗ (((c : Thread nD τ).loc cc0_stg2_0) ↦[blk c 1]{fullShare} OutV m)
        ∗ bigSepL rs15 (fun r => agLanded m c 0 r) ∗ bigSepL rs15 (fun r => agLanded m c 1 r))
      ⊢ ((((c : Thread nD τ).loc cc0_stg2_0) ↦{fullShare} OutV m) : sProp 𝕄) := by
  iintro ⟨H0, H1, Hl0, Hl1⟩
  ihave Hl0 := (landed_out m c 0) $$ Hl0
  ihave Hl1 := (landed_out m c 1) $$ Hl1
  iapply (Entails.of_eq ((out_blocks c (OutV m)).trans
    (blocks_split c (fun d h => (((c : Thread nD τ).loc cc0_stg2_0) ↦[blk d h]{fullShare} OutV m)))).symm)
  isplitl [H0 H1]
  · isplitl [H0]; · iexact H0
    iexact H1
  iapply (Entails.of_eq (join2 _ _))
  isplitl [Hl0]; · iexact Hl0
  iexact Hl1

/-- One half of the broadcast buffer back at the full share. -/
theorem bc_half_rejoin (h : Fin 2) :
    iprop((((c : Thread nD τ).loc cc0_scratch2) ↦[bcS h]{Cert.LibShares.rest fullShare 15} bcBuf m c h) ∗ bigSepL rs15 (fun r => agSrcPts m c h r))
      ⊢ ((((c : Thread nD τ).loc cc0_scratch2) ↦[bcS h]{fullShare} bcBuf m c h) : sProp 𝕄) := by
  iintro ⟨Hr, Hp⟩
  iapply (pieces15 (F := F) (ℓ := ((c : Thread nD τ).loc cc0_scratch2)) (I := bcS h) (f := bcBuf m c h)).2
  isplitl [Hp]
  · iapply (Entails.of_eq (chain_congr rs15 (fun r _ => show ((((c : Thread nD τ).loc cc0_scratch2) ↦[bcS h]{shareOf r} bcBuf m c h) : sProp 𝕄) = agSrcPts m c h r from by
      unfold agSrcPts; rw [agSrc_set])).symm)
    iexact Hp
  iexact Hr

/-- The broadcast buffer whole again. -/
theorem bc_rejoin (fk : Buf (Elt F) ((c : Thread nD τ).loc cc0_scratch2)) :
    iprop((((c : Thread nD τ).loc cc0_scratch2) ↦[bcS 0]{fullShare} bcBuf m c 0) ∗ (((c : Thread nD τ).loc cc0_scratch2) ↦[bcS 1]{fullShare} bcBuf m c 1)
        ∗ (((c : Thread nD τ).loc cc0_scratch2) ↦[Finset.univ \ (bcS 0 ∪ bcS 1)]{fullShare} fk))
      ⊢ (scr c cc0_scratch2 : sProp 𝕄) := by
  iintro ⟨H0, H1, Hr⟩
  ihave HU := (pointsTo_join (Ix := Unit) (Name := ℕ) (U := UU) (Lvl := ℕ) (ℓ := ((c : Thread nD τ).loc cc0_scratch2)) (I := bcS 0) (J := bcS 1) (q := fullShare) (f := bcBuf m c 0) (g := bcBuf m c 1) bc_disjoint) $$ [H0 H1]
  · isplitl [H0]; · iexact H0
    iexact H1
  ihave HW := (pointsTo_join_subset (Ix := Unit) (Name := ℕ) (U := UU) (Lvl := ℕ) (ℓ := ((c : Thread nD τ).loc cc0_scratch2)) (I := bcS 0 ∪ bcS 1) (S := Finset.univ) (q := fullShare) (f := fk) (Finset.subset_univ (bcS 0 ∪ bcS 1))) $$ [HU Hr]
  · isplitl [HU]; · iexact HU
    iexact Hr
  iexists _
  iexact HW

/-- Some contents on a set of elements of the receive buffer. -/
abbrev anyAt (S : Finset S2x16x16x512.Idx) : sProp 𝕄 :=
  iprop(∃ f : Buf (Elt F) ((c : Thread nD τ).loc cc0_scratch1), (((c : Thread nD τ).loc cc0_scratch1) ↦[S]{fullShare} f))

/-- Slots held one by one at whatever they hold join a set disjoint from them all. -/
theorem any_join_list (l : List YI) (hl : l.Nodup) (S₀ : Finset S2x16x16x512.Idx) (hd : ∀ y ∈ l, Disjoint S₀ (slotS y)) :
    iprop(anyAt (F := F) c S₀ ∗ bigSepL l (fun y => anyAt (F := F) c (slotS y))) ⊢ anyAt (F := F) c (S₀ ∪ l.toFinset.biUnion slotS) := by
  induction l generalizing S₀ with
  | nil =>
    rw [List.toFinset_nil, Finset.biUnion_empty, Finset.union_empty]
    iintro ⟨H, -⟩; iexact H
  | cons y l ih =>
    obtain ⟨hy, hl'⟩ := List.nodup_cons.mp hl
    rw [chain_cons, List.toFinset_cons, Finset.biUnion_insert, ← Finset.union_assoc]
    iintro ⟨⟨%f, H0⟩, ⟨%g, Hy⟩, Hl⟩
    ihave HU := (pointsTo_join (Ix := Unit) (Name := ℕ) (U := UU) (Lvl := ℕ) (ℓ := ((c : Thread nD τ).loc cc0_scratch1)) (I := S₀) (J := slotS y) (q := fullShare) (f := f) (g := g) (hd y List.mem_cons_self)) $$ [H0 Hy]
    · isplitl [H0]; · iexact H0
      iexact Hy
    iapply (ih hl' (S₀ ∪ slotS y) (fun y' hy' => Finset.disjoint_union_left.mpr
      ⟨hd y' (List.mem_cons_of_mem _ hy'), slot_disjoint y y' (fun e => hy (e ▸ hy'))⟩))
    isplitl [HU]; · iexists _; iexact HU
    iexact Hl

def allSlots : List YI := rs15.map (fun r => ((0 : Fin 2), r)) ++ rs15.map (fun r => ((1 : Fin 2), r))
theorem allSlots_nodup : allSlots.Nodup := by decide
theorem allSlots_univ : allSlots.toFinset = Finset.univ := by decide

theorem landed_any (h : Fin 2) : bigSepL rs15 (fun r => rsLanded m c h r) ⊢ (bigSepL rs15 (fun r => anyAt (F := F) c (slotS (h, r))) : sProp 𝕄) := by
  refine Cert.LibDeal.bigSepL_mono rs15 fun r _ => ?_
  unfold rsLanded
  iintro ⟨%fd, H⟩
  rw [rsDst_set]
  iexists _
  iexact H

/-- The receive buffer whole again, at whatever it holds. -/
theorem recv_rejoin (fr0 : Buf (Elt F) ((c : Thread nD τ).loc cc0_scratch1)) :
    iprop(bigSepL rs15 (fun r => rsLanded m c 0 r) ∗ bigSepL rs15 (fun r => rsLanded m c 1 r)
        ∗ (((c : Thread nD τ).loc cc0_scratch1) ↦[Finset.univ \ Finset.univ.biUnion slotS]{fullShare} fr0))
      ⊢ (scr c cc0_scratch1 : sProp 𝕄) := by
  iintro ⟨H0, H1, Hr⟩
  ihave H0 := (landed_any m c 0) $$ H0
  ihave H1 := (landed_any m c 1) $$ H1
  ihave HJ := (any_join_list (F := F) c allSlots allSlots_nodup (Finset.univ \ Finset.univ.biUnion slotS) (fun y _ =>
    Finset.disjoint_of_subset_right (Finset.subset_biUnion_of_mem slotS (Finset.mem_univ y)) Finset.sdiff_disjoint)) $$ [H0 H1 Hr]
  · isplitl [Hr]; · iexists fr0; iexact Hr
    unfold allSlots
    iapply (Entails.of_eq (chain_append _ _ _).symm)
    isplitl [H0]
    · iapply (Entails.of_eq (chain_map _ _ _).symm); iexact H0
    iapply (Entails.of_eq (chain_map _ _ _).symm); iexact H1
  rw [allSlots_univ, Finset.sdiff_union_of_subset (Finset.subset_univ _)] at *
  iexact HJ

/-! ## The body -/

def bodyPre : sProp 𝕄 :=
  iprop((ghost m K c ∗ creds c ∗ levAts L lv ∗ scr c cc0_scratch0 ∗ scr c cc0_scratch1 ∗ scr c cc0_scratch2)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost : sProp 𝕄 :=
  iprop(Φ₁ c ∗ (dats m ρ 0 c).owesAt () t0_0.succ ∗ stg c cc0_stg0_0 (xA m c) ∗ stg c cc0_stg1_0 (xB m c) ∗ stg c cc0_stg2_0 (OutV m))

theorem hz2 : (![0, 0] : Fin 2 → Nat) = fun _ => 0 := funext fun a => by fin_cases a <;> rfl
theorem read_a (f : (cc0_stg0_0 : Ref sig .tc).ty.Contents (Elt F)) :
    (aM : Memref sig .tc .vmem S512x256 .f32).view.readAt (Elt F) (Rect.unit (s := S512x256) ![0, 0] S512x256.size inb_S512x256_S512x256_0_0).toLoadRect f = f :=
  Memref.readAt_unit_zero (Elt F) cc0_stg0_0 hz2 _ f
theorem read_b (f : (cc0_stg1_0 : Ref sig .tc).ty.Contents (Elt F)) :
    (bM : Memref sig .tc .vmem S256x512 .f32).view.readAt (Elt F) (Rect.unit (s := S256x512) ![0, 0] S256x512.size inb_S256x512_S256x512_0_0).toLoadRect f = f :=
  Memref.readAt_unit_zero (Elt F) cc0_stg1_0 hz2 _ f
theorem write_p (f w : (cc0_scratch0 : Ref sig .tc).ty.Contents (Elt F)) :
    ((pM : Memref sig .tc .vmem S512x512 .bf16).access (Rect.unit (s := S512x512) ![0, 0] S512x512.size inb_S512x512_S512x512_0_0) : View sig .tc _ _ _).write (Elt F) f w Finset.univ = w :=
  Memref.write_access_unit_zero_univ (Elt F) cc0_scratch0 hz2 _ f w

set_option maxHeartbeats 1600000 in
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body (F := F) aM (Memref.isWhole_whole _) bM (Memref.isWhole_whole _) oM (Memref.isWhole_whole _) pM (Memref.isWhole_whole _)
            rM (Memref.isWhole_whole _) kM (Memref.isWhole_whole _) cc0_scratch3 cc0_scratch4 cc0_scratch5 cc0_scratch6) Kt := by
  rw [body_eq]
  unfold bodyP
  simp only [wp_deviceId]
  unfold bodyPre ghost
  iintro ⟨⟨⟨⟨#HR, Hpos, Htoks⟩, Hcr, #Hlev, ⟨%fp, HpM⟩, ⟨%fr0, HrM⟩, ⟨%fk, HkM⟩⟩, Ho, ⟨%d0, %g0, %hg0, Ha⟩, ⟨%d1, %g1, %hg1, Hb⟩, ⟨%d2, %g2, %hg2, Hout⟩⟩, Hk⟩
  ihave Hpos' := (Entails.of_eq (ownPos_eq c)) $$ Hpos
  icases Hpos' with ⟨HatB, ⟨Hp00, Hp01⟩, ⟨Hp10, Hp11⟩, ⟨Hp20, Hp21⟩, ⟨Hp30, Hp31⟩⟩
  ihave Ht' := (Entails.of_eq (payToks_eq c)) $$ Htoks
  icases Ht' with ⟨HtB, ⟨Ht10, Ht11⟩, ⟨Ht30, Ht31⟩, ⟨Ht00, Ht01⟩, ⟨Ht20, Ht21⟩⟩
  ihave Hc' := (Entails.of_eq (creds_eq c)) $$ Hcr
  icases Hc' with ⟨⟨⟨⟨HcB, Hc10⟩, Hc11⟩, Hc30⟩, Hc31⟩
  unfold Dat.owesAt Pipeline.owesWithin
  icases Ho with ⟨%W, %hW, HO⟩
  rw [show (dats m ρ 0 c).owed t0_0.castSucc = owed ((rs15.map Site.sig ++ sitesRS).map (sitePay c)) from by rw [← sites_eq]; rfl]
  -- the receive buffer as its slots, the result's staging buffer as its blocks
  ihave HrS := (Entails.of_eq (slots_split c fr0)) $$ HrM
  icases HrS with ⟨⟨Hs0, Hs1⟩, HrRest⟩
  ihave HoB := (Entails.of_eq ((out_blocks c g2).trans (blocks_split c (fun d h => (((c : Thread nD τ).loc cc0_stg2_0) ↦[blk d h]{fullShare} g2))))) $$ Hout
  icases HoB with ⟨⟨Ho0, Ho1⟩, HoOth⟩
  ihave Hsp := (sig_pay_intro c fr0 g2) $$ [Hs0 Hs1 HoOth]
  · isplitl [Hs0]; · iexact Hs0
    isplitl [Hs1]; · iexact Hs1
    iexact HoOth
  -- the fifteen signals
  iapply (sigs_wp m K c rs15 sitesRS W _ Kt)
  isplitr; · iexact HR
  isplitl [HO]; · iexact HO
  isplitl [HtB Hsp]
  · iapply (Entails.of_eq (chain_sep rs15 _ _).symm)
    isplitl [HtB]; · iexact HtB
    iexact Hsp
  iintro HO
  -- the local product: loads, the dead load, the store of the partial product
  have hx : g0 = xA m c := by rw [hg0]; unfold Dat.before; rw [if_pos (fetch0_0 t0_0)]; rfl
  have hy : g1 = xB m c := by rw [hg1]; unfold Dat.before; rw [if_pos (fetch0_1 t0_0)]; rfl
  subst hx; subst hy
  iapply (wp_load 𝒱₀ (c : Thread nD τ) none Set.univ (m := aM) (Finset.subset_univ _)) $$ Ha; iintro Ha
  rw [read_a]
  iapply (wp_load 𝒱₀ (c : Thread nD τ) none Set.univ (m := bM) (Finset.subset_univ _)) $$ Hb; iintro Hb
  rw [read_b]
  iapply (wp_load 𝒱₀ (c : Thread nD τ) none Set.univ (m := pM) (Finset.subset_univ _)) $$ HpM; iintro HpM
  iapply (wp_store 𝒱₀ (c : Thread nD τ) none Set.univ (m := pM) (r := Rect.unit (s := S512x512) ![0, 0] S512x512.size inb_S512x512_S512x512_0_0) (Mk := Finset.univ) (Finset.subset_univ _)) $$ HpM; iintro HpM
  rw [write_p]
  -- the barrier wait
  ihave HcB' := (cred_units (barCell c) rs15) $$ HcB
  iapply (bar_wait_step m K c (owed (sitesRS.map (sitePay c))) W) $$ [HcB' HO HatB]
  · isplitr; · iexact HR
    isplitl [HcB']; · iexact HcB'
    isplitl [HO]; · iexact HO
    isplitr; · iapply (mayWait_sites c (.reg barS) 1 (lv_bar c) sitesRS (by decide)); iexact Hlev
    iexact HatB
  iintro ⟨HO, Hbp⟩
  ihave Hbp' := (Entails.of_eq (barPay_sorted c)) $$ Hbp
  icases Hbp' with ⟨Hsl0, Hsl1, Hor0, Hor1⟩
  -- the partial product as its blocks
  ihave HpB := (Entails.of_eq ((part_blocks c (k0_pay1 (xA m c) (xB m c))).trans
    (blocks_split c (fun d h => (((c : Thread nD τ).loc cc0_scratch0) ↦[blk d h]{fullShare} (k0_pay1 (xA m c) (xB m c)))))) ) $$ HpM
  icases HpB with ⟨⟨Hpo0, Hpo1⟩, HpOth⟩
  ihave HpOth' := (Entails.of_eq (join2 _ _).symm) $$ HpOth
  icases HpOth' with ⟨Hsrc0, Hsrc1⟩
  ihave Hsrc0 := (Entails.of_eq (srcL_eq m c 0).symm) $$ Hsrc0
  ihave Hsrc1 := (Entails.of_eq (srcL_eq m c 1).symm) $$ Hsrc1
  -- the thirty reduce-scatter copies
  ihave HO := (Entails.of_eq (congrArg (fun l => owes (c : Thread nD τ) (owed (List.map (sitePay c) l)) (insert (SemLoc.reg barS, ()) W)) sitesRS_eq0)) $$ HO
  iapply (rsSends_wp m K c 0 rs15 (rs15.map (Site.rs 1) ++ sitesAG) (insert (SemLoc.reg barS, ()) W) _ Kt)
  isplitr; · iexact HR
  isplitl [HO]; · iexact HO
  isplitl [Hsrc0 Hsl0 Ht00 Ht10]
  · iapply (Entails.of_eq (join4 _ _ _ _))
    isplitl [Hsrc0]; · iexact Hsrc0
    isplitl [Hsl0]; · iexact Hsl0
    isplitl [Ht00]; · iexact Ht00
    iexact Ht10
  iintro ⟨Hcs00, HO⟩
  iapply (rsSends_wp m K c 1 rs15 sitesAG (insert (SemLoc.reg barS, ()) W) _ Kt)
  isplitr; · iexact HR
  isplitl [HO]; · iexact HO
  isplitl [Hsrc1 Hsl1 Ht01 Ht11]
  · iapply (Entails.of_eq (join4 _ _ _ _))
    isplitl [Hsrc1]; · iexact Hsrc1
    isplitl [Hsl1]; · iexact Hsl1
    isplitl [Ht01]; · iexact Ht01
    iexact Ht11
  iintro ⟨Hcs01, HO⟩
  -- the broadcast buffer as its two halves and the rest
  ihave Hk2 := (pointsTo_split_subset (Ix := Unit) (Name := ℕ) (U := UU) (Lvl := ℕ) (Finset.subset_univ (bcS 0 ∪ bcS 1))).1 $$ HkM
  icases Hk2 with ⟨HkU, HkRest⟩
  ihave Hk3 := (pointsTo_union (Ix := Unit) (Name := ℕ) (U := UU) (Lvl := ℕ) bc_disjoint).1 $$ HkU
  icases Hk3 with ⟨Hk0, Hk1⟩
  -- half 0
  iapply (half_wp m K c 0 sitesAG1 (by decide) (insert (SemLoc.reg barS, ()) W) fk g2 _ Kt)
  isplitr; · iexact HR
  isplitr; · iexact Hlev
  isplitl [HO]; · iexact HO
  isplitl [Hpo0]; · iexact Hpo0
  isplitl [Hc10]; · iexact Hc10
  isplitl [Hp10]; · iexact Hp10
  isplitl [Hk0]; · iexact Hk0
  isplitl [Ho0]; · iexact Ho0
  isplitl [Hor0]; · iexact Hor0
  isplitl [Ht20]; · iexact Ht20
  isplitl [Ht30]; · iexact Ht30
  iintro ⟨⟨%W2, HO⟩, Hpo0, Hp10, Hland0, Hk0r, Ho0, Hcs20⟩
  -- half 1
  ihave HO := (Entails.of_eq (congrArg (fun l => owes (c : Thread nD τ) (owed (List.map (sitePay c) l)) W2) sitesAG1_eq)) $$ HO
  iapply (half_wp m K c 1 [] (by decide) W2 fk g2 _ Kt)
  isplitr; · iexact HR
  isplitr; · iexact Hlev
  isplitl [HO]; · iexact HO
  isplitl [Hpo1]; · iexact Hpo1
  isplitl [Hc11]; · iexact Hc11
  isplitl [Hp11]; · iexact Hp11
  isplitl [Hk1]; · iexact Hk1
  isplitl [Ho1]; · iexact Ho1
  isplitl [Hor1]; · iexact Hor1
  isplitl [Ht21]; · iexact Ht21
  isplitl [Ht31]; · iexact Ht31
  iintro ⟨⟨%W3, HO⟩, Hpo1, Hp11, Hland1, Hk1r, Ho1, Hcs21⟩
  ihave HO := (show owes (c : Thread nD τ) (owed (List.map (sitePay c) [])) W3 ⊢ (iprop(∃ W, owes (c : Thread nD τ) 0 W) : sProp 𝕄) from by iintro H; iexists W3; iexact H) $$ HO
  -- the waits for the all-gather copies addressed to the device
  iapply (agWaits_wp m K c 0 rs15 0 (fun r => mw0 c _) _ Kt)
  isplitr; · iexact HR
  isplitr; · iexact Hlev
  isplitl [HO]; · iexact HO
  isplitl [Hc30 Hp30]
  · iapply (Entails.of_eq (join2 _ _))
    isplitl [Hc30]; · iexact Hc30
    iexact Hp30
  iintro ⟨HO, Hps30⟩
  iapply (agWaits_wp m K c 1 rs15 0 (fun r => mw0 c _) _ Kt)
  isplitr; · iexact HR
  isplitr; · iexact Hlev
  isplitl [HO]; · iexact HO
  isplitl [Hc31 Hp31]
  · iapply (Entails.of_eq (join2 _ _))
    isplitl [Hc31]; · iexact Hc31
    iexact Hp31
  iintro ⟨HO, Hps31⟩
  -- the waits for the device's own copies to have left
  iapply (rsSendWaits_wp m K c 0 rs15 0 (fun r => mw0 c _) _ Kt)
  isplitr; · iexact HR
  isplitr; · iexact Hlev
  isplitl [HO]; · iexact HO
  isplitl [Hcs00 Hp00]
  · iapply (Entails.of_eq (join2 _ _))
    isplitl [Hcs00]; · iexact Hcs00
    iexact Hp00
  iintro ⟨HO, Hps00⟩
  iapply (rsSendWaits_wp m K c 1 rs15 0 (fun r => mw0 c _) _ Kt)
  isplitr; · iexact HR
  isplitr; · iexact Hlev
  isplitl [HO]; · iexact HO
  isplitl [Hcs01 Hp01]
  · iapply (Entails.of_eq (join2 _ _))
    isplitl [Hcs01]; · iexact Hcs01
    iexact Hp01
  iintro ⟨HO, Hps01⟩
  iapply (agSendWaits_wp m K c 0 rs15 0 (fun r => mw0 c _) _ Kt)
  isplitr; · iexact HR
  isplitr; · iexact Hlev
  isplitl [HO]; · iexact HO
  isplitl [Hcs20 Hp20]
  · iapply (Entails.of_eq (join2 _ _))
    isplitl [Hcs20]; · iexact Hcs20
    iexact Hp20
  iintro ⟨HO, Hps20⟩
  iapply (agSendWaits_wp m K c 1 rs15 0 (fun r => mw0 c _) _ Kt)
  isplitr; · iexact HR
  isplitr; · iexact Hlev
  isplitl [HO]; · iexact HO
  isplitl [Hcs21 Hp21]
  · iapply (Entails.of_eq (join2 _ _))
    isplitl [Hcs21]; · iexact Hcs21
    iexact Hp21
  iintro ⟨HO, Hps21⟩
  -- the positions at round 1 and what the waits handed back
  ihave H := (Entails.of_eq (join2 _ _).symm) $$ Hps00; icases H with ⟨Hp00, Hsr0⟩
  ihave H := (Entails.of_eq (join2 _ _).symm) $$ Hps01; icases H with ⟨Hp01, Hsr1⟩
  ihave H := (Entails.of_eq (join2 _ _).symm) $$ Hps20; icases H with ⟨Hp20, Hbs0⟩
  ihave H := (Entails.of_eq (join2 _ _).symm) $$ Hps21; icases H with ⟨Hp21, Hbs1⟩
  ihave H := (Entails.of_eq (join2 _ _).symm) $$ Hps30; icases H with ⟨Hp30, Hal0⟩
  ihave H := (Entails.of_eq (join2 _ _).symm) $$ Hps31; icases H with ⟨Hp31, Hal1⟩
  -- the 120 own cells close
  imod (close_all m K c) $$ [Hp00 Hp01 Hp10 Hp11 Hp20 Hp21 Hp30 Hp31] with Hz
  · isplitr; · iexact HR
    iapply (Entails.of_eq (pos1_eq c).symm)
    isplitl [Hp00 Hp01]
    · isplitl [Hp00]; · iexact Hp00
      iexact Hp01
    isplitl [Hp10 Hp11]
    · isplitl [Hp10]; · iexact Hp10
      iexact Hp11
    isplitl [Hp20 Hp21]
    · isplitl [Hp20]; · iexact Hp20
      iexact Hp21
    isplitl [Hp30]; · iexact Hp30
    iexact Hp31
  -- the buffers whole again
  ihave Hscr0 := (part_rejoin m c) $$ [Hpo0 Hpo1 Hsr0 Hsr1]
  · isplitl [Hpo0]; · iexact Hpo0
    isplitl [Hpo1]; · iexact Hpo1
    isplitl [Hsr0]; · iexact Hsr0
    iexact Hsr1
  ihave Hscr1 := (recv_rejoin m c fr0) $$ [Hland0 Hland1 HrRest]
  · isplitl [Hland0]; · iexact Hland0
    isplitl [Hland1]; · iexact Hland1
    iexact HrRest
  ihave Hk0 := (bc_half_rejoin m c 0) $$ [Hk0r Hbs0]
  · isplitl [Hk0r]; · iexact Hk0r
    iexact Hbs0
  ihave Hk1 := (bc_half_rejoin m c 1) $$ [Hk1r Hbs1]
  · isplitl [Hk1r]; · iexact Hk1r
    iexact Hbs1
  ihave Hscr2 := (bc_rejoin m c fk) $$ [Hk0 Hk1 HkRest]
  · isplitl [Hk0]; · iexact Hk0
    isplitl [Hk1]; · iexact Hk1
    iexact HkRest
  ihave Hout := (out_rejoin m c) $$ [Ho0 Ho1 Hal0 Hal1]
  · isplitl [Ho0]; · iexact Ho0
    isplitl [Ho1]; · iexact Ho1
    isplitl [Hal0]; · iexact Hal0
    iexact Hal1
  rw [wp_ret]; imodintro
  iapply Hk
  unfold bodyPost Φ₁ Dat.owesAt Pipeline.owesWithin
  rw [show (dats m ρ 0 c).owed t0_0.succ = 0 from rfl]
  isplitl [Hscr0 Hscr1 Hscr2 Hz]
  · isplitl [Hscr0]; · iexact Hscr0
    isplitl [Hscr1]; · iexact Hscr1
    isplitl [Hscr2]; · iexact Hscr2
    iexact Hz
  isplitl [HO]
  · icases HO with ⟨%W4, HO⟩
    iexists W4
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

set_option maxRecDepth 200000 in
def bodyPre' : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 200000 in
/-- The library's body obligation on device `c`. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (F := F) aM (Memref.isWhole_whole _) bM (Memref.isWhole_whole _) oM (Memref.isWhole_whole _) pM (Memref.isWhole_whole _)
      rM (Memref.isWhole_whole _) kM (Memref.isWhole_whole _) cc0_scratch3 cc0_scratch4 cc0_scratch5 cc0_scratch6) (fun _ => bodyPost m ρ c)
  unfold bodyPre' Φ₀ start
  iintro ⟨⟨⟨⟨%K, Hg⟩, Hcr, Hlev⟩, Hs0, Hs1, Hs2⟩, Ho, Hx, Hy, Hout⟩
  iapply (sound_body m ρ K c fun _ => bodyPost m ρ c)
  unfold bodyPre
  isplitr []
  · isplitl [Hg Hcr Hlev Hs0 Hs1 Hs2]
    · isplitl [Hg]; · iexact Hg
      isplitl [Hcr]; · iexact Hcr
      isplitl [Hlev]; · iexact Hlev
      isplitl [Hs0]; · iexact Hs0
      isplitl [Hs1]; · iexact Hs1
      iexact Hs2
    isplitl [Ho]; · iexact Ho
    isplitl [Hx]; · iexact Hx
    isplitl [Hy]; · iexact Hy
    iexact Hout
  · iintro H; iexact H

end Cert.KernelIdeal.Phase

end
-- ==== Proof.RunI.lean ====
/-
  The kernel's run on the sixteen devices: every weakly fair execution terminates without a fault, every
  device's result array ends at `OutV` of the launch memory and its two argument arrays end unchanged.
-/
import proofs.«900453_g7700000000000454_dist_matmul_relu_kshard_i_m512_n512_k256_v7x_i16_bf16_1_alg».proof.Proof.PhaseI

set_option maxRecDepth 16384

noncomputable section

namespace Cert.KernelIdeal.RunI

open Cert.KernelIdeal Cert.KernelIdeal.Gen Cert.KernelIdeal.Spec Cert.KernelIdeal.Proto Cert.KernelIdeal.Ghost
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The duty tokens of device `c`'s own cells. -/
def toks (c : Dev nD) : sProp 𝕄 := bigSep Finset.univ fun j : TI => dutyTok ER (tokOf (c, j)).1 (tokOf (c, j)).2.1 (tokOf (c, j)).2.2

/-- What the launch element deals device `c` (the theorem's `G`). -/
def G (c : Dev nD) : sProp 𝕄 :=
  iprop((bigSep Finset.univ fun i : CI => roundState ER (Rd m) (ccell c i) 0)
    ∗ (bigSep Finset.univ fun i : CI => iprop(atPos ER (ccell c i) 0 ∅ 0 ∗ reached ER (ccell c i) 0)) ∗ toks c)

/-- What the global step makes of it (`G'`). -/
def G' (c : Dev nD) : sProp 𝕄 := iprop(∃ K, ghost m K c)

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (ccell c i) 0 : sProp 𝕄) := by
  rw [unscopedSems0_eq, Cert.LibDeal.bigSep_univ_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (ccell c i)))
          ∗ (bigSep Finset.univ fun i : CI => iprop(atPos ER (ccell c i) 0 ∅ 0 ∗ reached ER (ccell c i) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (ccell c i) 0) ∗ bigSep Finset.univ fun i : CI => roundState ER (Rd m) (ccell c i) 0)
      ⊢ (|={Set.univ}=> bigSep Finset.univ fun i : CI => iprop(∃ κ : ℕ, cellInv ER (Rd m) κ (ccell c i)) : sProp 𝕄) from by
        rw [← bigSep_sep']
        exact (bigSep_mono fun i _ => (Rounds.body_intro ER (Rd m) (ccell c i)).trans inv_alloc).trans (bigSep_fupd _ _)) $$ [Hv Hst] with Hinv
  · isplitl [Hv] <;> iassumption
  imodintro
  isplitl [Hinv]; · iexact Hinv
  isplitl [Hat]; · iexact Hat
  iexact Htok

theorem inv_at (K : Dev nD × CI → ℕ) (ck : Dev nD × CI) :
    (bigSep Finset.univ fun ck : Dev nD × CI => (cellInv ER (Rd m) (K ck) (kcell ck) : sProp 𝕄)) ⊢ cellInv ER (Rd m) (K ck) (kcell ck) :=
  bigSep_elim (Finset.mem_univ ck)
theorem reached_at (ck : Dev nD × CI) :
    (bigSep Finset.univ fun ck : Dev nD × CI => (reached ER (kcell ck) 0 : sProp 𝕄)) ⊢ reached ER (kcell ck) 0 :=
  bigSep_elim (Finset.mem_univ ck)

/-- The device `r + 1` places on, as a bijection of the devices. -/
def tgtE (r : Fin 15) : Dev nD ≃ Dev nD := ⟨fun c => tgt c r, fun c => fr c r, fun c => fr_tgt c r, fun c => tgt_fr c r⟩

theorem bigSep_x (Φ : XI → sProp 𝕄) :
    bigSep Finset.univ Φ = iprop((bigSep Finset.univ fun y : YI => Φ (0, y)) ∗ (bigSep Finset.univ fun y : YI => Φ (1, y))
      ∗ (bigSep Finset.univ fun y : YI => Φ (2, y)) ∗ (bigSep Finset.univ fun y : YI => Φ (3, y))) := by
  rw [bigSep_univ_prod, bigSep_univ_eq_bigSepL [(0 : Fin 4), 1, 2, 3] (by decide) (by decide)]
  rfl

/-- A device's own tokens, by kind. -/
theorem toks_eq (c : Dev nD) : (toks c : sProp 𝕄)
    = iprop((bigSep Finset.univ fun r : Fin 15 => dutyTok ER (barCell c) 0 (dty r))
      ∗ (bigSep Finset.univ fun y : YI => dutyTok ER (xCell c 0 y.1 y.2) 0 0)
      ∗ (bigSep Finset.univ fun y : YI => dutyTok ER (xCell c 1 y.1 y.2) 0 0)
      ∗ (bigSep Finset.univ fun y : YI => dutyTok ER (xCell c 2 y.1 y.2) 0 0)
      ∗ (bigSep Finset.univ fun y : YI => dutyTok ER (xCell c 3 y.1 y.2) 0 0)) := by
  unfold toks
  rw [Cert.LibDeal.bigSep_univ_sum, bigSep_x]

/-- The tokens dealt round the mesh: each duty's token to the device that pays it. -/
theorem toks_around : (bigSep Finset.univ fun c : Dev nD => (toks c : sProp 𝕄)) ⊢ bigSep Finset.univ fun c : Dev nD => payToks c := by
  unfold payToks
  rw [bigSep_congr (fun c _ => toks_eq (F := F) c)]
  rw [bigSep_sep', bigSep_sep', bigSep_sep', bigSep_sep', bigSep_sep', bigSep_sep', bigSep_sep', bigSep_sep',
    Cert.LibDeal.bigSep_redeal (fun r : Fin 15 => (tgtE r).symm) (fun (c : Dev nD) (r : Fin 15) => (dutyTok ER (barCell c) 0 (dty r) : sProp 𝕄)),
    Cert.LibDeal.bigSep_redeal (fun y : YI => tgtE y.2) (fun (c : Dev nD) (y : YI) => (dutyTok ER (xCell c 1 y.1 y.2) 0 0 : sProp 𝕄)),
    Cert.LibDeal.bigSep_redeal (fun y : YI => tgtE y.2) (fun (c : Dev nD) (y : YI) => (dutyTok ER (xCell c 3 y.1 y.2) 0 0 : sProp 𝕄))]
  iintro ⟨Hb, H0, H1, H2, H3⟩
  isplitl [Hb]; · iexact Hb
  isplitl [H1]; · iexact H1
  isplitl [H3]; · iexact H3
  isplitl [H0]; · iexact H0
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m) κ (ccell c i)))
          ∗ (bigSep Finset.univ fun i : CI => iprop(atPos ER (ccell c i) 0 ∅ 0 ∗ reached ER (ccell c i) 0)) ∗ toks c) : sProp 𝕄)
      ⊢ bigSep Finset.univ (G' (F := F) m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun i : CI => (atPos ER (ccell c i) 0 ∅ 0 : sProp 𝕄)) (fun i => reached ER (ccell c i) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (bigSep_with_persistent (R := records m K) fun c _ => show iprop(records m K ∗ (ownPos c ∗ payToks c)) ⊢ G' m c from by
    unfold G' ghost
    iintro ⟨#HR, Hp, Ht⟩
    iexists K
    isplitr; · iexact HR
    isplitl [Hp]; · iexact Hp
    iexact Ht)
  isplitr
  · unfold records; isplitl; · iexact HI
    iexact HR
  · iapply (Entails.of_eq (bigSep_sep' Finset.univ (fun c : Dev nD => (ownPos c : sProp 𝕄)) payToks).symm)
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Site by site, what the others owe a cell of device `c` is the credit token of that site. -/
theorem creds_intro (c : Dev nD) : (Pipeline.launchCred O₀ c : sProp 𝕄) ⊢ creds c := by
  unfold O₀ creds
  rw [Cert.LibOwesQueue.launchCred_owed_map]
  refine Cert.LibDeal.bigSepL_mono sites fun a _ => ?_
  cases a with
  | sig r => exact Pipeline.launchCred_tallyAt (.reg barS) (fun d => tgt d r) (fun d => fr d r) (fun d => tgt_fr d r) (fun d => fr_tgt d r) () 1 c
  | rs h r => exact Pipeline.launchCred_tallyAt (.dma (semAt (arr 1) h r)) (fun d => tgt d r) (fun d => fr d r) (fun d => tgt_fr d r) (fun d => fr_tgt d r) () Nrs c
  | ag h r => exact Pipeline.launchCred_tallyAt (.dma (semAt (arr 3) h r)) (fun d => tgt d r) (fun d => fr d r) (fun d => tgt_fr d r) (fun d => fr_tgt d r) () Nag c

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁
  iintro ⟨H0, H1, H2, Hz⟩
  isplitr; · iempintro
  isplitl [Hz]; · iexact Hz
  isplitl [H0]; · iexact H0
  isplitl [H1]; · iexact H1
  iexact H2

theorem lv_congr (c c' : Dev nD) (sm : SemLoc sig) : lv ((c : Thread nD τ), sm) () = lv ((c' : Thread nD τ), sm) () := rfl

/-- The pipeline's own waits (on the staging cells, at level 0) are allowed at both points. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> (rw [lv_congr c 0]; decide)) sites
    · show (levAts L lv : sProp 𝕄) ⊢ MayWait (c : Thread nD τ) _ () 0
      rw [MayWait_zero]; iintro -; iempintro

/-! ### The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- At the compiled mesh of sixteen devices, for any float values, from any memory with zero counters: every weakly
    fair execution of @main terminates, and every final state has each window's array at its final contents. -/
theorem run_cells : θ_run defs (onTc (τ := τ) (main (F := F))) (Ghost.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := Cert.KernelIdeal.Phase.body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The arrays after the run -/

theorem finalA_0 (c : Dev nD) : finalA m ρ c (0 : Fin 3) = m ((c : Thread nD τ).loc main_arg0) :=
  (dats (F := F) m ρ 0 c).arrAt_in (0 : Fin 3) rfl _
theorem finalA_1 (c : Dev nD) : finalA m ρ c (1 : Fin 3) = m ((c : Thread nD τ).loc main_arg1) :=
  (dats (F := F) m ρ 0 c).arrAt_in (1 : Fin 3) rfl _

/-- The result's one block is the whole array: what the write-back writes is `OutV`, and it covers every index. -/
theorem finalA_2 (c : Dev nD) : finalA m ρ c (2 : Fin 3) = OutV m := by
  refine (dats (F := F) m ρ 0 c).arrAt_eq_of_cover (2 : Fin 3) (OutV m) (fun t _ => ?_) (fun i => ⟨t0_0, flush0_2 t0_0, ?_⟩)
  · funext j
    show OutV m j = OutV m (((cfg0.win 2).blk t).view.emb j)
    refine congrArg _ (funext fun a => Fin.ext ?_)
    rw [fin_N0 t]
    match a with
    | ⟨0, _⟩ => show (j 0).val = 0 * 512 + 1 * (j 0).val; omega
    | ⟨1, _⟩ => show (j 1).val = 0 * 512 + 1 * (j 1).val; omega
  · show i ∈ ((View.whole main_v1).slice (win0_2.rect t0_0)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

theorem run_main :
    θ_run defs (onTc (τ := τ) (main (F := F))) ⟨m, fun _ => 0, ρ⟩ (fun r => ∀ c : Dev nD,
      r.2.mem ((c.tc : Thread nD τ).loc main_v1) = OutV m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c (2 : Fin 3)).trans (finalA_2 m ρ c), (h c (0 : Fin 3)).trans (finalA_0 m ρ c), (h c (1 : Fin 3)).trans (finalA_1 m ρ c)⟩)
    (run_cells m ρ)

end Cert.KernelIdeal.RunI

end
-- ==== Proof.SpecB.lean ====
/-
  What the kernel computes, as pure functions of the launch memory, for any float instance.
  Device `d`'s partial product is the product of its 512 x 256 block of the left argument with its
  256 x 512 block of the right one. Rows 32 p + 16 h .. 32 p + 16 h + 15 of the result are owned by
  device `p`: it adds to its own partial product's rows those rows of every other device's, taken in
  the order of the slots they land in (slot `s` holds the rows sent by device `p - s`), clamps the sum
  below at zero, and broadcasts the sixteen rows to everybody. `OutV` is the resulting 512 x 512 array,
  the same on every device.
-/
import proofs.«900453_g7700000000000454_dist_matmul_relu_kshard_i_m512_n512_k256_v7x_i16_bf16_1_alg».proof.Proof.Gen.Kernel.Skeleton
import Idealize.ShloMosaic.Lib.ValueIdx
import Idealize.ShloMosaic.Lib.Pipeline.Value

noncomputable section

namespace Cert.Kernel.Spec

open Cert.Kernel Cert.Kernel.Gen
open Idealize.ShloMosaic Idealize.ShloMosaic.TcCoe Idealize.ShloMosaic.ValueIdx

variable {F : FTy → Type} [FloatOps F]
variable (m : (ℓ : Loc nD τ sig) → Buf (Elt F) ℓ)

/-- Device `c`'s block of the left argument, as its staging buffer holds it. -/
def xA (c : Dev nD) : (cc0_stg0_0 : Ref sig .tc).ty.Contents (Elt F) :=
  (win0_0.blk (0 : Fin 1)).view.read (Elt F) (m ((c : Thread nD τ).loc main_arg0))
/-- Device `c`'s block of the right argument. -/
def xB (c : Dev nD) : (cc0_stg1_0 : Ref sig .tc).ty.Contents (Elt F) :=
  (win0_1.blk (0 : Fin 1)).view.read (Elt F) (m ((c : Thread nD τ).loc main_arg1))

/-- Device `d`'s partial product. -/
def partV (d : Dev nD) : FVec F S512x512 .bf16 := k0_pay1 (xA m d) (xB m d)

theorem row_lt (p : Dev nD) (h : Fin 2) (r : Fin 16) : 32 * p.val + 16 * h.val + r.val < 512 := by
  have h1 : p.val < 16 := p.isLt; have := h.isLt; have := r.isLt; omega

/-- Rows `32 p + 16 h ..` of device `d`'s partial product, as a 16 x 512 vector. -/
def rowsV (d p : Dev nD) (h : Fin 2) : Vec F S16x512 .bf16 :=
  fun j => partV m d (ix2 ⟨32 * p.val + 16 * h.val + (j 0).val, row_lt p h (j 0)⟩ (j 1))
theorem casts_rows_slot : S16x512.ShapeCasts S1x1x16x512 := by decide

/-- The same rows as a receive slot holds them: re-cast to 1 x 1 x 16 x 512. -/
def slotV (d p : Dev nD) (h : Fin 2) : Vec F S1x1x16x512 .bf16 :=
  shapeCast S1x1x16x512 (rowsV m d p h) casts_rows_slot

/-- A slot re-cast to 16 x 512 is the rows. -/
theorem cast_slotV (d p : Dev nD) (h : Fin 2) :
    shapeCast S16x512 (slotV m d p h) shapeCasts_S1x1x16x512_S16x512 = rowsV m d p h :=
  shapeCast_shapeCast _ _ _

/-- The slot `s` of device `p` is filled by device `p - s`. -/
abbrev L (p : Dev nD) (h : Fin 2) (s : Fin 16) : Vec F S1x1x16x512 .bf16 := slotV m (p - s) p h

/-- The sixteen rows `32 p ..` of the result, as device `p` computes them. -/
def final0 (p : Dev nD) : FVec F S16x512 .bf16 :=
  k0_pay10 (k0_pay9 (k0_pay7 (k0_pay6 (k0_pay5 (k0_pay4 (k0_pay3 (k0_pay2 (rowsV m p p 0))
    (L m p 0 1) (L m p 0 2) (L m p 0 3)) (L m p 0 4) (L m p 0 5)) (L m p 0 6) (L m p 0 7)) (L m p 0 8) (L m p 0 9))
    (L m p 0 10) (L m p 0 11)) (k0_pay8 (L m p 0 12)) (L m p 0 13) (L m p 0 14)) (L m p 0 15)
/-- The sixteen rows `32 p + 16 ..`. -/
def final1 (p : Dev nD) : FVec F S16x512 .bf16 :=
  k0_pay19 (k0_pay18 (k0_pay17 (k0_pay16 (k0_pay15 (k0_pay14 (k0_pay13 (k0_pay12 (rowsV m p p 1))
    (L m p 1 1) (L m p 1 2)) (L m p 1 3) (L m p 1 4)) (L m p 1 5) (L m p 1 6) (L m p 1 7)) (L m p 1 8) (L m p 1 9))
    (L m p 1 10) (L m p 1 11)) (L m p 1 12) (L m p 1 13)) (L m p 1 14) (L m p 1 15)

def finalV (p : Dev nD) (h : Fin 2) : FVec F S16x512 .bf16 := if h = 0 then final0 m p else final1 m p

/-- The whole result: row `i 0 = 32 p + 16 h + r` comes from `finalV p h` at row `r`. -/
def OutV : S512x512.Idx → F .bf16 := fun i =>
  finalV m ⟨(i 0).val / 32, by have h1 : (i 0).val < 512 := (i 0).isLt; show (i 0).val / 32 < 16; omega⟩
    ⟨(i 0).val % 32 / 16, by omega⟩
    (ix2 ⟨(i 0).val % 16, Nat.mod_lt _ (by decide)⟩ (i 1))

end Cert.Kernel.Spec

end
-- ==== Proof.ProtoB.lean ====
/-
  The cross-device protocol of the kernel: its cells, what each landing hands over, who pays what.
-/
import proofs.«900453_g7700000000000454_dist_matmul_relu_kshard_i_m512_n512_k256_v7x_i16_bf16_1_alg».proof.Proof.SpecB
import proofs.«900453_g7700000000000454_dist_matmul_relu_kshard_i_m512_n512_k256_v7x_i16_bf16_1_alg».proof.Proof.Gen.Kernel.Frame
import proofs.«900453_g7700000000000454_dist_matmul_relu_kshard_i_m512_n512_k256_v7x_i16_bf16_1_alg».proof.Proof.LibOwesQueue
import proofs.«900453_g7700000000000454_dist_matmul_relu_kshard_i_m512_n512_k256_v7x_i16_bf16_1_alg».proof.Proof.LibShares
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Spec
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the collective's (duties `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices: the one `r + 1` places after `c`, and the one `r + 1` places before -/

def sh (r : Fin 15) : Dev nD := ⟨r.val + 1, by have := r.isLt; show r.val + 1 < 16; omega⟩
def tgt (c : Dev nD) (r : Fin 15) : Dev nD := c + sh r
def fr (c : Dev nD) (r : Fin 15) : Dev nD := c - sh r

theorem fr_tgt (c : Dev nD) (r : Fin 15) : fr (tgt c r) r = c := add_sub_cancel_right c (sh r)
theorem tgt_fr (c : Dev nD) (r : Fin 15) : tgt (fr c r) r = c := sub_add_cancel c (sh r)
theorem tgt_val (c : Dev nD) (r : Fin 15) : (tgt c r).val = (c.val + r.val + 1) % 16 := by
  show (c + sh r).val = _
  rw [Fin.val_add]; show (c.val + (r.val + 1)) % 16 = _; rw [Nat.add_assoc]

/-! ## The memrefs and the semaphores -/

abbrev aM : Memref sig .tc .vmem S512x256 .f32 := Memref.whole cc0_stg0_0
abbrev bM : Memref sig .tc .vmem S256x512 .f32 := Memref.whole cc0_stg1_0
abbrev oM : Memref sig .tc .vmem S512x512 .bf16 := Memref.whole cc0_stg2_0
abbrev pM : Memref sig .tc .vmem S512x512 .bf16 := Memref.whole cc0_scratch0
abbrev rM : Memref sig .tc .vmem S2x16x16x512 .bf16 := Memref.whole cc0_scratch1
abbrev kM : Memref sig .tc .vmem S2x16x512 .bf16 := Memref.whole cc0_scratch2

/-- The runtime's barrier semaphore of collective id 0. -/
abbrev barS : Sem sig := (SemArray.scalar (sig.barrier 0 rfl) : Sems sig S_).sem

theorem inb_sem (h : Fin 2) (r : Fin 15) : ∀ a, (![h.val, r.val + 1] : Fin 2 → Nat) a + S1x1.size a ≤ S2x16.size a := by
  intro a
  match a with
  | ⟨0, _⟩ => show h.val + 1 ≤ 2; omega
  | ⟨1, _⟩ => show r.val + 1 + 1 ≤ 16; omega

/-- Semaphore `(h, r + 1)` of one of the four 2 x 16 arrays of DMA semaphores. -/
def semAt (A : DmaSems sig S2x16) (h : Fin 2) (r : Fin 15) : DmaSem sig :=
  ((A.slice (Rect.unit (s := S2x16) ![h.val, r.val + 1] S1x1.size (inb_sem h r))).squeeze S_ squeezes_S1x1_S_).sem

/-- The four arrays: reduce-scatter send and receive, all-gather send and receive. -/
abbrev arr : Fin 4 → DmaSems sig S2x16 := fun | 0 => cc0_scratch3 | 1 => cc0_scratch4 | 2 => cc0_scratch5 | 3 => cc0_scratch6

theorem semAt_val : ∀ (k : Fin 4) (h : Fin 2) (r : Fin 15), (semAt (arr k) h r).val = 3 + 32 * k.val + 16 * h.val + r.val + 1 := by decide

abbrev barCell (c : Dev nD) : GSem nD τ sig := ((c : Thread nD τ), .reg barS)
abbrev xCell (c : Dev nD) (k : Fin 4) (h : Fin 2) (r : Fin 15) : GSem nD τ sig := ((c : Thread nD τ), .dma (semAt (arr k) h r))

/-! ## Which cell a semaphore is -/

inductive CK where
  | bar
  | x (k : Fin 4) (h : Fin 2) (r : Fin 15)
  | other
deriving DecidableEq

theorem q_lt (q : DmaSem sig) : q.val < 131 := q.isLt

/-- The barrier semaphore; DMA semaphore `3 + 32 k + 16 h + r + 1` is `(h, r + 1)` of array `k`; the others
    (the staging semaphores, and column 0 of each array, which the kernel never uses) take no part. -/
def decode : SemLoc sig → CK
  | .reg s => if s = barS then .bar else .other
  | .dma q =>
    if hq : 3 ≤ q.val ∧ 1 ≤ (q.val - 3) % 16 then
      .x ⟨(q.val - 3) / 32, by have := q_lt q; omega⟩ ⟨(q.val - 3) % 32 / 16, by omega⟩ ⟨(q.val - 3) % 16 - 1, by omega⟩
    else .other

theorem decode_bar : decode (.reg barS) = .bar := by decide
theorem decode_x : ∀ (k : Fin 4) (h : Fin 2) (r : Fin 15), decode (.dma (semAt (arr k) h r)) = .x k h r := by decide

/-! ## The views the transfers move -/

theorem inb_rs (h : Fin 2) (r : Fin 15) : ∀ a, (![h.val, r.val + 1, 0, 0] : Fin 4 → Nat) a + S1x1x16x512.size a ≤ S2x16x16x512.size a := by
  intro a
  match a with
  | ⟨0, _⟩ => show h.val + 1 ≤ 2; omega
  | ⟨1, _⟩ => show r.val + 1 + 1 ≤ 16; omega
  | ⟨2, _⟩ => show 0 + 16 ≤ 16; omega
  | ⟨3, _⟩ => show 0 + 512 ≤ 512; omega

theorem inb_bc (h : Fin 2) : ∀ a, (![h.val, 0, 0] : Fin 3 → Nat) a + S1x16x512.size a ≤ S2x16x512.size a := by
  intro a
  match a with
  | ⟨0, _⟩ => show h.val + 1 ≤ 2; omega
  | ⟨1, _⟩ => show 0 + 16 ≤ 16; omega
  | ⟨2, _⟩ => show 0 + 512 ≤ 512; omega

/-- The rows of device `d`'s partial product that belong to device `tgt d r`, half `h`: the source of its
    reduce-scatter copy `(h, r)`. -/
abbrev rsSrc (d : Dev nD) (h : Fin 2) (r : Fin 15) : Memref sig .tc .vmem S16x512 .bf16 :=
  pM.slice (Rect.unit (s := S512x512) (k0_off1 d (BitVec.ofNat 32 (1 + r.val)) (BitVec.ofNat 32 (16 * h.val))) S16x512.size (k0_off1_inb d r h)) (fun _ => rfl)
/-- Receive slot `(h, r + 1)`: the destination of the copy `(h, r)` addressed to the device. -/
abbrev rsDst (h : Fin 2) (r : Fin 15) : Memref sig .tc .vmem S16x512 .bf16 :=
  (rM.slice (Rect.unit (s := S2x16x16x512) ![h.val, r.val + 1, 0, 0] S1x1x16x512.size (inb_rs h r)) (fun _ => rfl)).squeeze S16x512 squeezes_S1x1x16x512_S16x512
/-- The finished half `h`: the source of the all-gather copies `(h, ·)`. -/
abbrev agSrc (h : Fin 2) : Memref sig .tc .vmem S16x512 .bf16 :=
  (kM.slice (Rect.unit (s := S2x16x512) ![h.val, 0, 0] S1x16x512.size (inb_bc h)) (fun _ => rfl)).squeeze S16x512 squeezes_S1x16x512_S16x512
/-- Rows `32 d + 16 h ..` of the result buffer: where device `d`'s finished half `h` lands, on every device. -/
abbrev agDst (d : Dev nD) (h : Fin 2) : Memref sig .tc .vmem S16x512 .bf16 :=
  oM.slice (Rect.unit (s := S512x512) (k0_off3 d (BitVec.ofNat 32 (16 * h.val))) S16x512.size (k0_off3_inb d h)) (fun _ => rfl)

/-- The credit of one 16 x 512 transfer, into a receive slot and into the result buffer. -/
abbrev Nrs : ℕ := (rsDst 0 0).view.dmaCredit
abbrev Nag : ℕ := (agDst 0 0).view.dmaCredit
theorem Nrs_pos : 0 < Nrs := by decide
theorem Nag_pos : 0 < Nag := by decide
theorem rsDst_credit (h : Fin 2) (r : Fin 15) : (rsDst h r).view.dmaCredit = Nrs := rfl
theorem agDst_credit (d : Dev nD) (h : Fin 2) : (agDst d h).view.dmaCredit = Nag := rfl
theorem rsSrc_credit (d : Dev nD) (h : Fin 2) (r : Fin 15) : (rsSrc d h r).view.dmaCredit = Nrs := by
  show sig.dmaCredit .tc (Kind.tc.table .vmem) (pM : Memref sig .tc .vmem S512x512 .bf16).view.buf S16x512 .bf16 = sig.dmaCredit .tc (Kind.tc.table .vmem) (rM : Memref sig .tc .vmem S2x16x16x512 .bf16).view.buf S16x512 .bf16
  decide
theorem agSrc_credit (h : Fin 2) : (agSrc h).view.dmaCredit = Nag := by
  show sig.dmaCredit .tc (Kind.tc.table .vmem) (kM : Memref sig .tc .vmem S2x16x512 .bf16).view.buf S16x512 .bf16 = sig.dmaCredit .tc (Kind.tc.table .vmem) (oM : Memref sig .tc .vmem S512x512 .bf16).view.buf S16x512 .bf16
  decide

/-! ## Contents -/

/-- Device `d`'s partial product, as its scratch buffer holds it. -/
def partBuf (d : Dev nD) : Buf (Elt F) ((d : Thread nD τ).loc cc0_scratch0) := partV m d
/-- Device `d`'s finished half `h`, as its broadcast buffer holds it: written through the half's view. -/
def bcBuf (d : Dev nD) (h : Fin 2) : Buf (Elt F) ((d : Thread nD τ).loc cc0_scratch2) :=
  (agSrc h).view.write (Elt F) (fun _ => FloatOps.ofBits .bf16 0) (finalV m d h) Finset.univ

/-- The share of the broadcast buffer's half that the all-gather copy `(·, r)` reads. -/
def shareOf (r : Fin 15) : PosShare TreeShare := Cert.LibShares.piece fullShare r.val

/-! ## What the duties hand over -/

/-- The source rows of the reduce-scatter copy `(h, r)` of device `c`, back with its send semaphore. -/
def rsSrcPts (c : Dev nD) (h : Fin 2) (r : Fin 15) : sProp 𝕄 :=
  (rsSrc c h r).view.loc (c : Thread nD τ) ↦[(rsSrc c h r).view.set]{fullShare} partBuf m c
/-- Receive slot `(h, r + 1)` of device `p`, at some contents. -/
def rsSlotAny (p : Dev nD) (h : Fin 2) (r : Fin 15) : sProp 𝕄 :=
  iprop(∃ f, (rsDst h r).view.loc (p : Thread nD τ) ↦[(rsDst h r).view.set]{fullShare} f)
/-- The same slot after the copy from device `fr p r` has landed: its rows of that device's partial product. -/
def rsLanded (p : Dev nD) (h : Fin 2) (r : Fin 15) : sProp 𝕄 :=
  iprop(∃ fd, (rsDst h r).view.loc (p : Thread nD τ) ↦[(rsDst h r).view.set]{fullShare}
    ((rsDst h r).view.write (Elt F) fd ((rsSrc (fr p r) h r).view.read (Elt F) (partBuf m (fr p r))) Finset.univ))
/-- The finished half `h` of device `c`, at the share the all-gather copy `(h, r)` reads. -/
def agSrcPts (c : Dev nD) (h : Fin 2) (r : Fin 15) : sProp 𝕄 :=
  (agSrc h).view.loc (c : Thread nD τ) ↦[(agSrc h).view.set]{shareOf r} bcBuf m c h
/-- Rows `32 d + 16 h ..` of device `p`'s result buffer, at some contents. -/
def outRowsAny (p d : Dev nD) (h : Fin 2) : sProp 𝕄 :=
  iprop(∃ f, (agDst d h).view.loc (p : Thread nD τ) ↦[(agDst d h).view.set]{fullShare} f)
/-- Rows `32 (fr p r) + 16 h ..` of device `p`'s result buffer after device `fr p r`'s finished half has landed. -/
def agLanded (p : Dev nD) (h : Fin 2) (r : Fin 15) : sProp 𝕄 :=
  iprop(∃ fd, (agDst (fr p r) h).view.loc (p : Thread nD τ) ↦[(agDst (fr p r) h).view.set]{fullShare}
    ((agDst (fr p r) h).view.write (Elt F) fd ((agSrc h).view.read (Elt F) (bcBuf m (fr p r) h)) Finset.univ))

/-- What device `tgt c r` hands device `c` with its barrier signal: the two receive slots and the two groups of
    result rows that `c`'s copies to it will write. -/
def barPayR (c : Dev nD) (r : Fin 15) : sProp 𝕄 :=
  iprop(rsSlotAny (tgt c r) 0 r ∗ rsSlotAny (tgt c r) 1 r ∗ outRowsAny (tgt c r) c 0 ∗ outRowsAny (tgt c r) c 1)

def barPay (c : Dev nD) (d : Fin 16) : sProp 𝕄 :=
  if hd : d.val ≠ 0 then barPayR c ⟨d.val - 1, by have := d.isLt; omega⟩ else iprop(emp)

def xPay (c : Dev nD) (k : Fin 4) (h : Fin 2) (r : Fin 15) : sProp 𝕄 :=
  match k with
  | 0 => rsSrcPts m c h r
  | 1 => rsLanded m c h r
  | 2 => agSrcPts m c h r
  | 3 => agLanded m c h r

set_option synthInstance.maxHeartbeats 400000 in
instance rsSrcPts_storable (c : Dev nD) (h : Fin 2) (r : Fin 15) : BI.Storable (upEmb : UEmb _ 𝕄) (rsSrcPts (F := F) m c h r) := by unfold rsSrcPts; infer_instance
set_option synthInstance.maxHeartbeats 400000 in
instance rsSlotAny_storable (p : Dev nD) (h : Fin 2) (r : Fin 15) : BI.Storable (upEmb : UEmb _ 𝕄) (rsSlotAny (F := F) p h r) := by unfold rsSlotAny; infer_instance
set_option synthInstance.maxHeartbeats 400000 in
instance rsLanded_storable (p : Dev nD) (h : Fin 2) (r : Fin 15) : BI.Storable (upEmb : UEmb _ 𝕄) (rsLanded (F := F) m p h r) := by unfold rsLanded; infer_instance
set_option synthInstance.maxHeartbeats 400000 in
instance agSrcPts_storable (c : Dev nD) (h : Fin 2) (r : Fin 15) : BI.Storable (upEmb : UEmb _ 𝕄) (agSrcPts (F := F) m c h r) := by unfold agSrcPts; infer_instance
set_option synthInstance.maxHeartbeats 400000 in
instance outRowsAny_storable (p d : Dev nD) (h : Fin 2) : BI.Storable (upEmb : UEmb _ 𝕄) (outRowsAny (F := F) p d h) := by unfold outRowsAny; infer_instance
set_option synthInstance.maxHeartbeats 400000 in
instance agLanded_storable (p : Dev nD) (h : Fin 2) (r : Fin 15) : BI.Storable (upEmb : UEmb _ 𝕄) (agLanded (F := F) m p h r) := by unfold agLanded; infer_instance
instance barPayR_storable (c : Dev nD) (r : Fin 15) : BI.Storable (upEmb : UEmb _ 𝕄) (barPayR (F := F) c r) := by unfold barPayR; infer_instance
instance barPay_storable (c : Dev nD) (d : Fin 16) : BI.Storable (upEmb : UEmb _ 𝕄) (barPay (F := F) c d) := by unfold barPay; split <;> infer_instance
instance xPay_storable (c : Dev nD) (k : Fin 4) (h : Fin 2) (r : Fin 15) : BI.Storable (upEmb : UEmb _ 𝕄) (xPay (F := F) m c k h r) := by
  unfold xPay
  match k with
  | 0 => show BI.Storable upEmb (rsSrcPts m c h r); infer_instance
  | 1 => show BI.Storable upEmb (rsLanded m c h r); infer_instance
  | 2 => show BI.Storable upEmb (agSrcPts m c h r); infer_instance
  | 3 => show BI.Storable upEmb (agLanded m c h r); infer_instance

/-! ## The schedule: one round -/

def amt (k : Fin 4) : ℕ := if k.val < 2 then Nrs else Nag
theorem amt_pos (k : Fin 4) : 0 < amt k := by unfold amt; split; exact Nrs_pos; exact Nag_pos

/-- Round 0 only. A barrier cell has fifteen duties of one unit, duty `r + 1` paid by device `tgt c r`; each
    of the 120 transfer cells one duty of one block's credit. -/
def Rd : Rounds.Schedule (GSem nD τ sig) (Fin 16) 𝕄 where
  duties g r :=
    if r = 0 ∧ g.1.2 = .tc then
      (match decode g.2 with | .bar => Finset.univ.erase 0 | .x _ _ _ => {0} | .other => ∅)
    else ∅
  unitless _ := False
  amount g _ _ := match decode g.2 with | .x k _ _ => amt k | _ => 1
  payload g _ d := match decode g.2 with
    | .bar => barPay g.1.1 d
    | .x k h r => xPay m g.1.1 k h r
    | .other => iprop(emp)
  amount_pos g _ _ _ := by
    split
    · exact amt_pos _
    · exact Nat.one_pos

instance Rd_payload_storable (g : GSem nD τ sig) (r : ℕ) (d : Fin 16) :
    BI.Storable (upEmb : UEmb _ 𝕄) ((Rd (F := F) m).payload g r d) := by
  show BI.Storable upEmb (match decode g.2 with
    | .bar => barPay g.1.1 d
    | .x k h r => xPay m g.1.1 k h r
    | .other => iprop(emp))
  split <;> infer_instance

/-! ## The schedule's tables -/

section Tables

variable (c : Dev nD) (k : Fin 4) (h : Fin 2) (r : Fin 15)

theorem duties_bar : (Rd (F := F) m).duties (barCell c) 0 = Finset.univ.erase 0 := by
  dsimp only [Rd]; rw [if_pos ⟨rfl, rfl⟩, decode_bar]
theorem duties_x : (Rd (F := F) m).duties (xCell c k h r) 0 = {0} := by
  dsimp only [Rd]; rw [if_pos ⟨rfl, rfl⟩, decode_x]
theorem duties_later (g : GSem nD τ sig) : ∀ r, 1 ≤ r → (Rd (F := F) m).duties g r = ∅ :=
  fun r hr => by dsimp only [Rd]; rw [if_neg fun h => by omega]

theorem amount_bar (d : Fin 16) : (Rd (F := F) m).amount (barCell c) 0 d = 1 := by dsimp only [Rd]; rw [decode_bar]
theorem amount_x (d : Fin 16) : (Rd (F := F) m).amount (xCell c k h r) 0 d = amt k := by dsimp only [Rd]; rw [decode_x]

theorem payload_bar (d : Fin 16) : (Rd (F := F) m).payload (barCell c) 0 d = barPay c d := by dsimp only [Rd]; rw [decode_bar]
theorem payload_x (d : Fin 16) : (Rd (F := F) m).payload (xCell c k h r) 0 d = xPay m c k h r := by dsimp only [Rd]; rw [decode_x]

theorem expect_bar : (Rd (F := F) m).expect (barCell c) 0 = 15 := by
  unfold Schedule.expect Schedule.amountOf
  rw [duties_bar, Finset.sum_congr rfl fun d _ => amount_bar m c d, Finset.sum_const, smul_eq_mul, Nat.mul_one]
  decide
theorem expect_x : (Rd (F := F) m).expect (xCell c k h r) 0 = amt k := by
  unfold Schedule.expect Schedule.amountOf; rw [duties_x, Finset.sum_singleton, amount_x]

end Tables

/-! ## What each device owes at launch, in program order; the levels -/

inductive Site where
  | sig (r : Fin 15)
  | rs (h : Fin 2) (r : Fin 15)
  | ag (h : Fin 2) (r : Fin 15)
deriving DecidableEq

abbrev PayT : Type := Cert.LibOwesQueue.Pay nD τ sig Unit

/-- What device `d` pays at a site: one unit to the barrier cell of device `tgt d r`; a block's credit to its
    receive cell `(h, r)` of the reduce-scatter; of the all-gather. -/
def sitePay (d : Dev nD) : Site → PayT
  | .sig r => (barCell (tgt d r), (), 1)
  | .rs h r => (xCell (tgt d r) 1 h r, (), Nrs)
  | .ag h r => (xCell (tgt d r) 3 h r, (), Nag)

/-- The sites in program order: the fifteen signals; the thirty reduce-scatter copies, half 0 then half 1; the
    fifteen all-gather copies of half 0; of half 1. -/
def sites : List Site :=
  (List.finRange 15).map .sig ++ (List.finRange 15).map (.rs 0) ++ (List.finRange 15).map (.rs 1)
    ++ (List.finRange 15).map (.ag 0) ++ (List.finRange 15).map (.ag 1)

def O₀ (c : Dev nD) : CellTallies nD τ sig Unit := Cert.LibOwesQueue.owed ((sites.map (sitePay c)))

def L (g : GSem nD τ sig) : Finset Unit := if g.1.2 = .tc then {()} else ∅
/-- Barrier cells at 1, reduce-scatter receive cells at 2, all-gather receive cells at 3, everything else
    (the staging cells, the send cells) at 0. -/
def lv (g : GSem nD τ sig) (_ : Unit) : ℕ :=
  match decode g.2 with
  | .bar => 1
  | .x k _ _ => if k = 1 then 2 else if k = 3 then 3 else 0
  | .other => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [decode_bar]
theorem lv_x (c : Dev nD) (k : Fin 4) (h : Fin 2) (r : Fin 15) :
    lv (xCell c k h r) () = if k = 1 then 2 else if k = 3 then 3 else 0 := by unfold lv; rw [decode_x]

/-- Every site pays a TensorCore's cell, at level 1 or above. -/
theorem sitePay_lv (d : Dev nD) (s : Site) : () ∈ L (sitePay d s).1 ∧ 1 ≤ lv (sitePay d s).1 () := by
  cases s with
  | sig r => exact ⟨by rw [show (sitePay d (.sig r)).1 = barCell (tgt d r) from rfl, L_tc]; exact Finset.mem_singleton_self _, by rw [show (sitePay d (.sig r)).1 = barCell (tgt d r) from rfl, lv_bar]⟩
  | rs h r => exact ⟨by rw [show (sitePay d (.rs h r)).1 = xCell (tgt d r) 1 h r from rfl, L_tc]; exact Finset.mem_singleton_self _, by rw [show (sitePay d (.rs h r)).1 = xCell (tgt d r) 1 h r from rfl, lv_x]; decide⟩
  | ag h r => exact ⟨by rw [show (sitePay d (.ag h r)).1 = xCell (tgt d r) 3 h r from rfl, L_tc]; exact Finset.mem_singleton_self _, by rw [show (sitePay d (.ag h r)).1 = xCell (tgt d r) 3 h r from rfl, lv_x]; decide⟩

/-- A wait on a cell of level 0 (a staging cell, a send cell) is allowed whatever part of the list is still owed. -/
theorem mayWait_low (c : Dev nD) (sm : SemLoc sig) (hsm : lv ((c : Thread nD τ), sm) () = 0) (l : List Site) :
    (levAts L lv : sProp 𝕄) ⊢ MayWait (c : Thread nD τ) sm () (Cert.LibOwesQueue.owed (l.map (sitePay c))) :=
  Cert.LibOwesQueue.mayWait_owed (by rw [L_tc]; exact Finset.mem_singleton_self _) fun x hx => by
    obtain ⟨s, _, rfl⟩ := List.mem_map.mp hx
    exact ⟨(sitePay_lv c s).1, by rw [hsm]; exact (sitePay_lv c s).2⟩

end Cert.Kernel.Proto

end
-- ==== Proof.GhostB.lean ====
/-
  The ghost state of the kernel's run: the cells and tokens as the launch indexes them, what a device's body starts
  from and ends with, and the pipeline's proof data.
-/
import proofs.«900453_g7700000000000454_dist_matmul_relu_kshard_i_m512_n512_k256_v7x_i16_bf16_1_alg».proof.Proof.ProtoB
import proofs.«900453_g7700000000000454_dist_matmul_relu_kshard_i_m512_n512_k256_v7x_i16_bf16_1_alg».proof.Proof.LibDeal
import Idealize.ShloMosaic.Lib.Pipeline.Value

set_option maxRecDepth 16384

noncomputable section

namespace Cert.Kernel.Ghost

open Cert.Kernel Cert.Kernel.Gen Cert.Kernel.Spec Cert.Kernel.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells and the tokens, as the launch indexes them -/

/-- A device's cells: its barrier cell, or one of its 120 transfer cells. -/
abbrev CI : Type := Option (Fin 4 × Fin 2 × Fin 15)
abbrev ccell (c : Dev nD) : CI → GSem nD τ sig
  | none => barCell c
  | some x => xCell c x.1 x.2.1 x.2.2
abbrev kcell (ck : Dev nD × CI) : GSem nD τ sig := ccell ck.1 ck.2

/-- The kernel's OWN (scoped) semaphores: the 120 transfer semaphores. -/
abbrev XI : Type := Fin 4 × Fin 2 × Fin 15
abbrev osem : XI → SemLoc sig := fun x => .dma (semAt (arr x.1) x.2.1 x.2.2)

theorem osem_injective : Function.Injective (osem : XI → SemLoc sig) := by
  rintro ⟨k, h, r⟩ ⟨k', h', r'⟩ e
  have e1 : decode (osem (k, h, r)) = decode (osem (k', h', r')) := congrArg decode e
  rw [show osem (k, h, r) = .dma (semAt (arr k) h r) from rfl, show osem (k', h', r') = .dma (semAt (arr k') h' r') from rfl,
    decode_x, decode_x] at e1
  injection e1 with a b c
  rw [a, b, c]

theorem kcell_injective : Function.Injective (kcell : Dev nD × CI → GSem nD τ sig) := by
  rintro ⟨c, i⟩ ⟨c', i'⟩ e
  have h1 : c = c' := by
    have := congrArg (fun g : GSem nD τ sig => g.1.1) e
    cases i <;> cases i' <;> exact this
  subst h1
  have h2 : decode (kcell (c, i)).2 = decode (kcell (c, i')).2 := congrArg (fun g : GSem nD τ sig => decode g.2) e
  cases i with
  | none =>
    cases i' with
    | none => rfl
    | some x' => rw [show (kcell (c, none)).2 = .reg barS from rfl, show (kcell (c, some x')).2 = .dma (semAt (arr x'.1) x'.2.1 x'.2.2) from rfl, decode_bar, decode_x] at h2; cases h2
  | some x =>
    cases i' with
    | none => rw [show (kcell (c, none)).2 = .reg barS from rfl, show (kcell (c, some x)).2 = .dma (semAt (arr x.1) x.2.1 x.2.2) from rfl, decode_bar, decode_x] at h2; cases h2
    | some x' =>
      rw [show (kcell (c, some x)).2 = .dma (semAt (arr x.1) x.2.1 x.2.2) from rfl, show (kcell (c, some x')).2 = .dma (semAt (arr x'.1) x'.2.1 x'.2.2) from rfl, decode_x, decode_x] at h2
      injection h2 with a b d
      obtain ⟨k, h, r⟩ := x; obtain ⟨k', h', r'⟩ := x'
      simp only at a b d
      rw [a, b, d]

def ringCells : Finset (GSem nD τ sig) := Finset.univ.map ⟨kcell, kcell_injective⟩

/-- Duty `r + 1` of a barrier cell. -/
def dty (r : Fin 15) : Fin 16 := ⟨r.val + 1, by have := r.isLt; omega⟩

/-- A device's own cells' duty tokens as minted: the fifteen of its barrier cell, one for each transfer cell. -/
abbrev TI : Type := Fin 15 ⊕ XI
abbrev tokOf (cj : Dev nD × TI) : GSem nD τ sig × ℕ × Fin 16 :=
  match cj.2 with
  | .inl r => (barCell cj.1, 0, dty r)
  | .inr x => (xCell cj.1 x.1 x.2.1 x.2.2, 0, 0)

theorem tokOf_injective : Function.Injective (tokOf : Dev nD × TI → GSem nD τ sig × ℕ × Fin 16) := by
  rintro ⟨c, j⟩ ⟨c', j'⟩ e
  have h1 : c = c' := by
    have := congrArg (fun x : GSem nD τ sig × ℕ × Fin 16 => x.1.1.1) e
    cases j <;> cases j' <;> exact this
  subst h1
  have hg : (tokOf (c, j)).1 = (tokOf (c, j')).1 := congrArg (fun x : GSem nD τ sig × ℕ × Fin 16 => x.1) e
  have hd : (tokOf (c, j)).2.2 = (tokOf (c, j')).2.2 := congrArg (fun x : GSem nD τ sig × ℕ × Fin 16 => x.2.2) e
  cases j with
  | inl r =>
    cases j' with
    | inl r' =>
      have : r = r' := Fin.ext (by have := congrArg Fin.val hd; simp only [dty] at this; omega)
      rw [this]
    | inr x' => exact absurd (kcell_injective (a₁ := (c, none)) (a₂ := (c, some x')) hg) (by simp)
  | inr x =>
    cases j' with
    | inl r' => exact absurd (kcell_injective (a₁ := (c, some x)) (a₂ := (c, none)) hg) (by simp)
    | inr x' =>
      have := kcell_injective (a₁ := (c, some x)) (a₂ := (c, some x')) hg
      simp only [Prod.mk.injEq, Option.some.injEq, true_and] at this
      rw [this]

def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

theorem ownSemFacts : Pipeline.OwnSemFacts cfg0.spec osem :=
  ⟨by decide, osem_injective, by decide⟩

/-! ## The ghost state a device's body starts from -/

abbrev YI : Type := Fin 2 × Fin 15

/-- Every cell's invariant, under the names `K` the launch allocated them at, and that every cell has reached
    round 0: persistent, every device holds them all. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records (F := F) m K) := by unfold records; infer_instance

/-- A device's positions at round 0 of its own cells. -/
def ownPos (c : Dev nD) : sProp 𝕄 := bigSep Finset.univ fun i : CI => atPos ER (ccell c i) 0 ∅ 0

/-- The tokens of the duties device `c` PAYS: duty `r + 1` of the barrier cell of `fr c r`; the receive duties of the
    cells its copies credit on `tgt c r`; its own send duties. -/
def payToks (c : Dev nD) : sProp 𝕄 :=
  iprop((bigSep Finset.univ fun r : Fin 15 => dutyTok ER (barCell (fr c r)) 0 (dty r))
    ∗ (bigSep Finset.univ fun y : YI => dutyTok ER (xCell (tgt c y.2) 1 y.1 y.2) 0 0)
    ∗ (bigSep Finset.univ fun y : YI => dutyTok ER (xCell (tgt c y.2) 3 y.1 y.2) 0 0)
    ∗ (bigSep Finset.univ fun y : YI => dutyTok ER (xCell c 0 y.1 y.2) 0 0)
    ∗ (bigSep Finset.univ fun y : YI => dutyTok ER (xCell c 2 y.1 y.2) 0 0))

def ghost (K : Dev nD × CI → ℕ) (c : Dev nD) : sProp 𝕄 := iprop(records m K ∗ ownPos c ∗ payToks c)

/-- The credit tokens the launch deals device `c`, site by site: what the others owe its cells. -/
def ownCellOf (c : Dev nD) : Site → GSem nD τ sig
  | .sig _ => barCell c
  | .rs h r => xCell c 1 h r
  | .ag h r => xCell c 3 h r
def creds (c : Dev nD) : sProp 𝕄 := bigSepL sites fun a => cred (tallyAt (ownCellOf c a) () (sitePay c a).2.2)

def start (c : Dev nD) : sProp 𝕄 := iprop((∃ K, ghost m K c) ∗ creds c ∗ levAts L lv)

/-- Before the point: the ghost state, the credit, the levels, and the three scratch buffers at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- After it: the scratch buffers again, and the 120 own cells closed, their counters at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ Pipeline.ownSems0 (Ix := Unit) (Name := ℕ) (U := UU) (Lvl := ℕ) (Val := Elt F) (τ := τ) osem c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => xB m c
    | ⟨2, _⟩ => OutV m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem share_eq (c : Dev nD) (w : Fin cfg0.W) : (dats m ρ 0 c).share w = fullShare := by unfold Dat.share; split <;> rfl

end Cert.Kernel.Ghost

end
-- ==== Proof.BodyB.lean ====
/-
  The kernel body as a program of phases: the fifteen signals, the local product, the barrier wait, the thirty
  reduce-scatter copies, and per half the receives, the sum, the two stores and the fifteen all-gather copies; then
  the waits. The printed body is this program, by unfolding.
-/
import proofs.«900453_g7700000000000454_dist_matmul_relu_kshard_i_m512_n512_k256_v7x_i16_bf16_1_alg».proof.Proof.ProtoB

set_option maxRecDepth 65536

noncomputable section

namespace Cert.Kernel.BodyProg

open Cert.Kernel Cert.Kernel.Gen Cert.Kernel.Spec Cert.Kernel.Proto
open Idealize.ShloMosaic Idealize.ShloMosaic.TcCoe
open Idealize.SL Idealize.SL.Sem

variable {F : FTy → Type} [FloatOps F]

abbrev EEf (F : FTy → Type) : Type → Type := TpuEff nD τ sig (Elt F) Λ₀ Proc.tc

/-- The device each of the 75 addressed statements names, as printed, in program order. -/
def devN (j : Fin 75) (d0 : Dev nD) : Dev nD :=
  match j with
  | ⟨0, _⟩ => ⟨k0_dev1 d0, k0_dev1_lt d0⟩
  | ⟨1, _⟩ => ⟨k0_dev2 d0, k0_dev2_lt d0⟩
  | ⟨2, _⟩ => ⟨k0_dev3 d0, k0_dev3_lt d0⟩
  | ⟨3, _⟩ => ⟨k0_dev4 d0, k0_dev4_lt d0⟩
  | ⟨4, _⟩ => ⟨k0_dev5 d0, k0_dev5_lt d0⟩
  | ⟨5, _⟩ => ⟨k0_dev6 d0, k0_dev6_lt d0⟩
  | ⟨6, _⟩ => ⟨k0_dev7 d0, k0_dev7_lt d0⟩
  | ⟨7, _⟩ => ⟨k0_dev8 d0, k0_dev8_lt d0⟩
  | ⟨8, _⟩ => ⟨k0_dev9 d0, k0_dev9_lt d0⟩
  | ⟨9, _⟩ => ⟨k0_dev10 d0, k0_dev10_lt d0⟩
  | ⟨10, _⟩ => ⟨k0_dev11 d0, k0_dev11_lt d0⟩
  | ⟨11, _⟩ => ⟨k0_dev12 d0, k0_dev12_lt d0⟩
  | ⟨12, _⟩ => ⟨k0_dev13 d0, k0_dev13_lt d0⟩
  | ⟨13, _⟩ => ⟨k0_dev14 d0, k0_dev14_lt d0⟩
  | ⟨14, _⟩ => ⟨k0_dev15 d0, k0_dev15_lt d0⟩
  | ⟨15, _⟩ => ⟨k0_dev16 d0, k0_dev16_lt d0⟩
  | ⟨16, _⟩ => ⟨k0_dev17 d0, k0_dev17_lt d0⟩
  | ⟨17, _⟩ => ⟨k0_dev18 d0, k0_dev18_lt d0⟩
  | ⟨18, _⟩ => ⟨k0_dev19 d0, k0_dev19_lt d0⟩
  | ⟨19, _⟩ => ⟨k0_dev20 d0, k0_dev20_lt d0⟩
  | ⟨20, _⟩ => ⟨k0_dev21 d0, k0_dev21_lt d0⟩
  | ⟨21, _⟩ => ⟨k0_dev22 d0, k0_dev22_lt d0⟩
  | ⟨22, _⟩ => ⟨k0_dev23 d0, k0_dev23_lt d0⟩
  | ⟨23, _⟩ => ⟨k0_dev24 d0, k0_dev24_lt d0⟩
  | ⟨24, _⟩ => ⟨k0_dev25 d0, k0_dev25_lt d0⟩
  | ⟨25, _⟩ => ⟨k0_dev26 d0, k0_dev26_lt d0⟩
  | ⟨26, _⟩ => ⟨k0_dev27 d0, k0_dev27_lt d0⟩
  | ⟨27, _⟩ => ⟨k0_dev28 d0, k0_dev28_lt d0⟩
  | ⟨28, _⟩ => ⟨k0_dev29 d0, k0_dev29_lt d0⟩
  | ⟨29, _⟩ => ⟨k0_dev30 d0, k0_dev30_lt d0⟩
  | ⟨30, _⟩ => ⟨k0_dev31 d0, k0_dev31_lt d0⟩
  | ⟨31, _⟩ => ⟨k0_dev32 d0, k0_dev32_lt d0⟩
  | ⟨32, _⟩ => ⟨k0_dev33 d0, k0_dev33_lt d0⟩
  | ⟨33, _⟩ => ⟨k0_dev34 d0, k0_dev34_lt d0⟩
  | ⟨34, _⟩ => ⟨k0_dev35 d0, k0_dev35_lt d0⟩
  | ⟨35, _⟩ => ⟨k0_dev36 d0, k0_dev36_lt d0⟩
  | ⟨36, _⟩ => ⟨k0_dev37 d0, k0_dev37_lt d0⟩
  | ⟨37, _⟩ => ⟨k0_dev38 d0, k0_dev38_lt d0⟩
  | ⟨38, _⟩ => ⟨k0_dev39 d0, k0_dev39_lt d0⟩
  | ⟨39, _⟩ => ⟨k0_dev40 d0, k0_dev40_lt d0⟩
  | ⟨40, _⟩ => ⟨k0_dev41 d0, k0_dev41_lt d0⟩
  | ⟨41, _⟩ => ⟨k0_dev42 d0, k0_dev42_lt d0⟩
  | ⟨42, _⟩ => ⟨k0_dev43 d0, k0_dev43_lt d0⟩
  | ⟨43, _⟩ => ⟨k0_dev44 d0, k0_dev44_lt d0⟩
  | ⟨44, _⟩ => ⟨k0_dev45 d0, k0_dev45_lt d0⟩
  | ⟨45, _⟩ => ⟨k0_dev46 d0, k0_dev46_lt d0⟩
  | ⟨46, _⟩ => ⟨k0_dev47 d0, k0_dev47_lt d0⟩
  | ⟨47, _⟩ => ⟨k0_dev48 d0, k0_dev48_lt d0⟩
  | ⟨48, _⟩ => ⟨k0_dev49 d0, k0_dev49_lt d0⟩
  | ⟨49, _⟩ => ⟨k0_dev50 d0, k0_dev50_lt d0⟩
  | ⟨50, _⟩ => ⟨k0_dev51 d0, k0_dev51_lt d0⟩
  | ⟨51, _⟩ => ⟨k0_dev52 d0, k0_dev52_lt d0⟩
  | ⟨52, _⟩ => ⟨k0_dev53 d0, k0_dev53_lt d0⟩
  | ⟨53, _⟩ => ⟨k0_dev54 d0, k0_dev54_lt d0⟩
  | ⟨54, _⟩ => ⟨k0_dev55 d0, k0_dev55_lt d0⟩
  | ⟨55, _⟩ => ⟨k0_dev56 d0, k0_dev56_lt d0⟩
  | ⟨56, _⟩ => ⟨k0_dev57 d0, k0_dev57_lt d0⟩
  | ⟨57, _⟩ => ⟨k0_dev58 d0, k0_dev58_lt d0⟩
  | ⟨58, _⟩ => ⟨k0_dev59 d0, k0_dev59_lt d0⟩
  | ⟨59, _⟩ => ⟨k0_dev60 d0, k0_dev60_lt d0⟩
  | ⟨60, _⟩ => ⟨k0_dev61 d0, k0_dev61_lt d0⟩
  | ⟨61, _⟩ => ⟨k0_dev62 d0, k0_dev62_lt d0⟩
  | ⟨62, _⟩ => ⟨k0_dev63 d0, k0_dev63_lt d0⟩
  | ⟨63, _⟩ => ⟨k0_dev64 d0, k0_dev64_lt d0⟩
  | ⟨64, _⟩ => ⟨k0_dev65 d0, k0_dev65_lt d0⟩
  | ⟨65, _⟩ => ⟨k0_dev66 d0, k0_dev66_lt d0⟩
  | ⟨66, _⟩ => ⟨k0_dev67 d0, k0_dev67_lt d0⟩
  | ⟨67, _⟩ => ⟨k0_dev68 d0, k0_dev68_lt d0⟩
  | ⟨68, _⟩ => ⟨k0_dev69 d0, k0_dev69_lt d0⟩
  | ⟨69, _⟩ => ⟨k0_dev70 d0, k0_dev70_lt d0⟩
  | ⟨70, _⟩ => ⟨k0_dev71 d0, k0_dev71_lt d0⟩
  | ⟨71, _⟩ => ⟨k0_dev72 d0, k0_dev72_lt d0⟩
  | ⟨72, _⟩ => ⟨k0_dev73 d0, k0_dev73_lt d0⟩
  | ⟨73, _⟩ => ⟨k0_dev74 d0, k0_dev74_lt d0⟩
  | ⟨74, _⟩ => ⟨k0_dev75 d0, k0_dev75_lt d0⟩
  | ⟨_ + 75, h⟩ => absurd h (Nat.not_lt.2 (Nat.le_add_left _ _))

theorem hP : (pM : Memref sig .tc .vmem S512x512 .bf16).IsWhole := Memref.isWhole_whole _
theorem hR : (rM : Memref sig .tc .vmem S2x16x16x512 .bf16).IsWhole := Memref.isWhole_whole _
theorem hK : (kM : Memref sig .tc .vmem S2x16x512 .bf16).IsWhole := Memref.isWhole_whole _
theorem hO : (oM : Memref sig .tc .vmem S512x512 .bf16).IsWhole := Memref.isWhole_whole _

theorem words_rs : ∀ (h : Fin 2) (r : Fin 15), (Rect.unit (s := S2x16x16x512) ![h.val, r.val + 1, 0, 0] S1x1x16x512.size (inb_rs h r)).WholeWords (EltTy.packing .bf16) := by decide
theorem words_bc : ∀ (h : Fin 2), (Rect.unit (s := S2x16x512) ![h.val, 0, 0] S1x16x512.size (inb_bc h)).WholeWords (EltTy.packing .bf16) := by decide
theorem packed_bc : ∀ (h : Fin 2), (Rect.unit (s := S2x16x512) ![h.val, 0, 0] S1x16x512.size (inb_bc h)).PackedRows (EltTy.packing .bf16) := by decide

theorem wx_rsSrc (d0 : Dev nD) (h : Fin 2) (r : Fin 15) : (rsSrc d0 h r).view.WordExact := hP.wordExact_slice rfl _ (k0_off1_wordsbf16 d0 r h)
theorem wx_rsDst (h : Fin 2) (r : Fin 15) : (rsDst h r).view.WordExact := (hR.wordExact_slice rfl _ (words_rs h r)).reshape _ _
theorem wx_agSrc (h : Fin 2) : (agSrc h).view.WordExact := (hK.wordExact_slice rfl _ (words_bc h)).reshape _ _
theorem wx_agDst (d0 : Dev nD) (h : Fin 2) : (agDst d0 h).view.WordExact := hO.wordExact_slice rfl _ (k0_off3_wordsbf16 d0 h)

def jS (r : Fin 15) : Fin 75 := ⟨r.val, by omega⟩
def jRS (h : Fin 2) (r : Fin 15) : Fin 75 := ⟨15 + 15 * h.val + r.val, by omega⟩
def jAG (h : Fin 2) (r : Fin 15) : Fin 75 := ⟨45 + 15 * h.val + r.val, by omega⟩

/-- The fifteen barrier signals. -/
def sigs (d0 : Dev nD) : List (Fin 15) → Prog (EEf F) PUnit → Prog (EEf F) PUnit
  | [], k => k
  | r :: rs, k => .op (.semSignal (devN (jS r) d0, Proc.tc) barS 1) fun _ => sigs d0 rs k

/-- The reduce-scatter copies of half `h`. -/
def rsSends (d0 : Dev nD) (h : Fin 2) : List (Fin 15) → Prog (EEf F) PUnit → Prog (EEf F) PUnit
  | [], k => k
  | r :: rs, k => .op (.enqueueDma (rsSrc d0 h r) (.remote (Dev.tc (devN (jRS h r) d0)) (rsDst h r) (.dma (semAt (arr 0) h r)) rfl) (.dma (semAt (arr 1) h r))
      (wx_rsSrc d0 h r) (wx_rsDst h r) ⟨⟨rfl, Or.inl rfl⟩, trivial⟩) fun _ => rsSends d0 h rs k

abbrev SlotV (F : FTy → Type) : Type := Vec F S1x1x16x512 .bf16

/-- The receive waits of half `h`, each followed by the load of its slot; the loaded values are handed on. -/
def recvs (d0 : Dev nD) (h : Fin 2) : List (Fin 15) → (Fin 15 → SlotV F) → ((Fin 15 → SlotV F) → Prog (EEf F) PUnit) → Prog (EEf F) PUnit
  | [], acc, k => k acc
  | r :: rs, acc, k =>
    .op (.waitDma2 (semAt (arr 1) h r) (rsSrc d0 h r) (rsDst h r) (wx_rsSrc d0 h r) (wx_rsDst h r)) fun _ =>
    .op (.load rM (Rect.unit (s := S2x16x16x512) ![h.val, r.val + 1, 0, 0] S1x1x16x512.size (inb_rs h r)).toLoadRect (View.loadsAt_vmem h_S1x1x16x512)) fun v =>
    recvs d0 h rs (Function.update acc r v) k

/-- The all-gather copies of half `h`. -/
def agSends (d0 : Dev nD) (h : Fin 2) : List (Fin 15) → Prog (EEf F) PUnit → Prog (EEf F) PUnit
  | [], k => k
  | r :: rs, k => .op (.enqueueDma (agSrc h) (.remote (Dev.tc (devN (jAG h r) d0)) (agDst d0 h) (.dma (semAt (arr 2) h r)) rfl) (.dma (semAt (arr 3) h r))
      (wx_agSrc h) (wx_agDst d0 h) ⟨⟨rfl, Or.inl rfl⟩, trivial⟩) fun _ => agSends d0 h rs k

/-- The waits for the all-gather copies addressed to the device. -/
def agWaits (d0 : Dev nD) (h : Fin 2) : List (Fin 15) → Prog (EEf F) PUnit → Prog (EEf F) PUnit
  | [], k => k
  | r :: rs, k => .op (.waitDma2 (semAt (arr 3) h r) (agSrc h) (agDst d0 h) (wx_agSrc h) (wx_agDst d0 h)) fun _ => agWaits d0 h rs k

/-- The waits for the device's own reduce-scatter copies to have left. -/
def rsSendWaits (d0 : Dev nD) (h : Fin 2) : List (Fin 15) → Prog (EEf F) PUnit → Prog (EEf F) PUnit
  | [], k => k
  | r :: rs, k => .op (.waitDma2 (semAt (arr 0) h r) (rsDst h r) (rsSrc d0 h r) (wx_rsDst h r) (wx_rsSrc d0 h r)) fun _ => rsSendWaits d0 h rs k

/-- The waits for its all-gather copies to have left. -/
def agSendWaits (d0 : Dev nD) (h : Fin 2) : List (Fin 15) → Prog (EEf F) PUnit → Prog (EEf F) PUnit
  | [], k => k
  | r :: rs, k => .op (.waitDma2 (semAt (arr 2) h r) (agDst d0 h) (agSrc h) (wx_agDst d0 h) (wx_agSrc h)) fun _ => agSendWaits d0 h rs k

def rs15 : List (Fin 15) := List.finRange 15

/-- The sum of half 0 from the device's own rows and the fifteen slots, as the kernel nests it. -/
def acc0 (P : Vec F S16x512 .bf16) (L : Fin 15 → SlotV F) : FVec F S16x512 .f32 :=
  k0_pay9 (k0_pay7 (k0_pay6 (k0_pay5 (k0_pay4 (k0_pay3 (k0_pay2 P) (L 0) (L 1) (L 2)) (L 3) (L 4)) (L 5) (L 6)) (L 7) (L 8)) (L 9) (L 10))
    (k0_pay8 (L 11)) (L 12) (L 13)
/-- The sum of half 1. -/
def acc1 (P : Vec F S16x512 .bf16) (L : Fin 15 → SlotV F) : FVec F S16x512 .f32 :=
  k0_pay18 (k0_pay17 (k0_pay16 (k0_pay15 (k0_pay14 (k0_pay13 (k0_pay12 P) (L 0) (L 1)) (L 2) (L 3)) (L 4) (L 5) (L 6)) (L 7) (L 8)) (L 9) (L 10)) (L 11) (L 12)

def zeroSlots : Fin 15 → SlotV F := fun _ _ => FloatOps.ofBits .bf16 0

/-- What is stored into the broadcast buffer's half `h`, and into the device's own rows of the result: the clamped sum. -/
def bcPay (h : Fin 2) (P : Vec F S16x512 .bf16) (L : Fin 15 → SlotV F) : FVec F S1x16x512 .bf16 :=
  match h with
  | 0 => k0_pay11 (acc0 P L) (L 14)
  | 1 => k0_pay20 (acc1 P L) (L 13) (L 14)
def outPay (h : Fin 2) (P : Vec F S16x512 .bf16) (L : Fin 15 → SlotV F) : FVec F S16x512 .bf16 :=
  match h with
  | 0 => k0_pay10 (acc0 P L) (L 14)
  | 1 => k0_pay19 (acc1 P L) (L 13) (L 14)

/-- The device's own rows of half `h` of a 512 x 512 buffer; half `h` of the broadcast buffer. -/
abbrev ownRect (d0 : Dev nD) (h : Fin 2) : Rect S512x512 :=
  Rect.unit (s := S512x512) (k0_off2 d0 (BitVec.ofNat 32 (16 * h.val))) S16x512.size (k0_off2_inb d0 h)
abbrev bcRect (h : Fin 2) : Rect S2x16x512 := Rect.unit (s := S2x16x512) ![h.val, 0, 0] S1x16x512.size (inb_bc h)

/-- One half: the device's own rows, the fifteen receives, the sum stored twice, the fifteen all-gather copies. -/
def halfP (d0 : Dev nD) (h : Fin 2) (k : Prog (EEf F) PUnit) : Prog (EEf F) PUnit :=
  .op (.load pM (ownRect d0 h).toLoadRect (View.loadsAt_vmem h_S16x512)) fun P =>
  recvs d0 h rs15 zeroSlots fun L =>
  .op (.load kM (bcRect h).toLoadRect (View.loadsAt_vmem h_S1x16x512)) fun _ =>
  .op (.store kM (bcRect h) (bcPay h P L) Finset.univ
      (View.stores_vmem h_S1x16x512 (hK.storeExact_slice rfl _ (packed_bc h)) (fun _ => rfl)) (.inl rfl)) fun _ =>
  .op (.load oM (ownRect d0 h).toLoadRect (View.loadsAt_vmem h_S16x512)) fun _ =>
  .op (.store oM (ownRect d0 h) (outPay h P L) Finset.univ
      (View.stores_vmem h_S16x512 (hO.storeExact_slice rfl _ (k0_off2_packedbf16 d0 h)) (fun _ => rfl)) (.inl rfl)) fun _ =>
  agSends d0 h rs15 k

/-- The kernel body, phase by phase. -/
def bodyP : Prog (EEf F) PUnit :=
  .op .deviceId fun d0 =>
  sigs d0 rs15 <|
  .op (.load aM (Rect.unit (s := S512x256) ![0, 0] S512x256.size inb_S512x256_S512x256_0_0).toLoadRect (View.loadsAt_vmem h_S512x256)) fun v64 =>
  .op (.load bM (Rect.unit (s := S256x512) ![0, 0] S256x512.size inb_S256x512_S256x512_0_0).toLoadRect (View.loadsAt_vmem h_S256x512)) fun v67 =>
  .op (.load pM (Rect.unit (s := S512x512) ![0, 0] S512x512.size inb_S512x512_S512x512_0_0).toLoadRect (View.loadsAt_vmem h_S512x512)) fun _ =>
  .op (.store pM (Rect.unit (s := S512x512) ![0, 0] S512x512.size inb_S512x512_S512x512_0_0) (k0_pay1 v64 v67) Finset.univ
      (View.stores_vmem h_S512x512 (hP.storeExact_slice rfl _ packedbf16_S512x512_S512x512_0_0) (fun _ => rfl)) (.inl rfl)) fun _ =>
  .op (.semWait barS 15) fun _ =>
  rsSends d0 0 rs15 <| rsSends d0 1 rs15 <|
  halfP d0 0 <| halfP d0 1 <|
  agWaits d0 0 rs15 <| agWaits d0 1 rs15 <|
  rsSendWaits d0 0 rs15 <| rsSendWaits d0 1 rs15 <|
  agSendWaits d0 0 rs15 <| agSendWaits d0 1 rs15 <|
  .ret ⟨⟩

set_option maxHeartbeats 4000000 in
/-- The printed body is the phases. -/
theorem body_eq : cc0_body (F := F) aM (Memref.isWhole_whole _) bM (Memref.isWhole_whole _) oM (Memref.isWhole_whole _) pM (Memref.isWhole_whole _)
    rM (Memref.isWhole_whole _) kM (Memref.isWhole_whole _) cc0_scratch3 cc0_scratch4 cc0_scratch5 cc0_scratch6 = bodyP := by
  rfl

/-- The printed device of each addressed statement is the device `r + 1` places after the firing one. -/
theorem devN_S : ∀ (r : Fin 15) (c : Dev nD), devN (jS r) c = tgt c r := by decide +kernel
theorem devN_RS : ∀ (h : Fin 2) (r : Fin 15) (c : Dev nD), devN (jRS h r) c = tgt c r := by decide +kernel
theorem devN_AG : ∀ (h : Fin 2) (r : Fin 15) (c : Dev nD), devN (jAG h r) c = tgt c r := by decide +kernel

end Cert.Kernel.BodyProg

end
-- ==== Proof.PhaseB.lean ====
/-
  The kernel body, phase by phase: what each phase needs and what it leaves.
-/
import proofs.«900453_g7700000000000454_dist_matmul_relu_kshard_i_m512_n512_k256_v7x_i16_bf16_1_alg».proof.Proof.GhostB
import proofs.«900453_g7700000000000454_dist_matmul_relu_kshard_i_m512_n512_k256_v7x_i16_bf16_1_alg».proof.Proof.BodyB

set_option maxRecDepth 16384

noncomputable section

namespace Cert.Kernel.Phase

open Cert.Kernel Cert.Kernel.Gen Cert.Kernel.Spec Cert.Kernel.Proto Cert.Kernel.Ghost Cert.Kernel.BodyProg
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibOwesQueue (owed)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-- Device `c` is the device `rv r + 1` places after `tgt c r`: the duty of that device's barrier cell it pays. -/
def rv (r : Fin 15) : Fin 15 := ⟨14 - r.val, by omega⟩
theorem tgt_tgt_rv (r : Fin 15) : tgt (tgt c r) (rv r) = c := by
  apply Fin.ext
  rw [tgt_val, tgt_val]
  have h1 : c.val < 16 := c.isLt
  have := r.isLt
  show ((c.val + r.val + 1) % 16 + (14 - r.val) + 1) % 16 = c.val
  omega

theorem inv_of (ck : Dev nD × CI) : (records (F := F) m K) ⊢ cellInv ER (Rd m) (K ck) (kcell ck) := by
  unfold records; iintro ⟨HI, -⟩
  iapply (show (bigSep Finset.univ fun ck : Dev nD × CI => (cellInv ER (Rd m) (K ck) (kcell ck) : sProp 𝕄)) ⊢ cellInv ER (Rd m) (K ck) (kcell ck) from bigSep_elim (Finset.mem_univ ck)); iexact HI
theorem reached_of (ck : Dev nD × CI) : (records (F := F) m K) ⊢ reached ER (kcell ck) 0 := by
  unfold records; iintro ⟨-, HR⟩
  iapply (show (bigSep Finset.univ fun ck : Dev nD × CI => (reached ER (kcell ck) 0 : sProp 𝕄)) ⊢ reached ER (kcell ck) 0 from bigSep_elim (Finset.mem_univ ck)); iexact HR

/-- A list's chain, head first, in the logic's own notation. -/
theorem chain_cons {I : Type} (i : I) (l : List I) (Φ : I → sProp 𝕄) : bigSepL (i :: l) Φ = iprop(Φ i ∗ bigSepL l Φ) :=
  bigSepL_cons i l Φ

theorem dty_mem (r : Fin 15) (x : Dev nD) : dty r ∈ (Rd (F := F) m).duties (barCell x) 0 := by
  rw [duties_bar]; exact Finset.mem_erase.mpr ⟨fun h => by have := congrArg Fin.val h; simp [dty] at this, Finset.mem_univ _⟩

theorem barPay_dty (x : Dev nD) (r : Fin 15) : (barPay (F := F) x (dty r)) = barPayR x r := by
  unfold barPay; rw [dif_pos (by simp [dty])]; rfl

/-- The fifteen signals: each pays its duty of the target's barrier cell with the slots and rows it hands over. -/
theorem sigs_wp (l : List (Fin 15)) (rest : List Site) (W : Waits sig Unit) (k : Prog (EEf F) PUnit) (Q : PUnit → sProp 𝕄) :
    iprop(records m K ∗ owes (c : Thread nD τ) (owed ((l.map Site.sig ++ rest).map (sitePay c))) W
        ∗ bigSepL l (fun r => iprop(dutyTok ER (barCell (tgt c r)) 0 (dty (rv r)) ∗ barPayR (tgt c r) (rv r)))
        ∗ (owes (c : Thread nD τ) (owed (rest.map (sitePay c))) W -∗ wp frame (wpE (defs₀ (F := F)) 𝒱₀ c none) Set.univ k Q))
      ⊢ wp frame (wpE (defs₀ (F := F)) 𝒱₀ c none) Set.univ (sigs c l k) Q := by
  induction l with
  | nil =>
    iintro ⟨-, HO, -, Hk⟩
    iapply Hk; iexact HO
  | cons r l ih =>
    show _ ⊢ wp frame (wpE (defs₀ (F := F)) 𝒱₀ c none) Set.univ (.op (.semSignal (devN (jS r) c, Proc.tc) barS 1) fun _ => sigs c l k) Q
    rw [devN_S, chain_cons]
    iintro ⟨#HR, HO, ⟨⟨Htok, Hpay⟩, Hrest⟩, Hk⟩
    iapply (Rounds.wp_signal 𝒱₀ ER (Rd m) (c : Thread nD τ) none (dst := (tgt c r : Thread nD τ)) (κ := K (tgt c r, none))
        (d := dty (rv r)) (dty_mem m (rv r) (tgt c r)) (amount_bar m (tgt c r) (dty (rv r))) () (owed ((l.map Site.sig ++ rest).map (sitePay c))) rfl)
      $$ [HO Htok Hpay]
    · isplitr; · iapply (inv_of m K (tgt c r, none)); iexact HR
      isplitl [HO]; · iexact HO
      isplitl [Htok]; · iexact Htok
      isplitl [Hpay]; · rw [payload_bar, barPay_dty]; iexact Hpay
      iapply (reached_of m K (tgt c r, none)); iexact HR
    iintro HO
    iapply (ih)
    isplitr; · iexact HR
    isplitl [HO]; · iexact HO
    isplitl [Hrest]; · iexact Hrest
    iexact Hk

/-! ## The addressed copies -/

/-- One reduce-scatter copy: the source rows go out at the send duty, the target's slot comes back filled at the
    receive duty; the copy pays the block's credit off what is owed. -/
theorem rs_send_step (h : Fin 2) (r : Fin 15) (n : Dev nD) (hn : n = tgt c r)
    {hsc : (rsDst h r : Memref sig (Dev.tc n : Thread nD τ).2.kind .vmem S16x512 .bf16).view.ref.isScScratch = false}
    {hsrc : (rsSrc c h r).view.WordExact} {hdst : (rsDst h r).view.WordExact}
    {hsem : DmaTarget.Typed .vmem (.dma (semAt (arr 1) h r)) (.remote (Dev.tc n : Thread nD τ) (rsDst h r) (.dma (semAt (arr 0) h r)) hsc)}
    {α : Type} {Q : α → sProp 𝕄} {k : PUnit → Prog (TpuEff nD τ sig (Elt F) Λ₀ .tc) α}
    (fn : Buf (Elt F) ((rsDst h r).view.loc (tgt c r : Thread nD τ))) (O : CellTallies nD τ sig Unit) (W : Waits sig Unit) :
    iprop(cellInv ER (Rd m) (K (c, some (0, h, r))) (xCell c 0 h r) ∗ cellInv ER (Rd m) (K (tgt c r, some (1, h, r))) (xCell (tgt c r) 1 h r)
        ∗ rsSrcPts m c h r ∗ ((rsDst h r).view.loc (tgt c r : Thread nD τ) ↦[(rsDst h r).view.set]{fullShare} fn)
        ∗ owes (c : Thread nD τ) (O + tallyAt (xCell (tgt c r) 1 h r) () Nrs) W
        ∗ dutyTok ER (xCell c 0 h r) 0 0 ∗ reached ER (xCell c 0 h r) 0
        ∗ dutyTok ER (xCell (tgt c r) 1 h r) 0 0 ∗ reached ER (xCell (tgt c r) 1 h r) 0)
      ⊢ iprop(((cred (tallyAt (xCell c 0 h r) () Nrs) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsSrc c h r) (.remote (Dev.tc n : Thread nD τ) (rsDst h r) (.dma (semAt (arr 0) h r)) hsc) (.dma (semAt (arr 1) h r)) hsrc hdst hsem) k) Q) := by
  subst hn
  unfold rsSrcPts
  exact Rounds.wp_send_pointsTo 𝒱₀ ER (Rd m) (c : Thread nD τ) none (κ₁ := K (c, some (0, h, r))) (κ₂ := K (tgt c r, some (1, h, r)))
    (r₁ := 0) (r₂ := 0) (d₁ := 0) (d₂ := 0) (fd := fn)
    (by rw [duties_x]; exact Finset.mem_singleton_self _) (by rw [duties_x]; exact Finset.mem_singleton_self _)
    () () Nrs rfl (amount_x m c 0 h r 0) (amount_x m (tgt c r) 1 h r 0) O rfl (W := W)
    (by rw [payload_x]; exact BI.Entails.refl _)
    (by rw [payload_x]; show _ ⊢ rsLanded m (tgt c r) h r; unfold rsLanded; rw [fr_tgt]; iintro H; iexists fn; iexact H)

/-- One all-gather copy: a share of the finished half goes out at the send duty, the target's rows come back filled
    at the receive duty. -/
theorem ag_send_step (h : Fin 2) (r : Fin 15) (n : Dev nD) (hn : n = tgt c r)
    {hsc : (agDst c h : Memref sig (Dev.tc n : Thread nD τ).2.kind .vmem S16x512 .bf16).view.ref.isScScratch = false}
    {hsrc : (agSrc h).view.WordExact} {hdst : (agDst c h).view.WordExact}
    {hsem : DmaTarget.Typed .vmem (.dma (semAt (arr 3) h r)) (.remote (Dev.tc n : Thread nD τ) (agDst c h) (.dma (semAt (arr 2) h r)) hsc)}
    {α : Type} {Q : α → sProp 𝕄} {k : PUnit → Prog (TpuEff nD τ sig (Elt F) Λ₀ .tc) α}
    (fn : Buf (Elt F) ((agDst c h).view.loc (tgt c r : Thread nD τ))) (O : CellTallies nD τ sig Unit) (W : Waits sig Unit) :
    iprop(cellInv ER (Rd m) (K (c, some (2, h, r))) (xCell c 2 h r) ∗ cellInv ER (Rd m) (K (tgt c r, some (3, h, r))) (xCell (tgt c r) 3 h r)
        ∗ agSrcPts m c h r ∗ ((agDst c h).view.loc (tgt c r : Thread nD τ) ↦[(agDst c h).view.set]{fullShare} fn)
        ∗ owes (c : Thread nD τ) (O + tallyAt (xCell (tgt c r) 3 h r) () Nag) W
        ∗ dutyTok ER (xCell c 2 h r) 0 0 ∗ reached ER (xCell c 2 h r) 0
        ∗ dutyTok ER (xCell (tgt c r) 3 h r) 0 0 ∗ reached ER (xCell (tgt c r) 3 h r) 0)
      ⊢ iprop(((cred (tallyAt (xCell c 2 h r) () Nag) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (agSrc h) (.remote (Dev.tc n : Thread nD τ) (agDst c h) (.dma (semAt (arr 2) h r)) hsc) (.dma (semAt (arr 3) h r)) hsrc hdst hsem) k) Q) := by
  subst hn
  unfold agSrcPts
  exact Rounds.wp_send_pointsTo 𝒱₀ ER (Rd m) (c : Thread nD τ) none (κ₁ := K (c, some (2, h, r))) (κ₂ := K (tgt c r, some (3, h, r)))
    (r₁ := 0) (r₂ := 0) (d₁ := 0) (d₂ := 0) (fd := fn)
    (by rw [duties_x]; exact Finset.mem_singleton_self _) (by rw [duties_x]; exact Finset.mem_singleton_self _)
    () () Nag rfl (amount_x m c 2 h r 0) (amount_x m (tgt c r) 3 h r 0) O rfl (W := W)
    (by rw [payload_x]; exact BI.Entails.refl _)
    (by rw [payload_x]; show _ ⊢ agLanded m (tgt c r) h r; unfold agLanded; rw [fr_tgt]; iintro H; iexists fn; iexact H)

/-! ## The waits -/

theorem rest_x (k4 : Fin 4) (h : Fin 2) (r : Fin 15) :
    bigSep ((Rd (F := F) m).duties (xCell c k4 h r) 0 \ ∅) (fun d => (Rd (F := F) m).payload (xCell c k4 h r) 0 d) = xPay m c k4 h r := by
  rw [Finset.sdiff_empty, duties_x, bigSep_singleton, payload_x]

/-- One wait for the one duty of a transfer cell: the credit and the position go in, the position at the next
    round and what the duty hands over come out. -/
theorem wait_step (k4 : Fin 4) (h : Fin 2) (r : Fin 15) {sp sp' : Space} {s s' : Shape} {e e' : EltTy}
    {src : Memref sig (c : Thread nD τ).2.kind sp' s' e'} {κ' : Kind} {dst : Memref sig κ' sp s e} {hsrc : src.view.WordExact} {hdst : dst.view.WordExact}
    (hcred : dst.view.dmaCredit = amt k4) (O : CellTallies nD τ sig Unit) (W : Waits sig Unit)
    {α : Type} {Q : α → sProp 𝕄} {k : PUnit → Prog (TpuEff nD τ sig (Elt F) Λ₀ .tc) α} :
    iprop(cellInv ER (Rd m) (K (c, some (k4, h, r))) (xCell c k4 h r) ∗ cred (tallyAt (xCell c k4 h r) () (amt k4))
        ∗ owes (c : Thread nD τ) O W ∗ MayWait (c : Thread nD τ) (.dma (semAt (arr k4) h r)) () O ∗ atPos ER (xCell c k4 h r) 0 ∅ 0)
      ⊢ iprop(((owes (c : Thread nD τ) O (insert (SemLoc.dma (semAt (arr k4) h r), ()) W) ∗ atPos ER (xCell c k4 h r) 1 ∅ 0 ∗ xPay m c k4 h r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semAt (arr k4) h r) src dst hsrc hdst) k) Q) := by
  iintro ⟨#HI, Hc, HO, Hmw, Hat⟩ Hk
  iapply (Rounds.wp_wait_rest_token 𝒱₀ ER (Rd m) (c : Thread nD τ) none (κ := K (c, some (k4, h, r)))
      (wpE_waitDma2_eq 𝒱₀ (c : Thread nD τ) none Set.univ) (Set.mem_univ _) () (O := O) (W := W) (R := 0) (m := 0) (T := ∅)
      (by rw [Nat.zero_add, expect_x, hcred])) $$ [Hc HO Hmw Hat]
  · isplitr; · iexact HI
    isplitl [Hc]; · rw [hcred]; iexact Hc
    isplitl [HO]; · iexact HO
    isplitl [Hmw]; · iexact Hmw
    iexact Hat
  iintro ⟨HO, Hat, -, Hpay⟩
  ihave Hp := (Entails.of_eq (rest_x m c k4 h r)) $$ Hpay
  iapply Hk
  isplitl [HO]; · iexact HO
  isplitl [Hat]; · iexact Hat
  iexact Hp

/-! ## The phases, over the list of the fifteen partners -/

theorem rsSends_wp (h : Fin 2) (l : List (Fin 15)) (rest : List Site) (W : Waits sig Unit) (k : Prog (EEf F) PUnit) (Q : PUnit → sProp 𝕄) :
    iprop(records m K ∗ owes (c : Thread nD τ) (owed ((l.map (Site.rs h) ++ rest).map (sitePay c))) W
        ∗ bigSepL l (fun r => iprop(rsSrcPts m c h r ∗ rsSlotAny (tgt c r) h r ∗ dutyTok ER (xCell c 0 h r) 0 0 ∗ dutyTok ER (xCell (tgt c r) 1 h r) 0 0))
        ∗ ((bigSepL l (fun r => cred (tallyAt (xCell c 0 h r) () Nrs)) ∗ owes (c : Thread nD τ) (owed (rest.map (sitePay c))) W)
            -∗ wp frame (wpE (defs₀ (F := F)) 𝒱₀ c none) Set.univ k Q))
      ⊢ wp frame (wpE (defs₀ (F := F)) 𝒱₀ c none) Set.univ (rsSends c h l k) Q := by
  induction l with
  | nil =>
    iintro ⟨-, HO, -, Hk⟩
    iapply Hk
    isplitr
    · iapply (show (emp : sProp 𝕄) ⊢ bigSepL ([] : List (Fin 15)) (fun r => cred (tallyAt (xCell c 0 h r) () Nrs)) from BIBase.Entails.rfl); iempintro
    iexact HO
  | cons r l ih =>
    show _ ⊢ wp frame (wpE (defs₀ (F := F)) 𝒱₀ c none) Set.univ (.op (.enqueueDma (rsSrc c h r) (.remote (Dev.tc (devN (jRS h r) c)) (rsDst h r) (.dma (semAt (arr 0) h r)) rfl) (.dma (semAt (arr 1) h r)) (wx_rsSrc c h r) (wx_rsDst h r) ⟨⟨rfl, Or.inl rfl⟩, trivial⟩) fun _ => rsSends c h l k) Q
    rw [chain_cons]
    unfold rsSlotAny
    iintro ⟨#HR, HO, ⟨⟨Hsrc, ⟨%fn, Hdst⟩, Hts, Htr⟩, Hrest⟩, Hk⟩
    iapply (rs_send_step m K c h r _ (devN_RS h r c) fn (owed ((l.map (Site.rs h) ++ rest).map (sitePay c))) W) $$ [HO Hsrc Hdst Hts Htr]
    · isplitr; · iapply (inv_of m K (c, some (0, h, r))); iexact HR
      isplitr; · iapply (inv_of m K (tgt c r, some (1, h, r))); iexact HR
      isplitl [Hsrc]; · iexact Hsrc
      isplitl [Hdst]; · iexact Hdst
      isplitl [HO]; · iexact HO
      isplitl [Hts]; · iexact Hts
      isplitr; · iapply (reached_of m K (c, some (0, h, r))); iexact HR
      isplitl [Htr]; · iexact Htr
      iapply (reached_of m K (tgt c r, some (1, h, r))); iexact HR
    iintro ⟨Hc, HO⟩
    iapply ih
    isplitr; · iexact HR
    isplitl [HO]; · iexact HO
    isplitl [Hrest]; · (unfold rsSlotAny at *; iexact Hrest)
    iintro ⟨Hcs, HO⟩
    iapply Hk
    isplitl [Hc Hcs]
    · iapply (Entails.of_eq (chain_cons r l (fun r => (cred (tallyAt (xCell c 0 h r) () Nrs) : sProp 𝕄))).symm)
      isplitl [Hc]; · iexact Hc
      iexact Hcs
    iexact HO

theorem agSends_wp (h : Fin 2) (l : List (Fin 15)) (rest : List Site) (W : Waits sig Unit) (k : Prog (EEf F) PUnit) (Q : PUnit → sProp 𝕄) :
    iprop(records m K ∗ owes (c : Thread nD τ) (owed ((l.map (Site.ag h) ++ rest).map (sitePay c))) W
        ∗ bigSepL l (fun r => iprop(agSrcPts m c h r ∗ outRowsAny (tgt c r) c h ∗ dutyTok ER (xCell c 2 h r) 0 0 ∗ dutyTok ER (xCell (tgt c r) 3 h r) 0 0))
        ∗ ((bigSepL l (fun r => cred (tallyAt (xCell c 2 h r) () Nag)) ∗ owes (c : Thread nD τ) (owed (rest.map (sitePay c))) W)
            -∗ wp frame (wpE (defs₀ (F := F)) 𝒱₀ c none) Set.univ k Q))
      ⊢ wp frame (wpE (defs₀ (F := F)) 𝒱₀ c none) Set.univ (agSends c h l k) Q := by
  induction l with
  | nil =>
    iintro ⟨-, HO, -, Hk⟩
    iapply Hk
    isplitr
    · iapply (show (emp : sProp 𝕄) ⊢ bigSepL ([] : List (Fin 15)) (fun r => cred (tallyAt (xCell c 2 h r) () Nag)) from BIBase.Entails.rfl); iempintro
    iexact HO
  | cons r l ih =>
    show _ ⊢ wp frame (wpE (defs₀ (F := F)) 𝒱₀ c none) Set.univ (.op (.enqueueDma (agSrc h) (.remote (Dev.tc (devN (jAG h r) c)) (agDst c h) (.dma (semAt (arr 2) h r)) rfl) (.dma (semAt (arr 3) h r)) (wx_agSrc h) (wx_agDst c h) ⟨⟨rfl, Or.inl rfl⟩, trivial⟩) fun _ => agSends c h l k) Q
    rw [chain_cons]
    unfold outRowsAny
    iintro ⟨#HR, HO, ⟨⟨Hsrc, ⟨%fn, Hdst⟩, Hts, Htr⟩, Hrest⟩, Hk⟩
    iapply (ag_send_step m K c h r _ (devN_AG h r c) fn (owed ((l.map (Site.ag h) ++ rest).map (sitePay c))) W) $$ [HO Hsrc Hdst Hts Htr]
    · isplitr; · iapply (inv_of m K (c, some (2, h, r))); iexact HR
      isplitr; · iapply (inv_of m K (tgt c r, some (3, h, r))); iexact HR
      isplitl [Hsrc]; · iexact Hsrc
      isplitl [Hdst]; · iexact Hdst
      isplitl [HO]; · iexact HO
      isplitl [Hts]; · iexact Hts
      isplitr; · iapply (reached_of m K (c, some (2, h, r))); iexact HR
      isplitl [Htr]; · iexact Htr
      iapply (reached_of m K (tgt c r, some (3, h, r))); iexact HR
    iintro ⟨Hc, HO⟩
    iapply ih
    isplitr; · iexact HR
    isplitl [HO]; · iexact HO
    isplitl [Hrest]; · (unfold outRowsAny at *; iexact Hrest)
    iintro ⟨Hcs, HO⟩
    iapply Hk
    isplitl [Hc Hcs]
    · iapply (Entails.of_eq (chain_cons r l (fun r => (cred (tallyAt (xCell c 2 h r) () Nag) : sProp 𝕄))).symm)
      isplitl [Hc]; · iexact Hc
      iexact Hcs
    iexact HO

theorem agWaits_wp (h : Fin 2) (l : List (Fin 15)) (O : CellTallies nD τ sig Unit)
    (hmw : ∀ r : Fin 15, (levAts L lv : sProp 𝕄) ⊢ MayWait (c : Thread nD τ) (.dma (semAt (arr 3) h r)) () O)
    (k : Prog (EEf F) PUnit) (Q : PUnit → sProp 𝕄) :
    iprop(records m K ∗ levAts L lv ∗ (∃ W, owes (c : Thread nD τ) O W)
        ∗ bigSepL l (fun r => iprop(cred (tallyAt (xCell c 3 h r) () (amt 3)) ∗ atPos ER (xCell c 3 h r) 0 ∅ 0))
        ∗ (((∃ W, owes (c : Thread nD τ) O W) ∗ bigSepL l (fun r => iprop(atPos ER (xCell c 3 h r) 1 ∅ 0 ∗ xPay m c 3 h r)))
            -∗ wp frame (wpE (defs₀ (F := F)) 𝒱₀ c none) Set.univ k Q))
      ⊢ wp frame (wpE (defs₀ (F := F)) 𝒱₀ c none) Set.univ (agWaits c h l k) Q := by
  induction l with
  | nil =>
    iintro ⟨-, -, HO, -, Hk⟩
    iapply Hk
    isplitl [HO]; · iexact HO
    iapply (show (emp : sProp 𝕄) ⊢ bigSepL ([] : List (Fin 15)) (fun r => iprop(atPos ER (xCell c 3 h r) 1 ∅ 0 ∗ xPay m c 3 h r)) from BIBase.Entails.rfl); iempintro
  | cons r l ih =>
    show _ ⊢ wp frame (wpE (defs₀ (F := F)) 𝒱₀ c none) Set.univ (.op (.waitDma2 (semAt (arr 3) h r) (agSrc h) (agDst c h) (wx_agSrc h) (wx_agDst c h)) fun _ => agWaits c h l k) Q
    rw [chain_cons]
    iintro ⟨#HR, #Hlev, ⟨%W, HO⟩, ⟨⟨Hc, Hat⟩, Hrest⟩, Hk⟩
    iapply (wait_step m K c 3 h r (agDst_credit c h) O W) $$ [Hc HO Hat]
    · isplitr; · iapply (inv_of m K (c, some (3, h, r))); iexact HR
      isplitl [Hc]; · iexact Hc
      isplitl [HO]; · iexact HO
      isplitr; · iapply (hmw r); iexact Hlev
      iexact Hat
    iintro ⟨HO, Hat, Hp⟩
    iapply ih
    isplitr; · iexact HR
    isplitr; · iexact Hlev
    isplitl [HO]; · iexists _; iexact HO
    isplitl [Hrest]; · iexact Hrest
    iintro ⟨HO, Hps⟩
    iapply Hk
    isplitl [HO]; · iexact HO
    iapply (Entails.of_eq (chain_cons r l (fun r => (iprop(atPos ER (xCell c 3 h r) 1 ∅ 0 ∗ xPay m c 3 h r) : sProp 𝕄))).symm)
    isplitl [Hat Hp]
    · isplitl [Hat]; · iexact Hat
      iexact Hp
    iexact Hps

theorem rsSendWaits_wp (h : Fin 2) (l : List (Fin 15)) (O : CellTallies nD τ sig Unit)
    (hmw : ∀ r : Fin 15, (levAts L lv : sProp 𝕄) ⊢ MayWait (c : Thread nD τ) (.dma (semAt (arr 0) h r)) () O)
    (k : Prog (EEf F) PUnit) (Q : PUnit → sProp 𝕄) :
    iprop(records m K ∗ levAts L lv ∗ (∃ W, owes (c : Thread nD τ) O W)
        ∗ bigSepL l (fun r => iprop(cred (tallyAt (xCell c 0 h r) () (amt 0)) ∗ atPos ER (xCell c 0 h r) 0 ∅ 0))
        ∗ (((∃ W, owes (c : Thread nD τ) O W) ∗ bigSepL l (fun r => iprop(atPos ER (xCell c 0 h r) 1 ∅ 0 ∗ xPay m c 0 h r)))
            -∗ wp frame (wpE (defs₀ (F := F)) 𝒱₀ c none) Set.univ k Q))
      ⊢ wp frame (wpE (defs₀ (F := F)) 𝒱₀ c none) Set.univ (rsSendWaits c h l k) Q := by
  induction l with
  | nil =>
    iintro ⟨-, -, HO, -, Hk⟩
    iapply Hk
    isplitl [HO]; · iexact HO
    iapply (show (emp : sProp 𝕄) ⊢ bigSepL ([] : List (Fin 15)) (fun r => iprop(atPos ER (xCell c 0 h r) 1 ∅ 0 ∗ xPay m c 0 h r)) from BIBase.Entails.rfl); iempintro
  | cons r l ih =>
    show _ ⊢ wp frame (wpE (defs₀ (F := F)) 𝒱₀ c none) Set.univ (.op (.waitDma2 (semAt (arr 0) h r) (rsDst h r) (rsSrc c h r) (wx_rsDst h r) (wx_rsSrc c h r)) fun _ => rsSendWaits c h l k) Q
    rw [chain_cons]
    iintro ⟨#HR, #Hlev, ⟨%W, HO⟩, ⟨⟨Hc, Hat⟩, Hrest⟩, Hk⟩
    iapply (wait_step m K c 0 h r (rsSrc_credit c h r) O W) $$ [Hc HO Hat]
    · isplitr; · iapply (inv_of m K (c, some (0, h, r))); iexact HR
      isplitl [Hc]; · iexact Hc
      isplitl [HO]; · iexact HO
      isplitr; · iapply (hmw r); iexact Hlev
      iexact Hat
    iintro ⟨HO, Hat, Hp⟩
    iapply ih
    isplitr; · iexact HR
    isplitr; · iexact Hlev
    isplitl [HO]; · iexists _; iexact HO
    isplitl [Hrest]; · iexact Hrest
    iintro ⟨HO, Hps⟩
    iapply Hk
    isplitl [HO]; · iexact HO
    iapply (Entails.of_eq (chain_cons r l (fun r => (iprop(atPos ER (xCell c 0 h r) 1 ∅ 0 ∗ xPay m c 0 h r) : sProp 𝕄))).symm)
    isplitl [Hat Hp]
    · isplitl [Hat]; · iexact Hat
      iexact Hp
    iexact Hps

theorem agSendWaits_wp (h : Fin 2) (l : List (Fin 15)) (O : CellTallies nD τ sig Unit)
    (hmw : ∀ r : Fin 15, (levAts L lv : sProp 𝕄) ⊢ MayWait (c : Thread nD τ) (.dma (semAt (arr 2) h r)) () O)
    (k : Prog (EEf F) PUnit) (Q : PUnit → sProp 𝕄) :
    iprop(records m K ∗ levAts L lv ∗ (∃ W, owes (c : Thread nD τ) O W)
        ∗ bigSepL l (fun r => iprop(cred (tallyAt (xCell c 2 h r) () (amt 2)) ∗ atPos ER (xCell c 2 h r) 0 ∅ 0))
        ∗ (((∃ W, owes (c : Thread nD τ) O W) ∗ bigSepL l (fun r => iprop(atPos ER (xCell c 2 h r) 1 ∅ 0 ∗ xPay m c 2 h r)))
            -∗ wp frame (wpE (defs₀ (F := F)) 𝒱₀ c none) Set.univ k Q))
      ⊢ wp frame (wpE (defs₀ (F := F)) 𝒱₀ c none) Set.univ (agSendWaits c h l k) Q := by
  induction l with
  | nil =>
    iintro ⟨-, -, HO, -, Hk⟩
    iapply Hk
    isplitl [HO]; · iexact HO
    iapply (show (emp : sProp 𝕄) ⊢ bigSepL ([] : List (Fin 15)) (fun r => iprop(atPos ER (xCell c 2 h r) 1 ∅ 0 ∗ xPay m c 2 h r)) from BIBase.Entails.rfl); iempintro
  | cons r l ih =>
    show _ ⊢ wp frame (wpE (defs₀ (F := F)) 𝒱₀ c none) Set.univ (.op (.waitDma2 (semAt (arr 2) h r) (agDst c h) (agSrc h) (wx_agDst c h) (wx_agSrc h)) fun _ => agSendWaits c h l k) Q
    rw [chain_cons]
    iintro ⟨#HR, #Hlev, ⟨%W, HO⟩, ⟨⟨Hc, Hat⟩, Hrest⟩, Hk⟩
    iapply (wait_step m K c 2 h r (agSrc_credit h) O W) $$ [Hc HO Hat]
    · isplitr; · iapply (inv_of m K (c, some (2, h, r))); iexact HR
      isplitl [Hc]; · iexact Hc
      isplitl [HO]; · iexact HO
      isplitr; · iapply (hmw r); iexact Hlev
      iexact Hat
    iintro ⟨HO, Hat, Hp⟩
    iapply ih
    isplitr; · iexact HR
    isplitr; · iexact Hlev
    isplitl [HO]; · iexists _; iexact HO
    isplitl [Hrest]; · iexact Hrest
    iintro ⟨HO, Hps⟩
    iapply Hk
    isplitl [HO]; · iexact HO
    iapply (Entails.of_eq (chain_cons r l (fun r => (iprop(atPos ER (xCell c 2 h r) 1 ∅ 0 ∗ xPay m c 2 h r) : sProp 𝕄))).symm)
    isplitl [Hat Hp]
    · isplitl [Hat]; · iexact Hat
      iexact Hp
    iexact Hps

/-! ## Values: what the loads read -/

abbrev slotRect (h : Fin 2) (r : Fin 15) : Rect S2x16x16x512 := Rect.unit (s := S2x16x16x512) ![h.val, r.val + 1, 0, 0] S1x1x16x512.size (inb_rs h r)

/-- The receive slot's elements are exactly what the load of the slot reads. -/
theorem slot_set (h : Fin 2) (r : Fin 15) : ((rM : Memref sig .tc .vmem S2x16x16x512 .bf16).access (slotRect h r)).set = (rsDst h r).view.set := by
  show ((rM : Memref sig .tc .vmem S2x16x16x512 .bf16).view.slice (slotRect h r)).set = _
  exact (View.set_reshape (v := (rM : Memref sig .tc .vmem S2x16x16x512 .bf16).view.slice (slotRect h r)) _).symm

theorem slot_sub (c : Dev nD) (h : Fin 2) (r : Fin 15) :
    (rM : Memref sig .tc .vmem S2x16x16x512 .bf16).view.setOn (slotRect h r).toLoadRect.set ⊆ (rsDst h r).view.set := by
  have h0 : ((rM : Memref sig .tc .vmem S2x16x16x512 .bf16).access (slotRect h r)).set ⊆ (rsDst h r).view.set := le_of_eq (slot_set h r)
  rwa [View.set_slice] at h0

/-- A slot just filled with the rows `Wv`, loaded and re-cast to 16 x 512, is `Wv`. -/
theorem slot_loaded (h : Fin 2) (r : Fin 15) (fd : Buf (Elt F) ((rsDst h r).view.loc (c : Thread nD τ))) (Wv : S16x512.Idx → Elt F .bf16) :
    shapeCast S16x512 ((rM : Memref sig .tc .vmem S2x16x16x512 .bf16).view.readAt (Elt F) (slotRect h r).toLoadRect
      ((rsDst h r).view.write (Elt F) fd Wv Finset.univ)) shapeCasts_S1x1x16x512_S16x512 = Wv := by
  funext j
  have hw := View.write_emb_of_mem (v := (rsDst h r).view) (Val := Elt F) fd Wv (M := Finset.univ) (x := j) (Finset.mem_univ _)
  show ((rM : Memref sig .tc .vmem S2x16x16x512 .bf16).view.slice (slotRect h r)).read (Elt F) ((rsDst h r).view.write (Elt F) fd Wv Finset.univ) (Shape.reshapeEquiv _ j) = Wv j
  rw [View.read_apply, show ((rM : Memref sig .tc .vmem S2x16x16x512 .bf16).view.slice (slotRect h r)).emb (Shape.reshapeEquiv _ j) = (rsDst h r).view.emb j from rfl,
    hw, cast_cast, cast_eq]

/-- What the receive loop of half `h` knows of the value loaded from slot `r`: re-cast to 16 x 512 it is the rows the
    sender's copy read. -/
def Good (h : Fin 2) (r : Fin 15) (v : SlotV F) : Prop :=
  shapeCast S16x512 v shapeCasts_S1x1x16x512_S16x512 = (rsSrc (fr c r) h r).view.read (Elt F) (partBuf m (fr c r))

theorem recvs_wp (h : Fin 2) (l : List (Fin 15)) (acc : Fin 15 → SlotV F) (P : Fin 15 → Prop) (hacc : ∀ x, P x → Good m c h x (acc x))
    (O : CellTallies nD τ sig Unit)
    (hmw : ∀ r : Fin 15, (levAts L lv : sProp 𝕄) ⊢ MayWait (c : Thread nD τ) (.dma (semAt (arr 1) h r)) () O)
    (k : (Fin 15 → SlotV F) → Prog (EEf F) PUnit) (Q : PUnit → sProp 𝕄) :
    iprop(records m K ∗ levAts L lv ∗ (∃ W, owes (c : Thread nD τ) O W)
        ∗ bigSepL l (fun r => iprop(cred (tallyAt (xCell c 1 h r) () (amt 1)) ∗ atPos ER (xCell c 1 h r) 0 ∅ 0))
        ∗ (∀ acc' : Fin 15 → SlotV F,
            (⌜∀ x, (P x ∨ x ∈ l) → Good m c h x (acc' x)⌝ ∗ (∃ W, owes (c : Thread nD τ) O W)
                ∗ bigSepL l (fun r => iprop(atPos ER (xCell c 1 h r) 1 ∅ 0 ∗ rsLanded m c h r)))
              -∗ wp frame (wpE (defs₀ (F := F)) 𝒱₀ c none) Set.univ (k acc') Q))
      ⊢ wp frame (wpE (defs₀ (F := F)) 𝒱₀ c none) Set.univ (recvs c h l acc k) Q := by
  induction l generalizing acc P with
  | nil =>
    iintro ⟨-, -, HO, -, Hk⟩
    iapply Hk $$ %acc
    isplitr; · ipureintro; exact fun x hx => hx.elim (hacc x) (fun h => absurd h (List.not_mem_nil))
    isplitl [HO]; · iexact HO
    iapply (show (emp : sProp 𝕄) ⊢ bigSepL ([] : List (Fin 15)) (fun r => iprop(atPos ER (xCell c 1 h r) 1 ∅ 0 ∗ rsLanded m c h r)) from BIBase.Entails.rfl); iempintro
  | cons r l ih =>
    show _ ⊢ wp frame (wpE (defs₀ (F := F)) 𝒱₀ c none) Set.univ
      (.op (.waitDma2 (semAt (arr 1) h r) (rsSrc c h r) (rsDst h r) (wx_rsSrc c h r) (wx_rsDst h r)) fun _ =>
        .op (.load rM (slotRect h r).toLoadRect (View.loadsAt_vmem h_S1x1x16x512)) fun v => recvs c h l (Function.update acc r v) k) Q
    rw [chain_cons]
    iintro ⟨#HR, #Hlev, ⟨%W, HO⟩, ⟨⟨Hc, Hat⟩, Hrest⟩, Hk⟩
    iapply (wait_step m K c 1 h r (rsDst_credit h r) O W) $$ [Hc HO Hat]
    · isplitr; · iapply (inv_of m K (c, some (1, h, r))); iexact HR
      isplitl [Hc]; · iexact Hc
      isplitl [HO]; · iexact HO
      isplitr; · iapply (hmw r); iexact Hlev
      iexact Hat
    iintro ⟨HO, Hat, Hp⟩
    ihave Hp' := (show xPay m c 1 h r ⊢ rsLanded m c h r from BIBase.Entails.rfl) $$ Hp
    unfold rsLanded
    icases Hp' with ⟨%fd, Hslot⟩
    iapply (wp_load 𝒱₀ (c : Thread nD τ) none Set.univ (m := rM) (r := (slotRect h r).toLoadRect) (slot_sub c h r)) $$ Hslot
    iintro Hslot
    iapply (ih (Function.update acc r _) (fun x => x = r ∨ P x) (fun x hx => by
      by_cases hxr : x = r
      · subst hxr; rw [Function.update_self]; exact slot_loaded c h x fd _
      · rw [Function.update_of_ne hxr]; exact hacc x (hx.resolve_left hxr)))
    isplitr; · iexact HR
    isplitr; · iexact Hlev
    isplitl [HO]; · iexists _; iexact HO
    isplitl [Hrest]; · iexact Hrest
    iintro %acc' ⟨%hg, HO, Hps⟩
    iapply Hk $$ %acc'
    isplitr
    · ipureintro
      intro x hx
      refine hg x ?_
      rcases hx with hp | hm
      · exact Or.inl (Or.inr hp)
      · rcases List.mem_cons.mp hm with rfl | hm'
        · exact Or.inl (Or.inl rfl)
        · exact Or.inr hm'
    isplitl [HO]; · iexact HO
    iapply (Entails.of_eq (chain_cons r l (fun r => (iprop(atPos ER (xCell c 1 h r) 1 ∅ 0 ∗ rsLanded m c h r) : sProp 𝕄))).symm)
    isplitl [Hat Hslot]
    · isplitl [Hat]; · iexact Hat
      unfold rsLanded; iexists fd; iexact Hslot
    iexact Hps

/-! ## The barrier wait -/

/-- A list's chain over a mapped list. -/
theorem chain_map {I J : Type} (f : I → J) (l : List I) (Φ : J → sProp 𝕄) : bigSepL (l.map f) Φ = bigSepL l (fun i => Φ (f i)) := by
  induction l with
  | nil => rfl
  | cons i l ih => rw [List.map_cons, chain_cons, chain_cons, ih]

/-- Fifteen units of credit on one cell, one by one, are fifteen units. -/
theorem cred_units (g : GSem nD τ sig) (l : List (Fin 15)) :
    bigSepL l (fun _ => (cred (tallyAt g () 1) : sProp 𝕄)) ⊢ cred (tallyAt g () l.length) := by
  induction l with
  | nil => rw [List.length_nil, tallyAt_zero, cred_zero]; exact BIBase.Entails.rfl
  | cons i l ih =>
    rw [chain_cons, List.length_cons, ← tallyAt_add]
    iintro ⟨H1, Hl⟩
    iapply (cred_add _ _).2
    isplitl [Hl]; · iapply ih; iexact Hl
    iexact H1

theorem bar_duties_list : (Finset.univ.erase (0 : Fin 16)) \ ∅ = (rs15.map dty).toFinset := by decide
theorem bar_duties_nodup : (rs15.map dty).Nodup := by decide

/-- What the barrier wait hands over: from each of the fifteen others, the slots and rows this device's copies to it write. -/
theorem rest_bar : bigSep ((Rd (F := F) m).duties (barCell c) 0 \ ∅) (fun d => (Rd (F := F) m).payload (barCell c) 0 d)
    = bigSepL rs15 (fun r => barPayR (F := F) c r) := by
  rw [duties_bar, bigSep_eq_bigSepL_of_eq (rs15.map dty) bar_duties_list bar_duties_nodup, chain_map]
  exact congrArg (bigSepL rs15) (funext fun r => by rw [payload_bar, barPay_dty])

theorem bar_wait_step (O : CellTallies nD τ sig Unit) (W : Waits sig Unit)
    {α : Type} {Q : α → sProp 𝕄} {k : PUnit → Prog (TpuEff nD τ sig (Elt F) Λ₀ .tc) α} :
    iprop(records m K ∗ cred (tallyAt (barCell c) () 15) ∗ owes (c : Thread nD τ) O W ∗ MayWait (c : Thread nD τ) (.reg barS) () O ∗ atPos ER (barCell c) 0 ∅ 0)
      ⊢ iprop(((owes (c : Thread nD τ) O (insert (SemLoc.reg barS, ()) W) ∗ bigSepL rs15 (fun r => barPayR (F := F) c r))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro ⟨#HR, Hc, HO, Hmw, Hat⟩ Hk
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hmw Hat]
  · isplitr; · iapply (inv_of m K (c, none)); iexact HR
    isplitl [Hc]; · iexact Hc
    isplitl [HO]; · iexact HO
    isplitl [Hmw]; · iexact Hmw
    iexact Hat
  iintro ⟨HO, -, -, Hpay⟩
  ihave Hp := (Entails.of_eq (rest_bar m c)) $$ Hpay
  iapply Hk
  isplitl [HO]; · iexact HO
  iexact Hp

/-! ## Regions: the receive slots and the result's row blocks -/

/-- Rows `32 d + 16 h .. + 15` of a 512 x 512 buffer. -/
def blk (d : Dev nD) (h : Fin 2) : Finset S512x512.Idx :=
  Finset.univ.filter fun i => 32 * d.val + 16 * h.val ≤ (i 0).val ∧ (i 0).val < 32 * d.val + 16 * h.val + 16

theorem agDst_set (d : Dev nD) (h : Fin 2) : (agDst d h).view.set = blk d h := by
  show ((View.whole cc0_stg2_0).slice _).set = _
  rw [View.set_slice_whole]
  ext i
  rw [Rect.mem_set_unit, k0_off3_eq]
  unfold blk
  rw [Finset.mem_filter]
  constructor
  · intro hi
    have h0 := hi 0
    exact ⟨Finset.mem_univ _, h0.1, h0.2⟩
  · rintro ⟨-, h1, h2⟩ a
    match a with
    | ⟨0, _⟩ => exact ⟨h1, h2⟩
    | ⟨1, _⟩ => exact ⟨Nat.zero_le _, by have h5 : (i 1).val < 512 := (i 1).isLt; show (i 1).val < 0 + 512; omega⟩

theorem blk_disjoint (x y : Dev nD × Fin 2) (hne : x ≠ y) : Disjoint (blk x.1 x.2) (blk y.1 y.2) := by
  rw [Finset.disjoint_left]
  intro i hx hy
  unfold blk at hx hy
  rw [Finset.mem_filter] at hx hy
  apply hne
  have h1 : x.1.val < 16 := x.1.isLt
  have h2 : y.1.val < 16 := y.1.isLt
  have := x.2.isLt; have := y.2.isLt
  exact Prod.ext (Fin.ext (by omega)) (Fin.ext (by omega))

theorem blk_cover : (Finset.univ : Finset (Dev nD × Fin 2)).biUnion (fun x => blk x.1 x.2) = Finset.univ := by
  ext i
  simp only [Finset.mem_biUnion, Finset.mem_univ, true_and, iff_true]
  have hi : (i 0).val < 512 := (i 0).isLt
  refine ⟨(⟨(i 0).val / 32, by show (i 0).val / 32 < 16; omega⟩, ⟨(i 0).val % 32 / 16, by omega⟩), ?_⟩
  unfold blk
  rw [Finset.mem_filter]
  refine ⟨Finset.mem_univ _, ?_, ?_⟩ <;> (show _; simp only []; omega)

/-! ## Values: rows of the partial products -/

/-- The rows a reduce-scatter copy reads are the target's rows of the sender's partial product. -/
theorem rsSrc_read (d : Dev nD) (h : Fin 2) (r : Fin 15) : (rsSrc d h r).view.read (Elt F) (partBuf m d) = rowsV m d (tgt d r) h := by
  funext j
  show partV m d ((rsSrc d h r).view.emb j) = partV m d (ValueIdx.ix2 ⟨32 * (tgt d r).val + 16 * h.val + (j 0).val, row_lt (tgt d r) h (j 0)⟩ (j 1))
  refine congrArg _ (funext fun a => Fin.ext ?_)
  have e := k0_off1_eq d r h
  match a with
  | ⟨0, _⟩ =>
    show k0_off1 d (BitVec.ofNat 32 (1 + r.val)) (BitVec.ofNat 32 (16 * h.val)) 0 + 1 * (j 0).val = 32 * (tgt d r).val + 16 * h.val + (j 0).val
    rw [e, tgt_val]; show 32 * ((d.val + r.val + 1) % 16) + 16 * h.val + 1 * (j 0).val = _; omega
  | ⟨1, _⟩ =>
    show k0_off1 d (BitVec.ofNat 32 (1 + r.val)) (BitVec.ofNat 32 (16 * h.val)) 1 + 1 * (j 1).val = (j 1).val
    rw [e]; show 0 + 1 * (j 1).val = _; omega

/-- The device's own rows, loaded from its partial product. -/
theorem own_rows_read (h : Fin 2) :
    (pM : Memref sig .tc .vmem S512x512 .bf16).view.readAt (Elt F) (Rect.unit (s := S512x512) (k0_off2 c (BitVec.ofNat 32 (16 * h.val))) S16x512.size (k0_off2_inb c h)).toLoadRect (partBuf m c)
      = rowsV m c c h := by
  funext j
  show partV m c (((pM : Memref sig .tc .vmem S512x512 .bf16).view.slice (Rect.unit (s := S512x512) (k0_off2 c (BitVec.ofNat 32 (16 * h.val))) S16x512.size (k0_off2_inb c h))).emb j)
    = partV m c (ValueIdx.ix2 ⟨32 * c.val + 16 * h.val + (j 0).val, row_lt c h (j 0)⟩ (j 1))
  refine congrArg _ (funext fun a => Fin.ext ?_)
  have e := k0_off2_eq c h
  match a with
  | ⟨0, _⟩ =>
    show k0_off2 c (BitVec.ofNat 32 (16 * h.val)) 0 + 1 * (j 0).val = 32 * c.val + 16 * h.val + (j 0).val
    have e0 : k0_off2 c (BitVec.ofNat 32 (16 * h.val)) 0 = 32 * c.val + 16 * h.val := by rw [e]; rfl
    omega
  | ⟨1, _⟩ =>
    show k0_off2 c (BitVec.ofNat 32 (16 * h.val)) 1 + 1 * (j 1).val = (j 1).val
    have e1 : k0_off2 c (BitVec.ofNat 32 (16 * h.val)) 1 = 0 := by rw [e]; rfl
    omega

/-- A good slot, re-cast, is the sender's rows. -/
theorem good_rows (h : Fin 2) (r : Fin 15) (v : SlotV F) (hg : Good m c h r v) :
    shapeCast S16x512 v shapeCasts_S1x1x16x512_S16x512 = rowsV m (fr c r) c h := by
  unfold Good at hg; rw [hg, rsSrc_read, tgt_fr]

/-- With every loaded slot good, the rows stored for half 0 are the specification's. -/
theorem final0_of_good (L0 : Fin 15 → SlotV F) (hg : ∀ r, Good m c 0 r (L0 r)) :
    k0_pay10 (acc0 (rowsV m c c 0) L0) (L0 14) = final0 m c := by
  have hs : ∀ r : Fin 15, shapeCast S16x512 (L0 r) shapeCasts_S1x1x16x512_S16x512 = rowsV m (fr c r) c 0 := fun r => good_rows m c 0 r _ (hg r)
  have e : ∀ d : Dev nD, shapeCast S16x512 (slotV m d c 0) shapeCasts_S1x1x16x512_S16x512 = rowsV m d c 0 := fun d => cast_slotV m d c 0
  unfold acc0 final0 k0_pay10 k0_pay9 k0_pay8 k0_pay7 k0_pay6 k0_pay5 k0_pay4 k0_pay3 k0_pay2
  simp only [Spec.L, hs, e]
  rfl

/-- And for half 1. -/
theorem final1_of_good (L1 : Fin 15 → SlotV F) (hg : ∀ r, Good m c 1 r (L1 r)) :
    k0_pay19 (acc1 (rowsV m c c 1) L1) (L1 13) (L1 14) = final1 m c := by
  have hs : ∀ r : Fin 15, shapeCast S16x512 (L1 r) shapeCasts_S1x1x16x512_S16x512 = rowsV m (fr c r) c 1 := fun r => good_rows m c 1 r _ (hg r)
  have e : ∀ d : Dev nD, shapeCast S16x512 (slotV m d c 1) shapeCasts_S1x1x16x512_S16x512 = rowsV m d c 1 := fun d => cast_slotV m d c 1
  unfold acc1 final1 k0_pay19 k0_pay18 k0_pay17 k0_pay16 k0_pay15 k0_pay14 k0_pay13 k0_pay12
  simp only [Spec.L, hs, e]
  rfl

/-! ## Chains: small algebra -/

theorem chain_nil {I : Type} (Φ : I → sProp 𝕄) : bigSepL ([] : List I) Φ = iprop(emp) := rfl

theorem chain_append {I : Type} (l₁ l₂ : List I) (Φ : I → sProp 𝕄) :
    bigSepL (l₁ ++ l₂) Φ = iprop(bigSepL l₁ Φ ∗ bigSepL l₂ Φ) := by
  induction l₁ with
  | nil => rw [List.nil_append, chain_nil]; exact (BI.equiv_iff.mp emp_sep).symm
  | cons i l ih =>
    rw [List.cons_append, chain_cons, chain_cons, ih]
    refine BI.Entails.antisymm (show (iprop(Φ i ∗ bigSepL l Φ ∗ bigSepL l₂ Φ) : sProp 𝕄) ⊢ iprop((Φ i ∗ bigSepL l Φ) ∗ bigSepL l₂ Φ) from ?_)
      (show (iprop((Φ i ∗ bigSepL l Φ) ∗ bigSepL l₂ Φ) : sProp 𝕄) ⊢ iprop(Φ i ∗ bigSepL l Φ ∗ bigSepL l₂ Φ) from ?_)
    · iintro ⟨H1, H2, H3⟩
      isplitl [H1 H2]
      · isplitl [H1]; · iexact H1
        iexact H2
      · iexact H3
    · iintro ⟨⟨H1, H2⟩, H3⟩
      isplitl [H1]; · iexact H1
      isplitl [H2]; · iexact H2
      iexact H3

theorem chain_sep {I : Type} (l : List I) (Φ Ψ : I → sProp 𝕄) :
    bigSepL l (fun i => iprop(Φ i ∗ Ψ i)) = iprop(bigSepL l Φ ∗ bigSepL l Ψ) := by
  induction l with
  | nil => rw [chain_nil, chain_nil, chain_nil]; exact (BI.equiv_iff.mp emp_sep).symm
  | cons i l ih =>
    rw [chain_cons, chain_cons, chain_cons, ih]
    refine BI.Entails.antisymm (show (iprop((Φ i ∗ Ψ i) ∗ bigSepL l Φ ∗ bigSepL l Ψ) : sProp 𝕄) ⊢ iprop((Φ i ∗ bigSepL l Φ) ∗ Ψ i ∗ bigSepL l Ψ) from ?_)
      (show (iprop((Φ i ∗ bigSepL l Φ) ∗ Ψ i ∗ bigSepL l Ψ) : sProp 𝕄) ⊢ iprop((Φ i ∗ Ψ i) ∗ bigSepL l Φ ∗ bigSepL l Ψ) from ?_)
    · iintro ⟨⟨H1, H2⟩, H3, H4⟩
      isplitl [H1 H3]
      · isplitl [H1]; · iexact H1
        iexact H3
      · isplitl [H2]; · iexact H2
        iexact H4
    · iintro ⟨⟨H1, H3⟩, H2, H4⟩
      isplitl [H1 H2]
      · isplitl [H1]; · iexact H1
        iexact H2
      · isplitl [H3]; · iexact H3
        iexact H4

theorem chain_congr {I : Type} (l : List I) {Φ Ψ : I → sProp 𝕄} (h : ∀ i ∈ l, Φ i = Ψ i) : bigSepL l Φ = bigSepL l Ψ := by
  induction l with
  | nil => rfl
  | cons i l ih => rw [chain_cons, chain_cons, h i List.mem_cons_self, ih fun j hj => h j (List.mem_cons_of_mem _ hj)]

theorem univ15 (Φ : Fin 15 → sProp 𝕄) : bigSep Finset.univ Φ = bigSepL rs15 Φ :=
  bigSep_univ_eq_bigSepL rs15 (by decide) (by decide) Φ

theorem univY (Φ : YI → sProp 𝕄) : bigSep Finset.univ Φ = iprop(bigSepL rs15 (fun r => Φ (0, r)) ∗ bigSepL rs15 (fun r => Φ (1, r))) := by
  rw [bigSep_univ_prod, bigSep_univ_eq_bigSepL [(0 : Fin 2), 1] (by decide) (by decide)]
  show iprop((bigSep Finset.univ fun b : Fin 15 => Φ (0, b)) ∗ bigSep Finset.univ fun b : Fin 15 => Φ (1, b)) = _
  rw [univ15, univ15]

/-- The finished half, read back through its view. -/
theorem agSrc_read (d : Dev nD) (h : Fin 2) : (agSrc h).view.read (Elt F) (bcBuf m d h) = finalV m d h :=
  View.read_write_univ _ _

/-- The result at row `32 d + 16 h + y 0`, column `y 1`, is device `d`'s finished half `h` at `y`. -/
theorem OutV_at (d : Dev nD) (h : Fin 2) (y : S16x512.Idx) (i : S512x512.Idx)
    (h0 : (i 0).val = 32 * d.val + 16 * h.val + (y 0).val) (h1 : (i 1).val = (y 1).val) : OutV m i = finalV m d h y := by
  have hd : d.val < 16 := d.isLt
  have hh := h.isLt
  have hy : (y 0).val < 16 := (y 0).isLt
  unfold OutV
  have e1 : (⟨(i 0).val / 32, by have h9 : (i 0).val < 512 := (i 0).isLt; show (i 0).val / 32 < 16; omega⟩ : Dev nD) = d := Fin.ext (by show (i 0).val / 32 = d.val; omega)
  have e2 : (⟨(i 0).val % 32 / 16, by omega⟩ : Fin 2) = h := Fin.ext (by show (i 0).val % 32 / 16 = h.val; omega)
  have e3 : ValueIdx.ix2 (⟨(i 0).val % 16, Nat.mod_lt _ (by decide)⟩ : Fin 16) (i 1) = y := by
    funext a
    match a with
    | ⟨0, _⟩ => exact Fin.ext (by show (i 0).val % 16 = (y 0).val; omega)
    | ⟨1, _⟩ => exact Fin.ext h1
  rw [e1, e2]
  exact congrArg (finalV m d h) e3

/-- A landed block of the result holds the result's values. -/
theorem out_landed_eq (d : Dev nD) (h : Fin 2) (fd : Buf (Elt F) ((agDst d h).view.loc (c : Thread nD τ))) :
    ∀ i ∈ (agDst d h).view.set, ((agDst d h).view.write (Elt F) fd ((agSrc h).view.read (Elt F) (bcBuf m d h)) Finset.univ) i = OutV m i := by
  intro i hi
  obtain ⟨y, rfl⟩ := View.exists_emb_of_mem_set _ hi
  rw [View.write_emb_of_mem _ _ (Finset.mem_univ y), agSrc_read]
  have e := k0_off3_eq d h
  have e0 : k0_off3 d (BitVec.ofNat 32 (16 * h.val)) 0 = 32 * d.val + 16 * h.val := by rw [e]; rfl
  have e1 : k0_off3 d (BitVec.ofNat 32 (16 * h.val)) 1 = 0 := by rw [e]; rfl
  refine (cast_eq _ _).trans (OutV_at m d h y _ ?_ ?_).symm
  · show k0_off3 d (BitVec.ofNat 32 (16 * h.val)) 0 + 1 * (y 0).val = _; omega
  · show k0_off3 d (BitVec.ofNat 32 (16 * h.val)) 1 + 1 * (y 1).val = _; omega

/-- The rows the device stores itself are its own block of the result buffer. -/
theorem own_set (h : Fin 2) : ((oM : Memref sig .tc .vmem S512x512 .bf16).access (ownRect c h)).set = blk c h := by
  show ((View.whole cc0_stg2_0).slice _).set = _
  rw [View.set_slice_whole]
  ext i
  rw [Rect.mem_set_unit, k0_off2_eq]
  unfold blk
  rw [Finset.mem_filter]
  constructor
  · intro hi
    have h0 := hi 0
    exact ⟨Finset.mem_univ _, h0.1, h0.2⟩
  · rintro ⟨-, h1, h2⟩ a
    match a with
    | ⟨0, _⟩ => exact ⟨h1, h2⟩
    | ⟨1, _⟩ => exact ⟨Nat.zero_le _, by have h5 : (i 1).val < 512 := (i 1).isLt; show (i 1).val < 0 + 512; omega⟩

/-- What the device stores for its own half is the result's values there. -/
theorem own_stored_eq (h : Fin 2) (f : Buf (Elt F) ((c : Thread nD τ).loc cc0_stg2_0)) :
    ∀ i ∈ blk c h, (((oM : Memref sig .tc .vmem S512x512 .bf16).access (ownRect c h)).write (Elt F) f (finalV m c h) Finset.univ) i = OutV m i := by
  intro i hi
  rw [← own_set] at hi
  obtain ⟨y, rfl⟩ := View.exists_emb_of_mem_set _ hi
  rw [View.write_emb_of_mem _ _ (Finset.mem_univ y)]
  have e := k0_off2_eq c h
  have e0 : k0_off2 c (BitVec.ofNat 32 (16 * h.val)) 0 = 32 * c.val + 16 * h.val := by rw [e]; rfl
  have e1 : k0_off2 c (BitVec.ofNat 32 (16 * h.val)) 1 = 0 := by rw [e]; rfl
  refine (cast_eq _ _).trans (OutV_at m c h y _ ?_ ?_).symm
  · show k0_off2 c (BitVec.ofNat 32 (16 * h.val)) 0 + 1 * (y 0).val = _; omega
  · show k0_off2 c (BitVec.ofNat 32 (16 * h.val)) 1 + 1 * (y 1).val = _; omega

/-! ## The launch's conjunctions as lists -/

theorem bigSep_x' (Φ : XI → sProp 𝕄) :
    bigSep Finset.univ Φ = iprop((bigSep Finset.univ fun y : YI => Φ (0, y)) ∗ (bigSep Finset.univ fun y : YI => Φ (1, y))
      ∗ (bigSep Finset.univ fun y : YI => Φ (2, y)) ∗ (bigSep Finset.univ fun y : YI => Φ (3, y))) := by
  rw [bigSep_univ_prod, bigSep_univ_eq_bigSepL [(0 : Fin 4), 1, 2, 3] (by decide) (by decide)]
  rfl

/-- The device's positions on its transfer cells of kind `k`, half `h`, at round `R`. -/
abbrev posL (k : Fin 4) (h : Fin 2) (R : ℕ) : sProp 𝕄 := bigSepL rs15 (fun r => atPos ER (xCell c k h r) R ∅ 0)

theorem ownPos_eq : (ownPos c : sProp 𝕄) = iprop(atPos ER (barCell c) 0 ∅ 0
    ∗ (posL c 0 0 0 ∗ posL c 0 1 0) ∗ (posL c 1 0 0 ∗ posL c 1 1 0) ∗ (posL c 2 0 0 ∗ posL c 2 1 0) ∗ (posL c 3 0 0 ∗ posL c 3 1 0)) := by
  unfold ownPos
  rw [Cert.LibDeal.bigSep_univ_option, bigSep_x', univY, univY, univY, univY]

theorem rv_rv (r : Fin 15) : rv (rv r) = r := Fin.ext (by show 14 - (14 - r.val) = r.val; have := r.isLt; omega)
def rvE : Fin 15 ≃ Fin 15 := ⟨rv, rv, rv_rv, rv_rv⟩
theorem fr_rv (r : Fin 15) : fr c (rv r) = tgt c r := by
  have h := fr_tgt (tgt c r) (rv r); rw [tgt_tgt_rv] at h; exact h

/-- The tokens the device pays, as lists in program order. -/
abbrev tokL (k : Fin 4) (h : Fin 2) (x : Fin 15 → Dev nD) : sProp 𝕄 := bigSepL rs15 (fun r => dutyTok ER (xCell (x r) k h r) 0 0)

theorem payToks_eq : (payToks c : sProp 𝕄) = iprop((bigSepL rs15 fun r => dutyTok ER (barCell (tgt c r)) 0 (dty (rv r)))
    ∗ (tokL 1 0 (tgt c) ∗ tokL 1 1 (tgt c)) ∗ (tokL 3 0 (tgt c) ∗ tokL 3 1 (tgt c))
    ∗ (tokL 0 0 (fun _ => c) ∗ tokL 0 1 (fun _ => c)) ∗ (tokL 2 0 (fun _ => c) ∗ tokL 2 1 (fun _ => c))) := by
  unfold payToks
  rw [bigSep_univ_equiv rvE (fun r : Fin 15 => (dutyTok ER (barCell (fr c r)) 0 (dty r) : sProp 𝕄)), univ15, univY, univY, univY, univY]
  rw [chain_congr rs15 (fun r _ => show (dutyTok ER (barCell (fr c (rvE r))) 0 (dty (rvE r)) : sProp 𝕄) = dutyTok ER (barCell (tgt c r)) 0 (dty (rv r)) from by
    show dutyTok ER (barCell (fr c (rv r))) 0 (dty (rv r)) = _; rw [fr_rv])]

/-- The credit the launch deals the device, as lists: fifteen units on its barrier cell, a block's credit on each receive cell. -/
abbrev credL (k : Fin 4) (h : Fin 2) : sProp 𝕄 := bigSepL rs15 (fun r => cred (tallyAt (xCell c k h r) () (amt k)))

theorem creds_eq : (creds c : sProp 𝕄) = iprop((((bigSepL rs15 (fun _ => cred (tallyAt (barCell c) () 1)) ∗ credL c 1 0) ∗ credL c 1 1) ∗ credL c 3 0) ∗ credL c 3 1) := by
  unfold creds sites
  rw [chain_append, chain_append, chain_append, chain_append, chain_map, chain_map, chain_map, chain_map, chain_map]
  rfl

/-! ## Cutting the buffers -/

theorem others_list : ∀ c : Dev nD, Finset.univ.erase c = (rs15.map (tgt c)).toFinset ∧ (rs15.map (tgt c)).Nodup := by decide

/-- A conjunction over the devices: the device's own term and the fifteen others', in the order of its copies. -/
theorem dev_split (Ψ : Dev nD → sProp 𝕄) : bigSep Finset.univ Ψ = iprop(Ψ c ∗ bigSepL rs15 (fun r => Ψ (tgt c r))) := by
  rw [bigSep_univ_at _ c, bigSep_eq_bigSepL_of_eq (rs15.map (tgt c)) (others_list c).1 (others_list c).2, chain_map]

theorem out_blocks (f : Buf (Elt F) ((c : Thread nD τ).loc cc0_stg2_0)) :
    ((((c : Thread nD τ).loc cc0_stg2_0) ↦{fullShare} f) : sProp 𝕄)
      = bigSep Finset.univ (fun x : Dev nD × Fin 2 => (((c : Thread nD τ).loc cc0_stg2_0) ↦[blk x.1 x.2]{fullShare} f)) := by
  have h := pointsTo_biUnion (Ix := Unit) (Name := ℕ) (U := UU) (Lvl := ℕ) (ℓ := ((c : Thread nD τ).loc cc0_stg2_0)) (q := fullShare) (f := f) Finset.univ
    (fun x : Dev nD × Fin 2 => blk x.1 x.2) (fun x _ y _ hne => blk_disjoint x y hne)
  rw [blk_cover] at h
  exact h

theorem part_blocks (f : Buf (Elt F) ((c : Thread nD τ).loc cc0_scratch0)) :
    ((((c : Thread nD τ).loc cc0_scratch0) ↦{fullShare} f) : sProp 𝕄)
      = bigSep Finset.univ (fun x : Dev nD × Fin 2 => (((c : Thread nD τ).loc cc0_scratch0) ↦[blk x.1 x.2]{fullShare} f)) := by
  have h := pointsTo_biUnion (Ix := Unit) (Name := ℕ) (U := UU) (Lvl := ℕ) (ℓ := ((c : Thread nD τ).loc cc0_scratch0)) (q := fullShare) (f := f) Finset.univ
    (fun x : Dev nD × Fin 2 => blk x.1 x.2) (fun x _ y _ hne => blk_disjoint x y hne)
  rw [blk_cover] at h
  exact h

/-- The blocks as the device's own two and, per partner, that partner's two. -/
theorem blocks_split (Ψ : Dev nD → Fin 2 → sProp 𝕄) :
    bigSep Finset.univ (fun x : Dev nD × Fin 2 => Ψ x.1 x.2)
      = iprop((Ψ c 0 ∗ Ψ c 1) ∗ bigSepL rs15 (fun r => iprop(Ψ (tgt c r) 0 ∗ Ψ (tgt c r) 1))) := by
  rw [bigSep_univ_prod, dev_split c]
  have e (d : Dev nD) : bigSep Finset.univ (fun b : Fin 2 => Ψ d b) = iprop(Ψ d 0 ∗ Ψ d 1) :=
    bigSep_univ_eq_bigSepL [(0 : Fin 2), 1] (by decide) (by decide) _
  rw [e c, chain_congr rs15 (fun r _ => e (tgt c r))]

/-- The rows a reduce-scatter copy reads are the partner's block of the partial product. -/
theorem rsSrc_set (h : Fin 2) (r : Fin 15) : (rsSrc c h r).view.set = blk (tgt c r) h := by
  show ((View.whole cc0_scratch0).slice _).set = _
  rw [View.set_slice_whole]
  ext i
  rw [Rect.mem_set_unit, k0_off1_eq]
  unfold blk
  rw [Finset.mem_filter, tgt_val]
  constructor
  · intro hi
    have h0 := hi 0
    exact ⟨Finset.mem_univ _, h0.1, h0.2⟩
  · rintro ⟨-, h1, h2⟩ a
    match a with
    | ⟨0, _⟩ => exact ⟨h1, h2⟩
    | ⟨1, _⟩ => exact ⟨Nat.zero_le _, by have h5 : (i 1).val < 512 := (i 1).isLt; show (i 1).val < 0 + 512; omega⟩

/-- The device's own rows of its partial product, as the load of them sees them. -/
theorem ownP_set (h : Fin 2) : ((pM : Memref sig .tc .vmem S512x512 .bf16).access (ownRect c h)).set = blk c h := by
  show ((View.whole cc0_scratch0).slice _).set = _
  rw [View.set_slice_whole]
  ext i
  rw [Rect.mem_set_unit, k0_off2_eq]
  unfold blk
  rw [Finset.mem_filter]
  constructor
  · intro hi
    have h0 := hi 0
    exact ⟨Finset.mem_univ _, h0.1, h0.2⟩
  · rintro ⟨-, h1, h2⟩ a
    match a with
    | ⟨0, _⟩ => exact ⟨h1, h2⟩
    | ⟨1, _⟩ => exact ⟨Nat.zero_le _, by have h5 : (i 1).val < 512 := (i 1).isLt; show (i 1).val < 0 + 512; omega⟩

/-- The elements of receive slot `(h, r + 1)`. -/
def slotS (y : YI) : Finset S2x16x16x512.Idx := (slotRect y.1 y.2).set

theorem rsDst_set (h : Fin 2) (r : Fin 15) : (rsDst h r).view.set = slotS (h, r) := by
  rw [← slot_set]
  show ((View.whole cc0_scratch1).slice _).set = _
  rw [View.set_slice_whole]
  rfl

theorem slot_mem (y : YI) (i : S2x16x16x512.Idx) : i ∈ slotS y ↔ (i 0).val = y.1.val ∧ (i 1).val = y.2.val + 1 := by
  unfold slotS
  rw [Rect.mem_set_unit]
  constructor
  · intro hi
    have h0 : y.1.val ≤ (i 0).val ∧ (i 0).val < y.1.val + 1 := hi 0
    have h1 : y.2.val + 1 ≤ (i 1).val ∧ (i 1).val < y.2.val + 1 + 1 := hi 1
    omega
  · rintro ⟨h0, h1⟩ a
    match a with
    | ⟨0, _⟩ => show y.1.val ≤ (i 0).val ∧ (i 0).val < y.1.val + 1; omega
    | ⟨1, _⟩ => show y.2.val + 1 ≤ (i 1).val ∧ (i 1).val < y.2.val + 1 + 1; omega
    | ⟨2, _⟩ => exact ⟨Nat.zero_le _, by have h5 : (i 2).val < 16 := (i 2).isLt; show (i 2).val < 0 + 16; omega⟩
    | ⟨3, _⟩ => exact ⟨Nat.zero_le _, by have h5 : (i 3).val < 512 := (i 3).isLt; show (i 3).val < 0 + 512; omega⟩

theorem slot_disjoint (y y' : YI) (hne : y ≠ y') : Disjoint (slotS y) (slotS y') := by
  rw [Finset.disjoint_left]
  intro i h1 h2
  rw [slot_mem] at h1 h2
  exact hne (Prod.ext (Fin.ext (by omega)) (Fin.ext (by omega)))

/-- The receive buffer as its thirty slots and the rest. -/
theorem slots_split (f : Buf (Elt F) ((c : Thread nD τ).loc cc0_scratch1)) :
    ((((c : Thread nD τ).loc cc0_scratch1) ↦{fullShare} f) : sProp 𝕄)
      = iprop(((bigSepL rs15 fun r => (((c : Thread nD τ).loc cc0_scratch1) ↦[slotS (0, r)]{fullShare} f))
          ∗ (bigSepL rs15 fun r => (((c : Thread nD τ).loc cc0_scratch1) ↦[slotS (1, r)]{fullShare} f)))
        ∗ (((c : Thread nD τ).loc cc0_scratch1) ↦[Finset.univ \ Finset.univ.biUnion slotS]{fullShare} f)) := by
  have h := pointsTo_biUnion (Ix := Unit) (Name := ℕ) (U := UU) (Lvl := ℕ) (ℓ := ((c : Thread nD τ).loc cc0_scratch1)) (q := fullShare) (f := f) Finset.univ
    slotS (fun x _ y _ hne => slot_disjoint x y hne)
  rw [← univY (fun y : YI => (((c : Thread nD τ).loc cc0_scratch1) ↦[slotS y]{fullShare} f)), ← h]
  exact BI.Entails.antisymm (pointsTo_split_subset (Finset.subset_univ _)).1 (pointsTo_split_subset (Finset.subset_univ _)).2

/-! ## Glue: what the phases are handed, from the cut buffers -/

/-- A list's chain read backwards is the same chain. -/
theorem chain_rev (Ψ : Fin 15 → sProp 𝕄) : bigSepL rs15 (fun r => Ψ (rv r)) = bigSepL rs15 Ψ :=
  ((univ15 _).symm.trans (bigSep_univ_equiv rvE Ψ).symm).trans (univ15 Ψ)

theorem barPayR_eq (x : Dev nD) (r : Fin 15) :
    (barPayR (F := F) x r) = iprop(rsSlotAny (tgt x r) 0 r ∗ rsSlotAny (tgt x r) 1 r ∗ outRowsAny (tgt x r) x 0 ∗ outRowsAny (tgt x r) x 1) := rfl

/-- What the barrier wait brings, sorted: the slots of half 0, of half 1, the result rows of half 0, of half 1. -/
theorem barPay_sorted :
    bigSepL rs15 (fun r => barPayR (F := F) c r)
      = iprop(bigSepL rs15 (fun r => rsSlotAny (F := F) (tgt c r) 0 r) ∗ bigSepL rs15 (fun r => rsSlotAny (F := F) (tgt c r) 1 r)
          ∗ bigSepL rs15 (fun r => outRowsAny (F := F) (tgt c r) c 0) ∗ bigSepL rs15 (fun r => outRowsAny (F := F) (tgt c r) c 1)) := by
  rw [chain_congr rs15 (fun r _ => barPayR_eq c r), chain_sep, chain_sep, chain_sep]

/-- What the signals hand over: the device's own thirty slots and the thirty blocks of the result that are not its own. -/
theorem sig_pay_intro (fr0 : Buf (Elt F) ((c : Thread nD τ).loc cc0_scratch1)) (g2 : Buf (Elt F) ((c : Thread nD τ).loc cc0_stg2_0)) :
    iprop((bigSepL rs15 fun r => (((c : Thread nD τ).loc cc0_scratch1) ↦[slotS (0, r)]{fullShare} fr0))
        ∗ (bigSepL rs15 fun r => (((c : Thread nD τ).loc cc0_scratch1) ↦[slotS (1, r)]{fullShare} fr0))
        ∗ bigSepL rs15 (fun r => iprop((((c : Thread nD τ).loc cc0_stg2_0) ↦[blk (tgt c r) 0]{fullShare} g2) ∗ (((c : Thread nD τ).loc cc0_stg2_0) ↦[blk (tgt c r) 1]{fullShare} g2))))
      ⊢ (bigSepL rs15 (fun r => barPayR (F := F) (tgt c r) (rv r)) : sProp 𝕄) := by
  rw [← chain_rev (fun r => (((c : Thread nD τ).loc cc0_scratch1) ↦[slotS (0, r)]{fullShare} fr0)),
    ← chain_rev (fun r => (((c : Thread nD τ).loc cc0_scratch1) ↦[slotS (1, r)]{fullShare} fr0)), ← chain_sep, ← chain_sep]
  refine Cert.LibDeal.bigSepL_mono rs15 fun r _ => ?_
  rw [barPayR_eq, tgt_tgt_rv]
  unfold rsSlotAny outRowsAny
  rw [rsDst_set, rsDst_set, agDst_set, agDst_set]
  iintro ⟨H0, H1, H2, H3⟩
  isplitl [H0]; · iexists fr0; iexact H0
  isplitl [H1]; · iexists fr0; iexact H1
  isplitl [H2]; · iexists g2; iexact H2
  iexists g2; iexact H3

/-! ## Waits while something is still owed -/

def siteLv : Site → ℕ
  | .sig _ => 1
  | .rs _ _ => 2
  | .ag _ _ => 3

theorem lv_site (s : Site) : lv (sitePay c s).1 () = siteLv s := by
  cases s with
  | sig r => exact lv_bar (tgt c r)
  | rs h r => exact (lv_x (tgt c r) 1 h r).trans rfl
  | ag h r => exact (lv_x (tgt c r) 3 h r).trans rfl

/-- A wait on a cell of level `n` is allowed while only sites above `n` are still owed. -/
theorem mayWait_sites (sm : SemLoc sig) (n : ℕ) (hsm : lv ((c : Thread nD τ), sm) () = n) (l : List Site) (hl : ∀ s ∈ l, n < siteLv s) :
    (levAts L lv : sProp 𝕄) ⊢ MayWait (c : Thread nD τ) sm () (owed (l.map (sitePay c))) :=
  Cert.LibOwesQueue.mayWait_owed (by rw [L_tc]; exact Finset.mem_singleton_self _) fun x hx => by
    obtain ⟨s, hs, rfl⟩ := List.mem_map.mp hx
    exact ⟨(sitePay_lv c s).1, by rw [hsm, lv_site]; exact hl s hs⟩

/-- The sites after the signals; after the reduce-scatter copies; after the all-gather copies of half 0. -/
def sitesRS : List Site := rs15.map (.rs 0) ++ rs15.map (.rs 1) ++ rs15.map (.ag 0) ++ rs15.map (.ag 1)
def sitesAG : List Site := rs15.map (.ag 0) ++ rs15.map (.ag 1)
def sitesAG1 : List Site := rs15.map (.ag 1)

theorem sites_eq : sites = rs15.map Site.sig ++ sitesRS := by
  unfold sites sitesRS rs15; simp only [List.append_assoc]
theorem sitesRS_eq0 : sitesRS = rs15.map (Site.rs 0) ++ (rs15.map (.rs 1) ++ sitesAG) := by
  unfold sitesRS sitesAG; simp only [List.append_assoc]
theorem sitesAG_eq : sitesAG = rs15.map (Site.ag 0) ++ sitesAG1 := rfl
theorem sitesAG1_eq : sitesAG1 = rs15.map (Site.ag 1) ++ [] := (List.append_nil _).symm

/-- Four lists over the fifteen partners as one list of the four together. -/
theorem join4 (A B C D : Fin 15 → sProp 𝕄) :
    iprop(bigSepL rs15 A ∗ bigSepL rs15 B ∗ bigSepL rs15 C ∗ bigSepL rs15 D) = bigSepL rs15 (fun r => iprop(A r ∗ B r ∗ C r ∗ D r)) := by
  rw [chain_sep, chain_sep, chain_sep]
theorem join2 (A B : Fin 15 → sProp 𝕄) :
    iprop(bigSepL rs15 A ∗ bigSepL rs15 B) = bigSepL rs15 (fun r => iprop(A r ∗ B r)) := by
  rw [chain_sep]

/-- The sources of the reduce-scatter copies of half `h` are the partners' blocks of the partial product. -/
theorem srcL_eq (h : Fin 2) :
    bigSepL rs15 (fun r => rsSrcPts m c h r)
      = bigSepL rs15 (fun r => (((c : Thread nD τ).loc cc0_scratch0) ↦[blk (tgt c r) h]{fullShare} (k0_pay1 (xA m c) (xB m c)) : sProp 𝕄)) :=
  chain_congr rs15 fun r _ => by unfold rsSrcPts; rw [rsSrc_set]; rfl

/-! ## The broadcast buffer's halves, and their shares -/

/-- The two halves of the broadcast buffer. -/
def bcS (h : Fin 2) : Finset S2x16x512.Idx := (bcRect h).set

theorem agSrc_set (h : Fin 2) : (agSrc h).view.set = bcS h := by
  have e : ((kM : Memref sig .tc .vmem S2x16x512 .bf16).view.slice (bcRect h)).set = (agSrc h).view.set :=
    (View.set_reshape (v := (kM : Memref sig .tc .vmem S2x16x512 .bf16).view.slice (bcRect h)) _).symm
  rw [← e]
  show ((View.whole cc0_scratch2).slice _).set = _
  rw [View.set_slice_whole]
  rfl

theorem bc_access_set (h : Fin 2) : ((kM : Memref sig .tc .vmem S2x16x512 .bf16).access (bcRect h)).set = bcS h := by
  show ((View.whole cc0_scratch2).slice _).set = _
  rw [View.set_slice_whole]
  rfl

theorem bc_disjoint : Disjoint (bcS 0) (bcS 1) :=
  Rect.unit_disjoint (0 : Fin 3) (Or.inl (by decide))

/-- Storing the finished half, re-cast to 1 x 16 x 512, through the half's rectangle leaves the half as the all-gather reads it. -/
theorem bc_stored_eq (h : Fin 2) (f : Buf (Elt F) ((c : Thread nD τ).loc cc0_scratch2)) (Wv : S16x512.Idx → Elt F .bf16) (hW : finalV m c h = Wv) :
    ∀ i ∈ bcS h, (((kM : Memref sig .tc .vmem S2x16x512 .bf16).access (bcRect h)).write (Elt F) f (shapeCast S1x16x512 Wv shapeCasts_S16x512_S1x16x512) Finset.univ) i = bcBuf m c h i := by
  intro i hi
  rw [← agSrc_set] at hi
  obtain ⟨y, rfl⟩ := View.exists_emb_of_mem_set _ hi
  have hw := View.write_emb_of_mem (v := ((kM : Memref sig .tc .vmem S2x16x512 .bf16).access (bcRect h))) (Val := Elt F) f
    (shapeCast S1x16x512 Wv shapeCasts_S16x512_S1x16x512) (M := Finset.univ) (x := Shape.reshapeEquiv (Shape.Squeezes.numel_eq squeezes_S1x16x512_S16x512) y) (Finset.mem_univ _)
  have hb := View.write_emb_of_mem (v := (agSrc h).view) (Val := Elt F) (fun _ => FloatOps.ofBits .bf16 0) (finalV m c h) (M := Finset.univ) (x := y) (Finset.mem_univ _)
  unfold bcBuf
  rw [hb]
  refine (show _ = _ from hw).trans ?_
  subst hW
  rw [cast_eq, cast_eq]
  show finalV m c h (Shape.reshapeEquiv _ (Shape.reshapeEquiv _ y)) = finalV m c h y
  rw [Shape.reshapeEquiv_reshapeEquiv, Shape.reshapeEquiv_self]

theorem mw0 (sm : SemLoc sig) : (levAts L lv : sProp 𝕄) ⊢ MayWait (c : Thread nD τ) sm () 0 := by
  rw [MayWait_zero]; iintro -; iempintro

theorem range15 : Finset.range 15 = (rs15.map Fin.val).toFinset := by decide
theorem range15_nodup : (rs15.map Fin.val).Nodup := by decide

/-- A full points-to as the fifteen shares the all-gather copies read, and the rest. -/
theorem pieces15 {ℓ : Loc nD τ sig} {I : Finset (Idx ℓ)} {f : Buf (Elt F) ℓ} :
    (ℓ ↦[I]{fullShare} f : sProp 𝕄) ⊣⊢ iprop(bigSepL rs15 (fun r => (ℓ ↦[I]{shareOf r} f : sProp 𝕄)) ∗ ℓ ↦[I]{Cert.LibShares.rest fullShare 15} f) := by
  have h := Cert.LibShares.pointsTo_pieces (Ix := Unit) (Name := ℕ) (U := UU) (Lvl := ℕ) (ℓ := ℓ) (I := I) (f := f) fullShare 15
  rw [bigSep_eq_bigSepL_of_eq (rs15.map Fin.val) range15 range15_nodup, chain_map] at h
  exact h

theorem finalV_zero : finalV m c 0 = final0 m c := if_pos rfl
theorem finalV_one : finalV m c 1 = final1 m c := if_neg (by decide)

theorem outPay_eq : ∀ (h : Fin 2) (L0 : Fin 15 → SlotV F), (∀ r, Good m c h r (L0 r)) → outPay h (rowsV m c c h) L0 = finalV m c h :=
  Fin.forall_fin_two.2 ⟨fun L0 hg => (show outPay 0 (rowsV m c c 0) L0 = final0 m c from final0_of_good m c L0 hg).trans (finalV_zero m c).symm,
    fun L0 hg => (show outPay 1 (rowsV m c c 1) L0 = final1 m c from final1_of_good m c L0 hg).trans (finalV_one m c).symm⟩

theorem bcPay_eq : ∀ (h : Fin 2) (P : Vec F S16x512 .bf16) (L0 : Fin 15 → SlotV F),
    bcPay h P L0 = shapeCast S1x16x512 (outPay h P L0) shapeCasts_S16x512_S1x16x512 :=
  Fin.forall_fin_two.2 ⟨fun _ _ => rfl, fun _ _ => rfl⟩

theorem ownP_sub (h : Fin 2) : (pM : Memref sig .tc .vmem S512x512 .bf16).view.setOn (ownRect c h).toLoadRect.set ⊆ blk c h := by
  have h0 : ((pM : Memref sig .tc .vmem S512x512 .bf16).access (ownRect c h)).set ⊆ blk c h := le_of_eq (ownP_set c h)
  rwa [View.set_slice] at h0
theorem ownO_sub (h : Fin 2) : (oM : Memref sig .tc .vmem S512x512 .bf16).view.setOn (ownRect c h).toLoadRect.set ⊆ blk c h := by
  have h0 : ((oM : Memref sig .tc .vmem S512x512 .bf16).access (ownRect c h)).set ⊆ blk c h := le_of_eq (own_set c h)
  rwa [View.set_slice] at h0
theorem bc_sub (h : Fin 2) : (kM : Memref sig .tc .vmem S2x16x512 .bf16).view.setOn (bcRect h).toLoadRect.set ⊆ bcS h := by
  have h0 : ((kM : Memref sig .tc .vmem S2x16x512 .bf16).access (bcRect h)).set ⊆ bcS h := le_of_eq (bc_access_set h)
  rwa [View.set_slice] at h0

set_option maxHeartbeats 1600000 in
/-- One half of the body. -/
theorem half_wp (h : Fin 2) (rest : List Site) (hrest : ∀ s ∈ rs15.map (Site.ag h) ++ rest, 2 < siteLv s) (W : Waits sig Unit)
    (fk : Buf (Elt F) ((c : Thread nD τ).loc cc0_scratch2)) (g2 : Buf (Elt F) ((c : Thread nD τ).loc cc0_stg2_0))
    (k : Prog (EEf F) PUnit) (Q : PUnit → sProp 𝕄) :
    iprop(records m K ∗ levAts L lv ∗ owes (c : Thread nD τ) (owed ((rs15.map (Site.ag h) ++ rest).map (sitePay c))) W
        ∗ (((c : Thread nD τ).loc cc0_scratch0) ↦[blk c h]{fullShare} (k0_pay1 (xA m c) (xB m c)))
        ∗ credL c 1 h ∗ posL c 1 h 0
        ∗ (((c : Thread nD τ).loc cc0_scratch2) ↦[bcS h]{fullShare} fk)
        ∗ (((c : Thread nD τ).loc cc0_stg2_0) ↦[blk c h]{fullShare} g2)
        ∗ bigSepL rs15 (fun r => outRowsAny (F := F) (tgt c r) c h)
        ∗ tokL 2 h (fun _ => c) ∗ tokL 3 h (tgt c)
        ∗ (((∃ W', owes (c : Thread nD τ) (owed (rest.map (sitePay c))) W')
              ∗ (((c : Thread nD τ).loc cc0_scratch0) ↦[blk c h]{fullShare} (k0_pay1 (xA m c) (xB m c)))
              ∗ posL c 1 h 1 ∗ bigSepL rs15 (fun r => rsLanded m c h r)
              ∗ (((c : Thread nD τ).loc cc0_scratch2) ↦[bcS h]{Cert.LibShares.rest fullShare 15} bcBuf m c h)
              ∗ (((c : Thread nD τ).loc cc0_stg2_0) ↦[blk c h]{fullShare} OutV m)
              ∗ credL c 2 h)
            -∗ wp frame (wpE (defs₀ (F := F)) 𝒱₀ c none) Set.univ k Q))
      ⊢ wp frame (wpE (defs₀ (F := F)) 𝒱₀ c none) Set.univ (halfP c h k) Q := by
  unfold halfP
  iintro ⟨#HR, #Hlev, HO, Hpo, Hcr, Hpos, Hks, Hos, Hor, Ht2, Ht3, Hk⟩
  -- the device's own rows
  iapply (wp_load 𝒱₀ (c : Thread nD τ) none Set.univ (m := pM) (r := (ownRect c h).toLoadRect) (ownP_sub c h)) $$ Hpo; iintro Hpo
  rw [show (pM : Memref sig .tc .vmem S512x512 .bf16).view.readAt (Elt F) (ownRect c h).toLoadRect (k0_pay1 (xA m c) (xB m c)) = rowsV m c c h from own_rows_read m c h]
  -- the fifteen receives
  iapply (recvs_wp m K c h rs15 zeroSlots (fun _ => False) (fun x hx => hx.elim) (owed ((rs15.map (Site.ag h) ++ rest).map (sitePay c)))
    (fun r => mayWait_sites c (.dma (semAt (arr 1) h r)) 2 ((lv_x c 1 h r).trans rfl) _ hrest) _ Q)
  isplitr; · iexact HR
  isplitr; · iexact Hlev
  isplitl [HO]; · iexists W; iexact HO
  isplitl [Hcr Hpos]
  · iapply (Entails.of_eq (join2 _ _))
    isplitl [Hcr]; · iexact Hcr
    iexact Hpos
  iintro %L0 ⟨%hg, ⟨%W1, HO⟩, Hps⟩
  have hgood : ∀ r, Good m c h r (L0 r) := fun r => hg r (Or.inr (List.mem_finRange r))
  ihave Hps' := (Entails.of_eq (join2 _ _).symm) $$ Hps
  icases Hps' with ⟨Hpos1, Hland⟩
  rw [bcPay_eq, outPay_eq m c h L0 hgood]
  -- the sum into the broadcast buffer's half
  iapply (wp_load 𝒱₀ (c : Thread nD τ) none Set.univ (m := kM) (r := (bcRect h).toLoadRect) (bc_sub h)) $$ Hks; iintro Hks
  iapply (wp_store 𝒱₀ (c : Thread nD τ) none Set.univ (m := kM) (r := bcRect h) (Mk := Finset.univ) (le_of_eq (bc_access_set h))) $$ Hks; iintro Hks
  -- and into the device's own rows of the result
  iapply (wp_load 𝒱₀ (c : Thread nD τ) none Set.univ (m := oM) (r := (ownRect c h).toLoadRect) (ownO_sub c h)) $$ Hos; iintro Hos
  iapply (wp_store 𝒱₀ (c : Thread nD τ) none Set.univ (m := oM) (r := ownRect c h) (Mk := Finset.univ) (le_of_eq (own_set c h))) $$ Hos; iintro Hos
  -- what was stored: the half as the all-gather reads it, and the result's values on the device's own rows
  ihave Hks := (Entails.of_eq (pointsTo_congr (Ix := Unit) (Name := ℕ) (U := UU) (Lvl := ℕ) (q := fullShare) (bc_stored_eq m c h fk (finalV m c h) rfl))) $$ Hks
  ihave Hos := (Entails.of_eq (pointsTo_congr (Ix := Unit) (Name := ℕ) (U := UU) (Lvl := ℕ) (q := fullShare) (own_stored_eq m c h g2))) $$ Hos
  ihave Hsh := (pieces15 (F := F) (ℓ := ((c : Thread nD τ).loc cc0_scratch2)) (I := bcS h) (f := bcBuf m c h)).1 $$ Hks
  icases Hsh with ⟨Hpieces, Hkrest⟩
  ihave Hpieces := (Entails.of_eq (chain_congr rs15 (fun r _ => show ((((c : Thread nD τ).loc cc0_scratch2) ↦[bcS h]{shareOf r} bcBuf m c h) : sProp 𝕄) = agSrcPts m c h r from by
    unfold agSrcPts; rw [agSrc_set]))) $$ Hpieces
  -- the fifteen all-gather copies
  iapply (agSends_wp m K c h rs15 rest W1 _ Q)
  isplitr; · iexact HR
  isplitl [HO]; · iexact HO
  isplitl [Hpieces Hor Ht2 Ht3]
  · iapply (Entails.of_eq (join4 _ _ _ _))
    isplitl [Hpieces]; · iexact Hpieces
    isplitl [Hor]; · iexact Hor
    isplitl [Ht2]; · iexact Ht2
    iexact Ht3
  iintro ⟨Hcs, HO⟩
  iapply Hk
  isplitl [HO]; · iexists W1; iexact HO
  isplitl [Hpo]; · iexact Hpo
  isplitl [Hpos1]; · iexact Hpos1
  isplitl [Hland]; · iexact Hland
  isplitl [Hkrest]; · iexact Hkrest
  isplitl [Hos]; · iexact Hos
  iexact Hcs

/-! ## The body's pre and post -/

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

abbrev scr (b : Ref sig .tc) : sProp 𝕄 := iprop(∃ f : Buf (Elt F) ((c : Thread nD τ).loc b), ((c : Thread nD τ).loc b) ↦{fullShare} f)

theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The end: closing the cells, joining the buffers -/

theorem pos1_eq : (bigSep Finset.univ fun x : XI => (atPos ER (xCell c x.1 x.2.1 x.2.2) 1 ∅ 0 : sProp 𝕄))
    = iprop((posL c 0 0 1 ∗ posL c 0 1 1) ∗ (posL c 1 0 1 ∗ posL c 1 1 1) ∗ (posL c 2 0 1 ∗ posL c 2 1 1) ∗ (posL c 3 0 1 ∗ posL c 3 1 1)) := by
  rw [bigSep_x', univY, univY, univY, univY]

/-- The device's 120 transfer cells close: their counters at zero are its own again. -/
theorem close_all : iprop(records m K ∗ bigSep Finset.univ fun x : XI => (atPos ER (xCell c x.1 x.2.1 x.2.2) 1 ∅ 0 : sProp 𝕄))
    ⊢ |={Set.univ}=> (Pipeline.ownSems0 (Ix := Unit) (Name := ℕ) (U := UU) (Lvl := ℕ) (Val := Elt F) (τ := τ) osem c : sProp 𝕄) := by
  unfold Pipeline.ownSems0
  refine BIBase.Entails.trans ?_ (bigSep_fupd _ _)
  refine (bigSep_with_persistent' (R := records m K) fun x _ => ?_)
  iintro ⟨#HR, Hat⟩
  iapply (Rounds.cell_close ER (Rd m) (Set.mem_univ (K (c, some x))) (fun h => h) (R := 0 + 1) (duties_later m (xCell c x.1 x.2.1 x.2.2)))
  isplitr; · iapply (inv_of m K (c, some x)); iexact HR
  iexact Hat

/-- The partial product's blocks back together. -/
theorem part_rejoin :
    iprop((((c : Thread nD τ).loc cc0_scratch0) ↦[blk c 0]{fullShare} (k0_pay1 (xA m c) (xB m c)))
        ∗ (((c : Thread nD τ).loc cc0_scratch0) ↦[blk c 1]{fullShare} (k0_pay1 (xA m c) (xB m c)))
        ∗ bigSepL rs15 (fun r => rsSrcPts m c 0 r) ∗ bigSepL rs15 (fun r => rsSrcPts m c 1 r))
      ⊢ (scr c cc0_scratch0 : sProp 𝕄) := by
  rw [srcL_eq, srcL_eq]
  iintro ⟨H0, H1, Hs0, Hs1⟩
  iexists (k0_pay1 (xA m c) (xB m c))
  iapply (Entails.of_eq ((part_blocks c (k0_pay1 (xA m c) (xB m c))).trans
    (blocks_split c (fun d h => (((c : Thread nD τ).loc cc0_scratch0) ↦[blk d h]{fullShare} (k0_pay1 (xA m c) (xB m c)))))).symm)
  isplitl [H0 H1]
  · isplitl [H0]; · iexact H0
    iexact H1
  iapply (Entails.of_eq (join2 _ _))
  isplitl [Hs0]; · iexact Hs0
  iexact Hs1

/-- A landed block of the result holds the result's values: the landed blocks of half `h`, in the order of the partners. -/
theorem landed_out (h : Fin 2) :
    bigSepL rs15 (fun r => agLanded m c h r) ⊢ (bigSepL rs15 (fun r => (((c : Thread nD τ).loc cc0_stg2_0) ↦[blk (tgt c r) h]{fullShare} OutV m)) : sProp 𝕄) := by
  have e : bigSepL rs15 (fun r => ((((c : Thread nD τ).loc cc0_stg2_0) ↦[blk (fr c r) h]{fullShare} OutV m) : sProp 𝕄))
      = bigSepL rs15 (fun r => (((c : Thread nD τ).loc cc0_stg2_0) ↦[blk (tgt c r) h]{fullShare} OutV m)) := by
    rw [← chain_rev (fun r => ((((c : Thread nD τ).loc cc0_stg2_0) ↦[blk (fr c r) h]{fullShare} OutV m) : sProp 𝕄))]
    exact chain_congr rs15 fun r _ => by rw [fr_rv]
  rw [← e]
  refine Cert.LibDeal.bigSepL_mono rs15 fun r _ => ?_
  unfold agLanded
  iintro ⟨%fd, H⟩
  rw [agDst_set]
  iapply (Entails.of_eq (pointsTo_congr (Ix := Unit) (Name := ℕ) (U := UU) (Lvl := ℕ) (q := fullShare)
    (fun i hi => out_landed_eq m c (fr c r) h fd i (by rw [agDst_set]; exact hi))))
  iexact H

/-- The result's staging buffer, whole, at the result. -/
theorem out_rejoin :
    iprop((((c : Thread nD τ).loc cc0_stg2_0) ↦[blk c 0]{fullShare} OutV m) ∗ (((c : Thread nD τ).loc cc0_stg2_0) ↦[blk c 1]{fullShare} OutV m)
        ∗ bigSepL rs15 (fun r => agLanded m c 0 r) ∗ bigSepL rs15 (fun r => agLanded m c 1 r))
      ⊢ ((((c : Thread nD τ).loc cc0_stg2_0) ↦{fullShare} OutV m) : sProp 𝕄) := by
  iintro ⟨H0, H1, Hl0, Hl1⟩
  ihave Hl0 := (landed_out m c 0) $$ Hl0
  ihave Hl1 := (landed_out m c 1) $$ Hl1
  iapply (Entails.of_eq ((out_blocks c (OutV m)).trans
    (blocks_split c (fun d h => (((c : Thread nD τ).loc cc0_stg2_0) ↦[blk d h]{fullShare} OutV m)))).symm)
  isplitl [H0 H1]
  · isplitl [H0]; · iexact H0
    iexact H1
  iapply (Entails.of_eq (join2 _ _))
  isplitl [Hl0]; · iexact Hl0
  iexact Hl1

/-- One half of the broadcast buffer back at the full share. -/
theorem bc_half_rejoin (h : Fin 2) :
    iprop((((c : Thread nD τ).loc cc0_scratch2) ↦[bcS h]{Cert.LibShares.rest fullShare 15} bcBuf m c h) ∗ bigSepL rs15 (fun r => agSrcPts m c h r))
      ⊢ ((((c : Thread nD τ).loc cc0_scratch2) ↦[bcS h]{fullShare} bcBuf m c h) : sProp 𝕄) := by
  iintro ⟨Hr, Hp⟩
  iapply (pieces15 (F := F) (ℓ := ((c : Thread nD τ).loc cc0_scratch2)) (I := bcS h) (f := bcBuf m c h)).2
  isplitl [Hp]
  · iapply (Entails.of_eq (chain_congr rs15 (fun r _ => show ((((c : Thread nD τ).loc cc0_scratch2) ↦[bcS h]{shareOf r} bcBuf m c h) : sProp 𝕄) = agSrcPts m c h r from by
      unfold agSrcPts; rw [agSrc_set])).symm)
    iexact Hp
  iexact Hr

/-- The broadcast buffer whole again. -/
theorem bc_rejoin (fk : Buf (Elt F) ((c : Thread nD τ).loc cc0_scratch2)) :
    iprop((((c : Thread nD τ).loc cc0_scratch2) ↦[bcS 0]{fullShare} bcBuf m c 0) ∗ (((c : Thread nD τ).loc cc0_scratch2) ↦[bcS 1]{fullShare} bcBuf m c 1)
        ∗ (((c : Thread nD τ).loc cc0_scratch2) ↦[Finset.univ \ (bcS 0 ∪ bcS 1)]{fullShare} fk))
      ⊢ (scr c cc0_scratch2 : sProp 𝕄) := by
  iintro ⟨H0, H1, Hr⟩
  ihave HU := (pointsTo_join (Ix := Unit) (Name := ℕ) (U := UU) (Lvl := ℕ) (ℓ := ((c : Thread nD τ).loc cc0_scratch2)) (I := bcS 0) (J := bcS 1) (q := fullShare) (f := bcBuf m c 0) (g := bcBuf m c 1) bc_disjoint) $$ [H0 H1]
  · isplitl [H0]; · iexact H0
    iexact H1
  ihave HW := (pointsTo_join_subset (Ix := Unit) (Name := ℕ) (U := UU) (Lvl := ℕ) (ℓ := ((c : Thread nD τ).loc cc0_scratch2)) (I := bcS 0 ∪ bcS 1) (S := Finset.univ) (q := fullShare) (f := fk) (Finset.subset_univ (bcS 0 ∪ bcS 1))) $$ [HU Hr]
  · isplitl [HU]; · iexact HU
    iexact Hr
  iexists _
  iexact HW

/-- Some contents on a set of elements of the receive buffer. -/
abbrev anyAt (S : Finset S2x16x16x512.Idx) : sProp 𝕄 :=
  iprop(∃ f : Buf (Elt F) ((c : Thread nD τ).loc cc0_scratch1), (((c : Thread nD τ).loc cc0_scratch1) ↦[S]{fullShare} f))

/-- Slots held one by one at whatever they hold join a set disjoint from them all. -/
theorem any_join_list (l : List YI) (hl : l.Nodup) (S₀ : Finset S2x16x16x512.Idx) (hd : ∀ y ∈ l, Disjoint S₀ (slotS y)) :
    iprop(anyAt (F := F) c S₀ ∗ bigSepL l (fun y => anyAt (F := F) c (slotS y))) ⊢ anyAt (F := F) c (S₀ ∪ l.toFinset.biUnion slotS) := by
  induction l generalizing S₀ with
  | nil =>
    rw [List.toFinset_nil, Finset.biUnion_empty, Finset.union_empty]
    iintro ⟨H, -⟩; iexact H
  | cons y l ih =>
    obtain ⟨hy, hl'⟩ := List.nodup_cons.mp hl
    rw [chain_cons, List.toFinset_cons, Finset.biUnion_insert, ← Finset.union_assoc]
    iintro ⟨⟨%f, H0⟩, ⟨%g, Hy⟩, Hl⟩
    ihave HU := (pointsTo_join (Ix := Unit) (Name := ℕ) (U := UU) (Lvl := ℕ) (ℓ := ((c : Thread nD τ).loc cc0_scratch1)) (I := S₀) (J := slotS y) (q := fullShare) (f := f) (g := g) (hd y List.mem_cons_self)) $$ [H0 Hy]
    · isplitl [H0]; · iexact H0
      iexact Hy
    iapply (ih hl' (S₀ ∪ slotS y) (fun y' hy' => Finset.disjoint_union_left.mpr
      ⟨hd y' (List.mem_cons_of_mem _ hy'), slot_disjoint y y' (fun e => hy (e ▸ hy'))⟩))
    isplitl [HU]; · iexists _; iexact HU
    iexact Hl

def allSlots : List YI := rs15.map (fun r => ((0 : Fin 2), r)) ++ rs15.map (fun r => ((1 : Fin 2), r))
theorem allSlots_nodup : allSlots.Nodup := by decide
theorem allSlots_univ : allSlots.toFinset = Finset.univ := by decide

theorem landed_any (h : Fin 2) : bigSepL rs15 (fun r => rsLanded m c h r) ⊢ (bigSepL rs15 (fun r => anyAt (F := F) c (slotS (h, r))) : sProp 𝕄) := by
  refine Cert.LibDeal.bigSepL_mono rs15 fun r _ => ?_
  unfold rsLanded
  iintro ⟨%fd, H⟩
  rw [rsDst_set]
  iexists _
  iexact H

/-- The receive buffer whole again, at whatever it holds. -/
theorem recv_rejoin (fr0 : Buf (Elt F) ((c : Thread nD τ).loc cc0_scratch1)) :
    iprop(bigSepL rs15 (fun r => rsLanded m c 0 r) ∗ bigSepL rs15 (fun r => rsLanded m c 1 r)
        ∗ (((c : Thread nD τ).loc cc0_scratch1) ↦[Finset.univ \ Finset.univ.biUnion slotS]{fullShare} fr0))
      ⊢ (scr c cc0_scratch1 : sProp 𝕄) := by
  iintro ⟨H0, H1, Hr⟩
  ihave H0 := (landed_any m c 0) $$ H0
  ihave H1 := (landed_any m c 1) $$ H1
  ihave HJ := (any_join_list (F := F) c allSlots allSlots_nodup (Finset.univ \ Finset.univ.biUnion slotS) (fun y _ =>
    Finset.disjoint_of_subset_right (Finset.subset_biUnion_of_mem slotS (Finset.mem_univ y)) Finset.sdiff_disjoint)) $$ [H0 H1 Hr]
  · isplitl [Hr]; · iexists fr0; iexact Hr
    unfold allSlots
    iapply (Entails.of_eq (chain_append _ _ _).symm)
    isplitl [H0]
    · iapply (Entails.of_eq (chain_map _ _ _).symm); iexact H0
    iapply (Entails.of_eq (chain_map _ _ _).symm); iexact H1
  rw [allSlots_univ, Finset.sdiff_union_of_subset (Finset.subset_univ _)] at *
  iexact HJ

/-! ## The body -/

def bodyPre : sProp 𝕄 :=
  iprop((ghost m K c ∗ creds c ∗ levAts L lv ∗ scr c cc0_scratch0 ∗ scr c cc0_scratch1 ∗ scr c cc0_scratch2)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost : sProp 𝕄 :=
  iprop(Φ₁ c ∗ (dats m ρ 0 c).owesAt () t0_0.succ ∗ stg c cc0_stg0_0 (xA m c) ∗ stg c cc0_stg1_0 (xB m c) ∗ stg c cc0_stg2_0 (OutV m))

theorem hz2 : (![0, 0] : Fin 2 → Nat) = fun _ => 0 := funext fun a => by fin_cases a <;> rfl
theorem read_a (f : (cc0_stg0_0 : Ref sig .tc).ty.Contents (Elt F)) :
    (aM : Memref sig .tc .vmem S512x256 .f32).view.readAt (Elt F) (Rect.unit (s := S512x256) ![0, 0] S512x256.size inb_S512x256_S512x256_0_0).toLoadRect f = f :=
  Memref.readAt_unit_zero (Elt F) cc0_stg0_0 hz2 _ f
theorem read_b (f : (cc0_stg1_0 : Ref sig .tc).ty.Contents (Elt F)) :
    (bM : Memref sig .tc .vmem S256x512 .f32).view.readAt (Elt F) (Rect.unit (s := S256x512) ![0, 0] S256x512.size inb_S256x512_S256x512_0_0).toLoadRect f = f :=
  Memref.readAt_unit_zero (Elt F) cc0_stg1_0 hz2 _ f
theorem write_p (f w : (cc0_scratch0 : Ref sig .tc).ty.Contents (Elt F)) :
    ((pM : Memref sig .tc .vmem S512x512 .bf16).access (Rect.unit (s := S512x512) ![0, 0] S512x512.size inb_S512x512_S512x512_0_0) : View sig .tc _ _ _).write (Elt F) f w Finset.univ = w :=
  Memref.write_access_unit_zero_univ (Elt F) cc0_scratch0 hz2 _ f w

set_option maxHeartbeats 1600000 in
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body (F := F) aM (Memref.isWhole_whole _) bM (Memref.isWhole_whole _) oM (Memref.isWhole_whole _) pM (Memref.isWhole_whole _)
            rM (Memref.isWhole_whole _) kM (Memref.isWhole_whole _) cc0_scratch3 cc0_scratch4 cc0_scratch5 cc0_scratch6) Kt := by
  rw [body_eq]
  unfold bodyP
  simp only [wp_deviceId]
  unfold bodyPre ghost
  iintro ⟨⟨⟨⟨#HR, Hpos, Htoks⟩, Hcr, #Hlev, ⟨%fp, HpM⟩, ⟨%fr0, HrM⟩, ⟨%fk, HkM⟩⟩, Ho, ⟨%d0, %g0, %hg0, Ha⟩, ⟨%d1, %g1, %hg1, Hb⟩, ⟨%d2, %g2, %hg2, Hout⟩⟩, Hk⟩
  ihave Hpos' := (Entails.of_eq (ownPos_eq c)) $$ Hpos
  icases Hpos' with ⟨HatB, ⟨Hp00, Hp01⟩, ⟨Hp10, Hp11⟩, ⟨Hp20, Hp21⟩, ⟨Hp30, Hp31⟩⟩
  ihave Ht' := (Entails.of_eq (payToks_eq c)) $$ Htoks
  icases Ht' with ⟨HtB, ⟨Ht10, Ht11⟩, ⟨Ht30, Ht31⟩, ⟨Ht00, Ht01⟩, ⟨Ht20, Ht21⟩⟩
  ihave Hc' := (Entails.of_eq (creds_eq c)) $$ Hcr
  icases Hc' with ⟨⟨⟨⟨HcB, Hc10⟩, Hc11⟩, Hc30⟩, Hc31⟩
  unfold Dat.owesAt Pipeline.owesWithin
  icases Ho with ⟨%W, %hW, HO⟩
  rw [show (dats m ρ 0 c).owed t0_0.castSucc = owed ((rs15.map Site.sig ++ sitesRS).map (sitePay c)) from by rw [← sites_eq]; rfl]
  -- the receive buffer as its slots, the result's staging buffer as its blocks
  ihave HrS := (Entails.of_eq (slots_split c fr0)) $$ HrM
  icases HrS with ⟨⟨Hs0, Hs1⟩, HrRest⟩
  ihave HoB := (Entails.of_eq ((out_blocks c g2).trans (blocks_split c (fun d h => (((c : Thread nD τ).loc cc0_stg2_0) ↦[blk d h]{fullShare} g2))))) $$ Hout
  icases HoB with ⟨⟨Ho0, Ho1⟩, HoOth⟩
  ihave Hsp := (sig_pay_intro c fr0 g2) $$ [Hs0 Hs1 HoOth]
  · isplitl [Hs0]; · iexact Hs0
    isplitl [Hs1]; · iexact Hs1
    iexact HoOth
  -- the fifteen signals
  iapply (sigs_wp m K c rs15 sitesRS W _ Kt)
  isplitr; · iexact HR
  isplitl [HO]; · iexact HO
  isplitl [HtB Hsp]
  · iapply (Entails.of_eq (chain_sep rs15 _ _).symm)
    isplitl [HtB]; · iexact HtB
    iexact Hsp
  iintro HO
  -- the local product: loads, the dead load, the store of the partial product
  have hx : g0 = xA m c := by rw [hg0]; unfold Dat.before; rw [if_pos (fetch0_0 t0_0)]; rfl
  have hy : g1 = xB m c := by rw [hg1]; unfold Dat.before; rw [if_pos (fetch0_1 t0_0)]; rfl
  subst hx; subst hy
  iapply (wp_load 𝒱₀ (c : Thread nD τ) none Set.univ (m := aM) (Finset.subset_univ _)) $$ Ha; iintro Ha
  rw [read_a]
  iapply (wp_load 𝒱₀ (c : Thread nD τ) none Set.univ (m := bM) (Finset.subset_univ _)) $$ Hb; iintro Hb
  rw [read_b]
  iapply (wp_load 𝒱₀ (c : Thread nD τ) none Set.univ (m := pM) (Finset.subset_univ _)) $$ HpM; iintro HpM
  iapply (wp_store 𝒱₀ (c : Thread nD τ) none Set.univ (m := pM) (r := Rect.unit (s := S512x512) ![0, 0] S512x512.size inb_S512x512_S512x512_0_0) (Mk := Finset.univ) (Finset.subset_univ _)) $$ HpM; iintro HpM
  rw [write_p]
  -- the barrier wait
  ihave HcB' := (cred_units (barCell c) rs15) $$ HcB
  iapply (bar_wait_step m K c (owed (sitesRS.map (sitePay c))) W) $$ [HcB' HO HatB]
  · isplitr; · iexact HR
    isplitl [HcB']; · iexact HcB'
    isplitl [HO]; · iexact HO
    isplitr; · iapply (mayWait_sites c (.reg barS) 1 (lv_bar c) sitesRS (by decide)); iexact Hlev
    iexact HatB
  iintro ⟨HO, Hbp⟩
  ihave Hbp' := (Entails.of_eq (barPay_sorted c)) $$ Hbp
  icases Hbp' with ⟨Hsl0, Hsl1, Hor0, Hor1⟩
  -- the partial product as its blocks
  ihave HpB := (Entails.of_eq ((part_blocks c (k0_pay1 (xA m c) (xB m c))).trans
    (blocks_split c (fun d h => (((c : Thread nD τ).loc cc0_scratch0) ↦[blk d h]{fullShare} (k0_pay1 (xA m c) (xB m c)))))) ) $$ HpM
  icases HpB with ⟨⟨Hpo0, Hpo1⟩, HpOth⟩
  ihave HpOth' := (Entails.of_eq (join2 _ _).symm) $$ HpOth
  icases HpOth' with ⟨Hsrc0, Hsrc1⟩
  ihave Hsrc0 := (Entails.of_eq (srcL_eq m c 0).symm) $$ Hsrc0
  ihave Hsrc1 := (Entails.of_eq (srcL_eq m c 1).symm) $$ Hsrc1
  -- the thirty reduce-scatter copies
  ihave HO := (Entails.of_eq (congrArg (fun l => owes (c : Thread nD τ) (owed (List.map (sitePay c) l)) (insert (SemLoc.reg barS, ()) W)) sitesRS_eq0)) $$ HO
  iapply (rsSends_wp m K c 0 rs15 (rs15.map (Site.rs 1) ++ sitesAG) (insert (SemLoc.reg barS, ()) W) _ Kt)
  isplitr; · iexact HR
  isplitl [HO]; · iexact HO
  isplitl [Hsrc0 Hsl0 Ht00 Ht10]
  · iapply (Entails.of_eq (join4 _ _ _ _))
    isplitl [Hsrc0]; · iexact Hsrc0
    isplitl [Hsl0]; · iexact Hsl0
    isplitl [Ht00]; · iexact Ht00
    iexact Ht10
  iintro ⟨Hcs00, HO⟩
  iapply (rsSends_wp m K c 1 rs15 sitesAG (insert (SemLoc.reg barS, ()) W) _ Kt)
  isplitr; · iexact HR
  isplitl [HO]; · iexact HO
  isplitl [Hsrc1 Hsl1 Ht01 Ht11]
  · iapply (Entails.of_eq (join4 _ _ _ _))
    isplitl [Hsrc1]; · iexact Hsrc1
    isplitl [Hsl1]; · iexact Hsl1
    isplitl [Ht01]; · iexact Ht01
    iexact Ht11
  iintro ⟨Hcs01, HO⟩
  -- the broadcast buffer as its two halves and the rest
  ihave Hk2 := (pointsTo_split_subset (Ix := Unit) (Name := ℕ) (U := UU) (Lvl := ℕ) (Finset.subset_univ (bcS 0 ∪ bcS 1))).1 $$ HkM
  icases Hk2 with ⟨HkU, HkRest⟩
  ihave Hk3 := (pointsTo_union (Ix := Unit) (Name := ℕ) (U := UU) (Lvl := ℕ) bc_disjoint).1 $$ HkU
  icases Hk3 with ⟨Hk0, Hk1⟩
  -- half 0
  iapply (half_wp m K c 0 sitesAG1 (by decide) (insert (SemLoc.reg barS, ()) W) fk g2 _ Kt)
  isplitr; · iexact HR
  isplitr; · iexact Hlev
  isplitl [HO]; · iexact HO
  isplitl [Hpo0]; · iexact Hpo0
  isplitl [Hc10]; · iexact Hc10
  isplitl [Hp10]; · iexact Hp10
  isplitl [Hk0]; · iexact Hk0
  isplitl [Ho0]; · iexact Ho0
  isplitl [Hor0]; · iexact Hor0
  isplitl [Ht20]; · iexact Ht20
  isplitl [Ht30]; · iexact Ht30
  iintro ⟨⟨%W2, HO⟩, Hpo0, Hp10, Hland0, Hk0r, Ho0, Hcs20⟩
  -- half 1
  ihave HO := (Entails.of_eq (congrArg (fun l => owes (c : Thread nD τ) (owed (List.map (sitePay c) l)) W2) sitesAG1_eq)) $$ HO
  iapply (half_wp m K c 1 [] (by decide) W2 fk g2 _ Kt)
  isplitr; · iexact HR
  isplitr; · iexact Hlev
  isplitl [HO]; · iexact HO
  isplitl [Hpo1]; · iexact Hpo1
  isplitl [Hc11]; · iexact Hc11
  isplitl [Hp11]; · iexact Hp11
  isplitl [Hk1]; · iexact Hk1
  isplitl [Ho1]; · iexact Ho1
  isplitl [Hor1]; · iexact Hor1
  isplitl [Ht21]; · iexact Ht21
  isplitl [Ht31]; · iexact Ht31
  iintro ⟨⟨%W3, HO⟩, Hpo1, Hp11, Hland1, Hk1r, Ho1, Hcs21⟩
  ihave HO := (show owes (c : Thread nD τ) (owed (List.map (sitePay c) [])) W3 ⊢ (iprop(∃ W, owes (c : Thread nD τ) 0 W) : sProp 𝕄) from by iintro H; iexists W3; iexact H) $$ HO
  -- the waits for the all-gather copies addressed to the device
  iapply (agWaits_wp m K c 0 rs15 0 (fun r => mw0 c _) _ Kt)
  isplitr; · iexact HR
  isplitr; · iexact Hlev
  isplitl [HO]; · iexact HO
  isplitl [Hc30 Hp30]
  · iapply (Entails.of_eq (join2 _ _))
    isplitl [Hc30]; · iexact Hc30
    iexact Hp30
  iintro ⟨HO, Hps30⟩
  iapply (agWaits_wp m K c 1 rs15 0 (fun r => mw0 c _) _ Kt)
  isplitr; · iexact HR
  isplitr; · iexact Hlev
  isplitl [HO]; · iexact HO
  isplitl [Hc31 Hp31]
  · iapply (Entails.of_eq (join2 _ _))
    isplitl [Hc31]; · iexact Hc31
    iexact Hp31
  iintro ⟨HO, Hps31⟩
  -- the waits for the device's own copies to have left
  iapply (rsSendWaits_wp m K c 0 rs15 0 (fun r => mw0 c _) _ Kt)
  isplitr; · iexact HR
  isplitr; · iexact Hlev
  isplitl [HO]; · iexact HO
  isplitl [Hcs00 Hp00]
  · iapply (Entails.of_eq (join2 _ _))
    isplitl [Hcs00]; · iexact Hcs00
    iexact Hp00
  iintro ⟨HO, Hps00⟩
  iapply (rsSendWaits_wp m K c 1 rs15 0 (fun r => mw0 c _) _ Kt)
  isplitr; · iexact HR
  isplitr; · iexact Hlev
  isplitl [HO]; · iexact HO
  isplitl [Hcs01 Hp01]
  · iapply (Entails.of_eq (join2 _ _))
    isplitl [Hcs01]; · iexact Hcs01
    iexact Hp01
  iintro ⟨HO, Hps01⟩
  iapply (agSendWaits_wp m K c 0 rs15 0 (fun r => mw0 c _) _ Kt)
  isplitr; · iexact HR
  isplitr; · iexact Hlev
  isplitl [HO]; · iexact HO
  isplitl [Hcs20 Hp20]
  · iapply (Entails.of_eq (join2 _ _))
    isplitl [Hcs20]; · iexact Hcs20
    iexact Hp20
  iintro ⟨HO, Hps20⟩
  iapply (agSendWaits_wp m K c 1 rs15 0 (fun r => mw0 c _) _ Kt)
  isplitr; · iexact HR
  isplitr; · iexact Hlev
  isplitl [HO]; · iexact HO
  isplitl [Hcs21 Hp21]
  · iapply (Entails.of_eq (join2 _ _))
    isplitl [Hcs21]; · iexact Hcs21
    iexact Hp21
  iintro ⟨HO, Hps21⟩
  -- the positions at round 1 and what the waits handed back
  ihave H := (Entails.of_eq (join2 _ _).symm) $$ Hps00; icases H with ⟨Hp00, Hsr0⟩
  ihave H := (Entails.of_eq (join2 _ _).symm) $$ Hps01; icases H with ⟨Hp01, Hsr1⟩
  ihave H := (Entails.of_eq (join2 _ _).symm) $$ Hps20; icases H with ⟨Hp20, Hbs0⟩
  ihave H := (Entails.of_eq (join2 _ _).symm) $$ Hps21; icases H with ⟨Hp21, Hbs1⟩
  ihave H := (Entails.of_eq (join2 _ _).symm) $$ Hps30; icases H with ⟨Hp30, Hal0⟩
  ihave H := (Entails.of_eq (join2 _ _).symm) $$ Hps31; icases H with ⟨Hp31, Hal1⟩
  -- the 120 own cells close
  imod (close_all m K c) $$ [Hp00 Hp01 Hp10 Hp11 Hp20 Hp21 Hp30 Hp31] with Hz
  · isplitr; · iexact HR
    iapply (Entails.of_eq (pos1_eq c).symm)
    isplitl [Hp00 Hp01]
    · isplitl [Hp00]; · iexact Hp00
      iexact Hp01
    isplitl [Hp10 Hp11]
    · isplitl [Hp10]; · iexact Hp10
      iexact Hp11
    isplitl [Hp20 Hp21]
    · isplitl [Hp20]; · iexact Hp20
      iexact Hp21
    isplitl [Hp30]; · iexact Hp30
    iexact Hp31
  -- the buffers whole again
  ihave Hscr0 := (part_rejoin m c) $$ [Hpo0 Hpo1 Hsr0 Hsr1]
  · isplitl [Hpo0]; · iexact Hpo0
    isplitl [Hpo1]; · iexact Hpo1
    isplitl [Hsr0]; · iexact Hsr0
    iexact Hsr1
  ihave Hscr1 := (recv_rejoin m c fr0) $$ [Hland0 Hland1 HrRest]
  · isplitl [Hland0]; · iexact Hland0
    isplitl [Hland1]; · iexact Hland1
    iexact HrRest
  ihave Hk0 := (bc_half_rejoin m c 0) $$ [Hk0r Hbs0]
  · isplitl [Hk0r]; · iexact Hk0r
    iexact Hbs0
  ihave Hk1 := (bc_half_rejoin m c 1) $$ [Hk1r Hbs1]
  · isplitl [Hk1r]; · iexact Hk1r
    iexact Hbs1
  ihave Hscr2 := (bc_rejoin m c fk) $$ [Hk0 Hk1 HkRest]
  · isplitl [Hk0]; · iexact Hk0
    isplitl [Hk1]; · iexact Hk1
    iexact HkRest
  ihave Hout := (out_rejoin m c) $$ [Ho0 Ho1 Hal0 Hal1]
  · isplitl [Ho0]; · iexact Ho0
    isplitl [Ho1]; · iexact Ho1
    isplitl [Hal0]; · iexact Hal0
    iexact Hal1
  rw [wp_ret]; imodintro
  iapply Hk
  unfold bodyPost Φ₁ Dat.owesAt Pipeline.owesWithin
  rw [show (dats m ρ 0 c).owed t0_0.succ = 0 from rfl]
  isplitl [Hscr0 Hscr1 Hscr2 Hz]
  · isplitl [Hscr0]; · iexact Hscr0
    isplitl [Hscr1]; · iexact Hscr1
    isplitl [Hscr2]; · iexact Hscr2
    iexact Hz
  isplitl [HO]
  · icases HO with ⟨%W4, HO⟩
    iexists W4
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

set_option maxRecDepth 200000 in
def bodyPre' : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 200000 in
/-- The library's body obligation on device `c`. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (F := F) aM (Memref.isWhole_whole _) bM (Memref.isWhole_whole _) oM (Memref.isWhole_whole _) pM (Memref.isWhole_whole _)
      rM (Memref.isWhole_whole _) kM (Memref.isWhole_whole _) cc0_scratch3 cc0_scratch4 cc0_scratch5 cc0_scratch6) (fun _ => bodyPost m ρ c)
  unfold bodyPre' Φ₀ start
  iintro ⟨⟨⟨⟨%K, Hg⟩, Hcr, Hlev⟩, Hs0, Hs1, Hs2⟩, Ho, Hx, Hy, Hout⟩
  iapply (sound_body m ρ K c fun _ => bodyPost m ρ c)
  unfold bodyPre
  isplitr []
  · isplitl [Hg Hcr Hlev Hs0 Hs1 Hs2]
    · isplitl [Hg]; · iexact Hg
      isplitl [Hcr]; · iexact Hcr
      isplitl [Hlev]; · iexact Hlev
      isplitl [Hs0]; · iexact Hs0
      isplitl [Hs1]; · iexact Hs1
      iexact Hs2
    isplitl [Ho]; · iexact Ho
    isplitl [Hx]; · iexact Hx
    isplitl [Hy]; · iexact Hy
    iexact Hout
  · iintro H; iexact H

end Cert.Kernel.Phase

end
-- ==== Proof.RunB.lean ====
/-
  The kernel's run on the sixteen devices: every weakly fair execution terminates without a fault, every
  device's result array ends at `OutV` of the launch memory and its two argument arrays end unchanged.
-/
import proofs.«900453_g7700000000000454_dist_matmul_relu_kshard_i_m512_n512_k256_v7x_i16_bf16_1_alg».proof.Proof.PhaseB

set_option maxRecDepth 16384

noncomputable section

namespace Cert.Kernel.RunB

open Cert.Kernel Cert.Kernel.Gen Cert.Kernel.Spec Cert.Kernel.Proto Cert.Kernel.Ghost
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The duty tokens of device `c`'s own cells. -/
def toks (c : Dev nD) : sProp 𝕄 := bigSep Finset.univ fun j : TI => dutyTok ER (tokOf (c, j)).1 (tokOf (c, j)).2.1 (tokOf (c, j)).2.2

/-- What the launch element deals device `c` (the theorem's `G`). -/
def G (c : Dev nD) : sProp 𝕄 :=
  iprop((bigSep Finset.univ fun i : CI => roundState ER (Rd m) (ccell c i) 0)
    ∗ (bigSep Finset.univ fun i : CI => iprop(atPos ER (ccell c i) 0 ∅ 0 ∗ reached ER (ccell c i) 0)) ∗ toks c)

/-- What the global step makes of it (`G'`). -/
def G' (c : Dev nD) : sProp 𝕄 := iprop(∃ K, ghost m K c)

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (ccell c i) 0 : sProp 𝕄) := by
  rw [unscopedSems0_eq, Cert.LibDeal.bigSep_univ_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (ccell c i)))
          ∗ (bigSep Finset.univ fun i : CI => iprop(atPos ER (ccell c i) 0 ∅ 0 ∗ reached ER (ccell c i) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (ccell c i) 0) ∗ bigSep Finset.univ fun i : CI => roundState ER (Rd m) (ccell c i) 0)
      ⊢ (|={Set.univ}=> bigSep Finset.univ fun i : CI => iprop(∃ κ : ℕ, cellInv ER (Rd m) κ (ccell c i)) : sProp 𝕄) from by
        rw [← bigSep_sep']
        exact (bigSep_mono fun i _ => (Rounds.body_intro ER (Rd m) (ccell c i)).trans inv_alloc).trans (bigSep_fupd _ _)) $$ [Hv Hst] with Hinv
  · isplitl [Hv] <;> iassumption
  imodintro
  isplitl [Hinv]; · iexact Hinv
  isplitl [Hat]; · iexact Hat
  iexact Htok

theorem inv_at (K : Dev nD × CI → ℕ) (ck : Dev nD × CI) :
    (bigSep Finset.univ fun ck : Dev nD × CI => (cellInv ER (Rd m) (K ck) (kcell ck) : sProp 𝕄)) ⊢ cellInv ER (Rd m) (K ck) (kcell ck) :=
  bigSep_elim (Finset.mem_univ ck)
theorem reached_at (ck : Dev nD × CI) :
    (bigSep Finset.univ fun ck : Dev nD × CI => (reached ER (kcell ck) 0 : sProp 𝕄)) ⊢ reached ER (kcell ck) 0 :=
  bigSep_elim (Finset.mem_univ ck)

/-- The device `r + 1` places on, as a bijection of the devices. -/
def tgtE (r : Fin 15) : Dev nD ≃ Dev nD := ⟨fun c => tgt c r, fun c => fr c r, fun c => fr_tgt c r, fun c => tgt_fr c r⟩

theorem bigSep_x (Φ : XI → sProp 𝕄) :
    bigSep Finset.univ Φ = iprop((bigSep Finset.univ fun y : YI => Φ (0, y)) ∗ (bigSep Finset.univ fun y : YI => Φ (1, y))
      ∗ (bigSep Finset.univ fun y : YI => Φ (2, y)) ∗ (bigSep Finset.univ fun y : YI => Φ (3, y))) := by
  rw [bigSep_univ_prod, bigSep_univ_eq_bigSepL [(0 : Fin 4), 1, 2, 3] (by decide) (by decide)]
  rfl

/-- A device's own tokens, by kind. -/
theorem toks_eq (c : Dev nD) : (toks c : sProp 𝕄)
    = iprop((bigSep Finset.univ fun r : Fin 15 => dutyTok ER (barCell c) 0 (dty r))
      ∗ (bigSep Finset.univ fun y : YI => dutyTok ER (xCell c 0 y.1 y.2) 0 0)
      ∗ (bigSep Finset.univ fun y : YI => dutyTok ER (xCell c 1 y.1 y.2) 0 0)
      ∗ (bigSep Finset.univ fun y : YI => dutyTok ER (xCell c 2 y.1 y.2) 0 0)
      ∗ (bigSep Finset.univ fun y : YI => dutyTok ER (xCell c 3 y.1 y.2) 0 0)) := by
  unfold toks
  rw [Cert.LibDeal.bigSep_univ_sum, bigSep_x]

/-- The tokens dealt round the mesh: each duty's token to the device that pays it. -/
theorem toks_around : (bigSep Finset.univ fun c : Dev nD => (toks c : sProp 𝕄)) ⊢ bigSep Finset.univ fun c : Dev nD => payToks c := by
  unfold payToks
  rw [bigSep_congr (fun c _ => toks_eq (F := F) c)]
  rw [bigSep_sep', bigSep_sep', bigSep_sep', bigSep_sep', bigSep_sep', bigSep_sep', bigSep_sep', bigSep_sep',
    Cert.LibDeal.bigSep_redeal (fun r : Fin 15 => (tgtE r).symm) (fun (c : Dev nD) (r : Fin 15) => (dutyTok ER (barCell c) 0 (dty r) : sProp 𝕄)),
    Cert.LibDeal.bigSep_redeal (fun y : YI => tgtE y.2) (fun (c : Dev nD) (y : YI) => (dutyTok ER (xCell c 1 y.1 y.2) 0 0 : sProp 𝕄)),
    Cert.LibDeal.bigSep_redeal (fun y : YI => tgtE y.2) (fun (c : Dev nD) (y : YI) => (dutyTok ER (xCell c 3 y.1 y.2) 0 0 : sProp 𝕄))]
  iintro ⟨Hb, H0, H1, H2, H3⟩
  isplitl [Hb]; · iexact Hb
  isplitl [H1]; · iexact H1
  isplitl [H3]; · iexact H3
  isplitl [H0]; · iexact H0
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m) κ (ccell c i)))
          ∗ (bigSep Finset.univ fun i : CI => iprop(atPos ER (ccell c i) 0 ∅ 0 ∗ reached ER (ccell c i) 0)) ∗ toks c) : sProp 𝕄)
      ⊢ bigSep Finset.univ (G' (F := F) m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun i : CI => (atPos ER (ccell c i) 0 ∅ 0 : sProp 𝕄)) (fun i => reached ER (ccell c i) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (bigSep_with_persistent (R := records m K) fun c _ => show iprop(records m K ∗ (ownPos c ∗ payToks c)) ⊢ G' m c from by
    unfold G' ghost
    iintro ⟨#HR, Hp, Ht⟩
    iexists K
    isplitr; · iexact HR
    isplitl [Hp]; · iexact Hp
    iexact Ht)
  isplitr
  · unfold records; isplitl; · iexact HI
    iexact HR
  · iapply (Entails.of_eq (bigSep_sep' Finset.univ (fun c : Dev nD => (ownPos c : sProp 𝕄)) payToks).symm)
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Site by site, what the others owe a cell of device `c` is the credit token of that site. -/
theorem creds_intro (c : Dev nD) : (Pipeline.launchCred O₀ c : sProp 𝕄) ⊢ creds c := by
  unfold O₀ creds
  rw [Cert.LibOwesQueue.launchCred_owed_map]
  refine Cert.LibDeal.bigSepL_mono sites fun a _ => ?_
  cases a with
  | sig r => exact Pipeline.launchCred_tallyAt (.reg barS) (fun d => tgt d r) (fun d => fr d r) (fun d => tgt_fr d r) (fun d => fr_tgt d r) () 1 c
  | rs h r => exact Pipeline.launchCred_tallyAt (.dma (semAt (arr 1) h r)) (fun d => tgt d r) (fun d => fr d r) (fun d => tgt_fr d r) (fun d => fr_tgt d r) () Nrs c
  | ag h r => exact Pipeline.launchCred_tallyAt (.dma (semAt (arr 3) h r)) (fun d => tgt d r) (fun d => fr d r) (fun d => tgt_fr d r) (fun d => fr_tgt d r) () Nag c

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁
  iintro ⟨H0, H1, H2, Hz⟩
  isplitr; · iempintro
  isplitl [Hz]; · iexact Hz
  isplitl [H0]; · iexact H0
  isplitl [H1]; · iexact H1
  iexact H2

theorem lv_congr (c c' : Dev nD) (sm : SemLoc sig) : lv ((c : Thread nD τ), sm) () = lv ((c' : Thread nD τ), sm) () := rfl

/-- The pipeline's own waits (on the staging cells, at level 0) are allowed at both points. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> (rw [lv_congr c 0]; decide)) sites
    · show (levAts L lv : sProp 𝕄) ⊢ MayWait (c : Thread nD τ) _ () 0
      rw [MayWait_zero]; iintro -; iempintro

/-! ### The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- At the compiled mesh of sixteen devices, for any float values, from any memory with zero counters: every weakly
    fair execution of @main terminates, and every final state has each window's array at its final contents. -/
theorem run_cells : θ_run defs (onTc (τ := τ) (main (F := F))) (Ghost.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := Cert.Kernel.Phase.body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The arrays after the run -/

theorem finalA_0 (c : Dev nD) : finalA m ρ c (0 : Fin 3) = m ((c : Thread nD τ).loc main_arg0) :=
  (dats (F := F) m ρ 0 c).arrAt_in (0 : Fin 3) rfl _
theorem finalA_1 (c : Dev nD) : finalA m ρ c (1 : Fin 3) = m ((c : Thread nD τ).loc main_arg1) :=
  (dats (F := F) m ρ 0 c).arrAt_in (1 : Fin 3) rfl _

/-- The result's one block is the whole array: what the write-back writes is `OutV`, and it covers every index. -/
theorem finalA_2 (c : Dev nD) : finalA m ρ c (2 : Fin 3) = OutV m := by
  refine (dats (F := F) m ρ 0 c).arrAt_eq_of_cover (2 : Fin 3) (OutV m) (fun t _ => ?_) (fun i => ⟨t0_0, flush0_2 t0_0, ?_⟩)
  · funext j
    show OutV m j = OutV m (((cfg0.win 2).blk t).view.emb j)
    refine congrArg _ (funext fun a => Fin.ext ?_)
    rw [fin_N0 t]
    match a with
    | ⟨0, _⟩ => show (j 0).val = 0 * 512 + 1 * (j 0).val; omega
    | ⟨1, _⟩ => show (j 1).val = 0 * 512 + 1 * (j 1).val; omega
  · show i ∈ ((View.whole main_v1).slice (win0_2.rect t0_0)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

theorem run_main :
    θ_run defs (onTc (τ := τ) (main (F := F))) ⟨m, fun _ => 0, ρ⟩ (fun r => ∀ c : Dev nD,
      r.2.mem ((c.tc : Thread nD τ).loc main_v1) = OutV m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c (2 : Fin 3)).trans (finalA_2 m ρ c), (h c (0 : Fin 3)).trans (finalA_0 m ρ c), (h c (1 : Fin 3)).trans (finalA_1 m ρ c)⟩)
    (run_cells m ρ)

end Cert.Kernel.RunB

end
-- ==== Proof.lean ====
/-
  The five claims. The reference, on one device over the whole arrays, computes the 512 x 4096 by
  4096 x 512 product clamped below at zero. The kernel, on sixteen devices each holding a run of 256
  contraction indices, forms its partial product, sends rows 32 p .. 32 p + 31 of it to device p, which
  adds the sixteen contributions, clamps them and sends the finished rows to everybody; every device ends
  with the whole result. Over the extended reals the sixteen partial sums add up to the whole inner
  product (commutativity and associativity of addition only), so the two results are equal. The idealized
  kernel is the printed kernel read over the extended reals, no operation rewritten.
-/
import proofs.«900453_g7700000000000454_dist_matmul_relu_kshard_i_m512_n512_k256_v7x_i16_bf16_1_alg».proof.Defs
import proofs.«900453_g7700000000000454_dist_matmul_relu_kshard_i_m512_n512_k256_v7x_i16_bf16_1_alg».proof.Proof.Gen.Kernel
import proofs.«900453_g7700000000000454_dist_matmul_relu_kshard_i_m512_n512_k256_v7x_i16_bf16_1_alg».proof.Proof.Gen.KernelIdeal
import proofs.«900453_g7700000000000454_dist_matmul_relu_kshard_i_m512_n512_k256_v7x_i16_bf16_1_alg».proof.Proof.Gen.ReferenceIdeal
import proofs.«900453_g7700000000000454_dist_matmul_relu_kshard_i_m512_n512_k256_v7x_i16_bf16_1_alg».proof.Proof.Gen.Pre_finite_inputs_Kernel
import proofs.«900453_g7700000000000454_dist_matmul_relu_kshard_i_m512_n512_k256_v7x_i16_bf16_1_alg».proof.Proof.Gen.Pre_finite_inputs_ReferenceIdeal
import proofs.«900453_g7700000000000454_dist_matmul_relu_kshard_i_m512_n512_k256_v7x_i16_bf16_1_alg».proof.Proof.RefSide
import proofs.«900453_g7700000000000454_dist_matmul_relu_kshard_i_m512_n512_k256_v7x_i16_bf16_1_alg».proof.Proof.ValueI
import proofs.«900453_g7700000000000454_dist_matmul_relu_kshard_i_m512_n512_k256_v7x_i16_bf16_1_alg».proof.Proof.RunI
import proofs.«900453_g7700000000000454_dist_matmul_relu_kshard_i_m512_n512_k256_v7x_i16_bf16_1_alg».proof.Proof.RunB
import Idealize.ShloMosaic.Adequacy
import Idealize.ShloMosaic.Init

noncomputable section

namespace Cert.Proof

open Idealize.ShloMosaic Idealize.SL.Sem

/-- Both idealized programs run, and the kernel's result on every device is the reference's. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) := by
  intro m ρ m' ρ' _ hagree
  refine ⟨Cert.RefSide.G
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h c).1.trans ?_, (h c).2⟩)
      (Cert.KernelIdeal.RunI.run_main (F := Ideal) m ρ)
    exact Cert.KernelIdeal.ValueI.OutV_eq m _ _ (fun c => (hagree c).1) (fun c => (hagree c).2)
  · refine (θ_run Cert.ReferenceIdeal.defs _ _).mono (fun _ h => ⟨?_, (h 0).2⟩)
      (Cert.ReferenceIdeal.Value.run (F := Ideal) m' ρ')
    rw [(h 0).1, Cert.ReferenceIdeal.Read.val_main_v3_eq, Cert.RefSide.ref_eq]

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m ρ _ => (θ_run Cert.Kernel.defs _ _).mono (fun _ h c => (h c).2) (Cert.Kernel.RunB.run_main (F := Bits) m ρ),
  fun m ρ _ => (θ_run Cert.KernelIdeal.defs _ _).mono (fun _ h c => (h c).2) (Cert.KernelIdeal.RunI.run_main (F := Ideal) m ρ),
  Cert.RefSide.frame_ri,
  trivial,
  algebraic⟩

end Cert.Proof

end
